-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  IdealRules.sign_bit.Statement Cert.KernelIdeal.S2048x1024 .f32
  ∧ IdealRules.sign_bit.Statement Cert.KernelIdeal.S2048x1024 .f32
  ∧ IdealRules.sign_bit.Statement Cert.KernelIdeal.S2048x1024 .f32

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v56)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v143) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x784 : Shape := ⟨2, ![32768, 784]⟩
abbrev S1024x784 : Shape := ⟨2, ![1024, 784]⟩
abbrev S1024 : Shape := ⟨1, ![1024]⟩
abbrev S1024x1024 : Shape := ⟨2, ![1024, 1024]⟩
abbrev S10x1024 : Shape := ⟨2, ![10, 1024]⟩
abbrev S10 : Shape := ⟨1, ![10]⟩
abbrev S_ : Shape := ⟨0, ![]⟩

class Facts : Prop where
  bcast_S_S32768x784 : S_.BroadcastsInDim S32768x784 (![] : Fin 0 → Fin S32768x784.rank)
  reducesTo_S32768x784_S_d0_1 : S32768x784.ReducesTo [0, 1] S_
  h_S_ : 0 < S_.numel
  bcast_S_S1024x784 : S_.BroadcastsInDim S1024x784 (![] : Fin 0 → Fin S1024x784.rank)
  reducesTo_S1024x784_S_d0_1 : S1024x784.ReducesTo [0, 1] S_
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_
  bcast_S_S10x1024 : S_.BroadcastsInDim S10x1024 (![] : Fin 0 → Fin S10x1024.rank)
  reducesTo_S10x1024_S_d0_1 : S10x1024.ReducesTo [0, 1] S_
  bcast_S_S10 : S_.BroadcastsInDim S10 (![] : Fin 0 → Fin S10.rank)
  reducesTo_S10_S_d0 : S10.ReducesTo [0] S_

variable [Facts]

def fn_part4 {F : FTy → Type} [FloatOps F] (main_arg14 : FVec F S10 .f32) (main_arg15 : FVec F S10 .f32) (main_arg16 : FVec F S10 .f32) (main_v63 : IVec S_ 1) (main_v67 : IVec S_ 1) : IVec S_ 1 :=
  let main_v68 : IVec S_ 1 := andi main_v63 main_v67
  let main_v69 : FVec F S10 .f32 := Host.absf main_arg14
  let main_cst_26 : FVec F S_ .f32 := constant S_ .f32 0x7F800000#32
  let main_v70 : FVec F S10 .f32 := broadcastInDim S10 ![] bcast_S_S10 main_cst_26
  let main_v71 : IVec S10 1 := cmpf .olt main_v69 main_v70
  let main_c_27 : IVec S_ 1 := constantI S_ 1 1#1
  let main_v72 : IVec S_ 1 := (fun x v => Host.reduce IntOp.andi x v reducesTo_S10_S_d0 h_S_) main_v71 main_c_27
  let main_v73 : IVec S_ 1 := andi main_v68 main_v72
  let main_v74 : FVec F S10 .f32 := Host.absf main_arg15
  let main_cst_28 : FVec F S_ .f32 := constant S_ .f32 0x7F800000#32
  let main_v75 : FVec F S10 .f32 := broadcastInDim S10 ![] bcast_S_S10 main_cst_28
  let main_v76 : IVec S10 1 := cmpf .olt main_v74 main_v75
  let main_c_29 : IVec S_ 1 := constantI S_ 1 1#1
  let main_v77 : IVec S_ 1 := (fun x v => Host.reduce IntOp.andi x v reducesTo_S10_S_d0 h_S_) main_v76 main_c_29
  let main_v78 : IVec S_ 1 := andi main_v73 main_v77
  let main_v79 : FVec F S10 .f32 := Host.absf main_arg16
  let main_cst_30 : FVec F S_ .f32 := constant S_ .f32 0x7F800000#32
  let main_v80 : FVec F S10 .f32 := broadcastInDim S10 ![] bcast_S_S10 main_cst_30
  let main_v81 : IVec S10 1 := cmpf .olt main_v79 main_v80
  let main_c_31 : IVec S_ 1 := constantI S_ 1 1#1
  let main_v82 : IVec S_ 1 := (fun x v => Host.reduce IntOp.andi x v reducesTo_S10_S_d0 h_S_) main_v81 main_c_31
  let main_v83 : IVec S_ 1 := andi main_v78 main_v82
  main_v83

def fn_part3 {F : FTy → Type} [FloatOps F] (main_arg11 : FVec F S1024 .f32) (main_arg12 : FVec F S1024 .f32) (main_arg13 : FVec F S10x1024 .f32) (main_arg14 : FVec F S10 .f32) (main_arg15 : FVec F S10 .f32) (main_arg16 : FVec F S10 .f32) (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  let main_v54 : FVec F S1024 .f32 := Host.absf main_arg11
  let main_cst_20 : FVec F S_ .f32 := constant S_ .f32 0x7F800000#32
  let main_v55 : FVec F S1024 .f32 := broadcastInDim S1024 ![] bcast_S_S1024 main_cst_20
  let main_v56 : IVec S1024 1 := cmpf .olt main_v54 main_v55
  let main_c_21 : IVec S_ 1 := constantI S_ 1 1#1
  let main_v57 : IVec S_ 1 := (fun x v => Host.reduce IntOp.andi x v reducesTo_S1024_S_d0 h_S_) main_v56 main_c_21
  let main_v58 : IVec S_ 1 := andi main_v53 main_v57
  let main_v59 : FVec F S1024 .f32 := Host.absf main_arg12
  let main_cst_22 : FVec F S_ .f32 := constant S_ .f32 0x7F800000#32
  let main_v60 : FVec F S1024 .f32 := broadcastInDim S1024 ![] bcast_S_S1024 main_cst_22
  let main_v61 : IVec S1024 1 := cmpf .olt main_v59 main_v60
  let main_c_23 : IVec S_ 1 := constantI S_ 1 1#1
  let main_v62 : IVec S_ 1 := (fun x v => Host.reduce IntOp.andi x v reducesTo_S1024_S_d0 h_S_) main_v61 main_c_23
  let main_v63 : IVec S_ 1 := andi main_v58 main_v62
  let main_v64 : FVec F S10x1024 .f32 := Host.absf main_arg13
  let main_cst_24 : FVec F S_ .f32 := constant S_ .f32 0x7F800000#32
  let main_v65 : FVec F S10x1024 .f32 := broadcastInDim S10x1024 ![] bcast_S_S10x1024 main_cst_24
  let main_v66 : IVec S10x1024 1 := cmpf .olt main_v64 main_v65
  let main_c_25 : IVec S_ 1 := constantI S_ 1 1#1
  let main_v67 : IVec S_ 1 := (fun x v => Host.reduce IntOp.andi x v reducesTo_S10x1024_S_d0_1 h_S_) main_v66 main_c_25
  fn_part4 (F := F) main_arg14 main_arg15 main_arg16 main_v63 main_v67

def fn_part2 {F : FTy → Type} [FloatOps F] (main_arg7 : FVec F S1024 .f32) (main_arg8 : FVec F S1024 .f32) (main_arg9 : FVec F S1024x1024 .f32) (main_arg10 : FVec F S1024 .f32) (main_arg11 : FVec F S1024 .f32) (main_arg12 : FVec F S1024 .f32) (main_arg13 : FVec F S10x1024 .f32) (main_arg14 : FVec F S10 .f32) (main_arg15 : FVec F S10 .f32) (main_arg16 : FVec F S10 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024x1024 .f32 := Host.absf main_arg9
  let main_cst_16 : FVec F S_ .f32 := constant S_ .f32 0x7F800000#32
  let main_v45 : FVec F S1024x1024 .f32 := broadcastInDim S1024x1024 ![] bcast_S_S1024x1024 main_cst_16
  let main_v46 : IVec S1024x1024 1 := cmpf .olt main_v44 main_v45
  let main_c_17 : IVec S_ 1 := constantI S_ 1 1#1
  let main_v47 : IVec S_ 1 := (fun x v => Host.reduce IntOp.andi x v reducesTo_S1024x1024_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_arg11 main_arg12 main_arg13 main_arg14 main_arg15 main_arg16 main_v48 main_v49 main_v50

def fn_part1 {F : FTy → Type} [FloatOps F] (main_arg4 : FVec F S1024 .f32) (main_arg5 : FVec F S1024x1024 .f32) (main_arg6 : FVec F S1024 .f32) (main_arg7 : FVec F S1024 .f32) (main_arg8 : FVec F S1024 .f32) (main_arg9 : FVec F S1024x1024 .f32) (main_arg10 : FVec F S1024 .f32) (main_arg11 : FVec F S1024 .f32) (main_arg12 : FVec F S1024 .f32) (main_arg13 : FVec F S10x1024 .f32) (main_arg14 : FVec F S10 .f32) (main_arg15 : FVec F S10 .f32) (main_arg16 : FVec F S10 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_v33

def fn {F : FTy → Type} [FloatOps F] (main_arg0 : FVec F S32768x784 .f32) (main_arg1 : FVec F S1024x784 .f32) (main_arg2 : FVec F S1024 .f32) (main_arg3 : FVec F S1024 .f32) (main_arg4 : FVec F S1024 .f32) (main_arg5 : FVec F S1024x1024 .f32) (main_arg6 : FVec F S1024 .f32) (main_arg7 : FVec F S1024 .f32) (main_arg8 : FVec F S1024 .f32) (main_arg9 : FVec F S1024x1024 .f32) (main_arg10 : FVec F S1024 .f32) (main_arg11 : FVec F S1024 .f32) (main_arg12 : FVec F S1024 .f32) (main_arg13 : FVec F S10x1024 .f32) (main_arg14 : FVec F S10 .f32) (main_arg15 : FVec F S10 .f32) (main_arg16 : FVec F S10 .f32) : IVec S_ 1 :=
  let main_v0 : FVec F S32768x784 .f32 := Host.absf main_arg0
  let main_cst : FVec F S_ .f32 := constant S_ .f32 0x7F800000#32
  let main_v1 : FVec F S32768x784 .f32 := broadcastInDim S32768x784 ![] bcast_S_S32768x784 main_cst
  let main_v2 : IVec S32768x784 1 := cmpf .olt main_v0 main_v1
  let main_c : IVec S_ 1 := constantI S_ 1 1#1
  let main_v3 : IVec S_ 1 := (fun x v => Host.reduce IntOp.andi x v reducesTo_S32768x784_S_d0_1 h_S_) main_v2 main_c
  let main_v4 : FVec F S1024x784 .f32 := Host.absf main_arg1
  let main_cst_0 : FVec F S_ .f32 := constant S_ .f32 0x7F800000#32
  let main_v5 : FVec F S1024x784 .f32 := broadcastInDim S1024x784 ![] bcast_S_S1024x784 main_cst_0
  let main_v6 : IVec S1024x784 1 := cmpf .olt main_v4 main_v5
  let main_c_1 : IVec S_ 1 := constantI S_ 1 1#1
  let main_v7 : IVec S_ 1 := (fun x v => Host.reduce IntOp.andi x v reducesTo_S1024x784_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_arg7 main_arg8 main_arg9 main_arg10 main_arg11 main_arg12 main_arg13 main_arg14 main_arg15 main_arg16 main_v13 main_v16
-- ==== Kernel.lean ====
abbrev S32768x784 : Shape := ⟨2, ![32768, 784]⟩
abbrev S1024x784 : Shape := ⟨2, ![1024, 784]⟩
abbrev S1024 : Shape := ⟨1, ![1024]⟩
abbrev S1024x1024 : Shape := ⟨2, ![1024, 1024]⟩
abbrev S10x1024 : Shape := ⟨2, ![10, 1024]⟩
abbrev S10 : Shape := ⟨1, ![10]⟩
abbrev S1x1024 : Shape := ⟨2, ![1, 1024]⟩
abbrev S1x10 : Shape := ⟨2, ![1, 10]⟩
abbrev S32768x1024 : Shape := ⟨2, ![32768, 1024]⟩
abbrev S2048x784 : Shape := ⟨2, ![2048, 784]⟩
abbrev S512x784 : Shape := ⟨2, ![512, 784]⟩
abbrev S1x512 : Shape := ⟨2, ![1, 512]⟩
abbrev S2048x512 : Shape := ⟨2, ![2048, 512]⟩
abbrev S784x512 : Shape := ⟨2, ![784, 512]⟩
abbrev S512 : Shape := ⟨1, ![512]⟩
abbrev S_ : Shape := ⟨0, ![]⟩
abbrev S2048x1024 : Shape := ⟨2, ![2048, 1024]⟩
abbrev S256x1024 : Shape := ⟨2, ![256, 1024]⟩
abbrev S1x256 : Shape := ⟨2, ![1, 256]⟩
abbrev S2048x256 : Shape := ⟨2, ![2048, 256]⟩
abbrev S1024x256 : Shape := ⟨2, ![1024, 256]⟩
abbrev S256 : Shape := ⟨1, ![256]⟩
abbrev S32768x10 : Shape := ⟨2, ![32768, 10]⟩
abbrev S2048x10 : Shape := ⟨2, ![2048, 10]⟩
abbrev S1024x10 : Shape := ⟨2, ![1024, 10]⟩

abbrev nBuf : Space → Nat
  | .hbm => 94
  | .vmem => 64
  | .smem => 0
  | _ => 0

abbrev bufTy : (tb : Table) → Fin (tcTables nBuf tb) → BufTy
  | .hbm, ⟨0, _⟩ => ⟨S32768x784, .f32⟩
  | .hbm, ⟨1, _⟩ => ⟨S1024x784, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S1024, .f32⟩
  | .hbm, ⟨12, _⟩ => ⟨S1024, .f32⟩
  | .hbm, ⟨13, _⟩ => ⟨S10x1024, .f32⟩
  | .hbm, ⟨14, _⟩ => ⟨S10, .f32⟩
  | .hbm, ⟨15, _⟩ => ⟨S10, .f32⟩
  | .hbm, ⟨16, _⟩ => ⟨S10, .f32⟩
  | .hbm, ⟨17, _⟩ => ⟨S1024x784, .f32⟩
  | .hbm, ⟨18, _⟩ => ⟨S1024x784, .bf16⟩
  | .hbm, ⟨19, _⟩ => ⟨S1024x1024, .f32⟩
  | .hbm, ⟨20, _⟩ => ⟨S1024x1024, .bf16⟩
  | .hbm, ⟨21, _⟩ => ⟨S1024x1024, .f32⟩
  | .hbm, ⟨22, _⟩ => ⟨S1024x1024, .bf16⟩
  | .hbm, ⟨23, _⟩ => ⟨S10x1024, .f32⟩
  | .hbm, ⟨24, _⟩ => ⟨S10x1024, .bf16⟩
  | .hbm, ⟨25, _⟩ => ⟨S1x1024, .f32⟩
  | .hbm, ⟨26, _⟩ => ⟨S1x1024, .f32⟩
  | .hbm, ⟨27, _⟩ => ⟨S1x1024, .f32⟩
  | .hbm, ⟨28, _⟩ => ⟨S1x1024, .f32⟩
  | .hbm, ⟨29, _⟩ => ⟨S1x1024, .f32⟩
  | .hbm, ⟨30, _⟩ => ⟨S1x1024, .f32⟩
  | .hbm, ⟨31, _⟩ => ⟨S1x1024, .f32⟩
  | .hbm, ⟨32, _⟩ => ⟨S1x1024, .f32⟩
  | .hbm, ⟨33, _⟩ => ⟨S1x1024, .f32⟩
  | .hbm, ⟨34, _⟩ => ⟨S1x10, .f32⟩
  | .hbm, ⟨35, _⟩ => ⟨S1x10, .f32⟩
  | .hbm, ⟨36, _⟩ => ⟨S1x10, .f32⟩
  | .hbm, ⟨37, _⟩ => ⟨S32768x1024, .bf16⟩
  | .hbm, ⟨38, _⟩ => ⟨S1x1024, .f32⟩
  | .hbm, ⟨39, _⟩ => ⟨S1x1024, .f32⟩
  | .hbm, ⟨40, _⟩ => ⟨S_, .f32⟩
  | .hbm, ⟨41, _⟩ => ⟨S1x1024, .f32⟩
  | .hbm, ⟨42, _⟩ => ⟨S1x1024, .f32⟩
  | .hbm, ⟨43, _⟩ => ⟨S_, .f32⟩
  | .hbm, ⟨44, _⟩ => ⟨S1x1024, .f32⟩
  | .hbm, ⟨45, _⟩ => ⟨S1x1024, .f32⟩
  | .hbm, ⟨46, _⟩ => ⟨S1x1024, .f32⟩
  | .hbm, ⟨47, _⟩ => ⟨S1x1024, .f32⟩
  | .hbm, ⟨48, _⟩ => ⟨S_, .f32⟩
  | .hbm, ⟨49, _⟩ => ⟨S1x1024, .f32⟩
  | .hbm, ⟨50, _⟩ => ⟨S1x1024, .f32⟩
  | .hbm, ⟨51, _⟩ => ⟨S32768x1024, .bf16⟩
  | .hbm, ⟨52, _⟩ => ⟨S1x1024, .f32⟩
  | .hbm, ⟨53, _⟩ => ⟨S1x1024, .f32⟩
  | .hbm, ⟨54, _⟩ => ⟨S_, .f32⟩
  | .hbm, ⟨55, _⟩ => ⟨S1x1024, .f32⟩
  | .hbm, ⟨56, _⟩ => ⟨S1x1024, .f32⟩
  | .hbm, ⟨57, _⟩ => ⟨S_, .f32⟩
  | .hbm, ⟨58, _⟩ => ⟨S1x1024, .f32⟩
  | .hbm, ⟨59, _⟩ => ⟨S1x1024, .f32⟩
  | .hbm, ⟨60, _⟩ => ⟨S1x1024, .f32⟩
  | .hbm, ⟨61, _⟩ => ⟨S1x1024, .f32⟩
  | .hbm, ⟨62, _⟩ => ⟨S_, .f32⟩
  | .hbm, ⟨63, _⟩ => ⟨S1x1024, .f32⟩
  | .hbm, ⟨64, _⟩ => ⟨S1x1024, .f32⟩
  | .hbm, ⟨65, _⟩ => ⟨S32768x1024, .bf16⟩
  | .hbm, ⟨66, _⟩ => ⟨S1x1024, .f32⟩
  | .hbm, ⟨67, _⟩ => ⟨S1x1024, .f32⟩
  | .hbm, ⟨68, _⟩ => ⟨S_, .f32⟩
  | .hbm, ⟨69, _⟩ => ⟨S1x1024, .f32⟩
  | .hbm, ⟨70, _⟩ => ⟨S1x1024, .f32⟩
  | .hbm, ⟨71, _⟩ => ⟨S_, .f32⟩
  | .hbm, ⟨72, _⟩ => ⟨S1x1024, .f32⟩
  | .hbm, ⟨73, _⟩ => ⟨S1x1024, .f32⟩
  | .hbm, ⟨74, _⟩ => ⟨S1x1024, .f32⟩
  | .hbm, ⟨75, _⟩ => ⟨S1x1024, .f32⟩
  | .hbm, ⟨76, _⟩ => ⟨S_, .f32⟩
  | .hbm, ⟨77, _⟩ => ⟨S1x1024, .f32⟩
  | .hbm, ⟨78, _⟩ => ⟨S1x1024, .f32⟩
  | .hbm, ⟨79, _⟩ => ⟨S32768x10, .f32⟩
  | .hbm, ⟨80, _⟩ => ⟨S1x10, .f32⟩
  | .hbm, ⟨81, _⟩ => ⟨S1x10, .f32⟩
  | .hbm, ⟨82, _⟩ => ⟨S_, .f32⟩
  | .hbm, ⟨83, _⟩ => ⟨S1x10, .f32⟩
  | .hbm, ⟨84, _⟩ => ⟨S1x10, .f32⟩
  | .hbm, ⟨85, _⟩ => ⟨S_, .f32⟩
  | .hbm, ⟨86, _⟩ => ⟨S1x10, .f32⟩
  | .hbm, ⟨87, _⟩ => ⟨S1x10, .f32⟩
  | .hbm, ⟨88, _⟩ => ⟨S1x10, .f32⟩
  | .hbm, ⟨89, _⟩ => ⟨S1x10, .f32⟩
  | .hbm, ⟨90, _⟩ => ⟨S_, .f32⟩
  | .hbm, ⟨91, _⟩ => ⟨S1x10, .f32⟩
  | .hbm, ⟨92, _⟩ => ⟨S1x10, .f32⟩
  | .hbm, ⟨93, _⟩ => ⟨S32768x10, .f32⟩
  | .local _ .vmem, ⟨0, _⟩ => ⟨S2048x784, .f32⟩
  | .local _ .vmem, ⟨1, _⟩ => ⟨S2048x784, .f32⟩
  | .local _ .vmem, ⟨2, _⟩ => ⟨S512x784, .bf16⟩
  | .local _ .vmem, ⟨3, _⟩ => ⟨S512x784, .bf16⟩
  | .local _ .vmem, ⟨4, _⟩ => ⟨S1x512, .f32⟩
  | .local _ .vmem, ⟨5, _⟩ => ⟨S1x512, .f32⟩
  | .local _ .vmem, ⟨6, _⟩ => ⟨S2048x512, .bf16⟩
  | .local _ .vmem, ⟨7, _⟩ => ⟨S2048x512, .bf16⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S2048x1024, .bf16⟩
  | .local _ .vmem, ⟨13, _⟩ => ⟨S2048x1024, .bf16⟩
  | .local _ .vmem, ⟨14, _⟩ => ⟨S1x1024, .f32⟩
  | .local _ .vmem, ⟨15, _⟩ => ⟨S1x1024, .f32⟩
  | .local _ .vmem, ⟨16, _⟩ => ⟨S1x1024, .f32⟩
  | .local _ .vmem, ⟨17, _⟩ => ⟨S1x1024, .f32⟩
  | .local _ .vmem, ⟨18, _⟩ => ⟨S256x1024, .bf16⟩
  | .local _ .vmem, ⟨19, _⟩ => ⟨S256x1024, .bf16⟩
  | .local _ .vmem, ⟨20, _⟩ => ⟨S1x256, .f32⟩
  | .local _ .vmem, ⟨21, _⟩ => ⟨S1x256, .f32⟩
  | .local _ .vmem, ⟨22, _⟩ => ⟨S2048x256, .bf16⟩
  | .local _ .vmem, ⟨23, _⟩ => ⟨S2048x256, .bf16⟩
  | .local _ .vmem, ⟨24, _⟩ => ⟨S1x256, .f32⟩
  | .local _ .vmem, ⟨25, _⟩ => ⟨S1x256, .f32⟩
  | .local _ .vmem, ⟨26, _⟩ => ⟨S1x256, .f32⟩
  | .local _ .vmem, ⟨27, _⟩ => ⟨S1x256, .f32⟩
  | .local _ .vmem, ⟨28, _⟩ => ⟨S2048x1024, .bf16⟩
  | .local _ .vmem, ⟨29, _⟩ => ⟨S2048x1024, .bf16⟩
  | .local _ .vmem, ⟨30, _⟩ => ⟨S1x1024, .f32⟩
  | .local _ .vmem, ⟨31, _⟩ => ⟨S1x1024, .f32⟩
  | .local _ .vmem, ⟨32, _⟩ => ⟨S1x1024, .f32⟩
  | .local _ .vmem, ⟨33, _⟩ => ⟨S1x1024, .f32⟩
  | .local _ .vmem, ⟨34, _⟩ => ⟨S256x1024, .bf16⟩
  | .local _ .vmem, ⟨35, _⟩ => ⟨S256x1024, .bf16⟩
  | .local _ .vmem, ⟨36, _⟩ => ⟨S1x256, .f32⟩
  | .local _ .vmem, ⟨37, _⟩ => ⟨S1x256, .f32⟩
  | .local _ .vmem, ⟨38, _⟩ => ⟨S2048x256, .bf16⟩
  | .local _ .vmem, ⟨39, _⟩ => ⟨S2048x256, .bf16⟩
  | .local _ .vmem, ⟨40, _⟩ => ⟨S1x256, .f32⟩
  | .local _ .vmem, ⟨41, _⟩ => ⟨S1x256, .f32⟩
  | .local _ .vmem, ⟨42, _⟩ => ⟨S1x256, .f32⟩
  | .local _ .vmem, ⟨43, _⟩ => ⟨S1x256, .f32⟩
  | .local _ .vmem, ⟨44, _⟩ => ⟨S2048x1024, .bf16⟩
  | .local _ .vmem, ⟨45, _⟩ => ⟨S2048x1024, .bf16⟩
  | .local _ .vmem, ⟨46, _⟩ => ⟨S1x1024, .f32⟩
  | .local _ .vmem, ⟨47, _⟩ => ⟨S1x1024, .f32⟩
  | .local _ .vmem, ⟨48, _⟩ => ⟨S1x1024, .f32⟩
  | .local _ .vmem, ⟨49, _⟩ => ⟨S1x1024, .f32⟩
  | .local _ .vmem, ⟨50, _⟩ => ⟨S10x1024, .bf16⟩
  | .local _ .vmem, ⟨51, _⟩ => ⟨S1x10, .f32⟩
  | .local _ .vmem, ⟨52, _⟩ => ⟨S2048x10, .f32⟩
  | .local _ .vmem, ⟨53, _⟩ => ⟨S2048x10, .f32⟩
  | .local _ .vmem, ⟨54, _⟩ => ⟨S1x10, .f32⟩
  | .local _ .vmem, ⟨55, _⟩ => ⟨S1x10, .f32⟩
  | .local _ .vmem, ⟨56, _⟩ => ⟨S2048x10, .f32⟩
  | .local _ .vmem, ⟨57, _⟩ => ⟨S2048x10, .f32⟩
  | .local _ .vmem, ⟨58, _⟩ => ⟨S1x10, .f32⟩
  | .local _ .vmem, ⟨59, _⟩ => ⟨S1x10, .f32⟩
  | .local _ .vmem, ⟨60, _⟩ => ⟨S1x10, .f32⟩
  | .local _ .vmem, ⟨61, _⟩ => ⟨S1x10, .f32⟩
  | .local _ .vmem, ⟨62, _⟩ => ⟨S2048x10, .f32⟩
  | .local _ .vmem, ⟨63, _⟩ => ⟨S2048x10, .f32⟩
  | _, _ => ⟨S32768x784, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | _, _ => false

abbrev semScoped : Fin 0 → Bool
  | ⟨_, h⟩ => absurd h (Nat.not_lt_zero _)

abbrev dmaSemScoped : Fin 64 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | _ => false

abbrev sig : RefSig :=
  ofTc nBuf bufTy 0 64 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20_0 : Ref sig .tc := ⟨.hbm, 37, rfl⟩
abbrev main_v20_1 : Ref sig .tc := ⟨.hbm, 38, rfl⟩
abbrev main_v20_2 : Ref sig .tc := ⟨.hbm, 39, rfl⟩
abbrev main_cst : Ref sig .tc := ⟨.hbm, 40, rfl⟩
abbrev main_v21 : Ref sig .tc := ⟨.hbm, 41, rfl⟩
abbrev main_v22 : Ref sig .tc := ⟨.hbm, 42, rfl⟩
abbrev main_cst_0 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_cst_1 : Ref sig .tc := ⟨.hbm, 48, rfl⟩
abbrev main_v27 : Ref sig .tc := ⟨.hbm, 49, rfl⟩
abbrev main_v28 : Ref sig .tc := ⟨.hbm, 50, rfl⟩
abbrev main_v29_0 : Ref sig .tc := ⟨.hbm, 51, rfl⟩
abbrev main_v29_1 : Ref sig .tc := ⟨.hbm, 52, rfl⟩
abbrev main_v29_2 : Ref sig .tc := ⟨.hbm, 53, rfl⟩
abbrev main_cst_2 : Ref sig .tc := ⟨.hbm, 54, rfl⟩
abbrev main_v30 : Ref sig .tc := ⟨.hbm, 55, rfl⟩
abbrev main_v31 : Ref sig .tc := ⟨.hbm, 56, rfl⟩
abbrev main_cst_3 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_cst_4 : Ref sig .tc := ⟨.hbm, 62, rfl⟩
abbrev main_v36 : Ref sig .tc := ⟨.hbm, 63, rfl⟩
abbrev main_v37 : Ref sig .tc := ⟨.hbm, 64, rfl⟩
abbrev main_v38_0 : Ref sig .tc := ⟨.hbm, 65, rfl⟩
abbrev main_v38_1 : Ref sig .tc := ⟨.hbm, 66, rfl⟩
abbrev main_v38_2 : Ref sig .tc := ⟨.hbm, 67, rfl⟩
abbrev main_cst_5 : Ref sig .tc := ⟨.hbm, 68, rfl⟩
abbrev main_v39 : Ref sig .tc := ⟨.hbm, 69, rfl⟩
abbrev main_v40 : Ref sig .tc := ⟨.hbm, 70, rfl⟩
abbrev main_cst_6 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_cst_7 : Ref sig .tc := ⟨.hbm, 76, rfl⟩
abbrev main_v45 : Ref sig .tc := ⟨.hbm, 77, rfl⟩
abbrev main_v46 : Ref sig .tc := ⟨.hbm, 78, rfl⟩
abbrev main_v47_0 : Ref sig .tc := ⟨.hbm, 79, rfl⟩
abbrev main_v47_1 : Ref sig .tc := ⟨.hbm, 80, rfl⟩
abbrev main_v47_2 : Ref sig .tc := ⟨.hbm, 81, rfl⟩
abbrev main_cst_8 : Ref sig .tc := ⟨.hbm, 82, rfl⟩
abbrev main_v48 : Ref sig .tc := ⟨.hbm, 83, rfl⟩
abbrev main_v49 : Ref sig .tc := ⟨.hbm, 84, rfl⟩
abbrev main_cst_9 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_cst_10 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc1_stg6_0 : Ref sig .tc := ⟨.vmem, 20, rfl⟩
abbrev cc1_stg6_1 : Ref sig .tc := ⟨.vmem, 21, rfl⟩
abbrev cc1_stg7_0 : Ref sig .tc := ⟨.vmem, 22, rfl⟩
abbrev cc1_stg7_1 : Ref sig .tc := ⟨.vmem, 23, rfl⟩
abbrev cc1_stg8_0 : Ref sig .tc := ⟨.vmem, 24, rfl⟩
abbrev cc1_stg8_1 : Ref sig .tc := ⟨.vmem, 25, rfl⟩
abbrev cc1_stg9_0 : Ref sig .tc := ⟨.vmem, 26, rfl⟩
abbrev cc1_stg9_1 : Ref sig .tc := ⟨.vmem, 27, rfl⟩
abbrev cc2_stg0_0 : Ref sig .tc := ⟨.vmem, 28, rfl⟩
abbrev cc2_stg0_1 : Ref sig .tc := ⟨.vmem, 29, rfl⟩
abbrev cc2_stg1_0 : Ref sig .tc := ⟨.vmem, 30, rfl⟩
abbrev cc2_stg2_0 : Ref sig .tc := ⟨.vmem, 31, rfl⟩
abbrev cc2_stg3_0 : Ref sig .tc := ⟨.vmem, 32, rfl⟩
abbrev cc2_stg4_0 : Ref sig .tc := ⟨.vmem, 33, rfl⟩
abbrev cc2_stg5_0 : Ref sig .tc := ⟨.vmem, 34, rfl⟩
abbrev cc2_stg5_1 : Ref sig .tc := ⟨.vmem, 35, rfl⟩
abbrev cc2_stg6_0 : Ref sig .tc := ⟨.vmem, 36, rfl⟩
abbrev cc2_stg6_1 : Ref sig .tc := ⟨.vmem, 37, rfl⟩
abbrev cc2_stg7_0 : Ref sig .tc := ⟨.vmem, 38, rfl⟩
abbrev cc2_stg7_1 : Ref sig .tc := ⟨.vmem, 39, rfl⟩
abbrev cc2_stg8_0 : Ref sig .tc := ⟨.vmem, 40, rfl⟩
abbrev cc2_stg8_1 : Ref sig .tc := ⟨.vmem, 41, rfl⟩
abbrev cc2_stg9_0 : Ref sig .tc := ⟨.vmem, 42, rfl⟩
abbrev cc2_stg9_1 : Ref sig .tc := ⟨.vmem, 43, rfl⟩
abbrev cc3_stg0_0 : Ref sig .tc := ⟨.vmem, 44, rfl⟩
abbrev cc3_stg0_1 : Ref sig .tc := ⟨.vmem, 45, rfl⟩
abbrev cc3_stg1_0 : Ref sig .tc := ⟨.vmem, 46, rfl⟩
abbrev cc3_stg2_0 : Ref sig .tc := ⟨.vmem, 47, rfl⟩
abbrev cc3_stg3_0 : Ref sig .tc := ⟨.vmem, 48, rfl⟩
abbrev cc3_stg4_0 : Ref sig .tc := ⟨.vmem, 49, rfl⟩
abbrev cc3_stg5_0 : Ref sig .tc := ⟨.vmem, 50, rfl⟩
abbrev cc3_stg6_0 : Ref sig .tc := ⟨.vmem, 51, rfl⟩
abbrev cc3_stg7_0 : Ref sig .tc := ⟨.vmem, 52, rfl⟩
abbrev cc3_stg7_1 : Ref sig .tc := ⟨.vmem, 53, rfl⟩
abbrev cc3_stg8_0 : Ref sig .tc := ⟨.vmem, 54, rfl⟩
abbrev cc3_stg9_0 : Ref sig .tc := ⟨.vmem, 55, rfl⟩
abbrev cc4_stg0_0 : Ref sig .tc := ⟨.vmem, 56, rfl⟩
abbrev cc4_stg0_1 : Ref sig .tc := ⟨.vmem, 57, rfl⟩
abbrev cc4_stg1_0 : Ref sig .tc := ⟨.vmem, 58, rfl⟩
abbrev cc4_stg2_0 : Ref sig .tc := ⟨.vmem, 59, rfl⟩
abbrev cc4_stg3_0 : Ref sig .tc := ⟨.vmem, 60, rfl⟩
abbrev cc4_stg4_0 : Ref sig .tc := ⟨.vmem, 61, rfl⟩
abbrev cc4_stg5_0 : Ref sig .tc := ⟨.vmem, 62, rfl⟩
abbrev cc4_stg5_1 : Ref sig .tc := ⟨.vmem, 63, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem5_1 : DmaSem sig := 19
abbrev cc1_sem6_0 : DmaSem sig := 20
abbrev cc1_sem6_1 : DmaSem sig := 21
abbrev cc1_sem7_0 : DmaSem sig := 22
abbrev cc1_sem7_1 : DmaSem sig := 23
abbrev cc1_sem8_0 : DmaSem sig := 24
abbrev cc1_sem8_1 : DmaSem sig := 25
abbrev cc1_sem9_0 : DmaSem sig := 26
abbrev cc1_sem9_1 : DmaSem sig := 27
abbrev cc2_sem0_0 : DmaSem sig := 28
abbrev cc2_sem0_1 : DmaSem sig := 29
abbrev cc2_sem1_0 : DmaSem sig := 30
abbrev cc2_sem2_0 : DmaSem sig := 31
abbrev cc2_sem3_0 : DmaSem sig := 32
abbrev cc2_sem4_0 : DmaSem sig := 33
abbrev cc2_sem5_0 : DmaSem sig := 34
abbrev cc2_sem5_1 : DmaSem sig := 35
abbrev cc2_sem6_0 : DmaSem sig := 36
abbrev cc2_sem6_1 : DmaSem sig := 37
abbrev cc2_sem7_0 : DmaSem sig := 38
abbrev cc2_sem7_1 : DmaSem sig := 39
abbrev cc2_sem8_0 : DmaSem sig := 40
abbrev cc2_sem8_1 : DmaSem sig := 41
abbrev cc2_sem9_0 : DmaSem sig := 42
abbrev cc2_sem9_1 : DmaSem sig := 43
abbrev cc3_sem0_0 : DmaSem sig := 44
abbrev cc3_sem0_1 : DmaSem sig := 45
abbrev cc3_sem1_0 : DmaSem sig := 46
abbrev cc3_sem2_0 : DmaSem sig := 47
abbrev cc3_sem3_0 : DmaSem sig := 48
abbrev cc3_sem4_0 : DmaSem sig := 49
abbrev cc3_sem5_0 : DmaSem sig := 50
abbrev cc3_sem6_0 : DmaSem sig := 51
abbrev cc3_sem7_0 : DmaSem sig := 52
abbrev cc3_sem7_1 : DmaSem sig := 53
abbrev cc3_sem8_0 : DmaSem sig := 54
abbrev cc3_sem9_0 : DmaSem sig := 55
abbrev cc4_sem0_0 : DmaSem sig := 56
abbrev cc4_sem0_1 : DmaSem sig := 57
abbrev cc4_sem1_0 : DmaSem sig := 58
abbrev cc4_sem2_0 : DmaSem sig := 59
abbrev cc4_sem3_0 : DmaSem sig := 60
abbrev cc4_sem4_0 : DmaSem sig := 61
abbrev cc4_sem5_0 : DmaSem sig := 62
abbrev cc4_sem5_1 : DmaSem sig := 63

abbrev nD : Nat := 1
abbrev τ : Topo := Topo.v7x

variable {F : FTy → Type} [BitOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x784 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x784 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev grid1 : Pipeline.Grid := ⟨2, ![4, 16], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S2048x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 1 → Memref sig .tc .vmem S1x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S256x1024 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 2 → Memref sig .tc .vmem S1x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev stage1_7 : Fin 2 → Memref sig .tc .vmem S2048x256 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S1x256 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, false]

abbrev stage1_9 : Fin 2 → Memref sig .tc .vmem S1x256 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, false]

abbrev grid2 : Pipeline.Grid := ⟨2, ![4, 16], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_7 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_8 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_9 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage2_0 : Fin 2 → Memref sig .tc .vmem S2048x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 1 → Memref sig .tc .vmem S1x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S1x1024 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S1x1024 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 2 → Memref sig .tc .vmem S256x1024 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, false]

abbrev stage2_6 : Fin 2 → Memref sig .tc .vmem S1x256 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, false]

abbrev stage2_7 : Fin 2 → Memref sig .tc .vmem S2048x256 .bf16 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true, true]

abbrev stage2_8 : Fin 2 → Memref sig .tc .vmem S1x256 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true, false]

abbrev stage2_9 : Fin 2 → Memref sig .tc .vmem S1x256 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true, false]

abbrev grid3 : Pipeline.Grid := ⟨2, ![1, 16], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc3_transform_7 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc3_transform_8 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc3_transform_9 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage3_0 : Fin 2 → Memref sig .tc .vmem S2048x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![false, true]

abbrev stage3_1 : Fin 1 → Memref sig .tc .vmem S1x1024 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, false]

abbrev stage3_2 : Fin 1 → Memref sig .tc .vmem S1x1024 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false, false]

abbrev stage3_3 : Fin 1 → Memref sig .tc .vmem S1x1024 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false, false]

abbrev stage3_4 : Fin 1 → Memref sig .tc .vmem S1x1024 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false, false]

abbrev stage3_5 : Fin 1 → Memref sig .tc .vmem S10x1024 .bf16 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![true, false]

abbrev stage3_6 : Fin 1 → Memref sig .tc .vmem S1x10 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![true, false]

abbrev stage3_7 : Fin 2 → Memref sig .tc .vmem S2048x10 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true, true]

abbrev stage3_8 : Fin 1 → Memref sig .tc .vmem S1x10 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![true, false]

abbrev stage3_9 : Fin 1 → Memref sig .tc .vmem S1x10 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![true, false]

abbrev grid4 : Pipeline.Grid := ⟨1, ![16], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2048x10 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x10 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x10 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x10 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x10 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S2048x10 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

class Facts₀ : Prop where
  bitsLt_bf16_f32 : FTy.bits .bf16 < FTy.bits .f32
  shapeCasts_S1024_S1x1024 : S1024.ShapeCasts S1x1024
  shapeCasts_S10_S1x10 : S10.ShapeCasts S1x10
  inb_S1x512_S1x512_0_0 : ∀ a, (![0, 0] : Fin 2 → Nat) a + S1x512.size a ≤ S1x512.size a
  h_S1x512 : 0 < S1x512.numel
  inb_S2048x784_S2048x784_0_0 : ∀ a, (![0, 0] : Fin 2 → Nat) a + S2048x784.size a ≤ S2048x784.size a
  h_S2048x784 : 0 < S2048x784.numel
  inb_S512x784_S512x784_0_0 : ∀ a, (![0, 0] : Fin 2 → Nat) a + S512x784.size a ≤ S512x784.size a
  h_S512x784 : 0 < S512x784.numel
  shapeCasts_S512x784_S512x784 : S512x784.ShapeCasts S512x784
  transposes_S512x784_p1_0_S784x512 : S512x784.Transposes [1, 0] S784x512
  shapeCasts_S1x512_S1x512 : S1x512.ShapeCasts S1x512
  broadcasts_S1x512_S2048x512 : S1x512.Broadcasts S2048x512
  inb_S2048x512_S2048x512_0_0 : ∀ a, (![0, 0] : Fin 2 → Nat) a + S2048x512.size a ≤ S2048x512.size a
  h_S2048x512 : 0 < S2048x512.numel
  packedbf16_S2048x512_S2048x512_0_0 : (Rect.unit (s := S2048x512) ![0, 0] S2048x512.size inb_S2048x512_S2048x512_0_0).PackedRows (EltTy.packing .bf16)
  reduces_S2048x512_S512 : S2048x512.Reduces [0] S512
  shapeCasts_S512_S1x512 : S512.ShapeCasts S1x512
  bcast_S_S1x1024 : S_.BroadcastsInDim S1x1024 (![] : Fin 0 → Fin S1x1024.rank)
  inb_S1x256_S1x256_0_0 : ∀ a, (![0, 0] : Fin 2 → Nat) a + S1x256.size a ≤ S1x256.size a
  h_S1x256 : 0 < S1x256.numel
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  transposes_S256x1024_p1_0_S1024x256 : S256x1024.Transposes [1, 0] S1024x256
  shapeCasts_S1x256_S1x256 : S1x256.ShapeCasts S1x256
  broadcasts_S1x256_S2048x256 : S1x256.Broadcasts S2048x256
  inb_S2048x256_S2048x256_0_0 : ∀ a, (![0, 0] : Fin 2 → Nat) a + S2048x256.size a ≤ S2048x256.size a
  h_S2048x256 : 0 < S2048x256.numel
  packedbf16_S2048x256_S2048x256_0_0 : (Rect.unit (s := S2048x256) ![0, 0] S2048x256.size inb_S2048x256_S2048x256_0_0).PackedRows (EltTy.packing .bf16)
  reduces_S2048x256_S256 : S2048x256.Reduces [0] S256
  shapeCasts_S256_S1x256 : S256.ShapeCasts S1x256
  inb_S1x10_S1x10_0_0 : ∀ a, (![0, 0] : Fin 2 → Nat) a + S1x10.size a ≤ S1x10.size a
  h_S1x10 : 0 < S1x10.numel
  inb_S10x1024_S10x1024_0_0 : ∀ a, (![0, 0] : Fin 2 → Nat) a + S10x1024.size a ≤ S10x1024.size a
  h_S10x1024 : 0 < S10x1024.numel
  shapeCasts_S10x1024_S10x1024 : S10x1024.ShapeCasts S10x1024
  transposes_S10x1024_p1_0_S1024x10 : S10x1024.Transposes [1, 0] S1024x10
  shapeCasts_S1x10_S1x10 : S1x10.ShapeCasts S1x10
  broadcasts_S1x10_S2048x10 : S1x10.Broadcasts S2048x10
  inb_S2048x10_S2048x10_0_0 : ∀ a, (![0, 0] : Fin 2 → Nat) a + S2048x10.size a ≤ S2048x10.size a
  h_S2048x10 : 0 < S2048x10.numel
  reduces_S2048x10_S10 : S2048x10.Reduces [0] S10
  bcast_S_S1x10 : S_.BroadcastsInDim S1x10 (![] : Fin 0 → Fin S1x10.rank)
  shapeCasts_S2048x10_S2048x10 : S2048x10.ShapeCasts S2048x10
  dot_S2048x784_S784x512_S2048x512_1_0_0_1_n_n_wf : DotDims.WF S2048x784 S784x512 S2048x512 [1] [0] [0] [1] [] []
  dot_S2048x1024_S1024x256_S2048x256_1_0_0_1_n_n_wf : DotDims.WF S2048x1024 S1024x256 S2048x256 [1] [0] [0] [1] [] []
  dot_S2048x1024_S1024x10_S2048x10_1_0_0_1_n_n_wf : DotDims.WF S2048x1024 S1024x10 S2048x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x784.size a ≤ S32768x784.size a
  hwx0_0 : ∀ i : grid0.Coords, EltTy.bits .f32 = 32 ∨ (Rect.block (s := S32768x784) S2048x784.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x784.size a ≤ S1024x784.size a
  hwx0_1 : ∀ i : grid0.Coords, EltTy.bits .bf16 = 32 ∨ (Rect.block (s := S1024x784) S512x784.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x1024.size a
  hwx0_2 : ∀ i : grid0.Coords, EltTy.bits .f32 = 32 ∨ (Rect.block (s := S1x1024) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x512.size a ≤ S32768x1024.size a
  hwx0_3 : ∀ i : grid0.Coords, EltTy.bits .bf16 = 32 ∨ (Rect.block (s := S32768x1024) S2048x512.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x1024.size a
  hwx0_4 : ∀ i : grid0.Coords, EltTy.bits .f32 = 32 ∨ (Rect.block (s := S1x1024) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x1024.size a
  hwx0_5 : ∀ i : grid0.Coords, EltTy.bits .f32 = 32 ∨ (Rect.block (s := S1x1024) S1x512.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x1024.size a ≤ S32768x1024.size a
  hwx1_0 : ∀ i : grid1.Coords, EltTy.bits .bf16 = 32 ∨ (Rect.block (s := S32768x1024) S2048x1024.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x1024.size a ≤ S1x1024.size a
  hwx1_1 : ∀ i : grid1.Coords, EltTy.bits .f32 = 32 ∨ (Rect.block (s := S1x1024) S1x1024.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x1024.size a
  hwx1_2 : ∀ i : grid1.Coords, EltTy.bits .f32 = 32 ∨ (Rect.block (s := S1x1024) S1x1024.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1024.size a ≤ S1x1024.size a
  hwx1_3 : ∀ i : grid1.Coords, EltTy.bits .f32 = 32 ∨ (Rect.block (s := S1x1024) S1x1024.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1024.size a ≤ S1x1024.size a
  hwx1_4 : ∀ i : grid1.Coords, EltTy.bits .f32 = 32 ∨ (Rect.block (s := S1x1024) S1x1024.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S256x1024.size a ≤ S1024x1024.size a
  hwx1_5 : ∀ i : grid1.Coords, EltTy.bits .bf16 = 32 ∨ (Rect.block (s := S1024x1024) S256x1024.size (cc1_transform_5 i) (hinb1_5 i)).WholeWords (EltTy.packing .bf16)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x256.size a ≤ S1x1024.size a
  hwx1_6 : ∀ i : grid1.Coords, EltTy.bits .f32 = 32 ∨ (Rect.block (s := S1x1024) S1x256.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2048x256.size a ≤ S32768x1024.size a
  hwx1_7 : ∀ i : grid1.Coords, EltTy.bits .bf16 = 32 ∨ (Rect.block (s := S32768x1024) S2048x256.size (cc1_transform_7 i) (hinb1_7 i)).WholeWords (EltTy.packing .bf16)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S1x256.size a ≤ S1x1024.size a
  hwx1_8 : ∀ i : grid1.Coords, EltTy.bits .f32 = 32 ∨ (Rect.block (s := S1x1024) S1x256.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S1x256.size a ≤ S1x1024.size a
  hwx1_9 : ∀ i : grid1.Coords, EltTy.bits .f32 = 32 ∨ (Rect.block (s := S1x1024) S1x256.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x1024.size a ≤ S32768x1024.size a
  hwx2_0 : ∀ i : grid2.Coords, EltTy.bits .bf16 = 32 ∨ (Rect.block (s := S32768x1024) S2048x1024.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x1024.size a ≤ S1x1024.size a
  hwx2_1 : ∀ i : grid2.Coords, EltTy.bits .f32 = 32 ∨ (Rect.block (s := S1x1024) S1x1024.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x1024.size a
  hwx2_2 : ∀ i : grid2.Coords, EltTy.bits .f32 = 32 ∨ (Rect.block (s := S1x1024) S1x1024.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x1024.size a ≤ S1x1024.size a
  hwx2_3 : ∀ i : grid2.Coords, EltTy.bits .f32 = 32 ∨ (Rect.block (s := S1x1024) S1x1024.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x1024.size a ≤ S1x1024.size a
  hwx2_4 : ∀ i : grid2.Coords, EltTy.bits .f32 = 32 ∨ (Rect.block (s := S1x1024) S1x1024.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S256x1024.size a ≤ S1024x1024.size a
  hwx2_5 : ∀ i : grid2.Coords, EltTy.bits .bf16 = 32 ∨ (Rect.block (s := S1024x1024) S256x1024.size (cc2_transform_5 i) (hinb2_5 i)).WholeWords (EltTy.packing .bf16)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S1x256.size a ≤ S1x1024.size a
  hwx2_6 : ∀ i : grid2.Coords, EltTy.bits .f32 = 32 ∨ (Rect.block (s := S1x1024) S1x256.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S2048x256.size a ≤ S32768x1024.size a
  hwx2_7 : ∀ i : grid2.Coords, EltTy.bits .bf16 = 32 ∨ (Rect.block (s := S32768x1024) S2048x256.size (cc2_transform_7 i) (hinb2_7 i)).WholeWords (EltTy.packing .bf16)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S1x256.size a ≤ S1x1024.size a
  hwx2_8 : ∀ i : grid2.Coords, EltTy.bits .f32 = 32 ∨ (Rect.block (s := S1x1024) S1x256.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S1x256.size a ≤ S1x1024.size a
  hwx2_9 : ∀ i : grid2.Coords, EltTy.bits .f32 = 32 ∨ (Rect.block (s := S1x1024) S1x256.size (cc2_transform_9 i) (hinb2_9 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2048x1024.size a ≤ S32768x1024.size a
  hwx3_0 : ∀ i : grid3.Coords, EltTy.bits .bf16 = 32 ∨ (Rect.block (s := S32768x1024) S2048x1024.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x1024.size a ≤ S1x1024.size a
  hwx3_1 : ∀ i : grid3.Coords, EltTy.bits .f32 = 32 ∨ (Rect.block (s := S1x1024) S1x1024.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x1024.size a ≤ S1x1024.size a
  hwx3_2 : ∀ i : grid3.Coords, EltTy.bits .f32 = 32 ∨ (Rect.block (s := S1x1024) S1x1024.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x1024.size a ≤ S1x1024.size a
  hwx3_3 : ∀ i : grid3.Coords, EltTy.bits .f32 = 32 ∨ (Rect.block (s := S1x1024) S1x1024.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x1024.size a ≤ S1x1024.size a
  hwx3_4 : ∀ i : grid3.Coords, EltTy.bits .f32 = 32 ∨ (Rect.block (s := S1x1024) S1x1024.size (cc3_transform_4 i) (hinb3_4 i)).WholeWords (EltTy.packing .f32)
  hstage3_5 : ∀ j, (stage3_5 j).IsWhole
  nbuf3_5 : grid3.bufCount reads3_5 false = 1
  hreads3_5 : ∀ i i' : grid3.Coords, (∀ a, reads3_5 a = true → i a = i' a) → cc3_transform_5 i = cc3_transform_5 i'
  hinb3_5 : ∀ (i : grid3.Coords) a, (cc3_transform_5 i a + 1) * S10x1024.size a ≤ S10x1024.size a
  hwx3_5 : ∀ i : grid3.Coords, EltTy.bits .bf16 = 32 ∨ (Rect.block (s := S10x1024) S10x1024.size (cc3_transform_5 i) (hinb3_5 i)).WholeWords (EltTy.packing .bf16)
  hstage3_6 : ∀ j, (stage3_6 j).IsWhole
  nbuf3_6 : grid3.bufCount reads3_6 false = 1
  hreads3_6 : ∀ i i' : grid3.Coords, (∀ a, reads3_6 a = true → i a = i' a) → cc3_transform_6 i = cc3_transform_6 i'
  hinb3_6 : ∀ (i : grid3.Coords) a, (cc3_transform_6 i a + 1) * S1x10.size a ≤ S1x10.size a
  hwx3_6 : ∀ i : grid3.Coords, EltTy.bits .f32 = 32 ∨ (Rect.block (s := S1x10) S1x10.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S2048x10.size a ≤ S32768x10.size a
  hwx3_7 : ∀ i : grid3.Coords, EltTy.bits .f32 = 32 ∨ (Rect.block (s := S32768x10) S2048x10.size (cc3_transform_7 i) (hinb3_7 i)).WholeWords (EltTy.packing .f32)
  hstage3_8 : ∀ j, (stage3_8 j).IsWhole
  nbuf3_8 : grid3.bufCount reads3_8 false = 1
  hreads3_8 : ∀ i i' : grid3.Coords, (∀ a, reads3_8 a = true → i a = i' a) → cc3_transform_8 i = cc3_transform_8 i'
  hinb3_8 : ∀ (i : grid3.Coords) a, (cc3_transform_8 i a + 1) * S1x10.size a ≤ S1x10.size a
  hwx3_8 : ∀ i : grid3.Coords, EltTy.bits .f32 = 32 ∨ (Rect.block (s := S1x10) S1x10.size (cc3_transform_8 i) (hinb3_8 i)).WholeWords (EltTy.packing .f32)
  hstage3_9 : ∀ j, (stage3_9 j).IsWhole
  nbuf3_9 : grid3.bufCount reads3_9 false = 1
  hreads3_9 : ∀ i i' : grid3.Coords, (∀ a, reads3_9 a = true → i a = i' a) → cc3_transform_9 i = cc3_transform_9 i'
  hinb3_9 : ∀ (i : grid3.Coords) a, (cc3_transform_9 i a + 1) * S1x10.size a ≤ S1x10.size a
  hwx3_9 : ∀ i : grid3.Coords, EltTy.bits .f32 = 32 ∨ (Rect.block (s := S1x10) S1x10.size (cc3_transform_9 i) (hinb3_9 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2048x10.size a ≤ S32768x10.size a
  hwx4_0 : ∀ i : grid4.Coords, EltTy.bits .f32 = 32 ∨ (Rect.block (s := S32768x10) S2048x10.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x10.size a ≤ S1x10.size a
  hwx4_1 : ∀ i : grid4.Coords, EltTy.bits .f32 = 32 ∨ (Rect.block (s := S1x10) S1x10.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x10.size a ≤ S1x10.size a
  hwx4_2 : ∀ i : grid4.Coords, EltTy.bits .f32 = 32 ∨ (Rect.block (s := S1x10) S1x10.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x10.size a ≤ S1x10.size a
  hwx4_3 : ∀ i : grid4.Coords, EltTy.bits .f32 = 32 ∨ (Rect.block (s := S1x10) S1x10.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x10.size a ≤ S1x10.size a
  hwx4_4 : ∀ i : grid4.Coords, EltTy.bits .f32 = 32 ∨ (Rect.block (s := S1x10) S1x10.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S2048x10.size a ≤ S32768x10.size a
  hwx4_5 : ∀ i : grid4.Coords, EltTy.bits .f32 = 32 ∨ (Rect.block (s := S32768x10) S2048x10.size (cc4_transform_5 i) (hinb4_5 i)).WholeWords (EltTy.packing .f32)

variable [Facts₀]

def dot_S2048x784_S784x512_S2048x512_1_0_0_1_n_n : DotDims S2048x784 S784x512 S2048x512 where
  lhsContracting := [1]
  rhsContracting := [0]
  lhsNonContracting := [0]
  rhsNonContracting := [1]
  lhsBatch := []
  rhsBatch := []
  wf := dot_S2048x784_S784x512_S2048x512_1_0_0_1_n_n_wf
def dot_S2048x1024_S1024x256_S2048x256_1_0_0_1_n_n : DotDims S2048x1024 S1024x256 S2048x256 where
  lhsContracting := [1]
  rhsContracting := [0]
  lhsNonContracting := [0]
  rhsNonContracting := [1]
  lhsBatch := []
  rhsBatch := []
  wf := dot_S2048x1024_S1024x256_S2048x256_1_0_0_1_n_n_wf
def dot_S2048x1024_S1024x10_S2048x10_1_0_0_1_n_n : DotDims S2048x1024 S1024x10 S2048x10 where
  lhsContracting := [1]
  rhsContracting := [0]
  lhsNonContracting := [0]
  rhsNonContracting := [1]
  lhsBatch := []
  rhsBatch := []
  wf := dot_S2048x1024_S1024x10_S2048x10_1_0_0_1_n_n_wf

abbrev win0_0 : Pipeline.Window sig grid0 :=
  Pipeline.Window.ofSpec (Memref.whole main_arg0) S2048x784.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x784.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v20_0) S2048x512.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v20_1) S1x512.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v20_2) S1x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v20_0) S2048x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v22) S1x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v28) S1x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v9) S1x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v10) S1x1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v3) S256x1024.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v11) S1x256.size cc1_transform_6 reads1_6 false false 2 stage1_6 sem1_6
    hrank1 hreads1_6 hinb1_6 nbuf1_6 (Memref.isWhole_whole _) hwx1_6 hstage1_6

abbrev win1_7 : Pipeline.Window sig grid1 :=
  Pipeline.Window.ofSpec (Memref.whole main_v29_0) S2048x256.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v29_1) S1x256.size cc1_transform_8 reads1_8 true false 2 stage1_8 sem1_8
    hrank1 hreads1_8 hinb1_8 nbuf1_8 (Memref.isWhole_whole _) hwx1_8 hstage1_8

abbrev win1_9 : Pipeline.Window sig grid1 :=
  Pipeline.Window.ofSpec (Memref.whole main_v29_2) S1x256.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v29_0) S2048x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v31) S1x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v37) S1x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v12) S1x1024.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v13) S1x1024.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v5) S256x1024.size cc2_transform_5 reads2_5 false false 2 stage2_5 sem2_5
    hrank2 hreads2_5 hinb2_5 nbuf2_5 (Memref.isWhole_whole _) hwx2_5 hstage2_5

abbrev win2_6 : Pipeline.Window sig grid2 :=
  Pipeline.Window.ofSpec (Memref.whole main_v14) S1x256.size cc2_transform_6 reads2_6 false false 2 stage2_6 sem2_6
    hrank2 hreads2_6 hinb2_6 nbuf2_6 (Memref.isWhole_whole _) hwx2_6 hstage2_6

abbrev win2_7 : Pipeline.Window sig grid2 :=
  Pipeline.Window.ofSpec (Memref.whole main_v38_0) S2048x256.size cc2_transform_7 reads2_7 true false 2 stage2_7 sem2_7
    hrank2 hreads2_7 hinb2_7 nbuf2_7 (Memref.isWhole_whole _) hwx2_7 hstage2_7

abbrev win2_8 : Pipeline.Window sig grid2 :=
  Pipeline.Window.ofSpec (Memref.whole main_v38_1) S1x256.size cc2_transform_8 reads2_8 true false 2 stage2_8 sem2_8
    hrank2 hreads2_8 hinb2_8 nbuf2_8 (Memref.isWhole_whole _) hwx2_8 hstage2_8

abbrev win2_9 : Pipeline.Window sig grid2 :=
  Pipeline.Window.ofSpec (Memref.whole main_v38_2) S1x256.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

abbrev win3_0 : Pipeline.Window sig grid3 :=
  Pipeline.Window.ofSpec (Memref.whole main_v38_0) S2048x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v40) S1x1024.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v46) S1x1024.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v15) S1x1024.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v16) S1x1024.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v7) S10x1024.size cc3_transform_5 reads3_5 false false 1 stage3_5 sem3_5
    hrank3 hreads3_5 hinb3_5 nbuf3_5 (Memref.isWhole_whole _) hwx3_5 hstage3_5

abbrev win3_6 : Pipeline.Window sig grid3 :=
  Pipeline.Window.ofSpec (Memref.whole main_v17) S1x10.size cc3_transform_6 reads3_6 false false 1 stage3_6 sem3_6
    hrank3 hreads3_6 hinb3_6 nbuf3_6 (Memref.isWhole_whole _) hwx3_6 hstage3_6

abbrev win3_7 : Pipeline.Window sig grid3 :=
  Pipeline.Window.ofSpec (Memref.whole main_v47_0) S2048x10.size cc3_transform_7 reads3_7 true false 2 stage3_7 sem3_7
    hrank3 hreads3_7 hinb3_7 nbuf3_7 (Memref.isWhole_whole _) hwx3_7 hstage3_7

abbrev win3_8 : Pipeline.Window sig grid3 :=
  Pipeline.Window.ofSpec (Memref.whole main_v47_1) S1x10.size cc3_transform_8 reads3_8 true false 1 stage3_8 sem3_8
    hrank3 hreads3_8 hinb3_8 nbuf3_8 (Memref.isWhole_whole _) hwx3_8 hstage3_8

abbrev win3_9 : Pipeline.Window sig grid3 :=
  Pipeline.Window.ofSpec (Memref.whole main_v47_2) S1x10.size cc3_transform_9 reads3_9 true false 1 stage3_9 sem3_9
    hrank3 hreads3_9 hinb3_9 nbuf3_9 (Memref.isWhole_whole _) hwx3_9 hstage3_9

abbrev win3 : Fin 10 → Pipeline.Window sig grid3 := fun | 0 => win3_0 | 1 => win3_1 | 2 => win3_2 | 3 => win3_3 | 4 => win3_4 | 5 => win3_5 | 6 => win3_6 | 7 => win3_7 | 8 => win3_8 | 9 => win3_9 | ⟨_ + 10, h⟩ => absurd h (Nat.not_lt.2 (Nat.le_add_left _ _))
abbrev spec3 : Fin 10 → Pipeline.WinSpec sig grid3.rank := fun w => (win3 w).toWinSpec

abbrev win4_0 : Pipeline.Window sig grid4 :=
  Pipeline.Window.ofSpec (Memref.whole main_v47_0) S2048x10.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v49) S1x10.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v55) S1x10.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v18) S1x10.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v19) S1x10.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v56) S2048x10.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S32768x784 : Shape := ⟨2, ![32768, 784]⟩
abbrev S1024x784 : Shape := ⟨2, ![1024, 784]⟩
abbrev S1024 : Shape := ⟨1, ![1024]⟩
abbrev S1024x1024 : Shape := ⟨2, ![1024, 1024]⟩
abbrev S10x1024 : Shape := ⟨2, ![10, 1024]⟩
abbrev S10 : Shape := ⟨1, ![10]⟩
abbrev S784x1024 : Shape := ⟨2, ![784, 1024]⟩
abbrev S32768x1024 : Shape := ⟨2, ![32768, 1024]⟩
abbrev S1x1024 : Shape := ⟨2, ![1, 1024]⟩
abbrev S_ : Shape := ⟨0, ![]⟩
abbrev S1024x10 : Shape := ⟨2, ![1024, 10]⟩
abbrev S32768x10 : Shape := ⟨2, ![32768, 10]⟩
abbrev S1x10 : Shape := ⟨2, ![1, 10]⟩

abbrev nBuf : Space → Nat
  | .hbm => 202
  | .vmem => 0
  | .smem => 0
  | _ => 0

abbrev hbmTy0_0 (i : Nat) : BufTy := match i % 128 with
  | 0 => ⟨S32768x784, .f32⟩
  | 1 => ⟨S1024x784, .f32⟩
  | 2 => ⟨S1024, .f32⟩
  | 3 => ⟨S1024, .f32⟩
  | 4 => ⟨S1024, .f32⟩
  | 5 => ⟨S1024x1024, .f32⟩
  | 6 => ⟨S1024, .f32⟩
  | 7 => ⟨S1024, .f32⟩
  | 8 => ⟨S1024, .f32⟩
  | 9 => ⟨S1024x1024, .f32⟩
  | 10 => ⟨S1024, .f32⟩
  | 11 => ⟨S1024, .f32⟩
  | 12 => ⟨S1024, .f32⟩
  | 13 => ⟨S10x1024, .f32⟩
  | 14 => ⟨S10, .f32⟩
  | 15 => ⟨S10, .f32⟩
  | 16 => ⟨S10, .f32⟩
  | 17 => ⟨S1024x784, .f32⟩
  | 18 => ⟨S1024x784, .f32⟩
  | 19 => ⟨S1024x784, .f32⟩
  | 20 => ⟨S784x1024, .f32⟩
  | 21 => ⟨S32768x1024, .f32⟩
  | 22 => ⟨S1x1024, .f32⟩
  | 23 => ⟨S32768x1024, .f32⟩
  | 24 => ⟨S32768x1024, .f32⟩
  | 25 => ⟨S_, .f32⟩
  | 26 => ⟨S1024, .f32⟩
  | 27 => ⟨S_, .f32⟩
  | 28 => ⟨S1024, .f32⟩
  | 29 => ⟨S1024, .f32⟩
  | 30 => ⟨S1x1024, .f32⟩
  | 31 => ⟨S32768x1024, .f32⟩
  | 32 => ⟨S32768x1024, .f32⟩
  | 33 => ⟨S32768x1024, .f32⟩
  | 34 => ⟨S_, .f32⟩
  | 35 => ⟨S1024, .f32⟩
  | 36 => ⟨S_, .f32⟩
  | 37 => ⟨S1024, .f32⟩
  | 38 => ⟨S1024, .f32⟩
  | 39 => ⟨S1x1024, .f32⟩
  | 40 => ⟨S32768x1024, .f32⟩
  | 41 => ⟨S32768x1024, .f32⟩
  | 42 => ⟨S_, .f32⟩
  | 43 => ⟨S1024, .f32⟩
  | 44 => ⟨S1024, .f32⟩
  | 45 => ⟨S1024, .f32⟩
  | 46 => ⟨S1x1024, .f32⟩
  | 47 => ⟨S32768x1024, .f32⟩
  | 48 => ⟨S32768x1024, .f32⟩
  | 49 => ⟨S1x1024, .f32⟩
  | 50 => ⟨S32768x1024, .f32⟩
  | 51 => ⟨S32768x1024, .f32⟩
  | 52 => ⟨S1x1024, .f32⟩
  | 53 => ⟨S32768x1024, .f32⟩
  | 54 => ⟨S32768x1024, .f32⟩
  | 55 => ⟨S_, .f32⟩
  | 56 => ⟨S_, .f32⟩
  | 57 => ⟨S_, .f32⟩
  | 58 => ⟨S32768x1024, .f32⟩
  | 59 => ⟨S32768x1024, .f32⟩
  | 60 => ⟨S_, .f32⟩
  | 61 => ⟨S32768x1024, .f32⟩
  | 62 => ⟨S32768x1024, .f32⟩
  | 63 => ⟨S32768x1024, .f32⟩
  | 64 => ⟨S32768x1024, .f32⟩
  | 65 => ⟨S32768x1024, .f32⟩
  | 66 => ⟨S1024x1024, .f32⟩
  | 67 => ⟨S1024x1024, .f32⟩
  | 68 => ⟨S1024x1024, .f32⟩
  | 69 => ⟨S1024x1024, .f32⟩
  | 70 => ⟨S32768x1024, .f32⟩
  | 71 => ⟨S1x1024, .f32⟩
  | 72 => ⟨S32768x1024, .f32⟩
  | 73 => ⟨S32768x1024, .f32⟩
  | 74 => ⟨S_, .f32⟩
  | 75 => ⟨S1024, .f32⟩
  | 76 => ⟨S_, .f32⟩
  | 77 => ⟨S1024, .f32⟩
  | 78 => ⟨S1024, .f32⟩
  | 79 => ⟨S1x1024, .f32⟩
  | 80 => ⟨S32768x1024, .f32⟩
  | 81 => ⟨S32768x1024, .f32⟩
  | 82 => ⟨S32768x1024, .f32⟩
  | 83 => ⟨S_, .f32⟩
  | 84 => ⟨S1024, .f32⟩
  | 85 => ⟨S_, .f32⟩
  | 86 => ⟨S1024, .f32⟩
  | 87 => ⟨S1024, .f32⟩
  | 88 => ⟨S1x1024, .f32⟩
  | 89 => ⟨S32768x1024, .f32⟩
  | 90 => ⟨S32768x1024, .f32⟩
  | 91 => ⟨S_, .f32⟩
  | 92 => ⟨S1024, .f32⟩
  | 93 => ⟨S1024, .f32⟩
  | 94 => ⟨S1024, .f32⟩
  | 95 => ⟨S1x1024, .f32⟩
  | 96 => ⟨S32768x1024, .f32⟩
  | 97 => ⟨S32768x1024, .f32⟩
  | 98 => ⟨S1x1024, .f32⟩
  | 99 => ⟨S32768x1024, .f32⟩
  | 100 => ⟨S32768x1024, .f32⟩
  | 101 => ⟨S1x1024, .f32⟩
  | 102 => ⟨S32768x1024, .f32⟩
  | 103 => ⟨S32768x1024, .f32⟩
  | 104 => ⟨S_, .f32⟩
  | 105 => ⟨S_, .f32⟩
  | 106 => ⟨S_, .f32⟩
  | 107 => ⟨S32768x1024, .f32⟩
  | 108 => ⟨S32768x1024, .f32⟩
  | 109 => ⟨S_, .f32⟩
  | 110 => ⟨S32768x1024, .f32⟩
  | 111 => ⟨S32768x1024, .f32⟩
  | 112 => ⟨S32768x1024, .f32⟩
  | 113 => ⟨S32768x1024, .f32⟩
  | 114 => ⟨S32768x1024, .f32⟩
  | 115 => ⟨S1024x1024, .f32⟩
  | 116 => ⟨S1024x1024, .f32⟩
  | 117 => ⟨S1024x1024, .f32⟩
  | 118 => ⟨S1024x1024, .f32⟩
  | 119 => ⟨S32768x1024, .f32⟩
  | 120 => ⟨S1x1024, .f32⟩
  | 121 => ⟨S32768x1024, .f32⟩
  | 122 => ⟨S32768x1024, .f32⟩
  | 123 => ⟨S_, .f32⟩
  | 124 => ⟨S1024, .f32⟩
  | 125 => ⟨S_, .f32⟩
  | 126 => ⟨S1024, .f32⟩
  | 127 => ⟨S1024, .f32⟩
  | _ => ⟨S32768x784, .f32⟩

abbrev hbmTy0_1 (i : Nat) : BufTy := match i % 128 with
  | 0 => ⟨S1x1024, .f32⟩
  | 1 => ⟨S32768x1024, .f32⟩
  | 2 => ⟨S32768x1024, .f32⟩
  | 3 => ⟨S32768x1024, .f32⟩
  | 4 => ⟨S_, .f32⟩
  | 5 => ⟨S1024, .f32⟩
  | 6 => ⟨S_, .f32⟩
  | 7 => ⟨S1024, .f32⟩
  | 8 => ⟨S1024, .f32⟩
  | 9 => ⟨S1x1024, .f32⟩
  | 10 => ⟨S32768x1024, .f32⟩
  | 11 => ⟨S32768x1024, .f32⟩
  | 12 => ⟨S_, .f32⟩
  | 13 => ⟨S1024, .f32⟩
  | 14 => ⟨S1024, .f32⟩
  | 15 => ⟨S1024, .f32⟩
  | 16 => ⟨S1x1024, .f32⟩
  | 17 => ⟨S32768x1024, .f32⟩
  | 18 => ⟨S32768x1024, .f32⟩
  | 19 => ⟨S1x1024, .f32⟩
  | 20 => ⟨S32768x1024, .f32⟩
  | 21 => ⟨S32768x1024, .f32⟩
  | 22 => ⟨S1x1024, .f32⟩
  | 23 => ⟨S32768x1024, .f32⟩
  | 24 => ⟨S32768x1024, .f32⟩
  | 25 => ⟨S_, .f32⟩
  | 26 => ⟨S_, .f32⟩
  | 27 => ⟨S_, .f32⟩
  | 28 => ⟨S32768x1024, .f32⟩
  | 29 => ⟨S32768x1024, .f32⟩
  | 30 => ⟨S_, .f32⟩
  | 31 => ⟨S32768x1024, .f32⟩
  | 32 => ⟨S32768x1024, .f32⟩
  | 33 => ⟨S32768x1024, .f32⟩
  | 34 => ⟨S32768x1024, .f32⟩
  | 35 => ⟨S32768x1024, .f32⟩
  | 36 => ⟨S10x1024, .f32⟩
  | 37 => ⟨S10x1024, .f32⟩
  | 38 => ⟨S10x1024, .f32⟩
  | 39 => ⟨S1024x10, .f32⟩
  | 40 => ⟨S32768x10, .f32⟩
  | 41 => ⟨S1x10, .f32⟩
  | 42 => ⟨S32768x10, .f32⟩
  | 43 => ⟨S32768x10, .f32⟩
  | 44 => ⟨S_, .f32⟩
  | 45 => ⟨S10, .f32⟩
  | 46 => ⟨S_, .f32⟩
  | 47 => ⟨S10, .f32⟩
  | 48 => ⟨S10, .f32⟩
  | 49 => ⟨S1x10, .f32⟩
  | 50 => ⟨S32768x10, .f32⟩
  | 51 => ⟨S32768x10, .f32⟩
  | 52 => ⟨S32768x10, .f32⟩
  | 53 => ⟨S_, .f32⟩
  | 54 => ⟨S10, .f32⟩
  | 55 => ⟨S_, .f32⟩
  | 56 => ⟨S10, .f32⟩
  | 57 => ⟨S10, .f32⟩
  | 58 => ⟨S1x10, .f32⟩
  | 59 => ⟨S32768x10, .f32⟩
  | 60 => ⟨S32768x10, .f32⟩
  | 61 => ⟨S_, .f32⟩
  | 62 => ⟨S10, .f32⟩
  | 63 => ⟨S10, .f32⟩
  | 64 => ⟨S10, .f32⟩
  | 65 => ⟨S1x10, .f32⟩
  | 66 => ⟨S32768x10, .f32⟩
  | 67 => ⟨S32768x10, .f32⟩
  | 68 => ⟨S1x10, .f32⟩
  | 69 => ⟨S32768x10, .f32⟩
  | 70 => ⟨S32768x10, .f32⟩
  | 71 => ⟨S1x10, .f32⟩
  | 72 => ⟨S32768x10, .f32⟩
  | 73 => ⟨S32768x10, .f32⟩
  | _ => ⟨S32768x784, .f32⟩

abbrev hbmTy (i : Nat) : BufTy := match i / 128 with
  | 0 => hbmTy0_0 i
  | 1 => hbmTy0_1 i
  | _ => ⟨S32768x784, .f32⟩

abbrev bufTy : (tb : Table) → Fin (tcTables nBuf tb) → BufTy
  | .hbm, ⟨i, _⟩ => hbmTy i
  | _, _ => ⟨S32768x784, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst : Ref sig .tc := ⟨.hbm, 25, rfl⟩
abbrev main_v8 : Ref sig .tc := ⟨.hbm, 26, rfl⟩
abbrev main_cst_0 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_cst_1 : Ref sig .tc := ⟨.hbm, 34, rfl⟩
abbrev main_v15 : Ref sig .tc := ⟨.hbm, 35, rfl⟩
abbrev main_cst_2 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_cst_3 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_cst_4 : Ref sig .tc := ⟨.hbm, 55, rfl⟩
abbrev main_cst_5 : Ref sig .tc := ⟨.hbm, 56, rfl⟩
abbrev main_call0_v0 : Ref sig .tc := ⟨.hbm, 57, rfl⟩
abbrev main_call0_v1 : Ref sig .tc := ⟨.hbm, 58, rfl⟩
abbrev main_call0_v2 : Ref sig .tc := ⟨.hbm, 59, rfl⟩
abbrev main_call0_v3 : Ref sig .tc := ⟨.hbm, 60, rfl⟩
abbrev main_call0_v4 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_cst_6 : Ref sig .tc := ⟨.hbm, 74, rfl⟩
abbrev main_v45 : Ref sig .tc := ⟨.hbm, 75, rfl⟩
abbrev main_cst_7 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_cst_8 : Ref sig .tc := ⟨.hbm, 83, rfl⟩
abbrev main_v52 : Ref sig .tc := ⟨.hbm, 84, rfl⟩
abbrev main_cst_9 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_cst_10 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_cst_11 : Ref sig .tc := ⟨.hbm, 104, rfl⟩
abbrev main_cst_12 : Ref sig .tc := ⟨.hbm, 105, rfl⟩
abbrev main_call1_v0 : Ref sig .tc := ⟨.hbm, 106, rfl⟩
abbrev main_call1_v1 : Ref sig .tc := ⟨.hbm, 107, rfl⟩
abbrev main_call1_v2 : Ref sig .tc := ⟨.hbm, 108, rfl⟩
abbrev main_call1_v3 : Ref sig .tc := ⟨.hbm, 109, rfl⟩
abbrev main_call1_v4 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_cst_13 : Ref sig .tc := ⟨.hbm, 123, rfl⟩
abbrev main_v82 : Ref sig .tc := ⟨.hbm, 124, rfl⟩
abbrev main_cst_14 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_cst_15 : Ref sig .tc := ⟨.hbm, 132, rfl⟩
abbrev main_v89 : Ref sig .tc := ⟨.hbm, 133, rfl⟩
abbrev main_cst_16 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_cst_17 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_cst_18 : Ref sig .tc := ⟨.hbm, 153, rfl⟩
abbrev main_cst_19 : Ref sig .tc := ⟨.hbm, 154, rfl⟩
abbrev main_call2_v0 : Ref sig .tc := ⟨.hbm, 155, rfl⟩
abbrev main_call2_v1 : Ref sig .tc := ⟨.hbm, 156, rfl⟩
abbrev main_call2_v2 : Ref sig .tc := ⟨.hbm, 157, rfl⟩
abbrev main_call2_v3 : Ref sig .tc := ⟨.hbm, 158, rfl⟩
abbrev main_call2_v4 : Ref sig .tc := ⟨.hbm, 159, rfl⟩
abbrev main_v107 : Ref sig .tc := ⟨.hbm, 160, rfl⟩
abbrev main_v108 : Ref sig .tc := ⟨.hbm, 161, rfl⟩
abbrev main_v109 : Ref sig .tc := ⟨.hbm, 162, rfl⟩
abbrev main_v110 : Ref sig .tc := ⟨.hbm, 163, rfl⟩
abbrev main_v111 : Ref sig .tc := ⟨.hbm, 164, rfl⟩
abbrev main_v112 : Ref sig .tc := ⟨.hbm, 165, rfl⟩
abbrev main_v113 : Ref sig .tc := ⟨.hbm, 166, rfl⟩
abbrev main_v114 : Ref sig .tc := ⟨.hbm, 167, rfl⟩
abbrev main_v115 : Ref sig .tc := ⟨.hbm, 168, rfl⟩
abbrev main_v116 : Ref sig .tc := ⟨.hbm, 169, rfl⟩
abbrev main_v117 : Ref sig .tc := ⟨.hbm, 170, rfl⟩
abbrev main_v118 : Ref sig .tc := ⟨.hbm, 171, rfl⟩
abbrev main_cst_20 : Ref sig .tc := ⟨.hbm, 172, rfl⟩
abbrev main_v119 : Ref sig .tc := ⟨.hbm, 173, rfl⟩
abbrev main_cst_21 : Ref sig .tc := ⟨.hbm, 174, rfl⟩
abbrev main_v120 : Ref sig .tc := ⟨.hbm, 175, rfl⟩
abbrev main_v121 : Ref sig .tc := ⟨.hbm, 176, rfl⟩
abbrev main_v122 : Ref sig .tc := ⟨.hbm, 177, rfl⟩
abbrev main_v123 : Ref sig .tc := ⟨.hbm, 178, rfl⟩
abbrev main_v124 : Ref sig .tc := ⟨.hbm, 179, rfl⟩
abbrev main_v125 : Ref sig .tc := ⟨.hbm, 180, rfl⟩
abbrev main_cst_22 : Ref sig .tc := ⟨.hbm, 181, rfl⟩
abbrev main_v126 : Ref sig .tc := ⟨.hbm, 182, rfl⟩
abbrev main_cst_23 : Ref sig .tc := ⟨.hbm, 183, rfl⟩
abbrev main_v127 : Ref sig .tc := ⟨.hbm, 184, rfl⟩
abbrev main_v128 : Ref sig .tc := ⟨.hbm, 185, rfl⟩
abbrev main_v129 : Ref sig .tc := ⟨.hbm, 186, rfl⟩
abbrev main_v130 : Ref sig .tc := ⟨.hbm, 187, rfl⟩
abbrev main_v131 : Ref sig .tc := ⟨.hbm, 188, rfl⟩
abbrev main_cst_24 : Ref sig .tc := ⟨.hbm, 189, rfl⟩
abbrev main_v132 : Ref sig .tc := ⟨.hbm, 190, rfl⟩
abbrev main_v133 : Ref sig .tc := ⟨.hbm, 191, rfl⟩
abbrev main_v134 : Ref sig .tc := ⟨.hbm, 192, rfl⟩
abbrev main_v135 : Ref sig .tc := ⟨.hbm, 193, rfl⟩
abbrev main_v136 : Ref sig .tc := ⟨.hbm, 194, rfl⟩
abbrev main_v137 : Ref sig .tc := ⟨.hbm, 195, rfl⟩
abbrev main_v138 : Ref sig .tc := ⟨.hbm, 196, rfl⟩
abbrev main_v139 : Ref sig .tc := ⟨.hbm, 197, rfl⟩
abbrev main_v140 : Ref sig .tc := ⟨.hbm, 198, rfl⟩
abbrev main_v141 : Ref sig .tc := ⟨.hbm, 199, rfl⟩
abbrev main_v142 : Ref sig .tc := ⟨.hbm, 200, rfl⟩
abbrev main_v143 : Ref sig .tc := ⟨.hbm, 201, rfl⟩

abbrev nD : Nat := 1
abbrev τ : Topo := Topo.v7x

variable {F : FTy → Type} [FloatOps F]

class Facts₀ : Prop where
  transposes_S1024x784_S784x1024_1_0 : S1024x784.Transposes [1, 0] S784x1024
  bcast_S1024_S1x1024_1 : S1024.BroadcastsInDim S1x1024 (![1] : Fin 1 → Fin S1x1024.rank)
  bcast_S1x1024_S32768x1024_0_1 : S1x1024.BroadcastsInDim S32768x1024 (![0, 1] : Fin 2 → Fin S32768x1024.rank)
  reducesTo_S32768x1024_S1024_d0 : S32768x1024.ReducesTo [0] S1024
  h_S_ : 0 < S_.numel
  bcast_S_S1024 : S_.BroadcastsInDim S1024 (![] : Fin 0 → Fin S1024.rank)
  bcast_S_S32768x1024 : S_.BroadcastsInDim S32768x1024 (![] : Fin 0 → Fin S32768x1024.rank)
  transposes_S1024x1024_S1024x1024_1_0 : S1024x1024.Transposes [1, 0] S1024x1024
  transposes_S10x1024_S1024x10_1_0 : S10x1024.Transposes [1, 0] S1024x10
  bcast_S10_S1x10_1 : S10.BroadcastsInDim S1x10 (![1] : Fin 1 → Fin S1x10.rank)
  bcast_S1x10_S32768x10_0_1 : S1x10.BroadcastsInDim S32768x10 (![0, 1] : Fin 2 → Fin S32768x10.rank)
  reducesTo_S32768x10_S10_d0 : S32768x10.ReducesTo [0] S10
  bcast_S_S10 : S_.BroadcastsInDim S10 (![] : Fin 0 → Fin S10.rank)
  dot_S32768x784_S784x1024_S32768x1024_1_0_0_1_n_n_wf : DotDims.WF S32768x784 S784x1024 S32768x1024 [1] [0] [0] [1] [] []
  dot_S32768x1024_S1024x1024_S32768x1024_1_0_0_1_n_n_wf : DotDims.WF S32768x1024 S1024x1024 S32768x1024 [1] [0] [0] [1] [] []
  dot_S32768x1024_S1024x10_S32768x10_1_0_0_1_n_n_wf : DotDims.WF S32768x1024 S1024x10 S32768x10 [1] [0] [0] [1] [] []

variable [Facts₀]

def dot_S32768x784_S784x1024_S32768x1024_1_0_0_1_n_n : DotDims S32768x784 S784x1024 S32768x1024 where
  lhsContracting := [1]
  rhsContracting := [0]
  lhsNonContracting := [0]
  rhsNonContracting := [1]
  lhsBatch := []
  rhsBatch := []
  wf := dot_S32768x784_S784x1024_S32768x1024_1_0_0_1_n_n_wf
def dot_S32768x1024_S1024x1024_S32768x1024_1_0_0_1_n_n : DotDims S32768x1024 S1024x1024 S32768x1024 where
  lhsContracting := [1]
  rhsContracting := [0]
  lhsNonContracting := [0]
  rhsNonContracting := [1]
  lhsBatch := []
  rhsBatch := []
  wf := dot_S32768x1024_S1024x1024_S32768x1024_1_0_0_1_n_n_wf
def dot_S32768x1024_S1024x10_S32768x10_1_0_0_1_n_n : DotDims S32768x1024 S1024x10 S32768x10 where
  lhsContracting := [1]
  rhsContracting := [0]
  lhsNonContracting := [0]
  rhsNonContracting := [1]
  lhsBatch := []
  rhsBatch := []
  wf := dot_S32768x1024_S1024x10_S32768x10_1_0_0_1_n_n_wf

class Facts : Prop extends Facts₀ where

variable [Facts]
-- ==== Proof.KernelRun.lean ====
/-
  The tiled program's run, with its result named.

  @main is ten segments: five stretches of host operations and five kernel regions. Every weakly fair execution from a
  memory with zero counters terminates without a fault, and the final memory holds, at every unscoped buffer, the
  contents obtained by folding the segments over the launch memory: a host stretch applies its operations, a region
  replaces each of its output arrays by what its grid points wrote back and keeps every other buffer. The fold's last
  stage is `W10`; so the result buffer ends at `W10` read at that buffer, and the argument arrays end as launched.
-/
import proofs.«141082_j78245714199267_2_alg».proof.Proof.KernelIdealFrame

set_option maxRecDepth 16384

noncomputable section

namespace Cert.KernelValue

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting; the result buffer ends at the last stage of the
    fold through the segments, and every argument array ends as launched. -/
theorem run_result : θ_run defs (onTc (τ := τ) (main (F := F))) ⟨m, fun _ => 0, ρ⟩ (fun r => ∀ c : Dev nD,
      r.2.mem ((c.tc : Thread nD τ).loc main_v56) = W10 m ρ c (Proc.devRef .tc main_v56)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v56 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c),
       (h c _ (mem_uc main_arg11 (by decide))).trans (W10_main_arg11 m ρ c),
       (h c _ (mem_uc main_arg12 (by decide))).trans (W10_main_arg12 m ρ c),
       (h c _ (mem_uc main_arg13 (by decide))).trans (W10_main_arg13 m ρ c),
       (h c _ (mem_uc main_arg14 (by decide))).trans (W10_main_arg14 m ρ c),
       (h c _ (mem_uc main_arg15 (by decide))).trans (W10_main_arg15 m ρ c),
       (h c _ (mem_uc main_arg16 (by decide))).trans (W10_main_arg16 m ρ c)⟩)

end Cert.KernelValue

end
-- ==== Proof.Spec.lean ====
/-
  The network, layer by layer, as functions on extended reals.

  A layer takes activations `a r k` (row `r` of the batch, input feature `k`), a weight matrix `w j k` (output
  feature `j`) and a bias `b j` to `h r j = Σ_k a r k · w j k + b j`.  Batch normalisation of `h` uses, per output
  feature `j`, a mean and a variance taken over the rows, and sends `h r j` to
  `(h r j − mean j) · (var j + ε)^(-1/2) · g j + be j`.  The next layer's activations are the signs of these values.
  Everything is stated over arbitrary finite index types: the four layers differ only in their extents.
-/
import Idealize.ShloMosaic.PureOps.Ideal
import Idealize.ShloMosaic.PureOps.Ideal.Laws
import Idealize.ShloMosaic.Lib.ValueIdx

noncomputable section

namespace Cert.Spec

open Idealize.ShloMosaic
open scoped BigOperators

variable {ι κ ν : Type} [Fintype ι] [Fintype κ] [Fintype ν]

/-- The affine layer: `h r j = Σ_k a r k · w j k + b j`. -/
def lin (a : ι → κ → EReal) (w : ν → κ → EReal) (b : ν → EReal) : ι → ν → EReal :=
  fun r j => (∑ k, a r k * w j k) + b j

/-- The sum of a column over all rows. -/
def colsum (h : ι → ν → EReal) : ν → EReal := fun j => ∑ r, h r j

/-- The sum of a column's squares over all rows. -/
def colsumsq (h : ι → ν → EReal) : ν → EReal := fun j => ∑ r, h r j * h r j

/-- A column sum divided by the number of rows `n`. -/
def meanOf (n : EReal) (s : ν → EReal) : ν → EReal := fun j => Ideal.div (s j) n

/-- The one-pass variance: mean of squares minus squared mean, clamped below at zero. -/
def varOf (n : EReal) (sq mean : ν → EReal) : ν → EReal :=
  fun j => max (Ideal.div (sq j) n - mean j * mean j) 0

/-- Batch normalisation's affine map of `h`, given the per-column mean and variance. -/
def normed (eps : EReal) (h : ι → ν → EReal) (mean var g be : ν → EReal) : ι → ν → EReal :=
  fun r j => (h r j - mean j) * Ideal.rsqrt (var j + eps) * g j + be j

/-- The signs of the normalised values: the next layer's activations. -/
def signs (eps : EReal) (h : ι → ν → EReal) (mean var g be : ν → EReal) : ι → ν → EReal :=
  fun r j => Ideal.sign (normed eps h mean var g be r j)

/-! ### The same network as the plain program spells it -/

/-- Binarisation spelt with a detached correction: `z + (sign z − z)`. -/
def binz (z : EReal) : EReal := z + (Ideal.sign z - z)

/-- Clamping to `[lo, hi]`: `min hi (max lo z)`. -/
def clipz (lo hi z : EReal) : EReal := min hi (max lo z)

/-- The column mean as a fold from `z0` over the rows, divided by `n`. -/
def meanR (n z0 : EReal) (h : ι → ν → EReal) : ν → EReal := fun j => Ideal.div (z0 + ∑ r, h r j) n

/-- The two-pass variance: the mean of the squared deviations from `mu`. -/
def varR (n z0 : EReal) (h : ι → ν → EReal) (mu : ν → EReal) : ν → EReal :=
  fun j => Ideal.div (z0 + ∑ r, (h r j - mu j) * (h r j - mu j)) n

/-- The next layer's activations as the plain program computes them: clamp to `[lo, hi]`, then binarise. -/
def signsR (eps lo hi : EReal) (h : ι → ν → EReal) (mean var g be : ν → EReal) : ι → ν → EReal :=
  fun r j => binz (clipz lo hi (normed eps h mean var g be r j))

/-! ### Arrays of literal shape as functions of coordinates -/

/-- A rank-2 array as a function of its row and its column. -/
def cur2 {a b : ℕ} (X : (⟨2, ![a, b]⟩ : Shape).Idx → EReal) : Fin a → Fin b → EReal :=
  fun r k => X (ValueIdx.ix2 r k)

/-- A `[1, b]` array as a function of its column. -/
def row {b : ℕ} (X : (⟨2, ![1, b]⟩ : Shape).Idx → EReal) : Fin b → EReal :=
  fun j => X (ValueIdx.ix2 (0 : Fin 1) j)

/-- A rank-1 array as a function of its coordinate. -/
def vec1 {b : ℕ} (X : (⟨1, ![b]⟩ : Shape).Idx → EReal) : Fin b → EReal :=
  fun j => X (ValueIdx.ix1 j)

theorem cur2_apply {a b : ℕ} (X : (⟨2, ![a, b]⟩ : Shape).Idx → EReal) (r : Fin a) (k : Fin b) :
    cur2 X r k = X (ValueIdx.ix2 r k) := rfl

theorem row_apply {b : ℕ} (X : (⟨2, ![1, b]⟩ : Shape).Idx → EReal) (j : Fin b) :
    row X j = X (ValueIdx.ix2 (0 : Fin 1) j) := rfl

theorem vec1_apply {b : ℕ} (X : (⟨1, ![b]⟩ : Shape).Idx → EReal) (j : Fin b) :
    vec1 X j = X (ValueIdx.ix1 j) := rfl

end Cert.Spec

end
-- ==== Proof.Net.lean ====
/-
  The whole network, twice: once as the tiled program computes it (one-pass statistics, signs taken directly,
  weights binarised by `sign`), once as the plain program spells it (two-pass statistics, clamp then binarise with a
  detached correction, weights binarised the same way).  Both are compositions of the pieces of `Spec`; the four layers
  have input widths `κ0 … κ3` and output widths `κ1 … κ4`, over a batch `ι`.
-/
import proofs.«141082_j78245714199267_2_alg».proof.Proof.Spec

noncomputable section

namespace Cert.Net

open Cert.Spec Idealize.ShloMosaic

variable {ι κ0 κ1 κ2 κ3 κ4 : Type} [Fintype ι] [Fintype κ0] [Fintype κ1] [Fintype κ2] [Fintype κ3] [Fintype κ4]

/-- Weights binarised by their sign. -/
def wsign {ν κ : Type} (w : ν → κ → EReal) : ν → κ → EReal := fun j k => Ideal.sign (w j k)

/-- Weights binarised with the detached correction. -/
def wbin {ν κ : Type} (w : ν → κ → EReal) : ν → κ → EReal := fun j k => binz (w j k)

section Tiled
variable (n eps : EReal)

/-- One layer of the tiled program after its matmul: the statistics of `h` in one pass. -/
def kMean {ν : Type} (h : ι → ν → EReal) : ν → EReal := meanOf n (colsum h)
def kVar {ν : Type} (h : ι → ν → EReal) : ν → EReal := varOf n (colsumsq h) (kMean n h)

/-- The next activations of the tiled program. -/
def kAct {ν : Type} (h : ι → ν → EReal) (g be : ν → EReal) : ι → ν → EReal :=
  signs eps h (kMean n h) (kVar n h) g be

variable (x : ι → κ0 → EReal)
  (w1 : κ1 → κ0 → EReal) (b1 g1 be1 : κ1 → EReal) (w2 : κ2 → κ1 → EReal) (b2 g2 be2 : κ2 → EReal)
  (w3 : κ3 → κ2 → EReal) (b3 g3 be3 : κ3 → EReal) (w4 : κ4 → κ3 → EReal) (b4 g4 be4 : κ4 → EReal)

def kH1 : ι → κ1 → EReal := lin x (wsign w1) b1
def kH2 : ι → κ2 → EReal := lin (kAct n eps (kH1 x w1 b1) g1 be1) (wsign w2) b2
def kH3 : ι → κ3 → EReal := lin (kAct n eps (kH2 n eps x w1 b1 g1 be1 w2 b2) g2 be2) (wsign w3) b3
def kH4 : ι → κ4 → EReal := lin (kAct n eps (kH3 n eps x w1 b1 g1 be1 w2 b2 g2 be2 w3 b3) g3 be3) (wsign w4) b4

/-- The tiled program's result. -/
def kNet : ι → κ4 → EReal :=
  normed eps (kH4 n eps x w1 b1 g1 be1 w2 b2 g2 be2 w3 b3 g3 be3 w4 b4)
    (kMean n (kH4 n eps x w1 b1 g1 be1 w2 b2 g2 be2 w3 b3 g3 be3 w4 b4))
    (kVar n (kH4 n eps x w1 b1 g1 be1 w2 b2 g2 be2 w3 b3 g3 be3 w4 b4)) g4 be4
end Tiled

section Plain
variable (n z0 eps lo hi : EReal)

def rMean {ν : Type} (h : ι → ν → EReal) : ν → EReal := meanR n z0 h
def rVar {ν : Type} (h : ι → ν → EReal) : ν → EReal := varR n z0 h (rMean n z0 h)

/-- The next activations of the plain program. -/
def rAct {ν : Type} (h : ι → ν → EReal) (g be : ν → EReal) : ι → ν → EReal :=
  signsR eps lo hi h (rMean n z0 h) (rVar n z0 h) g be

variable (x : ι → κ0 → EReal)
  (w1 : κ1 → κ0 → EReal) (b1 g1 be1 : κ1 → EReal) (w2 : κ2 → κ1 → EReal) (b2 g2 be2 : κ2 → EReal)
  (w3 : κ3 → κ2 → EReal) (b3 g3 be3 : κ3 → EReal) (w4 : κ4 → κ3 → EReal) (b4 g4 be4 : κ4 → EReal)

def rH1 : ι → κ1 → EReal := lin x (wbin w1) b1
def rH2 : ι → κ2 → EReal := lin (rAct n z0 eps lo hi (rH1 x w1 b1) g1 be1) (wbin w2) b2
def rH3 : ι → κ3 → EReal := lin (rAct n z0 eps lo hi (rH2 n z0 eps lo hi x w1 b1 g1 be1 w2 b2) g2 be2) (wbin w3) b3
def rH4 : ι → κ4 → EReal :=
  lin (rAct n z0 eps lo hi (rH3 n z0 eps lo hi x w1 b1 g1 be1 w2 b2 g2 be2 w3 b3) g3 be3) (wbin w4) b4

/-- The plain program's result. -/
def refNet : ι → κ4 → EReal :=
  normed eps (rH4 n z0 eps lo hi x w1 b1 g1 be1 w2 b2 g2 be2 w3 b3 g3 be3 w4 b4)
    (rMean n z0 (rH4 n z0 eps lo hi x w1 b1 g1 be1 w2 b2 g2 be2 w3 b3 g3 be3 w4 b4))
    (rVar n z0 (rH4 n z0 eps lo hi x w1 b1 g1 be1 w2 b2 g2 be2 w3 b3 g3 be3 w4 b4)) g4 be4
end Plain

end Cert.Net

end
-- ==== Proof.Consts.lean ====
/-
  The float literals both programs spell, as the extended reals their bit patterns denote: the row count 32768.0,
  zero, and the clamp's bounds -1.0 and 1.0.
-/
import Idealize.ShloMosaic.PureOps.Ideal
import Idealize.ShloMosaic.PureOps.Ideal.Laws
import Idealize.ShloMosaic.PureOps.IdealRules

noncomputable section

namespace Cert.Consts

open Idealize.ShloMosaic

/-- `32768.0` denotes the real 32768. -/
theorem ofBits_rows : Ideal.ofBits .f32 0x47000000#32 = ((32768 : ℝ) : EReal) := by
  simp [Ideal.ofBits, Ideal.ieee, -EReal.coe_mul]; norm_num

/-- `0.0` denotes 0. -/
theorem ofBits_zero : Ideal.ofBits .f32 0x00000000#32 = 0 := Ideal.ofBits_zero_f32

/-- `-1.0` denotes -1. -/
theorem ofBits_neg_one : Ideal.ofBits .f32 0xBF800000#32 = -1 := IdealRules.sign_bit.ideal_negOnePat .f32

/-- `1.0` denotes 1. -/
theorem ofBits_one : Ideal.ofBits .f32 0x3F800000#32 = 1 := IdealRules.sign_bit.ideal_onePat .f32

end Cert.Consts

end
-- ==== Proof.HostReads.lean ====
/-
  The host operations of the tiled program between its five regions, read at an index.

  Before the first region the program takes the sign of every entry of the four weight matrices and lays each of the
  twelve bias, scale and shift vectors out as a one-row matrix.  After each of the first four regions it turns the two
  rows of column sums the region accumulated, Σ_r h r j and Σ_r (h r j)², into the row of means Σ_r h r j / 32768 and the
  row of variances max (Σ_r (h r j)² / 32768 − mean j · mean j, 0) that the next region normalises with.  Nothing else
  is written between the regions: the prepared weights and rows, and each region's activations, reach the region that
  reads them as they were made.
-/
import proofs.«141082_j78245714199267_2_alg».proof.Proof.KernelIdealFrame
import proofs.«141082_j78245714199267_2_alg».proof.Proof.Consts
import Idealize.ShloMosaic.Lib.ValueLayout
import Idealize.ShloMosaic.Lib.StableHlo.Run
import Idealize.ShloMosaic.Lib.Pipeline.Value

noncomputable section

namespace Cert.KernelValue

open Cert.KernelIdeal Cert.KernelIdeal.Gen Cert.KernelIdeal.GenP Idealize.ShloMosaic Idealize.ShloMosaic.ValueIdx Idealize.ShloMosaic.StableHlo
open Idealize.ShloMosaic.TcCoe Idealize.SL.Sem

/-! ### The stretches of host operations, each read from arbitrary contents V

The first stretch takes the signs of the four weight matrices (then changes their format, which is the identity on
extended reals) and recasts each of the twelve vectors of length n as a [1, n] row.  Each later stretch divides the two
rows of column sums a region left by the row count 32768, and forms from them the mean and the variance
max (sumsq / 32768 − mean · mean, 0); it writes nothing else, so every other array passes it unchanged. -/

section Stretch
variable (V : Valuation τ sig (Elt Ideal))

/-- The host quotient of two arrays, read at an index. -/
theorem hostDivf_apply {s : Shape} (a b : FVec Ideal s .f32) (i : s.Idx) : Host.divf a b i = Ideal.div (a i) (b i) := rfl

/-- A scalar literal broadcast to a [1, 1024] row reads as the literal at every index. -/
theorem bc1024 (w : BitVec 32) (i : S1x1024.Idx) :
    broadcastInDim S1x1024 ![] bcast_S_S1x1024 (constant (F := Ideal) S_ .f32 w) i = Ideal.ofBits .f32 w :=
  broadcastInDim_apply _ bcast_S_S1x1024 _ i ix0 (fun a => a.elim0)

/-- A scalar literal broadcast to a [1, 10] row reads as the literal at every index. -/
theorem bc10 (w : BitVec 32) (i : S1x10.Idx) :
    broadcastInDim S1x10 ![] bcast_S_S1x10 (constant (F := Ideal) S_ .f32 w) i = Ideal.ofBits .f32 w :=
  broadcastInDim_apply _ bcast_S_S1x10 _ i ix0 (fun a => a.elim0)

/-- The first stretch writes no argument array. -/
theorem s0_arg0 : StableHlo.after hostOps0 V (Proc.devRef .tc main_arg0) = V (Proc.devRef .tc main_arg0) := by
  after_results

/-- After the first stretch v1 holds the signs of arg1's entries. -/
theorem s0_v1 (j : Fin 1024) (k : Fin 784) :
    StableHlo.after hostOps0 V (Proc.devRef .tc main_v1) (ix2 j k) = Ideal.sign (V (Proc.devRef .tc main_arg1) (ix2 j k)) := by
  after_results
  rfl

/-- After the first stretch v3 holds the signs of arg5's entries. -/
theorem s0_v3 (j : Fin 1024) (k : Fin 1024) :
    StableHlo.after hostOps0 V (Proc.devRef .tc main_v3) (ix2 j k) = Ideal.sign (V (Proc.devRef .tc main_arg5) (ix2 j k)) := by
  after_results
  rfl

/-- After the first stretch v5 holds the signs of arg9's entries. -/
theorem s0_v5 (j : Fin 1024) (k : Fin 1024) :
    StableHlo.after hostOps0 V (Proc.devRef .tc main_v5) (ix2 j k) = Ideal.sign (V (Proc.devRef .tc main_arg9) (ix2 j k)) := by
  after_results
  rfl

/-- After the first stretch v7 holds the signs of arg13's entries. -/
theorem s0_v7 (j : Fin 10) (k : Fin 1024) :
    StableHlo.after hostOps0 V (Proc.devRef .tc main_v7) (ix2 j k) = Ideal.sign (V (Proc.devRef .tc main_arg13) (ix2 j k)) := by
  after_results
  rfl

/-- After the first stretch v8 is arg2 as a [1, 1024] row. -/
theorem s0_v8 (j : Fin 1024) :
    StableHlo.after hostOps0 V (Proc.devRef .tc main_v8) (ix2 (0 : Fin 1) j) = V (Proc.devRef .tc main_arg2) (ix1 j) := by
  after_results
  exact shapeCast_a_1a_apply _ _ _ _

/-- After the first stretch v9 is arg3 as a [1, 1024] row. -/
theorem s0_v9 (j : Fin 1024) :
    StableHlo.after hostOps0 V (Proc.devRef .tc main_v9) (ix2 (0 : Fin 1) j) = V (Proc.devRef .tc main_arg3) (ix1 j) := by
  after_results
  exact shapeCast_a_1a_apply _ _ _ _

/-- After the first stretch v10 is arg4 as a [1, 1024] row. -/
theorem s0_v10 (j : Fin 1024) :
    StableHlo.after hostOps0 V (Proc.devRef .tc main_v10) (ix2 (0 : Fin 1) j) = V (Proc.devRef .tc main_arg4) (ix1 j) := by
  after_results
  exact shapeCast_a_1a_apply _ _ _ _

/-- After the first stretch v11 is arg6 as a [1, 1024] row. -/
theorem s0_v11 (j : Fin 1024) :
    StableHlo.after hostOps0 V (Proc.devRef .tc main_v11) (ix2 (0 : Fin 1) j) = V (Proc.devRef .tc main_arg6) (ix1 j) := by
  after_results
  exact shapeCast_a_1a_apply _ _ _ _

/-- After the first stretch v12 is arg7 as a [1, 1024] row. -/
theorem s0_v12 (j : Fin 1024) :
    StableHlo.after hostOps0 V (Proc.devRef .tc main_v12) (ix2 (0 : Fin 1) j) = V (Proc.devRef .tc main_arg7) (ix1 j) := by
  after_results
  exact shapeCast_a_1a_apply _ _ _ _

/-- After the first stretch v13 is arg8 as a [1, 1024] row. -/
theorem s0_v13 (j : Fin 1024) :
    StableHlo.after hostOps0 V (Proc.devRef .tc main_v13) (ix2 (0 : Fin 1) j) = V (Proc.devRef .tc main_arg8) (ix1 j) := by
  after_results
  exact shapeCast_a_1a_apply _ _ _ _

/-- After the first stretch v14 is arg10 as a [1, 1024] row. -/
theorem s0_v14 (j : Fin 1024) :
    StableHlo.after hostOps0 V (Proc.devRef .tc main_v14) (ix2 (0 : Fin 1) j) = V (Proc.devRef .tc main_arg10) (ix1 j) := by
  after_results
  exact shapeCast_a_1a_apply _ _ _ _

/-- After the first stretch v15 is arg11 as a [1, 1024] row. -/
theorem s0_v15 (j : Fin 1024) :
    StableHlo.after hostOps0 V (Proc.devRef .tc main_v15) (ix2 (0 : Fin 1) j) = V (Proc.devRef .tc main_arg11) (ix1 j) := by
  after_results
  exact shapeCast_a_1a_apply _ _ _ _

/-- After the first stretch v16 is arg12 as a [1, 1024] row. -/
theorem s0_v16 (j : Fin 1024) :
    StableHlo.after hostOps0 V (Proc.devRef .tc main_v16) (ix2 (0 : Fin 1) j) = V (Proc.devRef .tc main_arg12) (ix1 j) := by
  after_results
  exact shapeCast_a_1a_apply _ _ _ _

/-- After the first stretch v17 is arg14 as a [1, 10] row. -/
theorem s0_v17 (j : Fin 10) :
    StableHlo.after hostOps0 V (Proc.devRef .tc main_v17) (ix2 (0 : Fin 1) j) = V (Proc.devRef .tc main_arg14) (ix1 j) := by
  after_results
  exact shapeCast_a_1a_apply _ _ _ _

/-- After the first stretch v18 is arg15 as a [1, 10] row. -/
theorem s0_v18 (j : Fin 10) :
    StableHlo.after hostOps0 V (Proc.devRef .tc main_v18) (ix2 (0 : Fin 1) j) = V (Proc.devRef .tc main_arg15) (ix1 j) := by
  after_results
  exact shapeCast_a_1a_apply _ _ _ _

/-- After the first stretch v19 is arg16 as a [1, 10] row. -/
theorem s0_v19 (j : Fin 10) :
    StableHlo.after hostOps0 V (Proc.devRef .tc main_v19) (ix2 (0 : Fin 1) j) = V (Proc.devRef .tc main_arg16) (ix1 j) := by
  after_results
  exact shapeCast_a_1a_apply _ _ _ _

/-- Stretch 1: the mean row is the row of column sums divided by the row count. -/
theorem s1_mean (j : Fin 1024) :
    StableHlo.after hostOps1 V (Proc.devRef .tc main_v22) (ix2 (0 : Fin 1) j) = Ideal.div (V (Proc.devRef .tc main_v20_1) (ix2 (0 : Fin 1) j)) (Ideal.ofBits .f32 0x47000000#32) := by
  after_results
  rw [hostDivf_apply, bc1024]

/-- Stretch 1: the variance row is the mean of squares minus the squared mean, clamped below at zero. -/
theorem s1_var (j : Fin 1024) :
    StableHlo.after hostOps1 V (Proc.devRef .tc main_v28) (ix2 (0 : Fin 1) j)
      = max (Ideal.div (V (Proc.devRef .tc main_v20_2) (ix2 (0 : Fin 1) j)) (Ideal.ofBits .f32 0x47000000#32)
          - Ideal.div (V (Proc.devRef .tc main_v20_1) (ix2 (0 : Fin 1) j)) (Ideal.ofBits .f32 0x47000000#32)
            * Ideal.div (V (Proc.devRef .tc main_v20_1) (ix2 (0 : Fin 1) j)) (Ideal.ofBits .f32 0x47000000#32)) 0 := by
  after_results
  rw [maximumf_apply, subf_apply, mulf_apply, hostDivf_apply, hostDivf_apply, bc1024, bc1024, Cert.Consts.ofBits_zero]

/-- Stretch 1 does not write the activations the region before it left. -/
theorem s1_pass : StableHlo.after hostOps1 V (Proc.devRef .tc main_v20_0) = V (Proc.devRef .tc main_v20_0) := by
  after_results

theorem s1_keep_v9 : StableHlo.after hostOps1 V (Proc.devRef .tc main_v9) = V (Proc.devRef .tc main_v9) := by
  after_results

theorem s1_keep_v10 : StableHlo.after hostOps1 V (Proc.devRef .tc main_v10) = V (Proc.devRef .tc main_v10) := by
  after_results

theorem s1_keep_v3 : StableHlo.after hostOps1 V (Proc.devRef .tc main_v3) = V (Proc.devRef .tc main_v3) := by
  after_results

theorem s1_keep_v11 : StableHlo.after hostOps1 V (Proc.devRef .tc main_v11) = V (Proc.devRef .tc main_v11) := by
  after_results

theorem s1_keep_v12 : StableHlo.after hostOps1 V (Proc.devRef .tc main_v12) = V (Proc.devRef .tc main_v12) := by
  after_results

theorem s1_keep_v13 : StableHlo.after hostOps1 V (Proc.devRef .tc main_v13) = V (Proc.devRef .tc main_v13) := by
  after_results

theorem s1_keep_v5 : StableHlo.after hostOps1 V (Proc.devRef .tc main_v5) = V (Proc.devRef .tc main_v5) := by
  after_results

theorem s1_keep_v14 : StableHlo.after hostOps1 V (Proc.devRef .tc main_v14) = V (Proc.devRef .tc main_v14) := by
  after_results

theorem s1_keep_v15 : StableHlo.after hostOps1 V (Proc.devRef .tc main_v15) = V (Proc.devRef .tc main_v15) := by
  after_results

theorem s1_keep_v16 : StableHlo.after hostOps1 V (Proc.devRef .tc main_v16) = V (Proc.devRef .tc main_v16) := by
  after_results

theorem s1_keep_v7 : StableHlo.after hostOps1 V (Proc.devRef .tc main_v7) = V (Proc.devRef .tc main_v7) := by
  after_results

theorem s1_keep_v17 : StableHlo.after hostOps1 V (Proc.devRef .tc main_v17) = V (Proc.devRef .tc main_v17) := by
  after_results

theorem s1_keep_v18 : StableHlo.after hostOps1 V (Proc.devRef .tc main_v18) = V (Proc.devRef .tc main_v18) := by
  after_results

theorem s1_keep_v19 : StableHlo.after hostOps1 V (Proc.devRef .tc main_v19) = V (Proc.devRef .tc main_v19) := by
  after_results

/-- Stretch 2: the mean row is the row of column sums divided by the row count. -/
theorem s2_mean (j : Fin 1024) :
    StableHlo.after hostOps2 V (Proc.devRef .tc main_v31) (ix2 (0 : Fin 1) j) = Ideal.div (V (Proc.devRef .tc main_v29_1) (ix2 (0 : Fin 1) j)) (Ideal.ofBits .f32 0x47000000#32) := by
  after_results
  rw [hostDivf_apply, bc1024]

/-- Stretch 2: the variance row is the mean of squares minus the squared mean, clamped below at zero. -/
theorem s2_var (j : Fin 1024) :
    StableHlo.after hostOps2 V (Proc.devRef .tc main_v37) (ix2 (0 : Fin 1) j)
      = max (Ideal.div (V (Proc.devRef .tc main_v29_2) (ix2 (0 : Fin 1) j)) (Ideal.ofBits .f32 0x47000000#32)
          - Ideal.div (V (Proc.devRef .tc main_v29_1) (ix2 (0 : Fin 1) j)) (Ideal.ofBits .f32 0x47000000#32)
            * Ideal.div (V (Proc.devRef .tc main_v29_1) (ix2 (0 : Fin 1) j)) (Ideal.ofBits .f32 0x47000000#32)) 0 := by
  after_results
  rw [maximumf_apply, subf_apply, mulf_apply, hostDivf_apply, hostDivf_apply, bc1024, bc1024, Cert.Consts.ofBits_zero]

/-- Stretch 2 does not write the activations the region before it left. -/
theorem s2_pass : StableHlo.after hostOps2 V (Proc.devRef .tc main_v29_0) = V (Proc.devRef .tc main_v29_0) := by
  after_results

theorem s2_keep_v12 : StableHlo.after hostOps2 V (Proc.devRef .tc main_v12) = V (Proc.devRef .tc main_v12) := by
  after_results

theorem s2_keep_v13 : StableHlo.after hostOps2 V (Proc.devRef .tc main_v13) = V (Proc.devRef .tc main_v13) := by
  after_results

theorem s2_keep_v5 : StableHlo.after hostOps2 V (Proc.devRef .tc main_v5) = V (Proc.devRef .tc main_v5) := by
  after_results

theorem s2_keep_v14 : StableHlo.after hostOps2 V (Proc.devRef .tc main_v14) = V (Proc.devRef .tc main_v14) := by
  after_results

theorem s2_keep_v15 : StableHlo.after hostOps2 V (Proc.devRef .tc main_v15) = V (Proc.devRef .tc main_v15) := by
  after_results

theorem s2_keep_v16 : StableHlo.after hostOps2 V (Proc.devRef .tc main_v16) = V (Proc.devRef .tc main_v16) := by
  after_results

theorem s2_keep_v7 : StableHlo.after hostOps2 V (Proc.devRef .tc main_v7) = V (Proc.devRef .tc main_v7) := by
  after_results

theorem s2_keep_v17 : StableHlo.after hostOps2 V (Proc.devRef .tc main_v17) = V (Proc.devRef .tc main_v17) := by
  after_results

theorem s2_keep_v18 : StableHlo.after hostOps2 V (Proc.devRef .tc main_v18) = V (Proc.devRef .tc main_v18) := by
  after_results

theorem s2_keep_v19 : StableHlo.after hostOps2 V (Proc.devRef .tc main_v19) = V (Proc.devRef .tc main_v19) := by
  after_results

/-- Stretch 3: the mean row is the row of column sums divided by the row count. -/
theorem s3_mean (j : Fin 1024) :
    StableHlo.after hostOps3 V (Proc.devRef .tc main_v40) (ix2 (0 : Fin 1) j) = Ideal.div (V (Proc.devRef .tc main_v38_1) (ix2 (0 : Fin 1) j)) (Ideal.ofBits .f32 0x47000000#32) := by
  after_results
  rw [hostDivf_apply, bc1024]

/-- Stretch 3: the variance row is the mean of squares minus the squared mean, clamped below at zero. -/
theorem s3_var (j : Fin 1024) :
    StableHlo.after hostOps3 V (Proc.devRef .tc main_v46) (ix2 (0 : Fin 1) j)
      = max (Ideal.div (V (Proc.devRef .tc main_v38_2) (ix2 (0 : Fin 1) j)) (Ideal.ofBits .f32 0x47000000#32)
          - Ideal.div (V (Proc.devRef .tc main_v38_1) (ix2 (0 : Fin 1) j)) (Ideal.ofBits .f32 0x47000000#32)
            * Ideal.div (V (Proc.devRef .tc main_v38_1) (ix2 (0 : Fin 1) j)) (Ideal.ofBits .f32 0x47000000#32)) 0 := by
  after_results
  rw [maximumf_apply, subf_apply, mulf_apply, hostDivf_apply, hostDivf_apply, bc1024, bc1024, Cert.Consts.ofBits_zero]

/-- Stretch 3 does not write the activations the region before it left. -/
theorem s3_pass : StableHlo.after hostOps3 V (Proc.devRef .tc main_v38_0) = V (Proc.devRef .tc main_v38_0) := by
  after_results

theorem s3_keep_v15 : StableHlo.after hostOps3 V (Proc.devRef .tc main_v15) = V (Proc.devRef .tc main_v15) := by
  after_results

theorem s3_keep_v16 : StableHlo.after hostOps3 V (Proc.devRef .tc main_v16) = V (Proc.devRef .tc main_v16) := by
  after_results

theorem s3_keep_v7 : StableHlo.after hostOps3 V (Proc.devRef .tc main_v7) = V (Proc.devRef .tc main_v7) := by
  after_results

theorem s3_keep_v17 : StableHlo.after hostOps3 V (Proc.devRef .tc main_v17) = V (Proc.devRef .tc main_v17) := by
  after_results

theorem s3_keep_v18 : StableHlo.after hostOps3 V (Proc.devRef .tc main_v18) = V (Proc.devRef .tc main_v18) := by
  after_results

theorem s3_keep_v19 : StableHlo.after hostOps3 V (Proc.devRef .tc main_v19) = V (Proc.devRef .tc main_v19) := by
  after_results

/-- Stretch 4: the mean row is the row of column sums divided by the row count. -/
theorem s4_mean (j : Fin 10) :
    StableHlo.after hostOps4 V (Proc.devRef .tc main_v49) (ix2 (0 : Fin 1) j) = Ideal.div (V (Proc.devRef .tc main_v47_1) (ix2 (0 : Fin 1) j)) (Ideal.ofBits .f32 0x47000000#32) := by
  after_results
  rw [hostDivf_apply, bc10]

/-- Stretch 4: the variance row is the mean of squares minus the squared mean, clamped below at zero. -/
theorem s4_var (j : Fin 10) :
    StableHlo.after hostOps4 V (Proc.devRef .tc main_v55) (ix2 (0 : Fin 1) j)
      = max (Ideal.div (V (Proc.devRef .tc main_v47_2) (ix2 (0 : Fin 1) j)) (Ideal.ofBits .f32 0x47000000#32)
          - Ideal.div (V (Proc.devRef .tc main_v47_1) (ix2 (0 : Fin 1) j)) (Ideal.ofBits .f32 0x47000000#32)
            * Ideal.div (V (Proc.devRef .tc main_v47_1) (ix2 (0 : Fin 1) j)) (Ideal.ofBits .f32 0x47000000#32)) 0 := by
  after_results
  rw [maximumf_apply, subf_apply, mulf_apply, hostDivf_apply, hostDivf_apply, bc10, bc10, Cert.Consts.ofBits_zero]

/-- Stretch 4 does not write the activations the region before it left. -/
theorem s4_pass : StableHlo.after hostOps4 V (Proc.devRef .tc main_v47_0) = V (Proc.devRef .tc main_v47_0) := by
  after_results

theorem s4_keep_v18 : StableHlo.after hostOps4 V (Proc.devRef .tc main_v18) = V (Proc.devRef .tc main_v18) := by
  after_results

theorem s4_keep_v19 : StableHlo.after hostOps4 V (Proc.devRef .tc main_v19) = V (Proc.devRef .tc main_v19) := by
  after_results

end Stretch

/-! ### The same facts at the contents the program's run passes through

W1 is the contents after the first stretch from the launch memory m; W2, W4, W6, W8 are the contents at the exit of
regions 0 to 3 and W3, W5, W7, W9 the contents after the stretch that follows each.  A region rewrites only its own
arrays, so an array that is none of them crosses the region unchanged. -/

variable (m : (ℓ : Loc nD τ sig) → Buf (Elt Ideal) ℓ) (ρ : Dev nD → PrngReg) (c : Dev nD)

theorem W1_arg0 : W1 m ρ c (Proc.devRef .tc main_arg0) = m ((c.tc : Thread nD τ).loc main_arg0) :=
  s0_arg0 (W0 m ρ c)

theorem W1_v1 (j : Fin 1024) (k : Fin 784) :
    W1 m ρ c (Proc.devRef .tc main_v1) (ix2 j k) = Ideal.sign (m ((c.tc : Thread nD τ).loc main_arg1) (ix2 j k)) :=
  s0_v1 (W0 m ρ c) j k

theorem W1_v3 (j : Fin 1024) (k : Fin 1024) :
    W1 m ρ c (Proc.devRef .tc main_v3) (ix2 j k) = Ideal.sign (m ((c.tc : Thread nD τ).loc main_arg5) (ix2 j k)) :=
  s0_v3 (W0 m ρ c) j k

theorem W1_v5 (j : Fin 1024) (k : Fin 1024) :
    W1 m ρ c (Proc.devRef .tc main_v5) (ix2 j k) = Ideal.sign (m ((c.tc : Thread nD τ).loc main_arg9) (ix2 j k)) :=
  s0_v5 (W0 m ρ c) j k

theorem W1_v7 (j : Fin 10) (k : Fin 1024) :
    W1 m ρ c (Proc.devRef .tc main_v7) (ix2 j k) = Ideal.sign (m ((c.tc : Thread nD τ).loc main_arg13) (ix2 j k)) :=
  s0_v7 (W0 m ρ c) j k

theorem W1_v8 (j : Fin 1024) :
    W1 m ρ c (Proc.devRef .tc main_v8) (ix2 (0 : Fin 1) j) = m ((c.tc : Thread nD τ).loc main_arg2) (ix1 j) :=
  s0_v8 (W0 m ρ c) j

theorem W1_v9 (j : Fin 1024) :
    W1 m ρ c (Proc.devRef .tc main_v9) (ix2 (0 : Fin 1) j) = m ((c.tc : Thread nD τ).loc main_arg3) (ix1 j) :=
  s0_v9 (W0 m ρ c) j

theorem W1_v10 (j : Fin 1024) :
    W1 m ρ c (Proc.devRef .tc main_v10) (ix2 (0 : Fin 1) j) = m ((c.tc : Thread nD τ).loc main_arg4) (ix1 j) :=
  s0_v10 (W0 m ρ c) j

theorem W1_v11 (j : Fin 1024) :
    W1 m ρ c (Proc.devRef .tc main_v11) (ix2 (0 : Fin 1) j) = m ((c.tc : Thread nD τ).loc main_arg6) (ix1 j) :=
  s0_v11 (W0 m ρ c) j

theorem W1_v12 (j : Fin 1024) :
    W1 m ρ c (Proc.devRef .tc main_v12) (ix2 (0 : Fin 1) j) = m ((c.tc : Thread nD τ).loc main_arg7) (ix1 j) :=
  s0_v12 (W0 m ρ c) j

theorem W1_v13 (j : Fin 1024) :
    W1 m ρ c (Proc.devRef .tc main_v13) (ix2 (0 : Fin 1) j) = m ((c.tc : Thread nD τ).loc main_arg8) (ix1 j) :=
  s0_v13 (W0 m ρ c) j

theorem W1_v14 (j : Fin 1024) :
    W1 m ρ c (Proc.devRef .tc main_v14) (ix2 (0 : Fin 1) j) = m ((c.tc : Thread nD τ).loc main_arg10) (ix1 j) :=
  s0_v14 (W0 m ρ c) j

theorem W1_v15 (j : Fin 1024) :
    W1 m ρ c (Proc.devRef .tc main_v15) (ix2 (0 : Fin 1) j) = m ((c.tc : Thread nD τ).loc main_arg11) (ix1 j) :=
  s0_v15 (W0 m ρ c) j

theorem W1_v16 (j : Fin 1024) :
    W1 m ρ c (Proc.devRef .tc main_v16) (ix2 (0 : Fin 1) j) = m ((c.tc : Thread nD τ).loc main_arg12) (ix1 j) :=
  s0_v16 (W0 m ρ c) j

theorem W1_v17 (j : Fin 10) :
    W1 m ρ c (Proc.devRef .tc main_v17) (ix2 (0 : Fin 1) j) = m ((c.tc : Thread nD τ).loc main_arg14) (ix1 j) :=
  s0_v17 (W0 m ρ c) j

theorem W1_v18 (j : Fin 10) :
    W1 m ρ c (Proc.devRef .tc main_v18) (ix2 (0 : Fin 1) j) = m ((c.tc : Thread nD τ).loc main_arg15) (ix1 j) :=
  s0_v18 (W0 m ρ c) j

theorem W1_v19 (j : Fin 10) :
    W1 m ρ c (Proc.devRef .tc main_v19) (ix2 (0 : Fin 1) j) = m ((c.tc : Thread nD τ).loc main_arg16) (ix1 j) :=
  s0_v19 (W0 m ρ c) j

theorem W3_keep_v9 : W3 m ρ c (Proc.devRef .tc main_v9) = W1 m ρ c (Proc.devRef .tc main_v9) :=
  ((s1_keep_v9 (W2 m ρ c)).trans (W2_of_ne m ρ c main_v9 (by decide)))

theorem W3_keep_v10 : W3 m ρ c (Proc.devRef .tc main_v10) = W1 m ρ c (Proc.devRef .tc main_v10) :=
  ((s1_keep_v10 (W2 m ρ c)).trans (W2_of_ne m ρ c main_v10 (by decide)))

theorem W3_keep_v3 : W3 m ρ c (Proc.devRef .tc main_v3) = W1 m ρ c (Proc.devRef .tc main_v3) :=
  ((s1_keep_v3 (W2 m ρ c)).trans (W2_of_ne m ρ c main_v3 (by decide)))

theorem W3_keep_v11 : W3 m ρ c (Proc.devRef .tc main_v11) = W1 m ρ c (Proc.devRef .tc main_v11) :=
  ((s1_keep_v11 (W2 m ρ c)).trans (W2_of_ne m ρ c main_v11 (by decide)))

theorem W5_keep_v12 : W5 m ρ c (Proc.devRef .tc main_v12) = W1 m ρ c (Proc.devRef .tc main_v12) :=
  ((s2_keep_v12 (W4 m ρ c)).trans ((W4_of_ne m ρ c main_v12 (by decide)).trans ((s1_keep_v12 (W2 m ρ c)).trans (W2_of_ne m ρ c main_v12 (by decide)))))

theorem W5_keep_v13 : W5 m ρ c (Proc.devRef .tc main_v13) = W1 m ρ c (Proc.devRef .tc main_v13) :=
  ((s2_keep_v13 (W4 m ρ c)).trans ((W4_of_ne m ρ c main_v13 (by decide)).trans ((s1_keep_v13 (W2 m ρ c)).trans (W2_of_ne m ρ c main_v13 (by decide)))))

theorem W5_keep_v5 : W5 m ρ c (Proc.devRef .tc main_v5) = W1 m ρ c (Proc.devRef .tc main_v5) :=
  ((s2_keep_v5 (W4 m ρ c)).trans ((W4_of_ne m ρ c main_v5 (by decide)).trans ((s1_keep_v5 (W2 m ρ c)).trans (W2_of_ne m ρ c main_v5 (by decide)))))

theorem W5_keep_v14 : W5 m ρ c (Proc.devRef .tc main_v14) = W1 m ρ c (Proc.devRef .tc main_v14) :=
  ((s2_keep_v14 (W4 m ρ c)).trans ((W4_of_ne m ρ c main_v14 (by decide)).trans ((s1_keep_v14 (W2 m ρ c)).trans (W2_of_ne m ρ c main_v14 (by decide)))))

theorem W7_keep_v15 : W7 m ρ c (Proc.devRef .tc main_v15) = W1 m ρ c (Proc.devRef .tc main_v15) :=
  ((s3_keep_v15 (W6 m ρ c)).trans ((W6_of_ne m ρ c main_v15 (by decide)).trans ((s2_keep_v15 (W4 m ρ c)).trans ((W4_of_ne m ρ c main_v15 (by decide)).trans ((s1_keep_v15 (W2 m ρ c)).trans (W2_of_ne m ρ c main_v15 (by decide)))))))

theorem W7_keep_v16 : W7 m ρ c (Proc.devRef .tc main_v16) = W1 m ρ c (Proc.devRef .tc main_v16) :=
  ((s3_keep_v16 (W6 m ρ c)).trans ((W6_of_ne m ρ c main_v16 (by decide)).trans ((s2_keep_v16 (W4 m ρ c)).trans ((W4_of_ne m ρ c main_v16 (by decide)).trans ((s1_keep_v16 (W2 m ρ c)).trans (W2_of_ne m ρ c main_v16 (by decide)))))))

theorem W7_keep_v7 : W7 m ρ c (Proc.devRef .tc main_v7) = W1 m ρ c (Proc.devRef .tc main_v7) :=
  ((s3_keep_v7 (W6 m ρ c)).trans ((W6_of_ne m ρ c main_v7 (by decide)).trans ((s2_keep_v7 (W4 m ρ c)).trans ((W4_of_ne m ρ c main_v7 (by decide)).trans ((s1_keep_v7 (W2 m ρ c)).trans (W2_of_ne m ρ c main_v7 (by decide)))))))

theorem W7_keep_v17 : W7 m ρ c (Proc.devRef .tc main_v17) = W1 m ρ c (Proc.devRef .tc main_v17) :=
  ((s3_keep_v17 (W6 m ρ c)).trans ((W6_of_ne m ρ c main_v17 (by decide)).trans ((s2_keep_v17 (W4 m ρ c)).trans ((W4_of_ne m ρ c main_v17 (by decide)).trans ((s1_keep_v17 (W2 m ρ c)).trans (W2_of_ne m ρ c main_v17 (by decide)))))))

theorem W9_keep_v18 : W9 m ρ c (Proc.devRef .tc main_v18) = W1 m ρ c (Proc.devRef .tc main_v18) :=
  ((s4_keep_v18 (W8 m ρ c)).trans ((W8_of_ne m ρ c main_v18 (by decide)).trans ((s3_keep_v18 (W6 m ρ c)).trans ((W6_of_ne m ρ c main_v18 (by decide)).trans ((s2_keep_v18 (W4 m ρ c)).trans ((W4_of_ne m ρ c main_v18 (by decide)).trans ((s1_keep_v18 (W2 m ρ c)).trans (W2_of_ne m ρ c main_v18 (by decide)))))))))

theorem W9_keep_v19 : W9 m ρ c (Proc.devRef .tc main_v19) = W1 m ρ c (Proc.devRef .tc main_v19) :=
  ((s4_keep_v19 (W8 m ρ c)).trans ((W8_of_ne m ρ c main_v19 (by decide)).trans ((s3_keep_v19 (W6 m ρ c)).trans ((W6_of_ne m ρ c main_v19 (by decide)).trans ((s2_keep_v19 (W4 m ρ c)).trans ((W4_of_ne m ρ c main_v19 (by decide)).trans ((s1_keep_v19 (W2 m ρ c)).trans (W2_of_ne m ρ c main_v19 (by decide)))))))))

theorem W3_pass : W3 m ρ c (Proc.devRef .tc main_v20_0) = W2 m ρ c (Proc.devRef .tc main_v20_0) :=
  s1_pass (W2 m ρ c)

theorem W3_mean (j : Fin 1024) :
    W3 m ρ c (Proc.devRef .tc main_v22) (ix2 (0 : Fin 1) j) = Ideal.div (W2 m ρ c (Proc.devRef .tc main_v20_1) (ix2 (0 : Fin 1) j)) (Ideal.ofBits .f32 0x47000000#32) :=
  s1_mean (W2 m ρ c) j

theorem W3_var (j : Fin 1024) :
    W3 m ρ c (Proc.devRef .tc main_v28) (ix2 (0 : Fin 1) j)
      = max (Ideal.div (W2 m ρ c (Proc.devRef .tc main_v20_2) (ix2 (0 : Fin 1) j)) (Ideal.ofBits .f32 0x47000000#32)
          - Ideal.div (W2 m ρ c (Proc.devRef .tc main_v20_1) (ix2 (0 : Fin 1) j)) (Ideal.ofBits .f32 0x47000000#32)
            * Ideal.div (W2 m ρ c (Proc.devRef .tc main_v20_1) (ix2 (0 : Fin 1) j)) (Ideal.ofBits .f32 0x47000000#32)) 0 :=
  s1_var (W2 m ρ c) j

theorem W5_pass : W5 m ρ c (Proc.devRef .tc main_v29_0) = W4 m ρ c (Proc.devRef .tc main_v29_0) :=
  s2_pass (W4 m ρ c)

theorem W5_mean (j : Fin 1024) :
    W5 m ρ c (Proc.devRef .tc main_v31) (ix2 (0 : Fin 1) j) = Ideal.div (W4 m ρ c (Proc.devRef .tc main_v29_1) (ix2 (0 : Fin 1) j)) (Ideal.ofBits .f32 0x47000000#32) :=
  s2_mean (W4 m ρ c) j

theorem W5_var (j : Fin 1024) :
    W5 m ρ c (Proc.devRef .tc main_v37) (ix2 (0 : Fin 1) j)
      = max (Ideal.div (W4 m ρ c (Proc.devRef .tc main_v29_2) (ix2 (0 : Fin 1) j)) (Ideal.ofBits .f32 0x47000000#32)
          - Ideal.div (W4 m ρ c (Proc.devRef .tc main_v29_1) (ix2 (0 : Fin 1) j)) (Ideal.ofBits .f32 0x47000000#32)
            * Ideal.div (W4 m ρ c (Proc.devRef .tc main_v29_1) (ix2 (0 : Fin 1) j)) (Ideal.ofBits .f32 0x47000000#32)) 0 :=
  s2_var (W4 m ρ c) j

theorem W7_pass : W7 m ρ c (Proc.devRef .tc main_v38_0) = W6 m ρ c (Proc.devRef .tc main_v38_0) :=
  s3_pass (W6 m ρ c)

theorem W7_mean (j : Fin 1024) :
    W7 m ρ c (Proc.devRef .tc main_v40) (ix2 (0 : Fin 1) j) = Ideal.div (W6 m ρ c (Proc.devRef .tc main_v38_1) (ix2 (0 : Fin 1) j)) (Ideal.ofBits .f32 0x47000000#32) :=
  s3_mean (W6 m ρ c) j

theorem W7_var (j : Fin 1024) :
    W7 m ρ c (Proc.devRef .tc main_v46) (ix2 (0 : Fin 1) j)
      = max (Ideal.div (W6 m ρ c (Proc.devRef .tc main_v38_2) (ix2 (0 : Fin 1) j)) (Ideal.ofBits .f32 0x47000000#32)
          - Ideal.div (W6 m ρ c (Proc.devRef .tc main_v38_1) (ix2 (0 : Fin 1) j)) (Ideal.ofBits .f32 0x47000000#32)
            * Ideal.div (W6 m ρ c (Proc.devRef .tc main_v38_1) (ix2 (0 : Fin 1) j)) (Ideal.ofBits .f32 0x47000000#32)) 0 :=
  s3_var (W6 m ρ c) j

theorem W9_pass : W9 m ρ c (Proc.devRef .tc main_v47_0) = W8 m ρ c (Proc.devRef .tc main_v47_0) :=
  s4_pass (W8 m ρ c)

theorem W9_mean (j : Fin 10) :
    W9 m ρ c (Proc.devRef .tc main_v49) (ix2 (0 : Fin 1) j) = Ideal.div (W8 m ρ c (Proc.devRef .tc main_v47_1) (ix2 (0 : Fin 1) j)) (Ideal.ofBits .f32 0x47000000#32) :=
  s4_mean (W8 m ρ c) j

theorem W9_var (j : Fin 10) :
    W9 m ρ c (Proc.devRef .tc main_v55) (ix2 (0 : Fin 1) j)
      = max (Ideal.div (W8 m ρ c (Proc.devRef .tc main_v47_2) (ix2 (0 : Fin 1) j)) (Ideal.ofBits .f32 0x47000000#32)
          - Ideal.div (W8 m ρ c (Proc.devRef .tc main_v47_1) (ix2 (0 : Fin 1) j)) (Ideal.ofBits .f32 0x47000000#32)
            * Ideal.div (W8 m ρ c (Proc.devRef .tc main_v47_1) (ix2 (0 : Fin 1) j)) (Ideal.ofBits .f32 0x47000000#32)) 0 :=
  s4_var (W8 m ρ c) j

end Cert.KernelValue

end
-- ==== Proof.Region0.lean ====
/-
  The value of the first region: the first affine layer with its column statistics.

  The region runs over 2 column blocks (512 output features each) times 16 row blocks (2048 rows each), the row block
  moving fastest. At a point it finds 2048 rows of the activations (784 features), 512 rows of the binarised weights
  and 512 bias entries, stores the block `h r j = Σ_k a r k · w j k + b j` of the layer's output, and adds the block's
  column sums, and the column sums of its squares, onto two running rows that it zeroes at the first row block of each
  column block and writes back after the last. So the output array is the layer's output entry by entry, and each
  statistics row holds, per column, the sum over all 32768 rows: a sum over 16 blocks of 2048 rows, regrouped. Adding
  zero and regrouping a finite sum are laws of every additive commutative monoid, so no entry needs to be finite.
-/
import proofs.«141082_j78245714199267_2_alg».proof.Proof.KernelIdealFrame
import proofs.«141082_j78245714199267_2_alg».proof.Proof.Spec
import Idealize.ShloMosaic.PureOps.Ideal.Laws
import Idealize.ShloMosaic.Lib.Pipeline.Value
import Idealize.ShloMosaic.Lib.ValueIdx
import Idealize.ShloMosaic.Lib.ValueLayout
import Idealize.ShloMosaic.Lib.Tactic
import Mathlib.Algebra.BigOperators.Fin
import Mathlib.Logic.Equiv.Fin.Basic

noncomputable section

open Idealize.ShloMosaic Idealize.ShloMosaic.TcCoe Idealize.SL.Sem Idealize.ShloMosaic.Tactic
open Idealize.ShloMosaic.Pipeline (Dat)
open Idealize.ShloMosaic.ValueIdx
open scoped BigOperators

namespace Cert.KernelValue.R0

open Cert.KernelIdeal Cert.KernelIdeal.Gen Cert.KernelIdeal.GenP

/-- The block product's dimension numbers: rows of the first operand against columns of the second, one
    contracted axis of extent 784. -/
abbrev D0 := dot_S2048x784_S784x512_S2048x512_1_0_0_1_n_n

theorem lhs_0 (i : S2048x512.Idx) (q : D0.contr.Idx) : (D0.lhsIdx i q 0).val = (i 0).val := by
  unfold DotDims.lhsIdx
  rw [dif_neg (show ¬(0 : Fin S2048x784.rank) ∈ D0.lhsBatch by decide), dif_pos (show (0 : Fin S2048x784.rank) ∈ D0.lhsNonContracting by decide)]
  rfl
theorem lhs_1 (i : S2048x512.Idx) (q : D0.contr.Idx) : (D0.lhsIdx i q 1).val = (q ⟨0, by decide⟩).val :=
  D0.lhsIdx_val_of_single rfl i q
theorem rhs_0 (i : S2048x512.Idx) (q : D0.contr.Idx) : (D0.rhsIdx i q 0).val = (q ⟨0, by decide⟩).val :=
  D0.rhsIdx_val_of_single rfl i q
theorem rhs_1 (i : S2048x512.Idx) (q : D0.contr.Idx) : (D0.rhsIdx i q 1).val = (i 1).val := by
  unfold DotDims.rhsIdx
  rw [dif_neg (show ¬(1 : Fin S784x512.rank) ∈ D0.rhsBatch by decide), dif_pos (show (1 : Fin S784x512.rank) ∈ D0.rhsNonContracting by decide)]
  rfl

/-- The block product into a zero accumulator, at row `p` and column `q`: the sum over the contracted axis. -/
theorem mm_apply (a : FVec Ideal S2048x784 .bf16) (b : FVec Ideal S784x512 .bf16) (p : Fin 2048) (q : Fin 512) :
    matmul D0 none a b (constant (F := Ideal) S2048x512 .f32 0x00000000#32) (ix2 p q)
      = ∑ k : Fin 784, a (ix2 p k) * b (ix2 k q) := by
  show FloatOps.matmul D0 none a b (constant (F := Ideal) S2048x512 .f32 0x00000000#32) (ix2 p q) = _
  rw [Ideal.matmul_constant_zero_apply, ← Equiv.sum_comp (contrEquiv1 D0 784 rfl rfl).symm]
  refine Finset.sum_congr rfl fun k _ => ?_
  have hk := contrEquiv1_symm_val D0 784 rfl rfl k
  have el : D0.lhsIdx (ix2 p q) ((contrEquiv1 D0 784 rfl rfl).symm k) = ix2 p k := funext fun a => Fin.ext (by
    match a with
    | ⟨0, _⟩ => exact lhs_0 _ _
    | ⟨1, _⟩ => exact (lhs_1 _ _).trans hk)
  have er : D0.rhsIdx (ix2 p q) ((contrEquiv1 D0 784 rfl rfl).symm k) = ix2 k q := funext fun a => Fin.ext (by
    match a with
    | ⟨0, _⟩ => exact (rhs_0 _ _).trans hk
    | ⟨1, _⟩ => exact rhs_1 _ _)
  rw [el, er]

/-- The affine layer on one block: entry `(p, q)` is row `p` of the activations against row `q` of the weights
    (the body transposes the weight block before the product), plus the bias of column `q`. -/
theorem pay3_apply (x : Vec Ideal S2048x784 .f32) (w : Vec Ideal S512x784 .bf16) (b : Vec Ideal S1x512 .f32)
    (p : Fin 2048) (q : Fin 512) :
    k0_pay3 x w b (ix2 p q) = (∑ k : Fin 784, x (ix2 p k) * w (ix2 q k)) + b (ix2 (0 : Fin 1) q) := by
  unfold k0_pay3
  simp only [shapeCast_self]
  show matmul D0 none (truncf (F := Ideal) .bf16 x _) (transpose S784x512 [1, 0] w _)
      (constant (F := Ideal) S2048x512 .f32 0x00000000#32) (ix2 p q) + broadcastTo S2048x512 b _ (ix2 p q) = _
  rw [mm_apply, broadcastTo_1b_ab_apply]
  refine congrArg (· + b (ix2 (0 : Fin 1) q)) (Finset.sum_congr rfl fun k _ => ?_)
  rw [transpose_ix2_apply]
  rfl

/-- Stored in the narrower format the block is the same extended reals. -/
theorem pay4_eq (x : Vec Ideal S2048x784 .f32) (w : Vec Ideal S512x784 .bf16) (b : Vec Ideal S1x512 .f32)
    (i : S2048x512.Idx) : k0_pay4 x w b i = k0_pay3 x w b i := rfl

/-- A sum over the rows of a block, read at column `q`. -/
theorem colsum_apply (src : FVec Ideal S2048x512 .f32) (h : S2048x512.Reduces [0] S512) (hφ : FKind.Formats .f32)
    (hacc : (0x00000000#32 : BitVec 32) = FKind.add.neutral .f32 hφ) (q : Fin 512) :
    multiReduction .add [0] S512 src 0x00000000#32 h hφ hacc (ix1 q) = ∑ p : Fin 2048, src (ix2 p q) := by
  refine (Ideal.multiReduction_add_single src 0x00000000#32 h hφ hacc (ix1 q)).trans ?_
  refine Finset.sum_congr rfl fun p _ => congrArg src (funext fun a => Fin.ext ?_)
  match a with
  | ⟨0, _⟩ => rfl
  | ⟨1, _⟩ => rfl

/-- The zero block the first point of a column block stores. -/
theorem pay1_apply (j : S1x512.Idx) : k0_pay1 (F := Ideal) j = 0 := by
  unfold k0_pay1
  show Ideal.ofBits .f32 0x00000000#32 = 0
  exact Ideal.ofBits_zero_f32
theorem pay2_apply (j : S1x512.Idx) : k0_pay2 (F := Ideal) j = 0 := by
  unfold k0_pay2
  show Ideal.ofBits .f32 0x00000000#32 = 0
  exact Ideal.ofBits_zero_f32

/-- The running column sums after a point: what they held plus the block's column sums. -/
theorem pay5_apply (x : Vec Ideal S2048x784 .f32) (w : Vec Ideal S512x784 .bf16) (b acc : Vec Ideal S1x512 .f32)
    (q : Fin 512) :
    k0_pay5 x w b acc (ix2 (0 : Fin 1) q) = acc (ix2 (0 : Fin 1) q) + ∑ p : Fin 2048, k0_pay3 x w b (ix2 p q) := by
  unfold k0_pay5
  simp only [shapeCast_self]
  show acc (ix2 (0 : Fin 1) q) + shapeCast S1x512 (multiReduction .add [0] S512 (k0_pay3 x w b) 0x00000000#32 _ _ _) _ (ix2 (0 : Fin 1) q) = _
  rw [shapeCast_a_1a_apply]
  exact congrArg (acc (ix2 (0 : Fin 1) q) + ·) (colsum_apply _ _ _ _ q)

/-- The running column sums of squares after a point. -/
theorem pay6_apply (x : Vec Ideal S2048x784 .f32) (w : Vec Ideal S512x784 .bf16) (b acc : Vec Ideal S1x512 .f32)
    (q : Fin 512) :
    k0_pay6 x w b acc (ix2 (0 : Fin 1) q)
      = acc (ix2 (0 : Fin 1) q) + ∑ p : Fin 2048, k0_pay3 x w b (ix2 p q) * k0_pay3 x w b (ix2 p q) := by
  unfold k0_pay6
  simp only [shapeCast_self]
  show acc (ix2 (0 : Fin 1) q) + shapeCast S1x512 (multiReduction .add [0] S512 (mulf (F := Ideal) (k0_pay3 x w b) (k0_pay3 x w b)) 0x00000000#32 _ _ _) _ (ix2 (0 : Fin 1) q) = _
  rw [shapeCast_a_1a_apply]
  exact congrArg (acc (ix2 (0 : Fin 1) q) + ·) (colsum_apply _ _ _ _ q)

/-! ### Sums over the rows, block by block -/

section RowBlocks

/-- Row `p` of row block `i`: the blocks are 2048 consecutive rows each. -/
def rowOf (i : Fin 16) (p : Fin 2048) : Fin 32768 := ⟨2048 * i.val + p.val, by omega⟩

/-- The sum of `f` over the rows of one block. -/
def blockSum (f : Fin 32768 → EReal) (i : Fin 16) : EReal := ∑ p : Fin 2048, f (rowOf i p)

/-- The block sums as a sequence, zero past the last block. -/
def blockSeq (f : Fin 32768 → EReal) (i : ℕ) : EReal := if h : i < 16 then blockSum f ⟨i, h⟩ else 0

/-- The sum of `f` over the rows of blocks `0 … m`. -/
def partialSum (f : Fin 32768 → EReal) (m : ℕ) : EReal := ∑ i ∈ Finset.range (m + 1), blockSeq f i

theorem partialSum_zero (f : Fin 32768 → EReal) : partialSum f 0 = blockSum f 0 := by
  unfold partialSum
  rw [Finset.sum_range_one]
  exact dif_pos (by decide)

theorem partialSum_succ (f : Fin 32768 → EReal) (m : ℕ) (hm : m + 1 < 16) :
    partialSum f (m + 1) = partialSum f m + blockSum f ⟨m + 1, hm⟩ := by
  unfold partialSum
  rw [Finset.sum_range_succ]
  exact congrArg (_ + ·) (dif_pos hm)

/-- All 32768 rows are the 16 blocks of 2048: a finite sum regrouped, which an additive commutative monoid allows
    with no finiteness of the terms. -/
theorem sum_rows (f : Fin 32768 → EReal) : ∑ r : Fin 32768, f r = ∑ i : Fin 16, blockSum f i := by
  unfold blockSum
  rw [← Fintype.sum_prod_type' (f := fun (i : Fin 16) (p : Fin 2048) => f (rowOf i p))]
  refine (Equiv.sum_comp (finProdFinEquiv (m := 16) (n := 2048)) f).symm.trans ?_
  refine Finset.sum_congr rfl fun x _ => congrArg f (Fin.ext ?_)
  show x.2.val + 2048 * x.1.val = 2048 * x.1.val + x.2.val
  omega

/-- After the last block the partial sum is the whole column sum. -/
theorem partialSum_last (f : Fin 32768 → EReal) : partialSum f 15 = ∑ r : Fin 32768, f r := by
  rw [sum_rows]
  unfold partialSum
  rw [Finset.sum_range (fun i => blockSeq f i)]
  exact Finset.sum_congr rfl fun i _ => dif_pos i.isLt

end RowBlocks

/-! ### What each case of the body leaves in each output's buffer

  At the first row block of a column block the body first stores a zero row into each of the two running sums and
  reads it back; at every other point it continues from what the buffers hold. In both cases it stores the layer's
  block whole and then each running sum plus the block's column sums. -/

theorem hz : (![0, 0] : Fin 2 → Nat) = fun _ => 0 := funext fun a => by fin_cases a <;> rfl

/-- First row block: the output block is the layer's block of the point's input blocks. -/
theorem outA3 (c : Dev nD) (i : grid0.Coords) (arg2 : Memref sig .tc .vmem S2048x784 .f32) (harg2 : arg2.IsWhole) (arg3 : Memref sig .tc .vmem S512x784 .bf16) (harg3 : arg3.IsWhole) (arg4 : Memref sig .tc .vmem S1x512 .f32) (harg4 : arg4.IsWhole) (arg5 : Memref sig .tc .vmem S2048x512 .bf16) (harg5 : arg5.IsWhole) (arg6 : Memref sig .tc .vmem S1x512 .f32) (harg6 : arg6.IsWhole) (arg7 : Memref sig .tc .vmem S1x512 .f32) (harg7 : arg7.IsWhole) (hc0 : cond0_0 i) (x0 : Vec Ideal S2048x784 .f32) (x1 : Vec Ideal S512x784 .bf16) (x2 : Vec Ideal S1x512 .f32) :
    out0_A_3 (F := Ideal) c i arg2 harg2 arg3 harg3 arg4 harg4 arg5 harg5 arg6 harg6 arg7 harg7 hc0 x0 x1 x2 = k0_pay4 x0 x1 x2 := by
  unfold out0_A_3
  rw [View.read_writes_eq_canon _ _ _ (cover0_A_3 c i arg2 harg2 arg3 harg3 arg4 harg4 arg5 harg5 arg6 harg6 arg7 harg7 hc0 x0 x1 x2)]
  unfold kernelRun0_A
  dsimp only
  try sl_unfold_words
  rw [View.canon_unit_zero hz]
  simp only [View.readAt_eq_ld, harg2.read_unread, harg3.read_unread, harg4.read_unread, harg6.read_unread, harg7.read_unread,
    View.ld_unit_zero (S := S2048x784) hz, View.ld_unit_zero (S := S512x784) hz, View.ld_unit_zero (S := S1x512) hz]

/-- First row block: the running column sums restart from the zero row. -/
theorem outA4 (c : Dev nD) (i : grid0.Coords) (arg2 : Memref sig .tc .vmem S2048x784 .f32) (harg2 : arg2.IsWhole) (arg3 : Memref sig .tc .vmem S512x784 .bf16) (harg3 : arg3.IsWhole) (arg4 : Memref sig .tc .vmem S1x512 .f32) (harg4 : arg4.IsWhole) (arg5 : Memref sig .tc .vmem S2048x512 .bf16) (harg5 : arg5.IsWhole) (arg6 : Memref sig .tc .vmem S1x512 .f32) (harg6 : arg6.IsWhole) (arg7 : Memref sig .tc .vmem S1x512 .f32) (harg7 : arg7.IsWhole) (hc0 : cond0_0 i) (x0 : Vec Ideal S2048x784 .f32) (x1 : Vec Ideal S512x784 .bf16) (x2 : Vec Ideal S1x512 .f32) :
    out0_A_4 (F := Ideal) c i arg2 harg2 arg3 harg3 arg4 harg4 arg5 harg5 arg6 harg6 arg7 harg7 hc0 x0 x1 x2 = k0_pay5 x0 x1 x2 (k0_pay1 (F := Ideal)) := by
  unfold out0_A_4
  rw [View.read_writes_eq_canon _ _ _ (cover0_A_4 c i arg2 harg2 arg3 harg3 arg4 harg4 arg5 harg5 arg6 harg6 arg7 harg7 hc0 x0 x1 x2)]
  unfold kernelRun0_A
  dsimp only
  try sl_unfold_words
  rw [View.canon_cons_unit_zero (S := S1x512) hz, View.readCov_unit_zero (S := S1x512) _ hz]
  simp only [View.readAt_eq_ld, harg2.read_unread, harg3.read_unread, harg4.read_unread, harg6.read_unread, harg7.read_unread,
    View.ld_unit_zero (S := S2048x784) hz, View.ld_unit_zero (S := S512x784) hz, View.ld_unit_zero (S := S1x512) hz]

/-- First row block: so do the running column sums of squares. -/
theorem outA5 (c : Dev nD) (i : grid0.Coords) (arg2 : Memref sig .tc .vmem S2048x784 .f32) (harg2 : arg2.IsWhole) (arg3 : Memref sig .tc .vmem S512x784 .bf16) (harg3 : arg3.IsWhole) (arg4 : Memref sig .tc .vmem S1x512 .f32) (harg4 : arg4.IsWhole) (arg5 : Memref sig .tc .vmem S2048x512 .bf16) (harg5 : arg5.IsWhole) (arg6 : Memref sig .tc .vmem S1x512 .f32) (harg6 : arg6.IsWhole) (arg7 : Memref sig .tc .vmem S1x512 .f32) (harg7 : arg7.IsWhole) (hc0 : cond0_0 i) (x0 : Vec Ideal S2048x784 .f32) (x1 : Vec Ideal S512x784 .bf16) (x2 : Vec Ideal S1x512 .f32) :
    out0_A_5 (F := Ideal) c i arg2 harg2 arg3 harg3 arg4 harg4 arg5 harg5 arg6 harg6 arg7 harg7 hc0 x0 x1 x2 = k0_pay6 x0 x1 x2 (k0_pay2 (F := Ideal)) := by
  unfold out0_A_5
  rw [View.read_writes_eq_canon _ _ _ (cover0_A_5 c i arg2 harg2 arg3 harg3 arg4 harg4 arg5 harg5 arg6 harg6 arg7 harg7 hc0 x0 x1 x2)]
  unfold kernelRun0_A
  dsimp only
  try sl_unfold_words
  rw [View.canon_cons_unit_zero (S := S1x512) hz, View.readCov_unit_zero (S := S1x512) _ hz]
  simp only [View.readAt_eq_ld, harg2.read_unread, harg3.read_unread, harg4.read_unread, harg6.read_unread, harg7.read_unread,
    View.ld_unit_zero (S := S2048x784) hz, View.ld_unit_zero (S := S512x784) hz, View.ld_unit_zero (S := S1x512) hz]

/-- A later row block: the output block is again the layer's block. -/
theorem outB3 (c : Dev nD) (i : grid0.Coords) (arg2 : Memref sig .tc .vmem S2048x784 .f32) (harg2 : arg2.IsWhole) (arg3 : Memref sig .tc .vmem S512x784 .bf16) (harg3 : arg3.IsWhole) (arg4 : Memref sig .tc .vmem S1x512 .f32) (harg4 : arg4.IsWhole) (arg5 : Memref sig .tc .vmem S2048x512 .bf16) (harg5 : arg5.IsWhole) (arg6 : Memref sig .tc .vmem S1x512 .f32) (harg6 : arg6.IsWhole) (arg7 : Memref sig .tc .vmem S1x512 .f32) (harg7 : arg7.IsWhole) (hc0 : ¬cond0_0 i) (x0 : Vec Ideal S2048x784 .f32) (x1 : Vec Ideal S512x784 .bf16) (x2 : Vec Ideal S1x512 .f32) (xo4 xo5 : Vec Ideal S1x512 .f32) :
    out0_B_3 (F := Ideal) c i arg2 harg2 arg3 harg3 arg4 harg4 arg5 harg5 arg6 harg6 arg7 harg7 hc0 x0 x1 x2 xo4 xo5 = k0_pay4 x0 x1 x2 := by
  unfold out0_B_3
  rw [View.read_writes_eq_canon _ _ _ (cover0_B_3 c i arg2 harg2 arg3 harg3 arg4 harg4 arg5 harg5 arg6 harg6 arg7 harg7 hc0 x0 x1 x2 xo4 xo5)]
  unfold kernelRun0_B
  dsimp only
  try sl_unfold_words
  rw [View.canon_unit_zero hz]
  simp only [View.readAt_eq_ld, harg2.read_unread, harg3.read_unread, harg4.read_unread, harg6.read_unread, harg7.read_unread,
    View.ld_unit_zero (S := S2048x784) hz, View.ld_unit_zero (S := S512x784) hz, View.ld_unit_zero (S := S1x512) hz]

/-- A later row block: the running column sums continue from what the buffer held. -/
theorem outB4 (c : Dev nD) (i : grid0.Coords) (arg2 : Memref sig .tc .vmem S2048x784 .f32) (harg2 : arg2.IsWhole) (arg3 : Memref sig .tc .vmem S512x784 .bf16) (harg3 : arg3.IsWhole) (arg4 : Memref sig .tc .vmem S1x512 .f32) (harg4 : arg4.IsWhole) (arg5 : Memref sig .tc .vmem S2048x512 .bf16) (harg5 : arg5.IsWhole) (arg6 : Memref sig .tc .vmem S1x512 .f32) (harg6 : arg6.IsWhole) (arg7 : Memref sig .tc .vmem S1x512 .f32) (harg7 : arg7.IsWhole) (hc0 : ¬cond0_0 i) (x0 : Vec Ideal S2048x784 .f32) (x1 : Vec Ideal S512x784 .bf16) (x2 : Vec Ideal S1x512 .f32) (xo4 xo5 : Vec Ideal S1x512 .f32) :
    out0_B_4 (F := Ideal) c i arg2 harg2 arg3 harg3 arg4 harg4 arg5 harg5 arg6 harg6 arg7 harg7 hc0 x0 x1 x2 xo4 xo5 = k0_pay5 x0 x1 x2 xo4 := by
  unfold out0_B_4
  rw [View.read_writes_eq_canon _ _ _ (cover0_B_4 c i arg2 harg2 arg3 harg3 arg4 harg4 arg5 harg5 arg6 harg6 arg7 harg7 hc0 x0 x1 x2 xo4 xo5)]
  unfold kernelRun0_B
  dsimp only
  try sl_unfold_words
  rw [View.canon_unit_zero hz]
  simp only [View.readAt_eq_ld, harg2.read_unread, harg3.read_unread, harg4.read_unread, harg6.read_unread, harg7.read_unread,
    View.ld_unit_zero (S := S2048x784) hz, View.ld_unit_zero (S := S512x784) hz, View.ld_unit_zero (S := S1x512) hz]

/-- A later row block: so do the running column sums of squares. -/
theorem outB5 (c : Dev nD) (i : grid0.Coords) (arg2 : Memref sig .tc .vmem S2048x784 .f32) (harg2 : arg2.IsWhole) (arg3 : Memref sig .tc .vmem S512x784 .bf16) (harg3 : arg3.IsWhole) (arg4 : Memref sig .tc .vmem S1x512 .f32) (harg4 : arg4.IsWhole) (arg5 : Memref sig .tc .vmem S2048x512 .bf16) (harg5 : arg5.IsWhole) (arg6 : Memref sig .tc .vmem S1x512 .f32) (harg6 : arg6.IsWhole) (arg7 : Memref sig .tc .vmem S1x512 .f32) (harg7 : arg7.IsWhole) (hc0 : ¬cond0_0 i) (x0 : Vec Ideal S2048x784 .f32) (x1 : Vec Ideal S512x784 .bf16) (x2 : Vec Ideal S1x512 .f32) (xo4 xo5 : Vec Ideal S1x512 .f32) :
    out0_B_5 (F := Ideal) c i arg2 harg2 arg3 harg3 arg4 harg4 arg5 harg5 arg6 harg6 arg7 harg7 hc0 x0 x1 x2 xo4 xo5 = k0_pay6 x0 x1 x2 xo5 := by
  unfold out0_B_5
  rw [View.read_writes_eq_canon _ _ _ (cover0_B_5 c i arg2 harg2 arg3 harg3 arg4 harg4 arg5 harg5 arg6 harg6 arg7 harg7 hc0 x0 x1 x2 xo4 xo5)]
  unfold kernelRun0_B
  dsimp only
  try sl_unfold_words
  rw [View.canon_unit_zero hz]
  simp only [View.readAt_eq_ld, harg2.read_unread, harg3.read_unread, harg4.read_unread, harg6.read_unread, harg7.read_unread,
    View.ld_unit_zero (S := S2048x784) hz, View.ld_unit_zero (S := S512x784) hz, View.ld_unit_zero (S := S1x512) hz]

/-! ### The arrays the region finds, and the layer's output as one function of them -/

variable (V : (c : Dev nD) → (b : Ref sig .tc) → Buf (Elt Ideal) ((c : Thread nD τ).loc b)) (c : Dev nD)

/-- The activations, the binarised weights and the bias row, each as a function of its index. -/
abbrev A0 : S32768x784.Idx → EReal := V c (Pipeline.arrRef spec0 0)
abbrev A1 : S1024x784.Idx → EReal := V c (Pipeline.arrRef spec0 1)
abbrev A2 : S1x1024.Idx → EReal := V c (Pipeline.arrRef spec0 2)

/-- The first layer's output: row `r` of the activations against row `j` of the weights, plus the bias of column `j`. -/
def hOut : Fin 32768 → Fin 1024 → EReal := Spec.lin (Spec.cur2 (A0 V c)) (Spec.cur2 (A1 V c)) (Spec.row (A2 V c))

/-- The index maps over the 32 points: point `t` is column block `t / 16` and row block `t % 16`. The activations move
    with the row block, the weights and the bias with the column block, the output with both, and the two rows of
    column statistics with the column block. -/
theorem idx_facts : ∀ t : Fin cfg0.N,
    win0_0.index t (0 : Fin 2) = t.val % 16 ∧ win0_0.index t (1 : Fin 2) = 0
    ∧ win0_1.index t (0 : Fin 2) = t.val / 16 ∧ win0_1.index t (1 : Fin 2) = 0
    ∧ win0_2.index t (0 : Fin 2) = 0 ∧ win0_2.index t (1 : Fin 2) = t.val / 16
    ∧ win0_3.index t (0 : Fin 2) = t.val % 16 ∧ win0_3.index t (1 : Fin 2) = t.val / 16
    ∧ win0_4.index t (0 : Fin 2) = 0 ∧ win0_4.index t (1 : Fin 2) = t.val / 16
    ∧ win0_5.index t (0 : Fin 2) = 0 ∧ win0_5.index t (1 : Fin 2) = t.val / 16 :=
  (by decide +kernel : ∀ t : Fin grid0.N, _)

/-- The activations' block at point `t`: rows `2048 (t % 16) …` of the array, all 784 columns. -/
theorem iblk_x (t : Fin cfg0.N) (p : Fin 2048) (k : Fin 784) (r : Fin 32768)
    (hr : r.val = 2048 * (t.val % 16) + p.val) :
    (iblk0 V c 0 t : Vec Ideal S2048x784 .f32) (ix2 p k) = A0 V c (ix2 r k) := by
  obtain ⟨e00, e01, -⟩ := idx_facts t
  show V c (Pipeline.arrRef spec0 0) (((cfg0.win 0).blk t).view.emb (ix2 p k)) = V c (Pipeline.arrRef spec0 0) (ix2 r k)
  refine congrArg _ (funext fun a => Fin.ext ?_)
  match a with
  | ⟨0, _⟩ => show win0_0.index t (0 : Fin 2) * 2048 + 1 * p.val = r.val; omega
  | ⟨1, _⟩ => show win0_0.index t (1 : Fin 2) * 784 + 1 * k.val = k.val; omega

/-- The weights' block at point `t`: rows `512 (t / 16) …` of the weight matrix, all 784 columns. -/
theorem iblk_w (t : Fin cfg0.N) (q : Fin 512) (k : Fin 784) (j : Fin 1024)
    (hj : j.val = 512 * (t.val / 16) + q.val) :
    (iblk0 V c 1 t : Vec Ideal S512x784 .bf16) (ix2 q k) = A1 V c (ix2 j k) := by
  obtain ⟨e00, e01, e10, e11, -⟩ := idx_facts t
  show V c (Pipeline.arrRef spec0 1) (((cfg0.win 1).blk t).view.emb (ix2 q k)) = V c (Pipeline.arrRef spec0 1) (ix2 j k)
  refine congrArg _ (funext fun a => Fin.ext ?_)
  match a with
  | ⟨0, _⟩ => show win0_1.index t (0 : Fin 2) * 512 + 1 * q.val = j.val; omega
  | ⟨1, _⟩ => show win0_1.index t (1 : Fin 2) * 784 + 1 * k.val = k.val; omega

/-- The bias block at point `t`: columns `512 (t / 16) …` of the bias row. -/
theorem iblk_b (t : Fin cfg0.N) (q : Fin 512) (j : Fin 1024) (hj : j.val = 512 * (t.val / 16) + q.val) :
    (iblk0 V c 2 t : Vec Ideal S1x512 .f32) (ix2 (0 : Fin 1) q) = A2 V c (ix2 (0 : Fin 1) j) := by
  obtain ⟨e00, e01, e10, e11, e20, e21, -⟩ := idx_facts t
  show V c (Pipeline.arrRef spec0 2) (((cfg0.win 2).blk t).view.emb (ix2 (0 : Fin 1) q)) = V c (Pipeline.arrRef spec0 2) (ix2 (0 : Fin 1) j)
  refine congrArg _ (funext fun a => Fin.ext ?_)
  match a with
  | ⟨0, _⟩ => show win0_2.index t (0 : Fin 2) * 1 + 1 * 0 = 0; omega
  | ⟨1, _⟩ => show win0_2.index t (1 : Fin 2) * 512 + 1 * q.val = j.val; omega

/-- The body's affine block at point `t` is the layer's output on the point's rows and columns. -/
theorem blk_h (t : Fin cfg0.N) (p : Fin 2048) (q : Fin 512) (r : Fin 32768) (j : Fin 1024)
    (hr : r.val = 2048 * (t.val % 16) + p.val) (hj : j.val = 512 * (t.val / 16) + q.val) :
    k0_pay3 (iblk0 V c 0 t) (iblk0 V c 1 t) (iblk0 V c 2 t) (ix2 p q) = hOut V c r j := by
  refine (pay3_apply (iblk0 V c 0 t) (iblk0 V c 1 t) (iblk0 V c 2 t) p q).trans ?_
  show _ = (∑ k, Spec.cur2 (A0 V c) r k * Spec.cur2 (A1 V c) j k) + Spec.row (A2 V c) j
  rw [iblk_b V c t q j hj]
  refine congrArg (· + _) (Finset.sum_congr rfl fun k _ => ?_)
  rw [iblk_x V c t p k r hr, iblk_w V c t q k j hj]
  rfl

/-! ### What the outputs' buffers hold after each point -/

/-- The output block after any point is the layer's block (both cases store it whole). -/
theorem after_h (t : Fin cfg0.N) :
    (outsAt0 V c t.val t.isLt).1 = k0_pay4 (iblk0 V c 0 t) (iblk0 V c 1 t) (iblk0 V c 2 t) := by
  by_cases h0 : t.val % 16 = 0
  · rw [outsAt0_A V c t h0]
    dsimp only
    exact outA3 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk0 V c 0 t) (iblk0 V c 1 t) (iblk0 V c 2 t)
  · rw [outsAt0_B V c t h0]
    dsimp only
    exact outB3 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2

/-- At the first point of a column block the running sums start from the zero row. -/
theorem after_s_A (t : Fin cfg0.N) (h0 : t.val % 16 = 0) :
    (outsAt0 V c t.val t.isLt).2.1 = k0_pay5 (iblk0 V c 0 t) (iblk0 V c 1 t) (iblk0 V c 2 t) (k0_pay1 (F := Ideal)) := by
  rw [outsAt0_A V c t h0]
  dsimp only
  exact outA4 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk0 V c 0 t) (iblk0 V c 1 t) (iblk0 V c 2 t)
theorem after_sq_A (t : Fin cfg0.N) (h0 : t.val % 16 = 0) :
    (outsAt0 V c t.val t.isLt).2.2 = k0_pay6 (iblk0 V c 0 t) (iblk0 V c 1 t) (iblk0 V c 2 t) (k0_pay2 (F := Ideal)) := by
  rw [outsAt0_A V c t h0]
  dsimp only
  exact outA5 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk0 V c 0 t) (iblk0 V c 1 t) (iblk0 V c 2 t)

/-- At a later point they continue from what the point before left. -/
theorem after_s_B (t : Fin cfg0.N) (h0 : ¬t.val % 16 = 0) :
    (outsAt0 V c t.val t.isLt).2.1 = k0_pay5 (iblk0 V c 0 t) (iblk0 V c 1 t) (iblk0 V c 2 t) (outsAt0 V c (t.val - 1) (Nat.lt_of_le_of_lt (Nat.sub_le _ _) t.isLt)).2.1 := by
  rw [outsAt0_B V c t h0]
  dsimp only
  exact outB4 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2
theorem after_sq_B (t : Fin cfg0.N) (h0 : ¬t.val % 16 = 0) :
    (outsAt0 V c t.val t.isLt).2.2 = k0_pay6 (iblk0 V c 0 t) (iblk0 V c 1 t) (iblk0 V c 2 t) (outsAt0 V c (t.val - 1) (Nat.lt_of_le_of_lt (Nat.sub_le _ _) t.isLt)).2.2 := by
  rw [outsAt0_B V c t h0]
  dsimp only
  exact outB5 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2

/-- The column sums of the block at point `t` are the layer's output summed over the point's row block. -/
theorem blk_colsum (t : Fin cfg0.N) (q : Fin 512) (j : Fin 1024) (i : Fin 16)
    (hi : i.val = t.val % 16) (hj : j.val = 512 * (t.val / 16) + q.val) :
    ∑ p : Fin 2048, k0_pay3 (iblk0 V c 0 t) (iblk0 V c 1 t) (iblk0 V c 2 t) (ix2 p q) = blockSum (fun r => hOut V c r j) i :=
  Finset.sum_congr rfl fun p _ => blk_h V c t p q (rowOf i p) j (by show 2048 * i.val + p.val = _; omega) hj
theorem blk_colsumsq (t : Fin cfg0.N) (q : Fin 512) (j : Fin 1024) (i : Fin 16)
    (hi : i.val = t.val % 16) (hj : j.val = 512 * (t.val / 16) + q.val) :
    ∑ p : Fin 2048, k0_pay3 (iblk0 V c 0 t) (iblk0 V c 1 t) (iblk0 V c 2 t) (ix2 p q) * k0_pay3 (iblk0 V c 0 t) (iblk0 V c 1 t) (iblk0 V c 2 t) (ix2 p q)
      = blockSum (fun r => hOut V c r j * hOut V c r j) i :=
  Finset.sum_congr rfl fun p _ => by
    rw [blk_h V c t p q (rowOf i p) j (by show 2048 * i.val + p.val = _; omega) hj]

/-- THE INVARIANT. After point `n` (column block `n / 16`, row block `n % 16`) the running sums' entry for column `j`
    of that column block holds the layer's output, and its square, summed over row blocks `0 … n % 16`. -/
theorem sums_inv (n : ℕ) : ∀ (h : n < cfg0.N) (q : Fin 512) (j : Fin 1024), j.val = 512 * (n / 16) + q.val →
    (outsAt0 V c n h).2.1 (ix2 (0 : Fin 1) q) = partialSum (fun r => hOut V c r j) (n % 16)
    ∧ (outsAt0 V c n h).2.2 (ix2 (0 : Fin 1) q) = partialSum (fun r => hOut V c r j * hOut V c r j) (n % 16) := by
  induction n with
  | zero =>
    intro h q j hj
    refine ⟨?_, ?_⟩
    · refine (congrFun (after_s_A V c ⟨0, h⟩ rfl) _).trans ((pay5_apply _ _ _ _ q).trans ?_)
      rw [pay1_apply, zero_add]
      exact (blk_colsum V c ⟨0, h⟩ q j 0 rfl hj).trans (partialSum_zero _).symm
    · refine (congrFun (after_sq_A V c ⟨0, h⟩ rfl) _).trans ((pay6_apply _ _ _ _ q).trans ?_)
      rw [pay2_apply, zero_add]
      exact (blk_colsumsq V c ⟨0, h⟩ q j 0 rfl hj).trans (partialSum_zero _).symm
  | succ n ih =>
    intro h q j hj
    have hN : cfg0.N = 32 := N_0
    by_cases h0 : (n + 1) % 16 = 0
    · rw [h0]
      refine ⟨?_, ?_⟩
      · refine (congrFun (after_s_A V c ⟨n + 1, h⟩ h0) _).trans ((pay5_apply _ _ _ _ q).trans ?_)
        rw [pay1_apply, zero_add]
        exact (blk_colsum V c ⟨n + 1, h⟩ q j 0 h0.symm hj).trans (partialSum_zero _).symm
      · refine (congrFun (after_sq_A V c ⟨n + 1, h⟩ h0) _).trans ((pay6_apply _ _ _ _ q).trans ?_)
        rw [pay2_apply, zero_add]
        exact (blk_colsumsq V c ⟨n + 1, h⟩ q j 0 h0.symm hj).trans (partialSum_zero _).symm
    · obtain ⟨m, hm⟩ : ∃ m, (n + 1) % 16 = m + 1 := ⟨(n + 1) % 16 - 1, by omega⟩
      have hm' : n % 16 = m := by omega
      have hm16 : m + 1 < 16 := by omega
      obtain ⟨ih4, ih5⟩ := ih (Nat.lt_of_succ_lt h) q j (by omega)
      rw [hm'] at ih4 ih5
      rw [hm]
      refine ⟨?_, ?_⟩
      · refine (congrFun (after_s_B V c ⟨n + 1, h⟩ h0) _).trans ((pay5_apply _ _ _ _ q).trans ?_)
        rw [partialSum_succ _ m hm16, ← ih4]
        exact congrArg (_ + ·) (blk_colsum V c ⟨n + 1, h⟩ q j ⟨m + 1, hm16⟩ hm.symm hj)
      · refine (congrFun (after_sq_B V c ⟨n + 1, h⟩ h0) _).trans ((pay6_apply _ _ _ _ q).trans ?_)
        rw [partialSum_succ _ m hm16, ← ih5]
        exact congrArg (_ + ·) (blk_colsumsq V c ⟨n + 1, h⟩ q j ⟨m + 1, hm16⟩ hm.symm hj)

/-! ### From blocks to the arrays -/

/-- The three results as functions of the arrays found. -/
def G3 : S32768x1024.Idx → EReal := fun i => hOut V c (i 0) (i 1)
def G4 : S1x1024.Idx → EReal := fun i => Spec.colsum (hOut V c) (i 1)
def G5 : S1x1024.Idx → EReal := fun i => Spec.colsumsq (hOut V c) (i 1)

theorem G4_apply (i : S1x1024.Idx) : G4 V c i = ∑ r, hOut V c r (i 1) := rfl
theorem G5_apply (i : S1x1024.Idx) : G5 V c i = ∑ r, hOut V c r (i 1) * hOut V c r (i 1) := rfl

/-- The stored block read at an index `y` of the block, against the array index `i` it is written to. -/
theorem blk_h_at (t : Fin cfg0.N) (y : S2048x512.Idx) (i : S32768x1024.Idx)
    (h0 : (i 0).val = 2048 * (t.val % 16) + (y 0).val) (h1 : (i 1).val = 512 * (t.val / 16) + (y 1).val) :
    k0_pay4 (iblk0 V c 0 t) (iblk0 V c 1 t) (iblk0 V c 2 t) y = G3 V c i := by
  obtain ⟨p, q, rfl⟩ : ∃ (p : Fin 2048) (q : Fin 512), y = ix2 p q := ⟨y 0, y 1, eq_ix2 y⟩
  exact blk_h V c t p q (i 0) (i 1) h0 h1

/-- What point `t` writes back to the output is block `t` of `G3`. -/
theorem flushed3 (t : Fin cfg0.N) :
    (dat0 (F := Ideal) V c).flushed 3 t = ((cfg0.win 3).blk t).view.read (Elt Ideal) (G3 V c) := by
  show (cfg0.win 3).cut (grid0.coords t) ((dat0 (F := Ideal) V c).after 3 t) = _
  rw [after0_3, after_h V c t]
  obtain ⟨e00, e01, e10, e11, e20, e21, e30, e31, -⟩ := idx_facts t
  funext y
  have h0 : ((((cfg0.win 3).blk t).view.emb y) 0).val = 2048 * (t.val % 16) + (y 0).val := by
    show win0_3.index t (0 : Fin 2) * 2048 + 1 * (y 0).val = 2048 * (t.val % 16) + (y 0).val
    omega
  have h1 : ((((cfg0.win 3).blk t).view.emb y) 1).val = 512 * (t.val / 16) + (y 1).val := by
    show win0_3.index t (1 : Fin 2) * 512 + 1 * (y 1).val = 512 * (t.val / 16) + (y 1).val
    omega
  show k0_pay4 (iblk0 V c 0 t) (iblk0 V c 1 t) (iblk0 V c 2 t) y = G3 V c (((cfg0.win 3).blk t).view.emb y)
  exact blk_h_at V c t y _ h0 h1

/-- After the last row block of a column block the running sums' block, read at an index `y`, is the whole column
    sum of the array column `i 1` it is written to. -/
theorem s_at (t : Fin cfg0.N) (h15 : t.val % 16 = 15) (y : S1x512.Idx) (i : S1x1024.Idx)
    (h1 : (i 1).val = 512 * (t.val / 16) + (y 1).val) :
    (outsAt0 V c t.val t.isLt).2.1 y = G4 V c i := by
  have hq : (y 1).val < 512 := (y 1).isLt
  have hu : (y 0).val < 1 := (y 0).isLt
  have hy : y = ix2 (0 : Fin 1) (⟨(y 1).val, hq⟩ : Fin 512) := funext fun a => by
    match a with
    | ⟨0, _⟩ => exact Fin.ext (by show (y 0).val = 0; omega)
    | ⟨1, _⟩ => rfl
  have key := (sums_inv V c t.val t.isLt ⟨(y 1).val, hq⟩ (i 1) h1).1
  rw [h15, partialSum_last] at key
  rw [hy]
  exact key.trans (G4_apply V c i).symm
theorem sq_at (t : Fin cfg0.N) (h15 : t.val % 16 = 15) (y : S1x512.Idx) (i : S1x1024.Idx)
    (h1 : (i 1).val = 512 * (t.val / 16) + (y 1).val) :
    (outsAt0 V c t.val t.isLt).2.2 y = G5 V c i := by
  have hq : (y 1).val < 512 := (y 1).isLt
  have hu : (y 0).val < 1 := (y 0).isLt
  have hy : y = ix2 (0 : Fin 1) (⟨(y 1).val, hq⟩ : Fin 512) := funext fun a => by
    match a with
    | ⟨0, _⟩ => exact Fin.ext (by show (y 0).val = 0; omega)
    | ⟨1, _⟩ => rfl
  have key := (sums_inv V c t.val t.isLt ⟨(y 1).val, hq⟩ (i 1) h1).2
  rw [h15, partialSum_last] at key
  rw [hy]
  exact key.trans (G5_apply V c i).symm

/-- The running sums are written back after the last row block of a column block, where they are the whole
    column sums. -/
theorem flushed4 (t : Fin cfg0.N) (hf : (cfg0.win 4).flush t = true) :
    (dat0 (F := Ideal) V c).flushed 4 t = ((cfg0.win 4).blk t).view.read (Elt Ideal) (G4 V c) := by
  have h15 : t.val % 16 = 15 := (flush0_4 t).mp hf
  obtain ⟨e00, e01, e10, e11, e20, e21, e30, e31, e40, e41, -⟩ := idx_facts t
  show (cfg0.win 4).cut (grid0.coords t) ((dat0 (F := Ideal) V c).after 4 t) = _
  rw [after0_4]
  funext y
  have h1 : ((((cfg0.win 4).blk t).view.emb y) 1).val = 512 * (t.val / 16) + (y 1).val := by
    show win0_4.index t (1 : Fin 2) * 512 + 1 * (y 1).val = 512 * (t.val / 16) + (y 1).val
    omega
  have hG : ∀ i : S1x1024.Idx, (i 1).val = 512 * (t.val / 16) + (y 1).val →
      (outsAt0 V c t.val t.isLt).2.1 y = G4 V c i := fun i h => s_at V c t h15 y i h
  generalize G4 V c = g at hG ⊢
  exact hG _ h1
theorem flushed5 (t : Fin cfg0.N) (hf : (cfg0.win 5).flush t = true) :
    (dat0 (F := Ideal) V c).flushed 5 t = ((cfg0.win 5).blk t).view.read (Elt Ideal) (G5 V c) := by
  have h15 : t.val % 16 = 15 := (flush0_5 t).mp hf
  obtain ⟨e00, e01, e10, e11, e20, e21, e30, e31, e40, e41, e50, e51⟩ := idx_facts t
  show (cfg0.win 5).cut (grid0.coords t) ((dat0 (F := Ideal) V c).after 5 t) = _
  rw [after0_5]
  funext y
  have h1 : ((((cfg0.win 5).blk t).view.emb y) 1).val = 512 * (t.val / 16) + (y 1).val := by
    show win0_5.index t (1 : Fin 2) * 512 + 1 * (y 1).val = 512 * (t.val / 16) + (y 1).val
    omega
  have hG : ∀ i : S1x1024.Idx, (i 1).val = 512 * (t.val / 16) + (y 1).val →
      (outsAt0 V c t.val t.isLt).2.2 y = G5 V c i := fun i h => sq_at V c t h15 y i h
  generalize G5 V c = g at hG ⊢
  exact hG _ h1

/-- An index of an output array is in point `t`'s block iff each coordinate is in the block's range on its axis. -/
theorem mem_blk3 (t : Fin cfg0.N) (i : S32768x1024.Idx) :
    i ∈ ((cfg0.win 3).blk t).view.set ↔ ∀ a : Fin 2, win0_3.index t a * S2048x512.size a ≤ (i a).val ∧ (i a).val < win0_3.index t a * S2048x512.size a + S2048x512.size a := by
  show i ∈ ((View.whole main_v20_0).slice (win0_3.rect t)).set ↔ _
  rw [View.set_slice_whole, Rect.mem_set_unit]
  exact Iff.rfl
theorem mem_blk4 (t : Fin cfg0.N) (i : S1x1024.Idx) :
    i ∈ ((cfg0.win 4).blk t).view.set ↔ ∀ a : Fin 2, win0_4.index t a * S1x512.size a ≤ (i a).val ∧ (i a).val < win0_4.index t a * S1x512.size a + S1x512.size a := by
  show i ∈ ((View.whole main_v20_1).slice (win0_4.rect t)).set ↔ _
  rw [View.set_slice_whole, Rect.mem_set_unit]
  exact Iff.rfl
theorem mem_blk5 (t : Fin cfg0.N) (i : S1x1024.Idx) :
    i ∈ ((cfg0.win 5).blk t).view.set ↔ ∀ a : Fin 2, win0_5.index t a * S1x512.size a ≤ (i a).val ∧ (i a).val < win0_5.index t a * S1x512.size a + S1x512.size a := by
  show i ∈ ((View.whole main_v20_2).slice (win0_5.rect t)).set ↔ _
  rw [View.set_slice_whole, Rect.mem_set_unit]
  exact Iff.rfl

/-- Entry `(r, j)` of the output lies in the block of point `16 (j / 512) + r / 2048`. -/
theorem cover3 (i : S32768x1024.Idx) :
    ∃ t : Fin cfg0.N, (cfg0.win 3).flush t = true ∧ i ∈ ((cfg0.win 3).blk t).view.set := by
  have hi0 : (i 0).val < 32768 := (i 0).isLt
  have hi1 : (i 1).val < 1024 := (i 1).isLt
  have hN : cfg0.N = 32 := N_0
  obtain ⟨t, ht⟩ : ∃ t : Fin cfg0.N, t.val = 16 * ((i 1).val / 512) + (i 0).val / 2048 :=
    ⟨⟨16 * ((i 1).val / 512) + (i 0).val / 2048, by rw [hN]; omega⟩, rfl⟩
  obtain ⟨e00, e01, e10, e11, e20, e21, e30, e31, -⟩ := idx_facts t
  refine ⟨t, flush0_3 t, ?_⟩
  rw [mem_blk3]
  intro a
  match a with
  | ⟨0, _⟩ => show win0_3.index t (0 : Fin 2) * 2048 ≤ (i 0).val ∧ (i 0).val < win0_3.index t (0 : Fin 2) * 2048 + 2048; omega
  | ⟨1, _⟩ => show win0_3.index t (1 : Fin 2) * 512 ≤ (i 1).val ∧ (i 1).val < win0_3.index t (1 : Fin 2) * 512 + 512; omega

/-- Column `j` of a statistics row lies in the block written back at point `16 (j / 512) + 15`. -/
theorem cover4 (i : S1x1024.Idx) :
    ∃ t : Fin cfg0.N, (cfg0.win 4).flush t = true ∧ i ∈ ((cfg0.win 4).blk t).view.set := by
  have hi0 : (i 0).val < 1 := (i 0).isLt
  have hi1 : (i 1).val < 1024 := (i 1).isLt
  have hN : cfg0.N = 32 := N_0
  obtain ⟨t, ht⟩ : ∃ t : Fin cfg0.N, t.val = 16 * ((i 1).val / 512) + 15 :=
    ⟨⟨16 * ((i 1).val / 512) + 15, by rw [hN]; omega⟩, rfl⟩
  obtain ⟨e00, e01, e10, e11, e20, e21, e30, e31, e40, e41, -⟩ := idx_facts t
  refine ⟨t, (flush0_4 t).mpr (by omega), ?_⟩
  rw [mem_blk4]
  intro a
  match a with
  | ⟨0, _⟩ => show win0_4.index t (0 : Fin 2) * 1 ≤ (i 0).val ∧ (i 0).val < win0_4.index t (0 : Fin 2) * 1 + 1; omega
  | ⟨1, _⟩ => show win0_4.index t (1 : Fin 2) * 512 ≤ (i 1).val ∧ (i 1).val < win0_4.index t (1 : Fin 2) * 512 + 512; omega
theorem cover5 (i : S1x1024.Idx) :
    ∃ t : Fin cfg0.N, (cfg0.win 5).flush t = true ∧ i ∈ ((cfg0.win 5).blk t).view.set := by
  have hi0 : (i 0).val < 1 := (i 0).isLt
  have hi1 : (i 1).val < 1024 := (i 1).isLt
  have hN : cfg0.N = 32 := N_0
  obtain ⟨t, ht⟩ : ∃ t : Fin cfg0.N, t.val = 16 * ((i 1).val / 512) + 15 :=
    ⟨⟨16 * ((i 1).val / 512) + 15, by rw [hN]; omega⟩, rfl⟩
  obtain ⟨e00, e01, e10, e11, e20, e21, e30, e31, e40, e41, e50, e51⟩ := idx_facts t
  refine ⟨t, (flush0_5 t).mpr (by omega), ?_⟩
  rw [mem_blk5]
  intro a
  match a with
  | ⟨0, _⟩ => show win0_5.index t (0 : Fin 2) * 1 ≤ (i 0).val ∧ (i 0).val < win0_5.index t (0 : Fin 2) * 1 + 1; omega
  | ⟨1, _⟩ => show win0_5.index t (1 : Fin 2) * 512 ≤ (i 1).val ∧ (i 1).val < win0_5.index t (1 : Fin 2) * 512 + 512; omega

/-! ### The region's three results -/

/-- The output array: the layer's output, entry by entry. -/
theorem out_h (r : Fin 32768) (j : Fin 1024) :
    (dat0 (F := Ideal) V c).arrAt 3 cfg0.N (ValueIdx.ix2 r j) = hOut V c r j := by
  rw [(dat0 (F := Ideal) V c).arrAt_eq_of_cover 3 (G3 V c) (fun t _ => flushed3 V c t) (cover3)]
  rfl

/-- The first statistics row: each column of the layer's output summed over all rows. -/
theorem out_s (j : Fin 1024) :
    (dat0 (F := Ideal) V c).arrAt 4 cfg0.N (ValueIdx.ix2 (0 : Fin 1) j) = Spec.colsum (hOut V c) j := by
  rw [(dat0 (F := Ideal) V c).arrAt_eq_of_cover 4 (G4 V c) (flushed4 V c) (cover4)]
  rfl

/-- The second statistics row: each column's squares summed over all rows. -/
theorem out_sq (j : Fin 1024) :
    (dat0 (F := Ideal) V c).arrAt 5 cfg0.N (ValueIdx.ix2 (0 : Fin 1) j) = Spec.colsumsq (hOut V c) j := by
  rw [(dat0 (F := Ideal) V c).arrAt_eq_of_cover 5 (G5 V c) (flushed5 V c) (cover5)]
  rfl

end Cert.KernelValue.R0

end
-- ==== Proof.Region1.lean ====
/-
  The value of a hidden layer's region of the network, as a function of the arrays the region finds.

  The region goes through the batch of 32768 rows in 16 blocks of 2048 rows and through the 1024 output features in
  4 blocks of 256: point 16 j + i works on row block i and feature block j. There its body normalises the previous layer's block with
  the given column means and variances, (h − mean) · (var + ε)^(-1/2) · g + be, takes the signs, multiplies them with the
  weights' block and adds the bias: the block of this layer's values h' r f = Σ_k sign(…) r k · w f k + b f. It stores that
  block, and it adds the block's column sums Σ_r h' r f and column sums of squares Σ_r (h' r f)² into two rows that it
  carries from point to point, set to zero at the first row block and written back after the last.

  Over the extended reals every operation is exact and a change of number format is the identity, so:
    • the output array holds h' at every row and feature (each point writes its own block once);
    • the two statistics rows hold Σ_r h' r f and Σ_r (h' r f)² over ALL 32768 rows: after row block i the carried rows
      hold the sums over the rows below 2048 (i + 1) (induction on the point), and a sum over the rows is the sum of the
      sixteen block sums (addition of extended reals is commutative and associative; no finiteness is needed).
  All of it for arbitrary contents of the arrays the region starts from.
-/
import proofs.«141082_j78245714199267_2_alg».proof.Proof.KernelIdealFrame
import proofs.«141082_j78245714199267_2_alg».proof.Proof.Spec
import Idealize.ShloMosaic.Lib.Pipeline.Value
import Idealize.ShloMosaic.Lib.ValueLayout
import Idealize.ShloMosaic.PureOps.Ideal.Laws
import Idealize.ShloMosaic.Lib.Tactic

noncomputable section

open Idealize.ShloMosaic Idealize.ShloMosaic.TcCoe Idealize.SL.Sem
open Idealize.ShloMosaic.Pipeline (Dat)
open Idealize.ShloMosaic.ValueIdx
open scoped BigOperators

namespace Cert.KernelValue.R1

open Cert.KernelIdeal Cert.KernelIdeal.Gen Cert.KernelIdeal.GenP

/-! ## What each case's stores leave, as payloads of the blocks the point finds (any float values)

Each output's buffer is written by stores that cover it whole, so what the body leaves there is the last store's
payload; at a first row block the two statistics rows are first set to zero and read back. -/

section Pieces

variable {F : FTy → Type} [FloatOps F]

theorem hz : (![0, 0] : Fin 2 → Nat) = fun _ => 0 := funext fun a => by fin_cases a <;> rfl

variable (c : Dev nD) (i : grid1.Coords)
  (arg2 : Memref sig .tc .vmem S2048x1024 .bf16) (harg2 : arg2.IsWhole)
  (arg3 : Memref sig .tc .vmem S1x1024 .f32) (harg3 : arg3.IsWhole)
  (arg4 : Memref sig .tc .vmem S1x1024 .f32) (harg4 : arg4.IsWhole)
  (arg5 : Memref sig .tc .vmem S1x1024 .f32) (harg5 : arg5.IsWhole)
  (arg6 : Memref sig .tc .vmem S1x1024 .f32) (harg6 : arg6.IsWhole)
  (arg7 : Memref sig .tc .vmem S256x1024 .bf16) (harg7 : arg7.IsWhole)
  (arg8 : Memref sig .tc .vmem S1x256 .f32) (harg8 : arg8.IsWhole)
  (arg9 : Memref sig .tc .vmem S2048x256 .bf16) (harg9 : arg9.IsWhole)
  (arg10 : Memref sig .tc .vmem S1x256 .f32) (harg10 : arg10.IsWhole)
  (arg11 : Memref sig .tc .vmem S1x256 .f32) (harg11 : arg11.IsWhole)
  (x0 : Vec F S2048x1024 .bf16) (x1 : Vec F S1x1024 .f32) (x2 : Vec F S1x1024 .f32) (x3 : Vec F S1x1024 .f32) (x4 : Vec F S1x1024 .f32) (x5 : Vec F S256x1024 .bf16) (x6 : Vec F S1x256 .f32)

/-- First row block: the output block holds the affine values. -/
theorem piece_A_7 (hc : cond1_0 i) :
    out1_A_7 c i arg2 harg2 arg3 harg3 arg4 harg4 arg5 harg5 arg6 harg6 arg7 harg7 arg8 harg8 arg9 harg9 arg10 harg10 arg11 harg11 hc x0 x1 x2 x3 x4 x5 x6 = k1_pay2 (k1_pay7 x0 x2 x1 x3 x4 x5) x6 := by
  unfold out1_A_7
  rw [View.read_writes_eq_canon _ _ _ (cover1_A_7 c i arg2 harg2 arg3 harg3 arg4 harg4 arg5 harg5 arg6 harg6 arg7 harg7 arg8 harg8 arg9 harg9 arg10 harg10 arg11 harg11 hc x0 x1 x2 x3 x4 x5 x6)]
  unfold kernelRun1_A
  dsimp only
  sl_unfold_words
  rw [View.canon_unit_zero hz]
  simp only [View.readAt_eq_ld, harg2.read_unread, harg3.read_unread, harg4.read_unread, harg5.read_unread, harg6.read_unread, harg7.read_unread, harg8.read_unread, harg10.read_unread, harg11.read_unread, View.ld_unit_zero (S := S2048x1024) hz, View.ld_unit_zero (S := S1x1024) hz, View.ld_unit_zero (S := S256x1024) hz, View.ld_unit_zero (S := S1x256) hz]

/-- First row block: the sums row holds zero plus the block's column sums. -/
theorem piece_A_8 (hc : cond1_0 i) :
    out1_A_8 c i arg2 harg2 arg3 harg3 arg4 harg4 arg5 harg5 arg6 harg6 arg7 harg7 arg8 harg8 arg9 harg9 arg10 harg10 arg11 harg11 hc x0 x1 x2 x3 x4 x5 x6 = k1_pay3 (k1_pay7 x0 x2 x1 x3 x4 x5) x6 k1_pay5 := by
  unfold out1_A_8
  rw [View.read_writes_eq_canon _ _ _ (cover1_A_8 c i arg2 harg2 arg3 harg3 arg4 harg4 arg5 harg5 arg6 harg6 arg7 harg7 arg8 harg8 arg9 harg9 arg10 harg10 arg11 harg11 hc x0 x1 x2 x3 x4 x5 x6)]
  unfold kernelRun1_A
  dsimp only
  sl_unfold_words
  rw [View.canon_cons_unit_zero (S := S1x256) hz, View.readCov_unit_zero (S := S1x256) _ hz]
  simp only [View.readAt_eq_ld, harg2.read_unread, harg3.read_unread, harg4.read_unread, harg5.read_unread, harg6.read_unread, harg7.read_unread, harg8.read_unread, harg10.read_unread, harg11.read_unread, View.ld_unit_zero (S := S2048x1024) hz, View.ld_unit_zero (S := S1x1024) hz, View.ld_unit_zero (S := S256x1024) hz, View.ld_unit_zero (S := S1x256) hz]

/-- First row block: the squares row holds zero plus the block's column sums of squares. -/
theorem piece_A_9 (hc : cond1_0 i) :
    out1_A_9 c i arg2 harg2 arg3 harg3 arg4 harg4 arg5 harg5 arg6 harg6 arg7 harg7 arg8 harg8 arg9 harg9 arg10 harg10 arg11 harg11 hc x0 x1 x2 x3 x4 x5 x6 = k1_pay4 (k1_pay7 x0 x2 x1 x3 x4 x5) x6 k1_pay6 := by
  unfold out1_A_9
  rw [View.read_writes_eq_canon _ _ _ (cover1_A_9 c i arg2 harg2 arg3 harg3 arg4 harg4 arg5 harg5 arg6 harg6 arg7 harg7 arg8 harg8 arg9 harg9 arg10 harg10 arg11 harg11 hc x0 x1 x2 x3 x4 x5 x6)]
  unfold kernelRun1_A
  dsimp only
  sl_unfold_words
  rw [View.canon_cons_unit_zero (S := S1x256) hz, View.readCov_unit_zero (S := S1x256) _ hz]
  simp only [View.readAt_eq_ld, harg2.read_unread, harg3.read_unread, harg4.read_unread, harg5.read_unread, harg6.read_unread, harg7.read_unread, harg8.read_unread, harg10.read_unread, harg11.read_unread, View.ld_unit_zero (S := S2048x1024) hz, View.ld_unit_zero (S := S1x1024) hz, View.ld_unit_zero (S := S256x1024) hz, View.ld_unit_zero (S := S1x256) hz]

/-- Later row blocks: the output block holds the affine values. -/
theorem piece_B_7 (hc : ¬cond1_0 i) (xo8 xo9 : Vec F S1x256 .f32) :
    out1_B_7 c i arg2 harg2 arg3 harg3 arg4 harg4 arg5 harg5 arg6 harg6 arg7 harg7 arg8 harg8 arg9 harg9 arg10 harg10 arg11 harg11 hc x0 x1 x2 x3 x4 x5 x6 xo8 xo9 = k1_pay2 (k1_pay7 x0 x2 x1 x3 x4 x5) x6 := by
  unfold out1_B_7
  rw [View.read_writes_eq_canon _ _ _ (cover1_B_7 c i arg2 harg2 arg3 harg3 arg4 harg4 arg5 harg5 arg6 harg6 arg7 harg7 arg8 harg8 arg9 harg9 arg10 harg10 arg11 harg11 hc x0 x1 x2 x3 x4 x5 x6 xo8 xo9)]
  unfold kernelRun1_B
  dsimp only
  sl_unfold_words
  rw [View.canon_unit_zero hz]
  simp only [View.readAt_eq_ld, harg2.read_unread, harg3.read_unread, harg4.read_unread, harg5.read_unread, harg6.read_unread, harg7.read_unread, harg8.read_unread, harg10.read_unread, harg11.read_unread, View.ld_unit_zero (S := S2048x1024) hz, View.ld_unit_zero (S := S1x1024) hz, View.ld_unit_zero (S := S256x1024) hz, View.ld_unit_zero (S := S1x256) hz]

/-- Later row blocks: the sums row holds what it carried plus the block's column sums. -/
theorem piece_B_8 (hc : ¬cond1_0 i) (xo8 xo9 : Vec F S1x256 .f32) :
    out1_B_8 c i arg2 harg2 arg3 harg3 arg4 harg4 arg5 harg5 arg6 harg6 arg7 harg7 arg8 harg8 arg9 harg9 arg10 harg10 arg11 harg11 hc x0 x1 x2 x3 x4 x5 x6 xo8 xo9 = k1_pay3 (k1_pay7 x0 x2 x1 x3 x4 x5) x6 xo8 := by
  unfold out1_B_8
  rw [View.read_writes_eq_canon _ _ _ (cover1_B_8 c i arg2 harg2 arg3 harg3 arg4 harg4 arg5 harg5 arg6 harg6 arg7 harg7 arg8 harg8 arg9 harg9 arg10 harg10 arg11 harg11 hc x0 x1 x2 x3 x4 x5 x6 xo8 xo9)]
  unfold kernelRun1_B
  dsimp only
  sl_unfold_words
  rw [View.canon_unit_zero hz]
  simp only [View.readAt_eq_ld, harg2.read_unread, harg3.read_unread, harg4.read_unread, harg5.read_unread, harg6.read_unread, harg7.read_unread, harg8.read_unread, harg10.read_unread, harg11.read_unread, View.ld_unit_zero (S := S2048x1024) hz, View.ld_unit_zero (S := S1x1024) hz, View.ld_unit_zero (S := S256x1024) hz, View.ld_unit_zero (S := S1x256) hz]

/-- Later row blocks: the squares row holds what it carried plus the block's column sums of squares. -/
theorem piece_B_9 (hc : ¬cond1_0 i) (xo8 xo9 : Vec F S1x256 .f32) :
    out1_B_9 c i arg2 harg2 arg3 harg3 arg4 harg4 arg5 harg5 arg6 harg6 arg7 harg7 arg8 harg8 arg9 harg9 arg10 harg10 arg11 harg11 hc x0 x1 x2 x3 x4 x5 x6 xo8 xo9 = k1_pay4 (k1_pay7 x0 x2 x1 x3 x4 x5) x6 xo9 := by
  unfold out1_B_9
  rw [View.read_writes_eq_canon _ _ _ (cover1_B_9 c i arg2 harg2 arg3 harg3 arg4 harg4 arg5 harg5 arg6 harg6 arg7 harg7 arg8 harg8 arg9 harg9 arg10 harg10 arg11 harg11 hc x0 x1 x2 x3 x4 x5 x6 xo8 xo9)]
  unfold kernelRun1_B
  dsimp only
  sl_unfold_words
  rw [View.canon_unit_zero hz]
  simp only [View.readAt_eq_ld, harg2.read_unread, harg3.read_unread, harg4.read_unread, harg5.read_unread, harg6.read_unread, harg7.read_unread, harg8.read_unread, harg10.read_unread, harg11.read_unread, View.ld_unit_zero (S := S2048x1024) hz, View.ld_unit_zero (S := S1x1024) hz, View.ld_unit_zero (S := S256x1024) hz, View.ld_unit_zero (S := S1x256) hz]

end Pieces

/-! ## The payloads read at an index, over the extended reals -/

def eps : EReal := Ideal.ofBits .f32 0x3727C5AC#32

theorem dot_lhs0 (i : S2048x256.Idx) (k : dot_S2048x1024_S1024x256_S2048x256_1_0_0_1_n_n.contr.Idx) : (dot_S2048x1024_S1024x256_S2048x256_1_0_0_1_n_n.lhsIdx i k 0).val = (i 0).val := by
  unfold DotDims.lhsIdx
  rw [dif_neg (show ¬(0 : Fin S2048x1024.rank) ∈ dot_S2048x1024_S1024x256_S2048x256_1_0_0_1_n_n.lhsBatch by decide), dif_pos (show (0 : Fin S2048x1024.rank) ∈ dot_S2048x1024_S1024x256_S2048x256_1_0_0_1_n_n.lhsNonContracting by decide)]
  rfl
theorem dot_lhs1 (i : S2048x256.Idx) (k : dot_S2048x1024_S1024x256_S2048x256_1_0_0_1_n_n.contr.Idx) : (dot_S2048x1024_S1024x256_S2048x256_1_0_0_1_n_n.lhsIdx i k 1).val = (k ⟨0, by decide⟩).val :=
  dot_S2048x1024_S1024x256_S2048x256_1_0_0_1_n_n.lhsIdx_val_of_single rfl i k
theorem dot_rhs0 (i : S2048x256.Idx) (k : dot_S2048x1024_S1024x256_S2048x256_1_0_0_1_n_n.contr.Idx) : (dot_S2048x1024_S1024x256_S2048x256_1_0_0_1_n_n.rhsIdx i k 0).val = (k ⟨0, by decide⟩).val :=
  dot_S2048x1024_S1024x256_S2048x256_1_0_0_1_n_n.rhsIdx_val_of_single rfl i k
theorem dot_rhs1 (i : S2048x256.Idx) (k : dot_S2048x1024_S1024x256_S2048x256_1_0_0_1_n_n.contr.Idx) : (dot_S2048x1024_S1024x256_S2048x256_1_0_0_1_n_n.rhsIdx i k 1).val = (i 1).val := by
  unfold DotDims.rhsIdx
  rw [dif_neg (show ¬(1 : Fin S1024x256.rank) ∈ dot_S2048x1024_S1024x256_S2048x256_1_0_0_1_n_n.rhsBatch by decide), dif_pos (show (1 : Fin S1024x256.rank) ∈ dot_S2048x1024_S1024x256_S2048x256_1_0_0_1_n_n.rhsNonContracting by decide)]
  rfl

/-- A product of a [2048,1024] block with a [1024,256] block into the zero block, read at (p, q): the sum over the
    contracted coordinate of the products. -/
theorem matmul_pq (lhs : FVec Ideal S2048x1024 .bf16) (rhs : FVec Ideal S1024x256 .bf16) (p : Fin 2048) (q : Fin 256) :
    matmul dot_S2048x1024_S1024x256_S2048x256_1_0_0_1_n_n none lhs rhs (constant S2048x256 .f32 0x00000000#32) (ix2 p q)
      = ∑ k : Fin 1024, lhs (ix2 p k) * rhs (ix2 k q) := by
  refine (Ideal.matmul_constant_zero_apply dot_S2048x1024_S1024x256_S2048x256_1_0_0_1_n_n none lhs rhs (ix2 p q)).trans ?_
  rw [← Equiv.sum_comp (contrEquiv1 dot_S2048x1024_S1024x256_S2048x256_1_0_0_1_n_n 1024 rfl rfl).symm]
  refine Finset.sum_congr rfl fun k _ => ?_
  have hk := contrEquiv1_symm_val dot_S2048x1024_S1024x256_S2048x256_1_0_0_1_n_n 1024 rfl rfl k
  have el : dot_S2048x1024_S1024x256_S2048x256_1_0_0_1_n_n.lhsIdx (ix2 p q) ((contrEquiv1 dot_S2048x1024_S1024x256_S2048x256_1_0_0_1_n_n 1024 rfl rfl).symm k) = ix2 p k := funext fun a => Fin.ext (by
    match a with
    | ⟨0, _⟩ => exact dot_lhs0 _ _
    | ⟨1, _⟩ => exact (dot_lhs1 _ _).trans hk)
  have er : dot_S2048x1024_S1024x256_S2048x256_1_0_0_1_n_n.rhsIdx (ix2 p q) ((contrEquiv1 dot_S2048x1024_S1024x256_S2048x256_1_0_0_1_n_n 1024 rfl rfl).symm k) = ix2 k q := funext fun a => Fin.ext (by
    match a with
    | ⟨0, _⟩ => exact (dot_rhs0 _ _).trans hk
    | ⟨1, _⟩ => exact dot_rhs1 _ _)
  rw [el, er]

/-- The sign idiom over a whole block, rounded to the narrow format (the identity on extended reals), at an element. -/
theorem sign_idiom (v : FVec Ideal S2048x1024 .f32) (i : S2048x1024.Idx) :
    truncf .bf16 (select (cmpf .ogt (absf v) (broadcast S2048x1024 (Scalar.ofBits .f32 0x00000000#32)))
        (select (cmpf .olt v (constant S2048x1024 .f32 0x00000000#32)) (constant S2048x1024 .f32 0xBF800000#32)
          (constant S2048x1024 .f32 0x3F800000#32)) v) bitsLt_bf16_f32 i = Ideal.sign (v i) :=
  Ideal.jnp_sign_eq_sign_f32 (v i)

/-- The body's product, read at (p, q) of the block: the signs of the normalised block times the weights' block. -/
theorem pay7_apply (x0 : Vec Ideal S2048x1024 .bf16) (x2 x1 x3 x4 : Vec Ideal S1x1024 .f32) (x5 : Vec Ideal S256x1024 .bf16)
    (p : Fin 2048) (q : Fin 256) :
    k1_pay7 (F := Ideal) x0 x2 x1 x3 x4 x5 (ix2 p q)
      = ∑ k : Fin 1024, Ideal.sign ((x0 (ix2 p k) - x1 (ix2 (0 : Fin 1) k)) * Ideal.rsqrt (x2 (ix2 (0 : Fin 1) k) + eps) * x3 (ix2 (0 : Fin 1) k) + x4 (ix2 (0 : Fin 1) k)) * x5 (ix2 q k) := by
  unfold k1_pay7
  refine (matmul_pq _ _ p q).trans ?_
  refine Finset.sum_congr rfl fun k _ => ?_
  refine congrArg₂ (· * ·) ((sign_idiom _ (ix2 p k)).trans (congrArg Ideal.sign ?_)) ?_
  · simp only [shapeCast_self, addf_apply, mulf_apply, subf_apply, extf_apply, broadcastTo_1b_ab_apply, broadcast_apply]
    rfl
  · rw [shapeCast_self]
    exact transpose_ix2_apply x5 _ k q

/-- The block's affine values: the product plus the bias row. -/
theorem pay1_apply (v39 : FVec Ideal S2048x256 .f32) (x6 : Vec Ideal S1x256 .f32) (p : Fin 2048) (q : Fin 256) :
    k1_pay1 (F := Ideal) v39 x6 (ix2 p q) = v39 (ix2 p q) + x6 (ix2 (0 : Fin 1) q) := by
  unfold k1_pay1
  simp only [shapeCast_self, addf_apply, broadcastTo_1b_ab_apply]

/-- What the body stores in the output block: the affine values (a change of format is the identity). -/
theorem pay2_apply (v39 : FVec Ideal S2048x256 .f32) (x6 : Vec Ideal S1x256 .f32) (p : Fin 2048) (q : Fin 256) :
    k1_pay2 (F := Ideal) v39 x6 (ix2 p q) = k1_pay1 (F := Ideal) v39 x6 (ix2 p q) := rfl

/-- The index a reduction over the rows sums at: row p, the kept column. -/
theorem red_lift (h : Shape.Reduces S2048x256 [0] S256) (q : Fin 256) (p : Fin 2048) : h.lift (ix1 q) p = ix2 p q :=
  funext fun a => Fin.ext (by match a with | ⟨0, _⟩ => rfl | ⟨1, _⟩ => rfl)

/-- A sum over the rows of a block, kept as a one-row array, read at column q. -/
theorem colred_apply (src : FVec Ideal S2048x256 .f32) (hacc : (0x00000000#32 : BitVec 32) = 0x00000000#32) (q : Fin 256) :
    shapeCast S1x256 (multiReduction .add [0] S256 src 0x00000000#32 reduces_S2048x256_S256 (.inl rfl) hacc) shapeCasts_S256_S1x256 (ix2 (0 : Fin 1) q)
      = ∑ p : Fin 2048, src (ix2 p q) := by
  refine (shapeCast_a_1a_apply _ _ (0 : Fin 1) q).trans ?_
  refine (Ideal.multiReduction_add_single src 0x00000000#32 reduces_S2048x256_S256 (.inl rfl) hacc (ix1 q)).trans ?_
  exact Finset.sum_congr rfl fun p _ => congrArg src (red_lift reduces_S2048x256_S256 q p)

/-- The carried column sums after the body: what was carried plus the block's column sums. -/
theorem pay3_apply (v39 : FVec Ideal S2048x256 .f32) (x6 xo : Vec Ideal S1x256 .f32) (q : Fin 256) :
    k1_pay3 (F := Ideal) v39 x6 xo (ix2 (0 : Fin 1) q) = xo (ix2 (0 : Fin 1) q) + ∑ p : Fin 2048, k1_pay1 (F := Ideal) v39 x6 (ix2 p q) := by
  unfold k1_pay3
  refine (addf_apply _ _ _).trans ?_
  refine congrArg₂ (· + ·) ?_ (colred_apply _ rfl q)
  rw [shapeCast_self]

/-- The carried column sums of squares after the body: what was carried plus the block's. -/
theorem pay4_apply (v39 : FVec Ideal S2048x256 .f32) (x6 xo : Vec Ideal S1x256 .f32) (q : Fin 256) :
    k1_pay4 (F := Ideal) v39 x6 xo (ix2 (0 : Fin 1) q)
      = xo (ix2 (0 : Fin 1) q) + ∑ p : Fin 2048, k1_pay1 (F := Ideal) v39 x6 (ix2 p q) * k1_pay1 (F := Ideal) v39 x6 (ix2 p q) := by
  unfold k1_pay4
  refine (addf_apply _ _ _).trans ?_
  refine congrArg₂ (· + ·) ?_ (colred_apply _ rfl q)
  rw [shapeCast_self]

/-- The two zero rows the first row block's point stores. -/
theorem pay5_apply (i : S1x256.Idx) : k1_pay5 (F := Ideal) i = 0 := by
  unfold k1_pay5
  exact Ideal.ofBits_zero_f32
theorem pay6_apply (i : S1x256.Idx) : k1_pay6 (F := Ideal) i = 0 := by
  unfold k1_pay6
  exact Ideal.ofBits_zero_f32

/-! ## The batch's rows in sixteen blocks -/

/-- The rows of the batch split into 16 blocks of 2048: (s, p) is row 2048 s + p. -/
def rowEquiv : Fin 16 × Fin 2048 ≃ Fin 32768 where
  toFun x := ⟨2048 * x.1.val + x.2.val, by have := x.1.isLt; have := x.2.isLt; omega⟩
  invFun r := (⟨r.val / 2048, by have := r.isLt; omega⟩, ⟨r.val % 2048, by omega⟩)
  left_inv x := by
    have h1 := x.1.isLt
    have h2 := x.2.isLt
    refine Prod.ext (Fin.ext ?_) (Fin.ext ?_)
    · show (2048 * x.1.val + x.2.val) / 2048 = x.1.val
      omega
    · show (2048 * x.1.val + x.2.val) % 2048 = x.2.val
      omega
  right_inv r := Fin.ext (by
    show 2048 * (r.val / 2048) + r.val % 2048 = r.val
    omega)

/-- The sum of g over the rows of block s; zero past the last block. -/
def blockSum (g : Fin 32768 → EReal) (s : ℕ) : EReal :=
  if h : s < 16 then ∑ p : Fin 2048, g ⟨2048 * s + p.val, by have := p.isLt; omega⟩ else 0

theorem blockSum_of_lt (g : Fin 32768 → EReal) (s : ℕ) (h : s < 16) :
    blockSum g s = ∑ p : Fin 2048, g ⟨2048 * s + p.val, by have := p.isLt; omega⟩ := dif_pos h

/-- The sixteen block sums add up to the sum over all rows: a sum over a product of index sets, re-indexed. -/
theorem sum_blocks (g : Fin 32768 → EReal) : ∑ s ∈ Finset.range 16, blockSum g s = ∑ r, g r := by
  rw [Finset.sum_range, ← Equiv.sum_comp rowEquiv g, Fintype.sum_prod_type]
  refine Finset.sum_congr rfl fun s _ => ?_
  rw [blockSum_of_lt g s.val s.isLt]
  rfl

/-! ## The arrays the region finds, and the layer's values -/

section Region

variable (V : (c : Dev nD) → (b : Ref sig .tc) → Buf (Elt Ideal) ((c : Thread nD τ).loc b)) (c : Dev nD)

/-- The previous layer's pre-activations, rows by features. -/
abbrev A0 : S32768x1024.Idx → EReal := V c (Pipeline.arrRef spec1 0)
/-- Their column means. -/
abbrev A1 : S1x1024.Idx → EReal := V c (Pipeline.arrRef spec1 1)
/-- Their column variances. -/
abbrev A2 : S1x1024.Idx → EReal := V c (Pipeline.arrRef spec1 2)
/-- The normalisation's scale. -/
abbrev A3 : S1x1024.Idx → EReal := V c (Pipeline.arrRef spec1 3)
/-- The normalisation's shift. -/
abbrev A4 : S1x1024.Idx → EReal := V c (Pipeline.arrRef spec1 4)
/-- This layer's weights, output features by input features. -/
abbrev A5 : S1024x1024.Idx → EReal := V c (Pipeline.arrRef spec1 5)
/-- This layer's bias. -/
abbrev A6 : S1x1024.Idx → EReal := V c (Pipeline.arrRef spec1 6)

/-- This layer's pre-activations: the signs of the normalised previous layer, times the weights, plus the bias. -/
def hOut : Fin 32768 → Fin 1024 → EReal :=
  Spec.lin (Spec.signs eps (Spec.cur2 (A0 V c)) (Spec.row (A1 V c)) (Spec.row (A2 V c)) (Spec.row (A3 V c)) (Spec.row (A4 V c)))
    (Spec.cur2 (A5 V c)) (Spec.row (A6 V c))

/-! ## The windows' blocks, read off the arrays -/

/-- The printed index maps, decided over the grid: point t = 16 j + i works on row block i and column block j. -/
theorem idx_facts : ∀ t : Fin cfg1.N,
    win1_0.index t (0 : Fin 2) = t.val % 16 ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val / 16 ∧ win1_5.index t (1 : Fin 2) = 0
    ∧ win1_6.index t (0 : Fin 2) = 0 ∧ win1_6.index t (1 : Fin 2) = t.val / 16
    ∧ win1_7.index t (0 : Fin 2) = t.val % 16 ∧ win1_7.index t (1 : Fin 2) = t.val / 16
    ∧ win1_8.index t (0 : Fin 2) = 0 ∧ win1_8.index t (1 : Fin 2) = t.val / 16
    ∧ win1_9.index t (0 : Fin 2) = 0 ∧ win1_9.index t (1 : Fin 2) = t.val / 16 :=
  (by decide +kernel : ∀ t : Fin grid1.N, _)

/-- Row p of the activations' block at point 16 j + i is row 2048 i + p of the array. -/
theorem blk0 (t : Fin cfg1.N) (i j : ℕ) (hi : i < 16) (ht : t.val = 16 * j + i) (p : Fin 2048) (k : Fin 1024) :
    (iblk1 V c 0 t : Vec Ideal S2048x1024 .bf16) (ix2 p k) = (A0 V c) (ix2 ⟨2048 * i + p.val, by have := p.isLt; omega⟩ k) := by
  obtain ⟨e0, e1, -⟩ := idx_facts t
  unfold iblk1
  rw [View.read_apply]
  show V c (Pipeline.arrRef spec1 0) _ = V c (Pipeline.arrRef spec1 0) _
  refine congrArg (V c (Pipeline.arrRef spec1 0)) (funext fun a => Fin.ext ?_)
  match a with
  | ⟨0, _⟩ => show win1_0.index t (0 : Fin 2) * 2048 + 1 * p.val = 2048 * i + p.val; rw [e0]; omega
  | ⟨1, _⟩ => show win1_0.index t (1 : Fin 2) * 1024 + 1 * k.val = k.val; rw [e1]; omega

/-- The whole row array 1 is its one block at every point. -/
theorem blk1 (t : Fin cfg1.N) (k : Fin 1024) :
    (iblk1 V c 1 t : Vec Ideal S1x1024 .f32) (ix2 (0 : Fin 1) k) = (A1 V c) (ix2 (0 : Fin 1) k) := by
  obtain ⟨-, -, e0, e1, -⟩ := idx_facts t
  unfold iblk1
  rw [View.read_apply]
  show V c (Pipeline.arrRef spec1 1) _ = V c (Pipeline.arrRef spec1 1) _
  refine congrArg (V c (Pipeline.arrRef spec1 1)) (funext fun a => Fin.ext ?_)
  match a with
  | ⟨0, _⟩ => show win1_1.index t (0 : Fin 2) * 1 + 1 * 0 = 0; rw [e0]
  | ⟨1, _⟩ => show win1_1.index t (1 : Fin 2) * 1024 + 1 * k.val = k.val; rw [e1]; omega

/-- The whole row array 2 is its one block at every point. -/
theorem blk2 (t : Fin cfg1.N) (k : Fin 1024) :
    (iblk1 V c 2 t : Vec Ideal S1x1024 .f32) (ix2 (0 : Fin 1) k) = (A2 V c) (ix2 (0 : Fin 1) k) := by
  obtain ⟨-, -, -, -, e0, e1, -⟩ := idx_facts t
  unfold iblk1
  rw [View.read_apply]
  show V c (Pipeline.arrRef spec1 2) _ = V c (Pipeline.arrRef spec1 2) _
  refine congrArg (V c (Pipeline.arrRef spec1 2)) (funext fun a => Fin.ext ?_)
  match a with
  | ⟨0, _⟩ => show win1_2.index t (0 : Fin 2) * 1 + 1 * 0 = 0; rw [e0]
  | ⟨1, _⟩ => show win1_2.index t (1 : Fin 2) * 1024 + 1 * k.val = k.val; rw [e1]; omega

/-- The whole row array 3 is its one block at every point. -/
theorem blk3 (t : Fin cfg1.N) (k : Fin 1024) :
    (iblk1 V c 3 t : Vec Ideal S1x1024 .f32) (ix2 (0 : Fin 1) k) = (A3 V c) (ix2 (0 : Fin 1) k) := by
  obtain ⟨-, -, -, -, -, -, e0, e1, -⟩ := idx_facts t
  unfold iblk1
  rw [View.read_apply]
  show V c (Pipeline.arrRef spec1 3) _ = V c (Pipeline.arrRef spec1 3) _
  refine congrArg (V c (Pipeline.arrRef spec1 3)) (funext fun a => Fin.ext ?_)
  match a with
  | ⟨0, _⟩ => show win1_3.index t (0 : Fin 2) * 1 + 1 * 0 = 0; rw [e0]
  | ⟨1, _⟩ => show win1_3.index t (1 : Fin 2) * 1024 + 1 * k.val = k.val; rw [e1]; omega

/-- The whole row array 4 is its one block at every point. -/
theorem blk4 (t : Fin cfg1.N) (k : Fin 1024) :
    (iblk1 V c 4 t : Vec Ideal S1x1024 .f32) (ix2 (0 : Fin 1) k) = (A4 V c) (ix2 (0 : Fin 1) k) := by
  obtain ⟨-, -, -, -, -, -, -, -, e0, e1, -⟩ := idx_facts t
  unfold iblk1
  rw [View.read_apply]
  show V c (Pipeline.arrRef spec1 4) _ = V c (Pipeline.arrRef spec1 4) _
  refine congrArg (V c (Pipeline.arrRef spec1 4)) (funext fun a => Fin.ext ?_)
  match a with
  | ⟨0, _⟩ => show win1_4.index t (0 : Fin 2) * 1 + 1 * 0 = 0; rw [e0]
  | ⟨1, _⟩ => show win1_4.index t (1 : Fin 2) * 1024 + 1 * k.val = k.val; rw [e1]; omega

/-- Row q of the weights' block at point 16 j + i is row 256 j + q of the weights. -/
theorem blk5 (t : Fin cfg1.N) (i j : ℕ) (hi : i < 16) (hj : j < 4) (ht : t.val = 16 * j + i) (q : Fin 256) (k : Fin 1024) :
    (iblk1 V c 5 t : Vec Ideal S256x1024 .bf16) (ix2 q k) = (A5 V c) (ix2 ⟨256 * j + q.val, by have := q.isLt; omega⟩ k) := by
  obtain ⟨-, -, -, -, -, -, -, -, -, -, e0, e1, -⟩ := idx_facts t
  unfold iblk1
  rw [View.read_apply]
  show V c (Pipeline.arrRef spec1 5) _ = V c (Pipeline.arrRef spec1 5) _
  refine congrArg (V c (Pipeline.arrRef spec1 5)) (funext fun a => Fin.ext ?_)
  match a with
  | ⟨0, _⟩ => show win1_5.index t (0 : Fin 2) * 256 + 1 * q.val = 256 * j + q.val; rw [e0]; omega
  | ⟨1, _⟩ => show win1_5.index t (1 : Fin 2) * 1024 + 1 * k.val = k.val; rw [e1]; omega

/-- Column q of the bias block at point 16 j + i is column 256 j + q of the bias. -/
theorem blk6 (t : Fin cfg1.N) (i j : ℕ) (hi : i < 16) (hj : j < 4) (ht : t.val = 16 * j + i) (q : Fin 256) :
    (iblk1 V c 6 t : Vec Ideal S1x256 .f32) (ix2 (0 : Fin 1) q) = (A6 V c) (ix2 (0 : Fin 1) ⟨256 * j + q.val, by have := q.isLt; omega⟩) := by
  obtain ⟨-, -, -, -, -, -, -, -, -, -, -, -, e0, e1, -⟩ := idx_facts t
  unfold iblk1
  rw [View.read_apply]
  show V c (Pipeline.arrRef spec1 6) _ = V c (Pipeline.arrRef spec1 6) _
  refine congrArg (V c (Pipeline.arrRef spec1 6)) (funext fun a => Fin.ext ?_)
  match a with
  | ⟨0, _⟩ => show win1_6.index t (0 : Fin 2) * 1 + 1 * 0 = 0; rw [e0]
  | ⟨1, _⟩ => show win1_6.index t (1 : Fin 2) * 256 + 1 * q.val = 256 * j + q.val; rw [e1]; omega

end Region

/-! ## One point's affine values -/

/-- Blocks that are restrictions of whole arrays — rows 2048 i …, output features 256 j … — give, at (p, q) of the
    block, the layer's value at row 2048 i + p and feature 256 j + q of the arrays. -/
theorem blockVal (x0 : Vec Ideal S2048x1024 .bf16) (x1 x2 x3 x4 : Vec Ideal S1x1024 .f32) (x5 : Vec Ideal S256x1024 .bf16) (x6 : Vec Ideal S1x256 .f32)
    (B0 : S32768x1024.Idx → EReal) (B1 B2 B3 B4 : S1x1024.Idx → EReal) (B5 : S1024x1024.Idx → EReal) (B6 : S1x1024.Idx → EReal)
    (i j : ℕ) (hi : i < 16) (hj : j < 4)
    (h0 : ∀ (p : Fin 2048) (k : Fin 1024), x0 (ix2 p k) = B0 (ix2 ⟨2048 * i + p.val, by have := p.isLt; omega⟩ k))
    (h1 : ∀ k : Fin 1024, x1 (ix2 (0 : Fin 1) k) = B1 (ix2 (0 : Fin 1) k))
    (h2 : ∀ k : Fin 1024, x2 (ix2 (0 : Fin 1) k) = B2 (ix2 (0 : Fin 1) k))
    (h3 : ∀ k : Fin 1024, x3 (ix2 (0 : Fin 1) k) = B3 (ix2 (0 : Fin 1) k))
    (h4 : ∀ k : Fin 1024, x4 (ix2 (0 : Fin 1) k) = B4 (ix2 (0 : Fin 1) k))
    (h5 : ∀ (q : Fin 256) (k : Fin 1024), x5 (ix2 q k) = B5 (ix2 ⟨256 * j + q.val, by have := q.isLt; omega⟩ k))
    (h6 : ∀ q : Fin 256, x6 (ix2 (0 : Fin 1) q) = B6 (ix2 (0 : Fin 1) ⟨256 * j + q.val, by have := q.isLt; omega⟩))
    (p : Fin 2048) (q : Fin 256) :
    k1_pay1 (F := Ideal) (k1_pay7 (F := Ideal) x0 x2 x1 x3 x4 x5) x6 (ix2 p q)
      = Spec.lin (Spec.signs eps (Spec.cur2 B0) (Spec.row B1) (Spec.row B2) (Spec.row B3) (Spec.row B4)) (Spec.cur2 B5) (Spec.row B6)
          ⟨2048 * i + p.val, by have := p.isLt; omega⟩ ⟨256 * j + q.val, by have := q.isLt; omega⟩ := by
  rw [pay1_apply, pay7_apply, h6]
  refine congrArg (· + B6 (ix2 (0 : Fin 1) ⟨256 * j + q.val, by have := q.isLt; omega⟩)) (Finset.sum_congr rfl fun k _ => ?_)
  rw [h0, h1, h2, h3, h4, h5]
  rfl

/-! ## What the outputs' buffers hold after each point -/

section Points

variable (V : (c : Dev nD) → (b : Ref sig .tc) → Buf (Elt Ideal) ((c : Thread nD τ).loc b)) (c : Dev nD)

/-- At point t = 16 j + i the body's affine values are the layer's at rows 2048 i … and features 256 j …. -/
theorem affAt (t : Fin cfg1.N) (i j : ℕ) (hi : i < 16) (hj : j < 4) (ht : t.val = 16 * j + i) (p : Fin 2048) (q : Fin 256) :
    k1_pay1 (F := Ideal) (k1_pay7 (F := Ideal) (iblk1 V c 0 t) (iblk1 V c 2 t) (iblk1 V c 1 t) (iblk1 V c 3 t) (iblk1 V c 4 t) (iblk1 V c 5 t)) (iblk1 V c 6 t) (ix2 p q) = hOut V c ⟨2048 * i + p.val, by have := p.isLt; omega⟩ ⟨256 * j + q.val, by have := q.isLt; omega⟩ :=
  blockVal (iblk1 V c 0 t) (iblk1 V c 1 t) (iblk1 V c 2 t) (iblk1 V c 3 t) (iblk1 V c 4 t) (iblk1 V c 5 t) (iblk1 V c 6 t)
    (A0 V c) (A1 V c) (A2 V c) (A3 V c) (A4 V c) (A5 V c) (A6 V c) i j hi hj
    (blk0 V c t i j hi ht) (blk1 V c t) (blk2 V c t) (blk3 V c t) (blk4 V c t) (blk5 V c t i j hi hj ht) (blk6 V c t i j hi hj ht) p q

/-- The first point of a column block (i = 0): the block's values, and the column sums started from zero. -/
theorem caseA (t : Fin cfg1.N) (h0 : t.val % 16 = 0) (j : ℕ) (hj : j < 4) (ht : t.val = 16 * j + 0) :
    (∀ (p : Fin 2048) (q : Fin 256), (outsAt1 V c t.val t.isLt).1 (ix2 p q) = hOut V c ⟨2048 * 0 + p.val, by have := p.isLt; omega⟩ ⟨256 * j + q.val, by have := q.isLt; omega⟩)
    ∧ (∀ q : Fin 256, (outsAt1 V c t.val t.isLt).2.1 (ix2 (0 : Fin 1) q) = ∑ s ∈ Finset.range (0 + 1), blockSum (fun r => hOut V c r ⟨256 * j + q.val, by have := q.isLt; omega⟩) s)
    ∧ (∀ q : Fin 256, (outsAt1 V c t.val t.isLt).2.2 (ix2 (0 : Fin 1) q) = ∑ s ∈ Finset.range (0 + 1), blockSum (fun r => hOut V c r ⟨256 * j + q.val, by have := q.isLt; omega⟩ * hOut V c r ⟨256 * j + q.val, by have := q.isLt; omega⟩) s) := by
  rw [outsAt1_A V c t h0]
  dsimp only
  refine ⟨fun p q => ?_, fun q => ?_, fun q => ?_⟩
  · refine (congrFun (piece_A_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (iblk1 V c 0 t) (iblk1 V c 1 t) (iblk1 V c 2 t) (iblk1 V c 3 t) (iblk1 V c 4 t) (iblk1 V c 5 t) (iblk1 V c 6 t) ((hcond1_0 t).mpr h0)) (ix2 p q)).trans ?_
    refine (pay2_apply (k1_pay7 (F := Ideal) (iblk1 V c 0 t) (iblk1 V c 2 t) (iblk1 V c 1 t) (iblk1 V c 3 t) (iblk1 V c 4 t) (iblk1 V c 5 t)) (iblk1 V c 6 t) p q).trans ?_
    exact affAt V c t 0 j (by omega) hj ht p q
  · refine (congrFun (piece_A_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (iblk1 V c 0 t) (iblk1 V c 1 t) (iblk1 V c 2 t) (iblk1 V c 3 t) (iblk1 V c 4 t) (iblk1 V c 5 t) (iblk1 V c 6 t) ((hcond1_0 t).mpr h0)) (ix2 (0 : Fin 1) q)).trans ?_
    refine (pay3_apply (k1_pay7 (F := Ideal) (iblk1 V c 0 t) (iblk1 V c 2 t) (iblk1 V c 1 t) (iblk1 V c 3 t) (iblk1 V c 4 t) (iblk1 V c 5 t)) (iblk1 V c 6 t) _ q).trans ?_
    rw [pay5_apply, zero_add, Finset.sum_range_one, blockSum_of_lt _ 0 (by omega)]
    exact Finset.sum_congr rfl fun p _ => affAt V c t 0 j (by omega) hj ht p q
  · refine (congrFun (piece_A_9 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (iblk1 V c 0 t) (iblk1 V c 1 t) (iblk1 V c 2 t) (iblk1 V c 3 t) (iblk1 V c 4 t) (iblk1 V c 5 t) (iblk1 V c 6 t) ((hcond1_0 t).mpr h0)) (ix2 (0 : Fin 1) q)).trans ?_
    refine (pay4_apply (k1_pay7 (F := Ideal) (iblk1 V c 0 t) (iblk1 V c 2 t) (iblk1 V c 1 t) (iblk1 V c 3 t) (iblk1 V c 4 t) (iblk1 V c 5 t)) (iblk1 V c 6 t) _ q).trans ?_
    rw [pay6_apply, zero_add, Finset.sum_range_one, blockSum_of_lt _ 0 (by omega)]
    exact Finset.sum_congr rfl fun p _ => by rw [affAt V c t 0 j (by omega) hj ht p q]

/-- A later point of a column block (i + 1): the block's values, and the carried sums plus this block's. -/
theorem caseB (t : Fin cfg1.N) (h0 : ¬t.val % 16 = 0) (i j : ℕ) (hi : i + 1 < 16) (hj : j < 4) (ht : t.val = 16 * j + (i + 1))
    (hs : ∀ q : Fin 256, (outsAt1 V c (t.val - 1) (Nat.lt_of_le_of_lt (Nat.sub_le _ _) t.isLt)).2.1 (ix2 (0 : Fin 1) q) = ∑ s ∈ Finset.range (i + 1), blockSum (fun r => hOut V c r ⟨256 * j + q.val, by have := q.isLt; omega⟩) s)
    (hq : ∀ q : Fin 256, (outsAt1 V c (t.val - 1) (Nat.lt_of_le_of_lt (Nat.sub_le _ _) t.isLt)).2.2 (ix2 (0 : Fin 1) q) = ∑ s ∈ Finset.range (i + 1), blockSum (fun r => hOut V c r ⟨256 * j + q.val, by have := q.isLt; omega⟩ * hOut V c r ⟨256 * j + q.val, by have := q.isLt; omega⟩) s) :
    (∀ (p : Fin 2048) (q : Fin 256), (outsAt1 V c t.val t.isLt).1 (ix2 p q) = hOut V c ⟨2048 * (i + 1) + p.val, by have := p.isLt; omega⟩ ⟨256 * j + q.val, by have := q.isLt; omega⟩)
    ∧ (∀ q : Fin 256, (outsAt1 V c t.val t.isLt).2.1 (ix2 (0 : Fin 1) q) = ∑ s ∈ Finset.range (i + 1 + 1), blockSum (fun r => hOut V c r ⟨256 * j + q.val, by have := q.isLt; omega⟩) s)
    ∧ (∀ q : Fin 256, (outsAt1 V c t.val t.isLt).2.2 (ix2 (0 : Fin 1) q) = ∑ s ∈ Finset.range (i + 1 + 1), blockSum (fun r => hOut V c r ⟨256 * j + q.val, by have := q.isLt; omega⟩ * hOut V c r ⟨256 * j + q.val, by have := q.isLt; omega⟩) s) := by
  rw [outsAt1_B V c t h0]
  dsimp only
  refine ⟨fun p q => ?_, fun q => ?_, fun q => ?_⟩
  · refine (congrFun (piece_B_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (iblk1 V c 0 t) (iblk1 V c 1 t) (iblk1 V c 2 t) (iblk1 V c 3 t) (iblk1 V c 4 t) (iblk1 V c 5 t) (iblk1 V c 6 t) (fun h => h0 ((hcond1_0 t).mp h)) (outsAt1 V c (t.val - 1) (Nat.lt_of_le_of_lt (Nat.sub_le _ _) t.isLt)).2.1 (outsAt1 V c (t.val - 1) (Nat.lt_of_le_of_lt (Nat.sub_le _ _) t.isLt)).2.2) (ix2 p q)).trans ?_
    refine (pay2_apply (k1_pay7 (F := Ideal) (iblk1 V c 0 t) (iblk1 V c 2 t) (iblk1 V c 1 t) (iblk1 V c 3 t) (iblk1 V c 4 t) (iblk1 V c 5 t)) (iblk1 V c 6 t) p q).trans ?_
    exact affAt V c t (i + 1) j hi hj ht p q
  · refine (congrFun (piece_B_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (iblk1 V c 0 t) (iblk1 V c 1 t) (iblk1 V c 2 t) (iblk1 V c 3 t) (iblk1 V c 4 t) (iblk1 V c 5 t) (iblk1 V c 6 t) (fun h => h0 ((hcond1_0 t).mp h)) (outsAt1 V c (t.val - 1) (Nat.lt_of_le_of_lt (Nat.sub_le _ _) t.isLt)).2.1 (outsAt1 V c (t.val - 1) (Nat.lt_of_le_of_lt (Nat.sub_le _ _) t.isLt)).2.2) (ix2 (0 : Fin 1) q)).trans ?_
    refine (pay3_apply (k1_pay7 (F := Ideal) (iblk1 V c 0 t) (iblk1 V c 2 t) (iblk1 V c 1 t) (iblk1 V c 3 t) (iblk1 V c 4 t) (iblk1 V c 5 t)) (iblk1 V c 6 t) _ q).trans ?_
    rw [hs q, Finset.sum_range_succ _ (i + 1), blockSum_of_lt _ (i + 1) hi]
    exact congrArg (_ + ·) (Finset.sum_congr rfl fun p _ => affAt V c t (i + 1) j hi hj ht p q)
  · refine (congrFun (piece_B_9 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (iblk1 V c 0 t) (iblk1 V c 1 t) (iblk1 V c 2 t) (iblk1 V c 3 t) (iblk1 V c 4 t) (iblk1 V c 5 t) (iblk1 V c 6 t) (fun h => h0 ((hcond1_0 t).mp h)) (outsAt1 V c (t.val - 1) (Nat.lt_of_le_of_lt (Nat.sub_le _ _) t.isLt)).2.1 (outsAt1 V c (t.val - 1) (Nat.lt_of_le_of_lt (Nat.sub_le _ _) t.isLt)).2.2) (ix2 (0 : Fin 1) q)).trans ?_
    refine (pay4_apply (k1_pay7 (F := Ideal) (iblk1 V c 0 t) (iblk1 V c 2 t) (iblk1 V c 1 t) (iblk1 V c 3 t) (iblk1 V c 4 t) (iblk1 V c 5 t)) (iblk1 V c 6 t) _ q).trans ?_
    rw [hq q, Finset.sum_range_succ _ (i + 1), blockSum_of_lt _ (i + 1) hi]
    exact congrArg (_ + ·) (Finset.sum_congr rfl fun p _ => by rw [affAt V c t (i + 1) j hi hj ht p q])

/-- THE INVARIANT, by induction on the point: after point 16 j + i the output block holds the layer's values at rows
    2048 i … and features 256 j …, and the two carried rows hold the column sums (of squares) over the rows below
    2048 (i + 1). -/
theorem inv : ∀ (n : ℕ) (h : n < cfg1.N) (i j : ℕ) (hi : i < 16) (hj : j < 4), n = 16 * j + i →
    (∀ (p : Fin 2048) (q : Fin 256), (outsAt1 V c n h).1 (ix2 p q) = hOut V c ⟨2048 * i + p.val, by have := p.isLt; omega⟩ ⟨256 * j + q.val, by have := q.isLt; omega⟩)
    ∧ (∀ q : Fin 256, (outsAt1 V c n h).2.1 (ix2 (0 : Fin 1) q) = ∑ s ∈ Finset.range (i + 1), blockSum (fun r => hOut V c r ⟨256 * j + q.val, by have := q.isLt; omega⟩) s)
    ∧ (∀ q : Fin 256, (outsAt1 V c n h).2.2 (ix2 (0 : Fin 1) q) = ∑ s ∈ Finset.range (i + 1), blockSum (fun r => hOut V c r ⟨256 * j + q.val, by have := q.isLt; omega⟩ * hOut V c r ⟨256 * j + q.val, by have := q.isLt; omega⟩) s)
  | 0, h, i, j, hi, hj, hn => by
    obtain rfl : i = 0 := by omega
    exact caseA V c ⟨0, h⟩ rfl j hj hn
  | n + 1, h, i, j, hi, hj, hn => by
    by_cases h0 : (n + 1) % 16 = 0
    · obtain rfl : i = 0 := by omega
      exact caseA V c ⟨n + 1, h⟩ h0 j hj hn
    · obtain ⟨i', rfl⟩ : ∃ i', i = i' + 1 := ⟨i - 1, by omega⟩
      have ih := inv n (Nat.lt_of_succ_lt h) i' j (by omega) hj (by omega)
      exact caseB V c ⟨n + 1, h⟩ h0 i' j hi hj hn ih.2.1 ih.2.2

/-! ## From blocks to the arrays -/

/-- The array of this layer's pre-activations. -/
def G7 : S32768x1024.Idx → EReal := fun x => hOut V c (x 0) (x 1)
/-- The row of their column sums. -/
def G8 : S1x1024.Idx → EReal := fun x => Spec.colsum (hOut V c) (x 1)
/-- The row of their column sums of squares. -/
def G9 : S1x1024.Idx → EReal := fun x => Spec.colsumsq (hOut V c) (x 1)

/-- Every point writes back its block of the pre-activations. -/
theorem flushed7 (t : Fin cfg1.N) (hf : (cfg1.win 7).flush t = true) :
    (dat1 V c).flushed 7 t = ((cfg1.win 7).blk t).view.read (Elt Ideal) (G7 V c) := by
  have hN : t.val < 64 := lt_of_lt_of_eq t.isLt (show cfg1.N = 64 from N_1)
  obtain ⟨-, -, -, -, -, -, -, -, -, -, -, -, -, -, e0, e1, -⟩ := idx_facts t
  have hinv := (inv V c t.val t.isLt (t.val % 16) (t.val / 16) (by omega) (by omega) (by omega)).1
  show (cfg1.win 7).cut (grid1.coords t) ((dat1 V c).after 7 t) = _
  rw [after1_7]
  funext y
  have hy0 : (y 0).val < 2048 := (y 0).isLt
  have hy1 : (y 1).val < 256 := (y 1).isLt
  have hy : (cfg1.win 7).xinj (grid1.coords t) y = ix2 (⟨(y 0).val, hy0⟩ : Fin 2048) (⟨(y 1).val, hy1⟩ : Fin 256) :=
    funext fun a => by match a with | ⟨0, _⟩ => rfl | ⟨1, _⟩ => rfl
  show (outsAt1 V c t.val t.isLt).1 ((cfg1.win 7).xinj (grid1.coords t) y) = G7 V c (((cfg1.win 7).blk t).view.emb y)
  rw [hy, hinv]
  unfold G7
  refine congrArg₂ (hOut V c) (Fin.ext ?_) (Fin.ext ?_)
  · show 2048 * (t.val % 16) + (y 0).val = win1_7.index t (0 : Fin 2) * 2048 + 1 * (y 0).val
    rw [e0]; omega
  · show 256 * (t.val / 16) + (y 1).val = win1_7.index t (1 : Fin 2) * 256 + 1 * (y 1).val
    rw [e1]; omega

/-- The last point of a column block writes back the whole batch's column sums of that block's features. -/
theorem flushed8 (t : Fin cfg1.N) (hf : (cfg1.win 8).flush t = true) :
    (dat1 V c).flushed 8 t = ((cfg1.win 8).blk t).view.read (Elt Ideal) (G8 V c) := by
  have hN : t.val < 64 := lt_of_lt_of_eq t.isLt (show cfg1.N = 64 from N_1)
  have h15 : t.val % 16 = 15 := (flush1_8 t).mp hf
  obtain ⟨-, -, -, -, -, -, -, -, -, -, -, -, -, -, -, -, e0, e1, -⟩ := idx_facts t
  have hinv := (inv V c t.val t.isLt 15 (t.val / 16) (by omega) (by omega) (by omega)).2.1
  show (cfg1.win 8).cut (grid1.coords t) ((dat1 V c).after 8 t) = _
  rw [after1_8]
  funext y
  have hy1 : (y 1).val < 256 := (y 1).isLt
  have hy : (cfg1.win 8).xinj (grid1.coords t) y = ix2 (0 : Fin 1) (⟨(y 1).val, hy1⟩ : Fin 256) :=
    funext fun a => by
      match a with
      | ⟨0, _⟩ => exact Fin.ext (by have h : (y 0).val < 1 := (y 0).isLt; show (y 0).val = 0; omega)
      | ⟨1, _⟩ => rfl
  have key : ∀ g : S1x1024.Idx → EReal, ((cfg1.win 8).blk t).view.read (Elt Ideal) g y = g (((cfg1.win 8).blk t).view.emb y) :=
    fun _ => rfl
  refine Eq.trans ?_ (key (G8 V c)).symm
  show (outsAt1 V c t.val t.isLt).2.1 ((cfg1.win 8).xinj (grid1.coords t) y) = _
  rw [hy, hinv]
  refine (sum_blocks _).trans ?_
  unfold G8 Spec.colsum
  refine Finset.sum_congr rfl fun r _ => congrArg (hOut V c r) (Fin.ext ?_)
  show 256 * (t.val / 16) + (y 1).val = win1_8.index t (1 : Fin 2) * 256 + 1 * (y 1).val
  rw [e1]; omega

/-- The last point of a column block writes back the whole batch's column sums of squares of that block's features. -/
theorem flushed9 (t : Fin cfg1.N) (hf : (cfg1.win 9).flush t = true) :
    (dat1 V c).flushed 9 t = ((cfg1.win 9).blk t).view.read (Elt Ideal) (G9 V c) := by
  have hN : t.val < 64 := lt_of_lt_of_eq t.isLt (show cfg1.N = 64 from N_1)
  have h15 : t.val % 16 = 15 := (flush1_9 t).mp hf
  obtain ⟨-, -, -, -, -, -, -, -, -, -, -, -, -, -, -, -, -, -, e0, e1⟩ := idx_facts t
  have hinv := (inv V c t.val t.isLt 15 (t.val / 16) (by omega) (by omega) (by omega)).2.2
  show (cfg1.win 9).cut (grid1.coords t) ((dat1 V c).after 9 t) = _
  rw [after1_9]
  funext y
  have hy1 : (y 1).val < 256 := (y 1).isLt
  have hy : (cfg1.win 9).xinj (grid1.coords t) y = ix2 (0 : Fin 1) (⟨(y 1).val, hy1⟩ : Fin 256) :=
    funext fun a => by
      match a with
      | ⟨0, _⟩ => exact Fin.ext (by have h : (y 0).val < 1 := (y 0).isLt; show (y 0).val = 0; omega)
      | ⟨1, _⟩ => rfl
  have key : ∀ g : S1x1024.Idx → EReal, ((cfg1.win 9).blk t).view.read (Elt Ideal) g y = g (((cfg1.win 9).blk t).view.emb y) :=
    fun _ => rfl
  refine Eq.trans ?_ (key (G9 V c)).symm
  show (outsAt1 V c t.val t.isLt).2.2 ((cfg1.win 9).xinj (grid1.coords t) y) = _
  rw [hy, hinv]
  refine (sum_blocks _).trans ?_
  unfold G9 Spec.colsumsq
  refine Finset.sum_congr rfl fun r _ => congrArg (fun f => hOut V c r f * hOut V c r f) (Fin.ext ?_)
  show 256 * (t.val / 16) + (y 1).val = win1_9.index t (1 : Fin 2) * 256 + 1 * (y 1).val
  rw [e1]; omega

/-- An index of the array is in point t's block iff each coordinate is in the block's range on its axis. -/
theorem mem_blk7 (t : Fin cfg1.N) (x : S32768x1024.Idx) :
    x ∈ ((cfg1.win 7).blk t).view.set ↔ ∀ a : Fin 2, win1_7.index t a * S2048x256.size a ≤ (x a).val ∧ (x a).val < win1_7.index t a * S2048x256.size a + S2048x256.size a := by
  show x ∈ ((View.whole main_v29_0).slice (win1_7.rect t)).set ↔ _
  rw [View.set_slice_whole, Rect.mem_set_unit]
  exact Iff.rfl

/-- An index of the array is in point t's block iff each coordinate is in the block's range on its axis. -/
theorem mem_blk8 (t : Fin cfg1.N) (x : S1x1024.Idx) :
    x ∈ ((cfg1.win 8).blk t).view.set ↔ ∀ a : Fin 2, win1_8.index t a * S1x256.size a ≤ (x a).val ∧ (x a).val < win1_8.index t a * S1x256.size a + S1x256.size a := by
  show x ∈ ((View.whole main_v29_1).slice (win1_8.rect t)).set ↔ _
  rw [View.set_slice_whole, Rect.mem_set_unit]
  exact Iff.rfl

/-- An index of the array is in point t's block iff each coordinate is in the block's range on its axis. -/
theorem mem_blk9 (t : Fin cfg1.N) (x : S1x1024.Idx) :
    x ∈ ((cfg1.win 9).blk t).view.set ↔ ∀ a : Fin 2, win1_9.index t a * S1x256.size a ≤ (x a).val ∧ (x a).val < win1_9.index t a * S1x256.size a + S1x256.size a := by
  show x ∈ ((View.whole main_v29_2).slice (win1_9.rect t)).set ↔ _
  rw [View.set_slice_whole, Rect.mem_set_unit]
  exact Iff.rfl

/-- Row r and feature f lie in the block of point 16 (f / 256) + r / 2048. -/
theorem cover7 (x : S32768x1024.Idx) : ∃ t : Fin cfg1.N, (cfg1.win 7).flush t = true ∧ x ∈ ((cfg1.win 7).blk t).view.set := by
  have h0 : (x 0).val < 32768 := (x 0).isLt
  have h1 : (x 1).val < 1024 := (x 1).isLt
  have hN : cfg1.N = 64 := N_1
  refine ⟨⟨16 * ((x 1).val / 256) + (x 0).val / 2048, by rw [hN]; omega⟩, flush1_7 _, ?_⟩
  rw [mem_blk7]
  obtain ⟨-, -, -, -, -, -, -, -, -, -, -, -, -, -, e0, e1, -⟩ := idx_facts ⟨16 * ((x 1).val / 256) + (x 0).val / 2048, by rw [hN]; omega⟩
  intro a
  match a with
  | ⟨0, _⟩ =>
    show win1_7.index _ (0 : Fin 2) * 2048 ≤ (x 0).val ∧ (x 0).val < win1_7.index _ (0 : Fin 2) * 2048 + 2048
    rw [e0]; dsimp only; omega
  | ⟨1, _⟩ =>
    show win1_7.index _ (1 : Fin 2) * 256 ≤ (x 1).val ∧ (x 1).val < win1_7.index _ (1 : Fin 2) * 256 + 256
    rw [e1]; dsimp only; omega

/-- Feature f lies in the block the last point of column block f / 256 writes back. -/
theorem cover8 (x : S1x1024.Idx) : ∃ t : Fin cfg1.N, (cfg1.win 8).flush t = true ∧ x ∈ ((cfg1.win 8).blk t).view.set := by
  have h0 : (x 0).val < 1 := (x 0).isLt
  have h1 : (x 1).val < 1024 := (x 1).isLt
  have hN : cfg1.N = 64 := N_1
  refine ⟨⟨16 * ((x 1).val / 256) + 15, by rw [hN]; omega⟩, (flush1_8 _).mpr (by dsimp only; omega), ?_⟩
  rw [mem_blk8]
  obtain ⟨-, -, -, -, -, -, -, -, -, -, -, -, -, -, -, -, e0, e1, -⟩ := idx_facts ⟨16 * ((x 1).val / 256) + 15, by rw [hN]; omega⟩
  intro a
  match a with
  | ⟨0, _⟩ =>
    show win1_8.index _ (0 : Fin 2) * 1 ≤ (x 0).val ∧ (x 0).val < win1_8.index _ (0 : Fin 2) * 1 + 1
    rw [e0]; omega
  | ⟨1, _⟩ =>
    show win1_8.index _ (1 : Fin 2) * 256 ≤ (x 1).val ∧ (x 1).val < win1_8.index _ (1 : Fin 2) * 256 + 256
    rw [e1]; dsimp only; omega

/-- Feature f lies in the block the last point of column block f / 256 writes back. -/
theorem cover9 (x : S1x1024.Idx) : ∃ t : Fin cfg1.N, (cfg1.win 9).flush t = true ∧ x ∈ ((cfg1.win 9).blk t).view.set := by
  have h0 : (x 0).val < 1 := (x 0).isLt
  have h1 : (x 1).val < 1024 := (x 1).isLt
  have hN : cfg1.N = 64 := N_1
  refine ⟨⟨16 * ((x 1).val / 256) + 15, by rw [hN]; omega⟩, (flush1_9 _).mpr (by dsimp only; omega), ?_⟩
  rw [mem_blk9]
  obtain ⟨-, -, -, -, -, -, -, -, -, -, -, -, -, -, -, -, -, -, e0, e1⟩ := idx_facts ⟨16 * ((x 1).val / 256) + 15, by rw [hN]; omega⟩
  intro a
  match a with
  | ⟨0, _⟩ =>
    show win1_9.index _ (0 : Fin 2) * 1 ≤ (x 0).val ∧ (x 0).val < win1_9.index _ (0 : Fin 2) * 1 + 1
    rw [e0]; omega
  | ⟨1, _⟩ =>
    show win1_9.index _ (1 : Fin 2) * 256 ≤ (x 1).val ∧ (x 1).val < win1_9.index _ (1 : Fin 2) * 256 + 256
    rw [e1]; dsimp only; omega

/-! ## The region's three results -/

theorem final7 : (dat1 V c).arrAt 7 cfg1.N = G7 V c :=
  (dat1 V c).arrAt_eq_of_cover 7 (G7 V c) (flushed7 V c) (cover7)
theorem final8 : (dat1 V c).arrAt 8 cfg1.N = G8 V c :=
  (dat1 V c).arrAt_eq_of_cover 8 (G8 V c) (flushed8 V c) (cover8)
theorem final9 : (dat1 V c).arrAt 9 cfg1.N = G9 V c :=
  (dat1 V c).arrAt_eq_of_cover 9 (G9 V c) (flushed9 V c) (cover9)

/-- After the region the activations' array holds this layer's pre-activations, -/
theorem out_h (r : Fin 32768) (j : Fin 1024) : (dat1 (F := Ideal) V c).arrAt 7 cfg1.N (ValueIdx.ix2 r j) = hOut V c r j :=
  congrFun (final7 V c) (ValueIdx.ix2 r j)
/-- the first statistics row their column sums over the whole batch, -/
theorem out_s (j : Fin 1024) : (dat1 (F := Ideal) V c).arrAt 8 cfg1.N (ValueIdx.ix2 (0 : Fin 1) j) = Spec.colsum (hOut V c) j :=
  congrFun (final8 V c) (ValueIdx.ix2 (0 : Fin 1) j)
/-- and the second their column sums of squares. -/
theorem out_sq (j : Fin 1024) : (dat1 (F := Ideal) V c).arrAt 9 cfg1.N (ValueIdx.ix2 (0 : Fin 1) j) = Spec.colsumsq (hOut V c) j :=
  congrFun (final9 V c) (ValueIdx.ix2 (0 : Fin 1) j)

end Points

end Cert.KernelValue.R1

end
-- ==== Proof.Region2.lean ====
/-
  The value of a hidden layer's region of the network, as a function of the arrays the region finds.

  The region goes through the batch of 32768 rows in 16 blocks of 2048 rows and through the 1024 output features in
  4 blocks of 256: point 16 j + i works on row block i and feature block j. There its body normalises the previous layer's block with
  the given column means and variances, (h − mean) · (var + ε)^(-1/2) · g + be, takes the signs, multiplies them with the
  weights' block and adds the bias: the block of this layer's values h' r f = Σ_k sign(…) r k · w f k + b f. It stores that
  block, and it adds the block's column sums Σ_r h' r f and column sums of squares Σ_r (h' r f)² into two rows that it
  carries from point to point, set to zero at the first row block and written back after the last.

  Over the extended reals every operation is exact and a change of number format is the identity, so:
    • the output array holds h' at every row and feature (each point writes its own block once);
    • the two statistics rows hold Σ_r h' r f and Σ_r (h' r f)² over ALL 32768 rows: after row block i the carried rows
      hold the sums over the rows below 2048 (i + 1) (induction on the point), and a sum over the rows is the sum of the
      sixteen block sums (addition of extended reals is commutative and associative; no finiteness is needed).
  All of it for arbitrary contents of the arrays the region starts from.
-/
import proofs.«141082_j78245714199267_2_alg».proof.Proof.KernelIdealFrame
import proofs.«141082_j78245714199267_2_alg».proof.Proof.Spec
import Idealize.ShloMosaic.Lib.Pipeline.Value
import Idealize.ShloMosaic.Lib.ValueLayout
import Idealize.ShloMosaic.PureOps.Ideal.Laws
import Idealize.ShloMosaic.Lib.Tactic

noncomputable section

open Idealize.ShloMosaic Idealize.ShloMosaic.TcCoe Idealize.SL.Sem
open Idealize.ShloMosaic.Pipeline (Dat)
open Idealize.ShloMosaic.ValueIdx
open scoped BigOperators

namespace Cert.KernelValue.R2

open Cert.KernelIdeal Cert.KernelIdeal.Gen Cert.KernelIdeal.GenP

/-! ## What each case's stores leave, as payloads of the blocks the point finds (any float values)

Each output's buffer is written by stores that cover it whole, so what the body leaves there is the last store's
payload; at a first row block the two statistics rows are first set to zero and read back. -/

section Pieces

variable {F : FTy → Type} [FloatOps F]

theorem hz : (![0, 0] : Fin 2 → Nat) = fun _ => 0 := funext fun a => by fin_cases a <;> rfl

variable (c : Dev nD) (i : grid2.Coords)
  (arg2 : Memref sig .tc .vmem S2048x1024 .bf16) (harg2 : arg2.IsWhole)
  (arg3 : Memref sig .tc .vmem S1x1024 .f32) (harg3 : arg3.IsWhole)
  (arg4 : Memref sig .tc .vmem S1x1024 .f32) (harg4 : arg4.IsWhole)
  (arg5 : Memref sig .tc .vmem S1x1024 .f32) (harg5 : arg5.IsWhole)
  (arg6 : Memref sig .tc .vmem S1x1024 .f32) (harg6 : arg6.IsWhole)
  (arg7 : Memref sig .tc .vmem S256x1024 .bf16) (harg7 : arg7.IsWhole)
  (arg8 : Memref sig .tc .vmem S1x256 .f32) (harg8 : arg8.IsWhole)
  (arg9 : Memref sig .tc .vmem S2048x256 .bf16) (harg9 : arg9.IsWhole)
  (arg10 : Memref sig .tc .vmem S1x256 .f32) (harg10 : arg10.IsWhole)
  (arg11 : Memref sig .tc .vmem S1x256 .f32) (harg11 : arg11.IsWhole)
  (x0 : Vec F S2048x1024 .bf16) (x1 : Vec F S1x1024 .f32) (x2 : Vec F S1x1024 .f32) (x3 : Vec F S1x1024 .f32) (x4 : Vec F S1x1024 .f32) (x5 : Vec F S256x1024 .bf16) (x6 : Vec F S1x256 .f32)

/-- First row block: the output block holds the affine values. -/
theorem piece_A_7 (hc : cond2_0 i) :
    out2_A_7 c i arg2 harg2 arg3 harg3 arg4 harg4 arg5 harg5 arg6 harg6 arg7 harg7 arg8 harg8 arg9 harg9 arg10 harg10 arg11 harg11 hc x0 x1 x2 x3 x4 x5 x6 = k2_pay2 (k2_pay7 x0 x2 x1 x3 x4 x5) x6 := by
  unfold out2_A_7
  rw [View.read_writes_eq_canon _ _ _ (cover2_A_7 c i arg2 harg2 arg3 harg3 arg4 harg4 arg5 harg5 arg6 harg6 arg7 harg7 arg8 harg8 arg9 harg9 arg10 harg10 arg11 harg11 hc x0 x1 x2 x3 x4 x5 x6)]
  unfold kernelRun2_A
  dsimp only
  sl_unfold_words
  rw [View.canon_unit_zero hz]
  simp only [View.readAt_eq_ld, harg2.read_unread, harg3.read_unread, harg4.read_unread, harg5.read_unread, harg6.read_unread, harg7.read_unread, harg8.read_unread, harg10.read_unread, harg11.read_unread, View.ld_unit_zero (S := S2048x1024) hz, View.ld_unit_zero (S := S1x1024) hz, View.ld_unit_zero (S := S256x1024) hz, View.ld_unit_zero (S := S1x256) hz]

/-- First row block: the sums row holds zero plus the block's column sums. -/
theorem piece_A_8 (hc : cond2_0 i) :
    out2_A_8 c i arg2 harg2 arg3 harg3 arg4 harg4 arg5 harg5 arg6 harg6 arg7 harg7 arg8 harg8 arg9 harg9 arg10 harg10 arg11 harg11 hc x0 x1 x2 x3 x4 x5 x6 = k2_pay3 (k2_pay7 x0 x2 x1 x3 x4 x5) x6 k2_pay5 := by
  unfold out2_A_8
  rw [View.read_writes_eq_canon _ _ _ (cover2_A_8 c i arg2 harg2 arg3 harg3 arg4 harg4 arg5 harg5 arg6 harg6 arg7 harg7 arg8 harg8 arg9 harg9 arg10 harg10 arg11 harg11 hc x0 x1 x2 x3 x4 x5 x6)]
  unfold kernelRun2_A
  dsimp only
  sl_unfold_words
  rw [View.canon_cons_unit_zero (S := S1x256) hz, View.readCov_unit_zero (S := S1x256) _ hz]
  simp only [View.readAt_eq_ld, harg2.read_unread, harg3.read_unread, harg4.read_unread, harg5.read_unread, harg6.read_unread, harg7.read_unread, harg8.read_unread, harg10.read_unread, harg11.read_unread, View.ld_unit_zero (S := S2048x1024) hz, View.ld_unit_zero (S := S1x1024) hz, View.ld_unit_zero (S := S256x1024) hz, View.ld_unit_zero (S := S1x256) hz]

/-- First row block: the squares row holds zero plus the block's column sums of squares. -/
theorem piece_A_9 (hc : cond2_0 i) :
    out2_A_9 c i arg2 harg2 arg3 harg3 arg4 harg4 arg5 harg5 arg6 harg6 arg7 harg7 arg8 harg8 arg9 harg9 arg10 harg10 arg11 harg11 hc x0 x1 x2 x3 x4 x5 x6 = k2_pay4 (k2_pay7 x0 x2 x1 x3 x4 x5) x6 k2_pay6 := by
  unfold out2_A_9
  rw [View.read_writes_eq_canon _ _ _ (cover2_A_9 c i arg2 harg2 arg3 harg3 arg4 harg4 arg5 harg5 arg6 harg6 arg7 harg7 arg8 harg8 arg9 harg9 arg10 harg10 arg11 harg11 hc x0 x1 x2 x3 x4 x5 x6)]
  unfold kernelRun2_A
  dsimp only
  sl_unfold_words
  rw [View.canon_cons_unit_zero (S := S1x256) hz, View.readCov_unit_zero (S := S1x256) _ hz]
  simp only [View.readAt_eq_ld, harg2.read_unread, harg3.read_unread, harg4.read_unread, harg5.read_unread, harg6.read_unread, harg7.read_unread, harg8.read_unread, harg10.read_unread, harg11.read_unread, View.ld_unit_zero (S := S2048x1024) hz, View.ld_unit_zero (S := S1x1024) hz, View.ld_unit_zero (S := S256x1024) hz, View.ld_unit_zero (S := S1x256) hz]

/-- Later row blocks: the output block holds the affine values. -/
theorem piece_B_7 (hc : ¬cond2_0 i) (xo8 xo9 : Vec F S1x256 .f32) :
    out2_B_7 c i arg2 harg2 arg3 harg3 arg4 harg4 arg5 harg5 arg6 harg6 arg7 harg7 arg8 harg8 arg9 harg9 arg10 harg10 arg11 harg11 hc x0 x1 x2 x3 x4 x5 x6 xo8 xo9 = k2_pay2 (k2_pay7 x0 x2 x1 x3 x4 x5) x6 := by
  unfold out2_B_7
  rw [View.read_writes_eq_canon _ _ _ (cover2_B_7 c i arg2 harg2 arg3 harg3 arg4 harg4 arg5 harg5 arg6 harg6 arg7 harg7 arg8 harg8 arg9 harg9 arg10 harg10 arg11 harg11 hc x0 x1 x2 x3 x4 x5 x6 xo8 xo9)]
  unfold kernelRun2_B
  dsimp only
  sl_unfold_words
  rw [View.canon_unit_zero hz]
  simp only [View.readAt_eq_ld, harg2.read_unread, harg3.read_unread, harg4.read_unread, harg5.read_unread, harg6.read_unread, harg7.read_unread, harg8.read_unread, harg10.read_unread, harg11.read_unread, View.ld_unit_zero (S := S2048x1024) hz, View.ld_unit_zero (S := S1x1024) hz, View.ld_unit_zero (S := S256x1024) hz, View.ld_unit_zero (S := S1x256) hz]

/-- Later row blocks: the sums row holds what it carried plus the block's column sums. -/
theorem piece_B_8 (hc : ¬cond2_0 i) (xo8 xo9 : Vec F S1x256 .f32) :
    out2_B_8 c i arg2 harg2 arg3 harg3 arg4 harg4 arg5 harg5 arg6 harg6 arg7 harg7 arg8 harg8 arg9 harg9 arg10 harg10 arg11 harg11 hc x0 x1 x2 x3 x4 x5 x6 xo8 xo9 = k2_pay3 (k2_pay7 x0 x2 x1 x3 x4 x5) x6 xo8 := by
  unfold out2_B_8
  rw [View.read_writes_eq_canon _ _ _ (cover2_B_8 c i arg2 harg2 arg3 harg3 arg4 harg4 arg5 harg5 arg6 harg6 arg7 harg7 arg8 harg8 arg9 harg9 arg10 harg10 arg11 harg11 hc x0 x1 x2 x3 x4 x5 x6 xo8 xo9)]
  unfold kernelRun2_B
  dsimp only
  sl_unfold_words
  rw [View.canon_unit_zero hz]
  simp only [View.readAt_eq_ld, harg2.read_unread, harg3.read_unread, harg4.read_unread, harg5.read_unread, harg6.read_unread, harg7.read_unread, harg8.read_unread, harg10.read_unread, harg11.read_unread, View.ld_unit_zero (S := S2048x1024) hz, View.ld_unit_zero (S := S1x1024) hz, View.ld_unit_zero (S := S256x1024) hz, View.ld_unit_zero (S := S1x256) hz]

/-- Later row blocks: the squares row holds what it carried plus the block's column sums of squares. -/
theorem piece_B_9 (hc : ¬cond2_0 i) (xo8 xo9 : Vec F S1x256 .f32) :
    out2_B_9 c i arg2 harg2 arg3 harg3 arg4 harg4 arg5 harg5 arg6 harg6 arg7 harg7 arg8 harg8 arg9 harg9 arg10 harg10 arg11 harg11 hc x0 x1 x2 x3 x4 x5 x6 xo8 xo9 = k2_pay4 (k2_pay7 x0 x2 x1 x3 x4 x5) x6 xo9 := by
  unfold out2_B_9
  rw [View.read_writes_eq_canon _ _ _ (cover2_B_9 c i arg2 harg2 arg3 harg3 arg4 harg4 arg5 harg5 arg6 harg6 arg7 harg7 arg8 harg8 arg9 harg9 arg10 harg10 arg11 harg11 hc x0 x1 x2 x3 x4 x5 x6 xo8 xo9)]
  unfold kernelRun2_B
  dsimp only
  sl_unfold_words
  rw [View.canon_unit_zero hz]
  simp only [View.readAt_eq_ld, harg2.read_unread, harg3.read_unread, harg4.read_unread, harg5.read_unread, harg6.read_unread, harg7.read_unread, harg8.read_unread, harg10.read_unread, harg11.read_unread, View.ld_unit_zero (S := S2048x1024) hz, View.ld_unit_zero (S := S1x1024) hz, View.ld_unit_zero (S := S256x1024) hz, View.ld_unit_zero (S := S1x256) hz]

end Pieces

/-! ## The payloads read at an index, over the extended reals -/

def eps : EReal := Ideal.ofBits .f32 0x3727C5AC#32

theorem dot_lhs0 (i : S2048x256.Idx) (k : dot_S2048x1024_S1024x256_S2048x256_1_0_0_1_n_n.contr.Idx) : (dot_S2048x1024_S1024x256_S2048x256_1_0_0_1_n_n.lhsIdx i k 0).val = (i 0).val := by
  unfold DotDims.lhsIdx
  rw [dif_neg (show ¬(0 : Fin S2048x1024.rank) ∈ dot_S2048x1024_S1024x256_S2048x256_1_0_0_1_n_n.lhsBatch by decide), dif_pos (show (0 : Fin S2048x1024.rank) ∈ dot_S2048x1024_S1024x256_S2048x256_1_0_0_1_n_n.lhsNonContracting by decide)]
  rfl
theorem dot_lhs1 (i : S2048x256.Idx) (k : dot_S2048x1024_S1024x256_S2048x256_1_0_0_1_n_n.contr.Idx) : (dot_S2048x1024_S1024x256_S2048x256_1_0_0_1_n_n.lhsIdx i k 1).val = (k ⟨0, by decide⟩).val :=
  dot_S2048x1024_S1024x256_S2048x256_1_0_0_1_n_n.lhsIdx_val_of_single rfl i k
theorem dot_rhs0 (i : S2048x256.Idx) (k : dot_S2048x1024_S1024x256_S2048x256_1_0_0_1_n_n.contr.Idx) : (dot_S2048x1024_S1024x256_S2048x256_1_0_0_1_n_n.rhsIdx i k 0).val = (k ⟨0, by decide⟩).val :=
  dot_S2048x1024_S1024x256_S2048x256_1_0_0_1_n_n.rhsIdx_val_of_single rfl i k
theorem dot_rhs1 (i : S2048x256.Idx) (k : dot_S2048x1024_S1024x256_S2048x256_1_0_0_1_n_n.contr.Idx) : (dot_S2048x1024_S1024x256_S2048x256_1_0_0_1_n_n.rhsIdx i k 1).val = (i 1).val := by
  unfold DotDims.rhsIdx
  rw [dif_neg (show ¬(1 : Fin S1024x256.rank) ∈ dot_S2048x1024_S1024x256_S2048x256_1_0_0_1_n_n.rhsBatch by decide), dif_pos (show (1 : Fin S1024x256.rank) ∈ dot_S2048x1024_S1024x256_S2048x256_1_0_0_1_n_n.rhsNonContracting by decide)]
  rfl

/-- A product of a [2048,1024] block with a [1024,256] block into the zero block, read at (p, q): the sum over the
    contracted coordinate of the products. -/
theorem matmul_pq (lhs : FVec Ideal S2048x1024 .bf16) (rhs : FVec Ideal S1024x256 .bf16) (p : Fin 2048) (q : Fin 256) :
    matmul dot_S2048x1024_S1024x256_S2048x256_1_0_0_1_n_n none lhs rhs (constant S2048x256 .f32 0x00000000#32) (ix2 p q)
      = ∑ k : Fin 1024, lhs (ix2 p k) * rhs (ix2 k q) := by
  refine (Ideal.matmul_constant_zero_apply dot_S2048x1024_S1024x256_S2048x256_1_0_0_1_n_n none lhs rhs (ix2 p q)).trans ?_
  rw [← Equiv.sum_comp (contrEquiv1 dot_S2048x1024_S1024x256_S2048x256_1_0_0_1_n_n 1024 rfl rfl).symm]
  refine Finset.sum_congr rfl fun k _ => ?_
  have hk := contrEquiv1_symm_val dot_S2048x1024_S1024x256_S2048x256_1_0_0_1_n_n 1024 rfl rfl k
  have el : dot_S2048x1024_S1024x256_S2048x256_1_0_0_1_n_n.lhsIdx (ix2 p q) ((contrEquiv1 dot_S2048x1024_S1024x256_S2048x256_1_0_0_1_n_n 1024 rfl rfl).symm k) = ix2 p k := funext fun a => Fin.ext (by
    match a with
    | ⟨0, _⟩ => exact dot_lhs0 _ _
    | ⟨1, _⟩ => exact (dot_lhs1 _ _).trans hk)
  have er : dot_S2048x1024_S1024x256_S2048x256_1_0_0_1_n_n.rhsIdx (ix2 p q) ((contrEquiv1 dot_S2048x1024_S1024x256_S2048x256_1_0_0_1_n_n 1024 rfl rfl).symm k) = ix2 k q := funext fun a => Fin.ext (by
    match a with
    | ⟨0, _⟩ => exact (dot_rhs0 _ _).trans hk
    | ⟨1, _⟩ => exact dot_rhs1 _ _)
  rw [el, er]

/-- The sign idiom over a whole block, rounded to the narrow format (the identity on extended reals), at an element. -/
theorem sign_idiom (v : FVec Ideal S2048x1024 .f32) (i : S2048x1024.Idx) :
    truncf .bf16 (select (cmpf .ogt (absf v) (broadcast S2048x1024 (Scalar.ofBits .f32 0x00000000#32)))
        (select (cmpf .olt v (constant S2048x1024 .f32 0x00000000#32)) (constant S2048x1024 .f32 0xBF800000#32)
          (constant S2048x1024 .f32 0x3F800000#32)) v) bitsLt_bf16_f32 i = Ideal.sign (v i) :=
  Ideal.jnp_sign_eq_sign_f32 (v i)

/-- The body's product, read at (p, q) of the block: the signs of the normalised block times the weights' block. -/
theorem pay7_apply (x0 : Vec Ideal S2048x1024 .bf16) (x2 x1 x3 x4 : Vec Ideal S1x1024 .f32) (x5 : Vec Ideal S256x1024 .bf16)
    (p : Fin 2048) (q : Fin 256) :
    k2_pay7 (F := Ideal) x0 x2 x1 x3 x4 x5 (ix2 p q)
      = ∑ k : Fin 1024, Ideal.sign ((x0 (ix2 p k) - x1 (ix2 (0 : Fin 1) k)) * Ideal.rsqrt (x2 (ix2 (0 : Fin 1) k) + eps) * x3 (ix2 (0 : Fin 1) k) + x4 (ix2 (0 : Fin 1) k)) * x5 (ix2 q k) := by
  unfold k2_pay7
  refine (matmul_pq _ _ p q).trans ?_
  refine Finset.sum_congr rfl fun k _ => ?_
  refine congrArg₂ (· * ·) ((sign_idiom _ (ix2 p k)).trans (congrArg Ideal.sign ?_)) ?_
  · simp only [shapeCast_self, addf_apply, mulf_apply, subf_apply, extf_apply, broadcastTo_1b_ab_apply, broadcast_apply]
    rfl
  · rw [shapeCast_self]
    exact transpose_ix2_apply x5 _ k q

/-- The block's affine values: the product plus the bias row. -/
theorem pay1_apply (v39 : FVec Ideal S2048x256 .f32) (x6 : Vec Ideal S1x256 .f32) (p : Fin 2048) (q : Fin 256) :
    k2_pay1 (F := Ideal) v39 x6 (ix2 p q) = v39 (ix2 p q) + x6 (ix2 (0 : Fin 1) q) := by
  unfold k2_pay1
  simp only [shapeCast_self, addf_apply, broadcastTo_1b_ab_apply]

/-- What the body stores in the output block: the affine values (a change of format is the identity). -/
theorem pay2_apply (v39 : FVec Ideal S2048x256 .f32) (x6 : Vec Ideal S1x256 .f32) (p : Fin 2048) (q : Fin 256) :
    k2_pay2 (F := Ideal) v39 x6 (ix2 p q) = k2_pay1 (F := Ideal) v39 x6 (ix2 p q) := rfl

/-- The index a reduction over the rows sums at: row p, the kept column. -/
theorem red_lift (h : Shape.Reduces S2048x256 [0] S256) (q : Fin 256) (p : Fin 2048) : h.lift (ix1 q) p = ix2 p q :=
  funext fun a => Fin.ext (by match a with | ⟨0, _⟩ => rfl | ⟨1, _⟩ => rfl)

/-- A sum over the rows of a block, kept as a one-row array, read at column q. -/
theorem colred_apply (src : FVec Ideal S2048x256 .f32) (hacc : (0x00000000#32 : BitVec 32) = 0x00000000#32) (q : Fin 256) :
    shapeCast S1x256 (multiReduction .add [0] S256 src 0x00000000#32 reduces_S2048x256_S256 (.inl rfl) hacc) shapeCasts_S256_S1x256 (ix2 (0 : Fin 1) q)
      = ∑ p : Fin 2048, src (ix2 p q) := by
  refine (shapeCast_a_1a_apply _ _ (0 : Fin 1) q).trans ?_
  refine (Ideal.multiReduction_add_single src 0x00000000#32 reduces_S2048x256_S256 (.inl rfl) hacc (ix1 q)).trans ?_
  exact Finset.sum_congr rfl fun p _ => congrArg src (red_lift reduces_S2048x256_S256 q p)

/-- The carried column sums after the body: what was carried plus the block's column sums. -/
theorem pay3_apply (v39 : FVec Ideal S2048x256 .f32) (x6 xo : Vec Ideal S1x256 .f32) (q : Fin 256) :
    k2_pay3 (F := Ideal) v39 x6 xo (ix2 (0 : Fin 1) q) = xo (ix2 (0 : Fin 1) q) + ∑ p : Fin 2048, k2_pay1 (F := Ideal) v39 x6 (ix2 p q) := by
  unfold k2_pay3
  refine (addf_apply _ _ _).trans ?_
  refine congrArg₂ (· + ·) ?_ (colred_apply _ rfl q)
  rw [shapeCast_self]

/-- The carried column sums of squares after the body: what was carried plus the block's. -/
theorem pay4_apply (v39 : FVec Ideal S2048x256 .f32) (x6 xo : Vec Ideal S1x256 .f32) (q : Fin 256) :
    k2_pay4 (F := Ideal) v39 x6 xo (ix2 (0 : Fin 1) q)
      = xo (ix2 (0 : Fin 1) q) + ∑ p : Fin 2048, k2_pay1 (F := Ideal) v39 x6 (ix2 p q) * k2_pay1 (F := Ideal) v39 x6 (ix2 p q) := by
  unfold k2_pay4
  refine (addf_apply _ _ _).trans ?_
  refine congrArg₂ (· + ·) ?_ (colred_apply _ rfl q)
  rw [shapeCast_self]

/-- The two zero rows the first row block's point stores. -/
theorem pay5_apply (i : S1x256.Idx) : k2_pay5 (F := Ideal) i = 0 := by
  unfold k2_pay5
  exact Ideal.ofBits_zero_f32
theorem pay6_apply (i : S1x256.Idx) : k2_pay6 (F := Ideal) i = 0 := by
  unfold k2_pay6
  exact Ideal.ofBits_zero_f32

/-! ## The batch's rows in sixteen blocks -/

/-- The rows of the batch split into 16 blocks of 2048: (s, p) is row 2048 s + p. -/
def rowEquiv : Fin 16 × Fin 2048 ≃ Fin 32768 where
  toFun x := ⟨2048 * x.1.val + x.2.val, by have := x.1.isLt; have := x.2.isLt; omega⟩
  invFun r := (⟨r.val / 2048, by have := r.isLt; omega⟩, ⟨r.val % 2048, by omega⟩)
  left_inv x := by
    have h1 := x.1.isLt
    have h2 := x.2.isLt
    refine Prod.ext (Fin.ext ?_) (Fin.ext ?_)
    · show (2048 * x.1.val + x.2.val) / 2048 = x.1.val
      omega
    · show (2048 * x.1.val + x.2.val) % 2048 = x.2.val
      omega
  right_inv r := Fin.ext (by
    show 2048 * (r.val / 2048) + r.val % 2048 = r.val
    omega)

/-- The sum of g over the rows of block s; zero past the last block. -/
def blockSum (g : Fin 32768 → EReal) (s : ℕ) : EReal :=
  if h : s < 16 then ∑ p : Fin 2048, g ⟨2048 * s + p.val, by have := p.isLt; omega⟩ else 0

theorem blockSum_of_lt (g : Fin 32768 → EReal) (s : ℕ) (h : s < 16) :
    blockSum g s = ∑ p : Fin 2048, g ⟨2048 * s + p.val, by have := p.isLt; omega⟩ := dif_pos h

/-- The sixteen block sums add up to the sum over all rows: a sum over a product of index sets, re-indexed. -/
theorem sum_blocks (g : Fin 32768 → EReal) : ∑ s ∈ Finset.range 16, blockSum g s = ∑ r, g r := by
  rw [Finset.sum_range, ← Equiv.sum_comp rowEquiv g, Fintype.sum_prod_type]
  refine Finset.sum_congr rfl fun s _ => ?_
  rw [blockSum_of_lt g s.val s.isLt]
  rfl

/-! ## The arrays the region finds, and the layer's values -/

section Region

variable (V : (c : Dev nD) → (b : Ref sig .tc) → Buf (Elt Ideal) ((c : Thread nD τ).loc b)) (c : Dev nD)

/-- The previous layer's pre-activations, rows by features. -/
abbrev A0 : S32768x1024.Idx → EReal := V c (Pipeline.arrRef spec2 0)
/-- Their column means. -/
abbrev A1 : S1x1024.Idx → EReal := V c (Pipeline.arrRef spec2 1)
/-- Their column variances. -/
abbrev A2 : S1x1024.Idx → EReal := V c (Pipeline.arrRef spec2 2)
/-- The normalisation's scale. -/
abbrev A3 : S1x1024.Idx → EReal := V c (Pipeline.arrRef spec2 3)
/-- The normalisation's shift. -/
abbrev A4 : S1x1024.Idx → EReal := V c (Pipeline.arrRef spec2 4)
/-- This layer's weights, output features by input features. -/
abbrev A5 : S1024x1024.Idx → EReal := V c (Pipeline.arrRef spec2 5)
/-- This layer's bias. -/
abbrev A6 : S1x1024.Idx → EReal := V c (Pipeline.arrRef spec2 6)

/-- This layer's pre-activations: the signs of the normalised previous layer, times the weights, plus the bias. -/
def hOut : Fin 32768 → Fin 1024 → EReal :=
  Spec.lin (Spec.signs eps (Spec.cur2 (A0 V c)) (Spec.row (A1 V c)) (Spec.row (A2 V c)) (Spec.row (A3 V c)) (Spec.row (A4 V c)))
    (Spec.cur2 (A5 V c)) (Spec.row (A6 V c))

/-! ## The windows' blocks, read off the arrays -/

/-- The printed index maps, decided over the grid: point t = 16 j + i works on row block i and column block j. -/
theorem idx_facts : ∀ t : Fin cfg2.N,
    win2_0.index t (0 : Fin 2) = t.val % 16 ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val / 16 ∧ win2_5.index t (1 : Fin 2) = 0
    ∧ win2_6.index t (0 : Fin 2) = 0 ∧ win2_6.index t (1 : Fin 2) = t.val / 16
    ∧ win2_7.index t (0 : Fin 2) = t.val % 16 ∧ win2_7.index t (1 : Fin 2) = t.val / 16
    ∧ win2_8.index t (0 : Fin 2) = 0 ∧ win2_8.index t (1 : Fin 2) = t.val / 16
    ∧ win2_9.index t (0 : Fin 2) = 0 ∧ win2_9.index t (1 : Fin 2) = t.val / 16 :=
  (by decide +kernel : ∀ t : Fin grid2.N, _)

/-- Row p of the activations' block at point 16 j + i is row 2048 i + p of the array. -/
theorem blk0 (t : Fin cfg2.N) (i j : ℕ) (hi : i < 16) (ht : t.val = 16 * j + i) (p : Fin 2048) (k : Fin 1024) :
    (iblk2 V c 0 t : Vec Ideal S2048x1024 .bf16) (ix2 p k) = (A0 V c) (ix2 ⟨2048 * i + p.val, by have := p.isLt; omega⟩ k) := by
  obtain ⟨e0, e1, -⟩ := idx_facts t
  unfold iblk2
  rw [View.read_apply]
  show V c (Pipeline.arrRef spec2 0) _ = V c (Pipeline.arrRef spec2 0) _
  refine congrArg (V c (Pipeline.arrRef spec2 0)) (funext fun a => Fin.ext ?_)
  match a with
  | ⟨0, _⟩ => show win2_0.index t (0 : Fin 2) * 2048 + 1 * p.val = 2048 * i + p.val; rw [e0]; omega
  | ⟨1, _⟩ => show win2_0.index t (1 : Fin 2) * 1024 + 1 * k.val = k.val; rw [e1]; omega

/-- The whole row array 1 is its one block at every point. -/
theorem blk1 (t : Fin cfg2.N) (k : Fin 1024) :
    (iblk2 V c 1 t : Vec Ideal S1x1024 .f32) (ix2 (0 : Fin 1) k) = (A1 V c) (ix2 (0 : Fin 1) k) := by
  obtain ⟨-, -, e0, e1, -⟩ := idx_facts t
  unfold iblk2
  rw [View.read_apply]
  show V c (Pipeline.arrRef spec2 1) _ = V c (Pipeline.arrRef spec2 1) _
  refine congrArg (V c (Pipeline.arrRef spec2 1)) (funext fun a => Fin.ext ?_)
  match a with
  | ⟨0, _⟩ => show win2_1.index t (0 : Fin 2) * 1 + 1 * 0 = 0; rw [e0]
  | ⟨1, _⟩ => show win2_1.index t (1 : Fin 2) * 1024 + 1 * k.val = k.val; rw [e1]; omega

/-- The whole row array 2 is its one block at every point. -/
theorem blk2 (t : Fin cfg2.N) (k : Fin 1024) :
    (iblk2 V c 2 t : Vec Ideal S1x1024 .f32) (ix2 (0 : Fin 1) k) = (A2 V c) (ix2 (0 : Fin 1) k) := by
  obtain ⟨-, -, -, -, e0, e1, -⟩ := idx_facts t
  unfold iblk2
  rw [View.read_apply]
  show V c (Pipeline.arrRef spec2 2) _ = V c (Pipeline.arrRef spec2 2) _
  refine congrArg (V c (Pipeline.arrRef spec2 2)) (funext fun a => Fin.ext ?_)
  match a with
  | ⟨0, _⟩ => show win2_2.index t (0 : Fin 2) * 1 + 1 * 0 = 0; rw [e0]
  | ⟨1, _⟩ => show win2_2.index t (1 : Fin 2) * 1024 + 1 * k.val = k.val; rw [e1]; omega

/-- The whole row array 3 is its one block at every point. -/
theorem blk3 (t : Fin cfg2.N) (k : Fin 1024) :
    (iblk2 V c 3 t : Vec Ideal S1x1024 .f32) (ix2 (0 : Fin 1) k) = (A3 V c) (ix2 (0 : Fin 1) k) := by
  obtain ⟨-, -, -, -, -, -, e0, e1, -⟩ := idx_facts t
  unfold iblk2
  rw [View.read_apply]
  show V c (Pipeline.arrRef spec2 3) _ = V c (Pipeline.arrRef spec2 3) _
  refine congrArg (V c (Pipeline.arrRef spec2 3)) (funext fun a => Fin.ext ?_)
  match a with
  | ⟨0, _⟩ => show win2_3.index t (0 : Fin 2) * 1 + 1 * 0 = 0; rw [e0]
  | ⟨1, _⟩ => show win2_3.index t (1 : Fin 2) * 1024 + 1 * k.val = k.val; rw [e1]; omega

/-- The whole row array 4 is its one block at every point. -/
theorem blk4 (t : Fin cfg2.N) (k : Fin 1024) :
    (iblk2 V c 4 t : Vec Ideal S1x1024 .f32) (ix2 (0 : Fin 1) k) = (A4 V c) (ix2 (0 : Fin 1) k) := by
  obtain ⟨-, -, -, -, -, -, -, -, e0, e1, -⟩ := idx_facts t
  unfold iblk2
  rw [View.read_apply]
  show V c (Pipeline.arrRef spec2 4) _ = V c (Pipeline.arrRef spec2 4) _
  refine congrArg (V c (Pipeline.arrRef spec2 4)) (funext fun a => Fin.ext ?_)
  match a with
  | ⟨0, _⟩ => show win2_4.index t (0 : Fin 2) * 1 + 1 * 0 = 0; rw [e0]
  | ⟨1, _⟩ => show win2_4.index t (1 : Fin 2) * 1024 + 1 * k.val = k.val; rw [e1]; omega

/-- Row q of the weights' block at point 16 j + i is row 256 j + q of the weights. -/
theorem blk5 (t : Fin cfg2.N) (i j : ℕ) (hi : i < 16) (hj : j < 4) (ht : t.val = 16 * j + i) (q : Fin 256) (k : Fin 1024) :
    (iblk2 V c 5 t : Vec Ideal S256x1024 .bf16) (ix2 q k) = (A5 V c) (ix2 ⟨256 * j + q.val, by have := q.isLt; omega⟩ k) := by
  obtain ⟨-, -, -, -, -, -, -, -, -, -, e0, e1, -⟩ := idx_facts t
  unfold iblk2
  rw [View.read_apply]
  show V c (Pipeline.arrRef spec2 5) _ = V c (Pipeline.arrRef spec2 5) _
  refine congrArg (V c (Pipeline.arrRef spec2 5)) (funext fun a => Fin.ext ?_)
  match a with
  | ⟨0, _⟩ => show win2_5.index t (0 : Fin 2) * 256 + 1 * q.val = 256 * j + q.val; rw [e0]; omega
  | ⟨1, _⟩ => show win2_5.index t (1 : Fin 2) * 1024 + 1 * k.val = k.val; rw [e1]; omega

/-- Column q of the bias block at point 16 j + i is column 256 j + q of the bias. -/
theorem blk6 (t : Fin cfg2.N) (i j : ℕ) (hi : i < 16) (hj : j < 4) (ht : t.val = 16 * j + i) (q : Fin 256) :
    (iblk2 V c 6 t : Vec Ideal S1x256 .f32) (ix2 (0 : Fin 1) q) = (A6 V c) (ix2 (0 : Fin 1) ⟨256 * j + q.val, by have := q.isLt; omega⟩) := by
  obtain ⟨-, -, -, -, -, -, -, -, -, -, -, -, e0, e1, -⟩ := idx_facts t
  unfold iblk2
  rw [View.read_apply]
  show V c (Pipeline.arrRef spec2 6) _ = V c (Pipeline.arrRef spec2 6) _
  refine congrArg (V c (Pipeline.arrRef spec2 6)) (funext fun a => Fin.ext ?_)
  match a with
  | ⟨0, _⟩ => show win2_6.index t (0 : Fin 2) * 1 + 1 * 0 = 0; rw [e0]
  | ⟨1, _⟩ => show win2_6.index t (1 : Fin 2) * 256 + 1 * q.val = 256 * j + q.val; rw [e1]; omega

end Region

/-! ## One point's affine values -/

/-- Blocks that are restrictions of whole arrays — rows 2048 i …, output features 256 j … — give, at (p, q) of the
    block, the layer's value at row 2048 i + p and feature 256 j + q of the arrays. -/
theorem blockVal (x0 : Vec Ideal S2048x1024 .bf16) (x1 x2 x3 x4 : Vec Ideal S1x1024 .f32) (x5 : Vec Ideal S256x1024 .bf16) (x6 : Vec Ideal S1x256 .f32)
    (B0 : S32768x1024.Idx → EReal) (B1 B2 B3 B4 : S1x1024.Idx → EReal) (B5 : S1024x1024.Idx → EReal) (B6 : S1x1024.Idx → EReal)
    (i j : ℕ) (hi : i < 16) (hj : j < 4)
    (h0 : ∀ (p : Fin 2048) (k : Fin 1024), x0 (ix2 p k) = B0 (ix2 ⟨2048 * i + p.val, by have := p.isLt; omega⟩ k))
    (h1 : ∀ k : Fin 1024, x1 (ix2 (0 : Fin 1) k) = B1 (ix2 (0 : Fin 1) k))
    (h2 : ∀ k : Fin 1024, x2 (ix2 (0 : Fin 1) k) = B2 (ix2 (0 : Fin 1) k))
    (h3 : ∀ k : Fin 1024, x3 (ix2 (0 : Fin 1) k) = B3 (ix2 (0 : Fin 1) k))
    (h4 : ∀ k : Fin 1024, x4 (ix2 (0 : Fin 1) k) = B4 (ix2 (0 : Fin 1) k))
    (h5 : ∀ (q : Fin 256) (k : Fin 1024), x5 (ix2 q k) = B5 (ix2 ⟨256 * j + q.val, by have := q.isLt; omega⟩ k))
    (h6 : ∀ q : Fin 256, x6 (ix2 (0 : Fin 1) q) = B6 (ix2 (0 : Fin 1) ⟨256 * j + q.val, by have := q.isLt; omega⟩))
    (p : Fin 2048) (q : Fin 256) :
    k2_pay1 (F := Ideal) (k2_pay7 (F := Ideal) x0 x2 x1 x3 x4 x5) x6 (ix2 p q)
      = Spec.lin (Spec.signs eps (Spec.cur2 B0) (Spec.row B1) (Spec.row B2) (Spec.row B3) (Spec.row B4)) (Spec.cur2 B5) (Spec.row B6)
          ⟨2048 * i + p.val, by have := p.isLt; omega⟩ ⟨256 * j + q.val, by have := q.isLt; omega⟩ := by
  rw [pay1_apply, pay7_apply, h6]
  refine congrArg (· + B6 (ix2 (0 : Fin 1) ⟨256 * j + q.val, by have := q.isLt; omega⟩)) (Finset.sum_congr rfl fun k _ => ?_)
  rw [h0, h1, h2, h3, h4, h5]
  rfl

/-! ## What the outputs' buffers hold after each point -/

section Points

variable (V : (c : Dev nD) → (b : Ref sig .tc) → Buf (Elt Ideal) ((c : Thread nD τ).loc b)) (c : Dev nD)

/-- At point t = 16 j + i the body's affine values are the layer's at rows 2048 i … and features 256 j …. -/
theorem affAt (t : Fin cfg2.N) (i j : ℕ) (hi : i < 16) (hj : j < 4) (ht : t.val = 16 * j + i) (p : Fin 2048) (q : Fin 256) :
    k2_pay1 (F := Ideal) (k2_pay7 (F := Ideal) (iblk2 V c 0 t) (iblk2 V c 2 t) (iblk2 V c 1 t) (iblk2 V c 3 t) (iblk2 V c 4 t) (iblk2 V c 5 t)) (iblk2 V c 6 t) (ix2 p q) = hOut V c ⟨2048 * i + p.val, by have := p.isLt; omega⟩ ⟨256 * j + q.val, by have := q.isLt; omega⟩ :=
  blockVal (iblk2 V c 0 t) (iblk2 V c 1 t) (iblk2 V c 2 t) (iblk2 V c 3 t) (iblk2 V c 4 t) (iblk2 V c 5 t) (iblk2 V c 6 t)
    (A0 V c) (A1 V c) (A2 V c) (A3 V c) (A4 V c) (A5 V c) (A6 V c) i j hi hj
    (blk0 V c t i j hi ht) (blk1 V c t) (blk2 V c t) (blk3 V c t) (blk4 V c t) (blk5 V c t i j hi hj ht) (blk6 V c t i j hi hj ht) p q

/-- The first point of a column block (i = 0): the block's values, and the column sums started from zero. -/
theorem caseA (t : Fin cfg2.N) (h0 : t.val % 16 = 0) (j : ℕ) (hj : j < 4) (ht : t.val = 16 * j + 0) :
    (∀ (p : Fin 2048) (q : Fin 256), (outsAt2 V c t.val t.isLt).1 (ix2 p q) = hOut V c ⟨2048 * 0 + p.val, by have := p.isLt; omega⟩ ⟨256 * j + q.val, by have := q.isLt; omega⟩)
    ∧ (∀ q : Fin 256, (outsAt2 V c t.val t.isLt).2.1 (ix2 (0 : Fin 1) q) = ∑ s ∈ Finset.range (0 + 1), blockSum (fun r => hOut V c r ⟨256 * j + q.val, by have := q.isLt; omega⟩) s)
    ∧ (∀ q : Fin 256, (outsAt2 V c t.val t.isLt).2.2 (ix2 (0 : Fin 1) q) = ∑ s ∈ Finset.range (0 + 1), blockSum (fun r => hOut V c r ⟨256 * j + q.val, by have := q.isLt; omega⟩ * hOut V c r ⟨256 * j + q.val, by have := q.isLt; omega⟩) s) := by
  rw [outsAt2_A V c t h0]
  dsimp only
  refine ⟨fun p q => ?_, fun q => ?_, fun q => ?_⟩
  · refine (congrFun (piece_A_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (iblk2 V c 0 t) (iblk2 V c 1 t) (iblk2 V c 2 t) (iblk2 V c 3 t) (iblk2 V c 4 t) (iblk2 V c 5 t) (iblk2 V c 6 t) ((hcond2_0 t).mpr h0)) (ix2 p q)).trans ?_
    refine (pay2_apply (k2_pay7 (F := Ideal) (iblk2 V c 0 t) (iblk2 V c 2 t) (iblk2 V c 1 t) (iblk2 V c 3 t) (iblk2 V c 4 t) (iblk2 V c 5 t)) (iblk2 V c 6 t) p q).trans ?_
    exact affAt V c t 0 j (by omega) hj ht p q
  · refine (congrFun (piece_A_8 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (iblk2 V c 0 t) (iblk2 V c 1 t) (iblk2 V c 2 t) (iblk2 V c 3 t) (iblk2 V c 4 t) (iblk2 V c 5 t) (iblk2 V c 6 t) ((hcond2_0 t).mpr h0)) (ix2 (0 : Fin 1) q)).trans ?_
    refine (pay3_apply (k2_pay7 (F := Ideal) (iblk2 V c 0 t) (iblk2 V c 2 t) (iblk2 V c 1 t) (iblk2 V c 3 t) (iblk2 V c 4 t) (iblk2 V c 5 t)) (iblk2 V c 6 t) _ q).trans ?_
    rw [pay5_apply, zero_add, Finset.sum_range_one, blockSum_of_lt _ 0 (by omega)]
    exact Finset.sum_congr rfl fun p _ => affAt V c t 0 j (by omega) hj ht p q
  · refine (congrFun (piece_A_9 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (iblk2 V c 0 t) (iblk2 V c 1 t) (iblk2 V c 2 t) (iblk2 V c 3 t) (iblk2 V c 4 t) (iblk2 V c 5 t) (iblk2 V c 6 t) ((hcond2_0 t).mpr h0)) (ix2 (0 : Fin 1) q)).trans ?_
    refine (pay4_apply (k2_pay7 (F := Ideal) (iblk2 V c 0 t) (iblk2 V c 2 t) (iblk2 V c 1 t) (iblk2 V c 3 t) (iblk2 V c 4 t) (iblk2 V c 5 t)) (iblk2 V c 6 t) _ q).trans ?_
    rw [pay6_apply, zero_add, Finset.sum_range_one, blockSum_of_lt _ 0 (by omega)]
    exact Finset.sum_congr rfl fun p _ => by rw [affAt V c t 0 j (by omega) hj ht p q]

/-- A later point of a column block (i + 1): the block's values, and the carried sums plus this block's. -/
theorem caseB (t : Fin cfg2.N) (h0 : ¬t.val % 16 = 0) (i j : ℕ) (hi : i + 1 < 16) (hj : j < 4) (ht : t.val = 16 * j + (i + 1))
    (hs : ∀ q : Fin 256, (outsAt2 V c (t.val - 1) (Nat.lt_of_le_of_lt (Nat.sub_le _ _) t.isLt)).2.1 (ix2 (0 : Fin 1) q) = ∑ s ∈ Finset.range (i + 1), blockSum (fun r => hOut V c r ⟨256 * j + q.val, by have := q.isLt; omega⟩) s)
    (hq : ∀ q : Fin 256, (outsAt2 V c (t.val - 1) (Nat.lt_of_le_of_lt (Nat.sub_le _ _) t.isLt)).2.2 (ix2 (0 : Fin 1) q) = ∑ s ∈ Finset.range (i + 1), blockSum (fun r => hOut V c r ⟨256 * j + q.val, by have := q.isLt; omega⟩ * hOut V c r ⟨256 * j + q.val, by have := q.isLt; omega⟩) s) :
    (∀ (p : Fin 2048) (q : Fin 256), (outsAt2 V c t.val t.isLt).1 (ix2 p q) = hOut V c ⟨2048 * (i + 1) + p.val, by have := p.isLt; omega⟩ ⟨256 * j + q.val, by have := q.isLt; omega⟩)
    ∧ (∀ q : Fin 256, (outsAt2 V c t.val t.isLt).2.1 (ix2 (0 : Fin 1) q) = ∑ s ∈ Finset.range (i + 1 + 1), blockSum (fun r => hOut V c r ⟨256 * j + q.val, by have := q.isLt; omega⟩) s)
    ∧ (∀ q : Fin 256, (outsAt2 V c t.val t.isLt).2.2 (ix2 (0 : Fin 1) q) = ∑ s ∈ Finset.range (i + 1 + 1), blockSum (fun r => hOut V c r ⟨256 * j + q.val, by have := q.isLt; omega⟩ * hOut V c r ⟨256 * j + q.val, by have := q.isLt; omega⟩) s) := by
  rw [outsAt2_B V c t h0]
  dsimp only
  refine ⟨fun p q => ?_, fun q => ?_, fun q => ?_⟩
  · refine (congrFun (piece_B_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (iblk2 V c 0 t) (iblk2 V c 1 t) (iblk2 V c 2 t) (iblk2 V c 3 t) (iblk2 V c 4 t) (iblk2 V c 5 t) (iblk2 V c 6 t) (fun h => h0 ((hcond2_0 t).mp h)) (outsAt2 V c (t.val - 1) (Nat.lt_of_le_of_lt (Nat.sub_le _ _) t.isLt)).2.1 (outsAt2 V c (t.val - 1) (Nat.lt_of_le_of_lt (Nat.sub_le _ _) t.isLt)).2.2) (ix2 p q)).trans ?_
    refine (pay2_apply (k2_pay7 (F := Ideal) (iblk2 V c 0 t) (iblk2 V c 2 t) (iblk2 V c 1 t) (iblk2 V c 3 t) (iblk2 V c 4 t) (iblk2 V c 5 t)) (iblk2 V c 6 t) p q).trans ?_
    exact affAt V c t (i + 1) j hi hj ht p q
  · refine (congrFun (piece_B_8 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (iblk2 V c 0 t) (iblk2 V c 1 t) (iblk2 V c 2 t) (iblk2 V c 3 t) (iblk2 V c 4 t) (iblk2 V c 5 t) (iblk2 V c 6 t) (fun h => h0 ((hcond2_0 t).mp h)) (outsAt2 V c (t.val - 1) (Nat.lt_of_le_of_lt (Nat.sub_le _ _) t.isLt)).2.1 (outsAt2 V c (t.val - 1) (Nat.lt_of_le_of_lt (Nat.sub_le _ _) t.isLt)).2.2) (ix2 (0 : Fin 1) q)).trans ?_
    refine (pay3_apply (k2_pay7 (F := Ideal) (iblk2 V c 0 t) (iblk2 V c 2 t) (iblk2 V c 1 t) (iblk2 V c 3 t) (iblk2 V c 4 t) (iblk2 V c 5 t)) (iblk2 V c 6 t) _ q).trans ?_
    rw [hs q, Finset.sum_range_succ _ (i + 1), blockSum_of_lt _ (i + 1) hi]
    exact congrArg (_ + ·) (Finset.sum_congr rfl fun p _ => affAt V c t (i + 1) j hi hj ht p q)
  · refine (congrFun (piece_B_9 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (iblk2 V c 0 t) (iblk2 V c 1 t) (iblk2 V c 2 t) (iblk2 V c 3 t) (iblk2 V c 4 t) (iblk2 V c 5 t) (iblk2 V c 6 t) (fun h => h0 ((hcond2_0 t).mp h)) (outsAt2 V c (t.val - 1) (Nat.lt_of_le_of_lt (Nat.sub_le _ _) t.isLt)).2.1 (outsAt2 V c (t.val - 1) (Nat.lt_of_le_of_lt (Nat.sub_le _ _) t.isLt)).2.2) (ix2 (0 : Fin 1) q)).trans ?_
    refine (pay4_apply (k2_pay7 (F := Ideal) (iblk2 V c 0 t) (iblk2 V c 2 t) (iblk2 V c 1 t) (iblk2 V c 3 t) (iblk2 V c 4 t) (iblk2 V c 5 t)) (iblk2 V c 6 t) _ q).trans ?_
    rw [hq q, Finset.sum_range_succ _ (i + 1), blockSum_of_lt _ (i + 1) hi]
    exact congrArg (_ + ·) (Finset.sum_congr rfl fun p _ => by rw [affAt V c t (i + 1) j hi hj ht p q])

/-- THE INVARIANT, by induction on the point: after point 16 j + i the output block holds the layer's values at rows
    2048 i … and features 256 j …, and the two carried rows hold the column sums (of squares) over the rows below
    2048 (i + 1). -/
theorem inv : ∀ (n : ℕ) (h : n < cfg2.N) (i j : ℕ) (hi : i < 16) (hj : j < 4), n = 16 * j + i →
    (∀ (p : Fin 2048) (q : Fin 256), (outsAt2 V c n h).1 (ix2 p q) = hOut V c ⟨2048 * i + p.val, by have := p.isLt; omega⟩ ⟨256 * j + q.val, by have := q.isLt; omega⟩)
    ∧ (∀ q : Fin 256, (outsAt2 V c n h).2.1 (ix2 (0 : Fin 1) q) = ∑ s ∈ Finset.range (i + 1), blockSum (fun r => hOut V c r ⟨256 * j + q.val, by have := q.isLt; omega⟩) s)
    ∧ (∀ q : Fin 256, (outsAt2 V c n h).2.2 (ix2 (0 : Fin 1) q) = ∑ s ∈ Finset.range (i + 1), blockSum (fun r => hOut V c r ⟨256 * j + q.val, by have := q.isLt; omega⟩ * hOut V c r ⟨256 * j + q.val, by have := q.isLt; omega⟩) s)
  | 0, h, i, j, hi, hj, hn => by
    obtain rfl : i = 0 := by omega
    exact caseA V c ⟨0, h⟩ rfl j hj hn
  | n + 1, h, i, j, hi, hj, hn => by
    by_cases h0 : (n + 1) % 16 = 0
    · obtain rfl : i = 0 := by omega
      exact caseA V c ⟨n + 1, h⟩ h0 j hj hn
    · obtain ⟨i', rfl⟩ : ∃ i', i = i' + 1 := ⟨i - 1, by omega⟩
      have ih := inv n (Nat.lt_of_succ_lt h) i' j (by omega) hj (by omega)
      exact caseB V c ⟨n + 1, h⟩ h0 i' j hi hj hn ih.2.1 ih.2.2

/-! ## From blocks to the arrays -/

/-- The array of this layer's pre-activations. -/
def G7 : S32768x1024.Idx → EReal := fun x => hOut V c (x 0) (x 1)
/-- The row of their column sums. -/
def G8 : S1x1024.Idx → EReal := fun x => Spec.colsum (hOut V c) (x 1)
/-- The row of their column sums of squares. -/
def G9 : S1x1024.Idx → EReal := fun x => Spec.colsumsq (hOut V c) (x 1)

/-- Every point writes back its block of the pre-activations. -/
theorem flushed7 (t : Fin cfg2.N) (hf : (cfg2.win 7).flush t = true) :
    (dat2 V c).flushed 7 t = ((cfg2.win 7).blk t).view.read (Elt Ideal) (G7 V c) := by
  have hN : t.val < 64 := lt_of_lt_of_eq t.isLt (show cfg2.N = 64 from N_2)
  obtain ⟨-, -, -, -, -, -, -, -, -, -, -, -, -, -, e0, e1, -⟩ := idx_facts t
  have hinv := (inv V c t.val t.isLt (t.val % 16) (t.val / 16) (by omega) (by omega) (by omega)).1
  show (cfg2.win 7).cut (grid2.coords t) ((dat2 V c).after 7 t) = _
  rw [after2_7]
  funext y
  have hy0 : (y 0).val < 2048 := (y 0).isLt
  have hy1 : (y 1).val < 256 := (y 1).isLt
  have hy : (cfg2.win 7).xinj (grid2.coords t) y = ix2 (⟨(y 0).val, hy0⟩ : Fin 2048) (⟨(y 1).val, hy1⟩ : Fin 256) :=
    funext fun a => by match a with | ⟨0, _⟩ => rfl | ⟨1, _⟩ => rfl
  show (outsAt2 V c t.val t.isLt).1 ((cfg2.win 7).xinj (grid2.coords t) y) = G7 V c (((cfg2.win 7).blk t).view.emb y)
  rw [hy, hinv]
  unfold G7
  refine congrArg₂ (hOut V c) (Fin.ext ?_) (Fin.ext ?_)
  · show 2048 * (t.val % 16) + (y 0).val = win2_7.index t (0 : Fin 2) * 2048 + 1 * (y 0).val
    rw [e0]; omega
  · show 256 * (t.val / 16) + (y 1).val = win2_7.index t (1 : Fin 2) * 256 + 1 * (y 1).val
    rw [e1]; omega

/-- The last point of a column block writes back the whole batch's column sums of that block's features. -/
theorem flushed8 (t : Fin cfg2.N) (hf : (cfg2.win 8).flush t = true) :
    (dat2 V c).flushed 8 t = ((cfg2.win 8).blk t).view.read (Elt Ideal) (G8 V c) := by
  have hN : t.val < 64 := lt_of_lt_of_eq t.isLt (show cfg2.N = 64 from N_2)
  have h15 : t.val % 16 = 15 := (flush2_8 t).mp hf
  obtain ⟨-, -, -, -, -, -, -, -, -, -, -, -, -, -, -, -, e0, e1, -⟩ := idx_facts t
  have hinv := (inv V c t.val t.isLt 15 (t.val / 16) (by omega) (by omega) (by omega)).2.1
  show (cfg2.win 8).cut (grid2.coords t) ((dat2 V c).after 8 t) = _
  rw [after2_8]
  funext y
  have hy1 : (y 1).val < 256 := (y 1).isLt
  have hy : (cfg2.win 8).xinj (grid2.coords t) y = ix2 (0 : Fin 1) (⟨(y 1).val, hy1⟩ : Fin 256) :=
    funext fun a => by
      match a with
      | ⟨0, _⟩ => exact Fin.ext (by have h : (y 0).val < 1 := (y 0).isLt; show (y 0).val = 0; omega)
      | ⟨1, _⟩ => rfl
  have key : ∀ g : S1x1024.Idx → EReal, ((cfg2.win 8).blk t).view.read (Elt Ideal) g y = g (((cfg2.win 8).blk t).view.emb y) :=
    fun _ => rfl
  refine Eq.trans ?_ (key (G8 V c)).symm
  show (outsAt2 V c t.val t.isLt).2.1 ((cfg2.win 8).xinj (grid2.coords t) y) = _
  rw [hy, hinv]
  refine (sum_blocks _).trans ?_
  unfold G8 Spec.colsum
  refine Finset.sum_congr rfl fun r _ => congrArg (hOut V c r) (Fin.ext ?_)
  show 256 * (t.val / 16) + (y 1).val = win2_8.index t (1 : Fin 2) * 256 + 1 * (y 1).val
  rw [e1]; omega

/-- The last point of a column block writes back the whole batch's column sums of squares of that block's features. -/
theorem flushed9 (t : Fin cfg2.N) (hf : (cfg2.win 9).flush t = true) :
    (dat2 V c).flushed 9 t = ((cfg2.win 9).blk t).view.read (Elt Ideal) (G9 V c) := by
  have hN : t.val < 64 := lt_of_lt_of_eq t.isLt (show cfg2.N = 64 from N_2)
  have h15 : t.val % 16 = 15 := (flush2_9 t).mp hf
  obtain ⟨-, -, -, -, -, -, -, -, -, -, -, -, -, -, -, -, -, -, e0, e1⟩ := idx_facts t
  have hinv := (inv V c t.val t.isLt 15 (t.val / 16) (by omega) (by omega) (by omega)).2.2
  show (cfg2.win 9).cut (grid2.coords t) ((dat2 V c).after 9 t) = _
  rw [after2_9]
  funext y
  have hy1 : (y 1).val < 256 := (y 1).isLt
  have hy : (cfg2.win 9).xinj (grid2.coords t) y = ix2 (0 : Fin 1) (⟨(y 1).val, hy1⟩ : Fin 256) :=
    funext fun a => by
      match a with
      | ⟨0, _⟩ => exact Fin.ext (by have h : (y 0).val < 1 := (y 0).isLt; show (y 0).val = 0; omega)
      | ⟨1, _⟩ => rfl
  have key : ∀ g : S1x1024.Idx → EReal, ((cfg2.win 9).blk t).view.read (Elt Ideal) g y = g (((cfg2.win 9).blk t).view.emb y) :=
    fun _ => rfl
  refine Eq.trans ?_ (key (G9 V c)).symm
  show (outsAt2 V c t.val t.isLt).2.2 ((cfg2.win 9).xinj (grid2.coords t) y) = _
  rw [hy, hinv]
  refine (sum_blocks _).trans ?_
  unfold G9 Spec.colsumsq
  refine Finset.sum_congr rfl fun r _ => congrArg (fun f => hOut V c r f * hOut V c r f) (Fin.ext ?_)
  show 256 * (t.val / 16) + (y 1).val = win2_9.index t (1 : Fin 2) * 256 + 1 * (y 1).val
  rw [e1]; omega

/-- An index of the array is in point t's block iff each coordinate is in the block's range on its axis. -/
theorem mem_blk7 (t : Fin cfg2.N) (x : S32768x1024.Idx) :
    x ∈ ((cfg2.win 7).blk t).view.set ↔ ∀ a : Fin 2, win2_7.index t a * S2048x256.size a ≤ (x a).val ∧ (x a).val < win2_7.index t a * S2048x256.size a + S2048x256.size a := by
  show x ∈ ((View.whole main_v38_0).slice (win2_7.rect t)).set ↔ _
  rw [View.set_slice_whole, Rect.mem_set_unit]
  exact Iff.rfl

/-- An index of the array is in point t's block iff each coordinate is in the block's range on its axis. -/
theorem mem_blk8 (t : Fin cfg2.N) (x : S1x1024.Idx) :
    x ∈ ((cfg2.win 8).blk t).view.set ↔ ∀ a : Fin 2, win2_8.index t a * S1x256.size a ≤ (x a).val ∧ (x a).val < win2_8.index t a * S1x256.size a + S1x256.size a := by
  show x ∈ ((View.whole main_v38_1).slice (win2_8.rect t)).set ↔ _
  rw [View.set_slice_whole, Rect.mem_set_unit]
  exact Iff.rfl

/-- An index of the array is in point t's block iff each coordinate is in the block's range on its axis. -/
theorem mem_blk9 (t : Fin cfg2.N) (x : S1x1024.Idx) :
    x ∈ ((cfg2.win 9).blk t).view.set ↔ ∀ a : Fin 2, win2_9.index t a * S1x256.size a ≤ (x a).val ∧ (x a).val < win2_9.index t a * S1x256.size a + S1x256.size a := by
  show x ∈ ((View.whole main_v38_2).slice (win2_9.rect t)).set ↔ _
  rw [View.set_slice_whole, Rect.mem_set_unit]
  exact Iff.rfl

/-- Row r and feature f lie in the block of point 16 (f / 256) + r / 2048. -/
theorem cover7 (x : S32768x1024.Idx) : ∃ t : Fin cfg2.N, (cfg2.win 7).flush t = true ∧ x ∈ ((cfg2.win 7).blk t).view.set := by
  have h0 : (x 0).val < 32768 := (x 0).isLt
  have h1 : (x 1).val < 1024 := (x 1).isLt
  have hN : cfg2.N = 64 := N_2
  refine ⟨⟨16 * ((x 1).val / 256) + (x 0).val / 2048, by rw [hN]; omega⟩, flush2_7 _, ?_⟩
  rw [mem_blk7]
  obtain ⟨-, -, -, -, -, -, -, -, -, -, -, -, -, -, e0, e1, -⟩ := idx_facts ⟨16 * ((x 1).val / 256) + (x 0).val / 2048, by rw [hN]; omega⟩
  intro a
  match a with
  | ⟨0, _⟩ =>
    show win2_7.index _ (0 : Fin 2) * 2048 ≤ (x 0).val ∧ (x 0).val < win2_7.index _ (0 : Fin 2) * 2048 + 2048
    rw [e0]; dsimp only; omega
  | ⟨1, _⟩ =>
    show win2_7.index _ (1 : Fin 2) * 256 ≤ (x 1).val ∧ (x 1).val < win2_7.index _ (1 : Fin 2) * 256 + 256
    rw [e1]; dsimp only; omega

/-- Feature f lies in the block the last point of column block f / 256 writes back. -/
theorem cover8 (x : S1x1024.Idx) : ∃ t : Fin cfg2.N, (cfg2.win 8).flush t = true ∧ x ∈ ((cfg2.win 8).blk t).view.set := by
  have h0 : (x 0).val < 1 := (x 0).isLt
  have h1 : (x 1).val < 1024 := (x 1).isLt
  have hN : cfg2.N = 64 := N_2
  refine ⟨⟨16 * ((x 1).val / 256) + 15, by rw [hN]; omega⟩, (flush2_8 _).mpr (by dsimp only; omega), ?_⟩
  rw [mem_blk8]
  obtain ⟨-, -, -, -, -, -, -, -, -, -, -, -, -, -, -, -, e0, e1, -⟩ := idx_facts ⟨16 * ((x 1).val / 256) + 15, by rw [hN]; omega⟩
  intro a
  match a with
  | ⟨0, _⟩ =>
    show win2_8.index _ (0 : Fin 2) * 1 ≤ (x 0).val ∧ (x 0).val < win2_8.index _ (0 : Fin 2) * 1 + 1
    rw [e0]; omega
  | ⟨1, _⟩ =>
    show win2_8.index _ (1 : Fin 2) * 256 ≤ (x 1).val ∧ (x 1).val < win2_8.index _ (1 : Fin 2) * 256 + 256
    rw [e1]; dsimp only; omega

/-- Feature f lies in the block the last point of column block f / 256 writes back. -/
theorem cover9 (x : S1x1024.Idx) : ∃ t : Fin cfg2.N, (cfg2.win 9).flush t = true ∧ x ∈ ((cfg2.win 9).blk t).view.set := by
  have h0 : (x 0).val < 1 := (x 0).isLt
  have h1 : (x 1).val < 1024 := (x 1).isLt
  have hN : cfg2.N = 64 := N_2
  refine ⟨⟨16 * ((x 1).val / 256) + 15, by rw [hN]; omega⟩, (flush2_9 _).mpr (by dsimp only; omega), ?_⟩
  rw [mem_blk9]
  obtain ⟨-, -, -, -, -, -, -, -, -, -, -, -, -, -, -, -, -, -, e0, e1⟩ := idx_facts ⟨16 * ((x 1).val / 256) + 15, by rw [hN]; omega⟩
  intro a
  match a with
  | ⟨0, _⟩ =>
    show win2_9.index _ (0 : Fin 2) * 1 ≤ (x 0).val ∧ (x 0).val < win2_9.index _ (0 : Fin 2) * 1 + 1
    rw [e0]; omega
  | ⟨1, _⟩ =>
    show win2_9.index _ (1 : Fin 2) * 256 ≤ (x 1).val ∧ (x 1).val < win2_9.index _ (1 : Fin 2) * 256 + 256
    rw [e1]; dsimp only; omega

/-! ## The region's three results -/

theorem final7 : (dat2 V c).arrAt 7 cfg2.N = G7 V c :=
  (dat2 V c).arrAt_eq_of_cover 7 (G7 V c) (flushed7 V c) (cover7)
theorem final8 : (dat2 V c).arrAt 8 cfg2.N = G8 V c :=
  (dat2 V c).arrAt_eq_of_cover 8 (G8 V c) (flushed8 V c) (cover8)
theorem final9 : (dat2 V c).arrAt 9 cfg2.N = G9 V c :=
  (dat2 V c).arrAt_eq_of_cover 9 (G9 V c) (flushed9 V c) (cover9)

/-- After the region the activations' array holds this layer's pre-activations, -/
theorem out_h (r : Fin 32768) (j : Fin 1024) : (dat2 (F := Ideal) V c).arrAt 7 cfg2.N (ValueIdx.ix2 r j) = hOut V c r j :=
  congrFun (final7 V c) (ValueIdx.ix2 r j)
/-- the first statistics row their column sums over the whole batch, -/
theorem out_s (j : Fin 1024) : (dat2 (F := Ideal) V c).arrAt 8 cfg2.N (ValueIdx.ix2 (0 : Fin 1) j) = Spec.colsum (hOut V c) j :=
  congrFun (final8 V c) (ValueIdx.ix2 (0 : Fin 1) j)
/-- and the second their column sums of squares. -/
theorem out_sq (j : Fin 1024) : (dat2 (F := Ideal) V c).arrAt 9 cfg2.N (ValueIdx.ix2 (0 : Fin 1) j) = Spec.colsumsq (hOut V c) j :=
  congrFun (final9 V c) (ValueIdx.ix2 (0 : Fin 1) j)

end Points

end Cert.KernelValue.R2

end
-- ==== Proof.Region3.lean ====
/-
  The value of the last layer's region of the network, as a function of the arrays the region finds.

  The region goes through the batch of 32768 rows in 16 blocks of 2048 rows; its 10 output features are one block: point i works
  on row block i. There its body normalises the previous layer's block with
  the given column means and variances, (h − mean) · (var + ε)^(-1/2) · g + be, takes the signs, multiplies them with the
  weights' block and adds the bias: the block of this layer's values h' r f = Σ_k sign(…) r k · w f k + b f. It stores that
  block, and it adds the block's column sums Σ_r h' r f and column sums of squares Σ_r (h' r f)² into two rows that it
  carries from point to point, set to zero at the first row block and written back after the last.

  Over the extended reals every operation is exact and a change of number format is the identity, so:
    • the output array holds h' at every row and feature (each point writes its own block once);
    • the two statistics rows hold Σ_r h' r f and Σ_r (h' r f)² over ALL 32768 rows: after row block i the carried rows
      hold the sums over the rows below 2048 (i + 1) (induction on the point), and a sum over the rows is the sum of the
      sixteen block sums (addition of extended reals is commutative and associative; no finiteness is needed).
  All of it for arbitrary contents of the arrays the region starts from.
-/
import proofs.«141082_j78245714199267_2_alg».proof.Proof.KernelIdealFrame
import proofs.«141082_j78245714199267_2_alg».proof.Proof.Spec
import Idealize.ShloMosaic.Lib.Pipeline.Value
import Idealize.ShloMosaic.Lib.ValueLayout
import Idealize.ShloMosaic.PureOps.Ideal.Laws
import Idealize.ShloMosaic.Lib.Tactic

noncomputable section

open Idealize.ShloMosaic Idealize.ShloMosaic.TcCoe Idealize.SL.Sem
open Idealize.ShloMosaic.Pipeline (Dat)
open Idealize.ShloMosaic.ValueIdx
open scoped BigOperators

namespace Cert.KernelValue.R3

open Cert.KernelIdeal Cert.KernelIdeal.Gen Cert.KernelIdeal.GenP

/-! ## What each case's stores leave, as payloads of the blocks the point finds (any float values)

Each output's buffer is written by stores that cover it whole, so what the body leaves there is the last store's
payload; at a first row block the two statistics rows are first set to zero and read back. -/

section Pieces

variable {F : FTy → Type} [FloatOps F]

theorem hz : (![0, 0] : Fin 2 → Nat) = fun _ => 0 := funext fun a => by fin_cases a <;> rfl

variable (c : Dev nD) (i : grid3.Coords)
  (arg2 : Memref sig .tc .vmem S2048x1024 .bf16) (harg2 : arg2.IsWhole)
  (arg3 : Memref sig .tc .vmem S1x1024 .f32) (harg3 : arg3.IsWhole)
  (arg4 : Memref sig .tc .vmem S1x1024 .f32) (harg4 : arg4.IsWhole)
  (arg5 : Memref sig .tc .vmem S1x1024 .f32) (harg5 : arg5.IsWhole)
  (arg6 : Memref sig .tc .vmem S1x1024 .f32) (harg6 : arg6.IsWhole)
  (arg7 : Memref sig .tc .vmem S10x1024 .bf16) (harg7 : arg7.IsWhole)
  (arg8 : Memref sig .tc .vmem S1x10 .f32) (harg8 : arg8.IsWhole)
  (arg9 : Memref sig .tc .vmem S2048x10 .f32) (harg9 : arg9.IsWhole)
  (arg10 : Memref sig .tc .vmem S1x10 .f32) (harg10 : arg10.IsWhole)
  (arg11 : Memref sig .tc .vmem S1x10 .f32) (harg11 : arg11.IsWhole)
  (x0 : Vec F S2048x1024 .bf16) (x1 : Vec F S1x1024 .f32) (x2 : Vec F S1x1024 .f32) (x3 : Vec F S1x1024 .f32) (x4 : Vec F S1x1024 .f32) (x5 : Vec F S10x1024 .bf16) (x6 : Vec F S1x10 .f32)

/-- First row block: the output block holds the affine values. -/
theorem piece_A_7 (hc : cond3_0 i) :
    out3_A_7 c i arg2 harg2 arg3 harg3 arg4 harg4 arg5 harg5 arg6 harg6 arg7 harg7 arg8 harg8 arg9 harg9 arg10 harg10 arg11 harg11 hc x0 x1 x2 x3 x4 x5 x6 = k3_pay1 (k3_pay6 x0 x2 x1 x3 x4 x5) x6 := by
  unfold out3_A_7
  rw [View.read_writes_eq_canon _ _ _ (cover3_A_7 c i arg2 harg2 arg3 harg3 arg4 harg4 arg5 harg5 arg6 harg6 arg7 harg7 arg8 harg8 arg9 harg9 arg10 harg10 arg11 harg11 hc x0 x1 x2 x3 x4 x5 x6)]
  unfold kernelRun3_A
  dsimp only
  sl_unfold_words
  rw [View.canon_unit_zero hz]
  simp only [View.readAt_eq_ld, harg2.read_unread, harg3.read_unread, harg4.read_unread, harg5.read_unread, harg6.read_unread, harg7.read_unread, harg8.read_unread, harg10.read_unread, harg11.read_unread, View.ld_unit_zero (S := S2048x1024) hz, View.ld_unit_zero (S := S1x1024) hz, View.ld_unit_zero (S := S10x1024) hz, View.ld_unit_zero (S := S1x10) hz]

/-- First row block: the sums row holds zero plus the block's column sums. -/
theorem piece_A_8 (hc : cond3_0 i) :
    out3_A_8 c i arg2 harg2 arg3 harg3 arg4 harg4 arg5 harg5 arg6 harg6 arg7 harg7 arg8 harg8 arg9 harg9 arg10 harg10 arg11 harg11 hc x0 x1 x2 x3 x4 x5 x6 = k3_pay2 (k3_pay6 x0 x2 x1 x3 x4 x5) x6 k3_pay4 := by
  unfold out3_A_8
  rw [View.read_writes_eq_canon _ _ _ (cover3_A_8 c i arg2 harg2 arg3 harg3 arg4 harg4 arg5 harg5 arg6 harg6 arg7 harg7 arg8 harg8 arg9 harg9 arg10 harg10 arg11 harg11 hc x0 x1 x2 x3 x4 x5 x6)]
  unfold kernelRun3_A
  dsimp only
  sl_unfold_words
  rw [View.canon_cons_unit_zero (S := S1x10) hz, View.readCov_unit_zero (S := S1x10) _ hz]
  simp only [View.readAt_eq_ld, harg2.read_unread, harg3.read_unread, harg4.read_unread, harg5.read_unread, harg6.read_unread, harg7.read_unread, harg8.read_unread, harg10.read_unread, harg11.read_unread, View.ld_unit_zero (S := S2048x1024) hz, View.ld_unit_zero (S := S1x1024) hz, View.ld_unit_zero (S := S10x1024) hz, View.ld_unit_zero (S := S1x10) hz]

/-- First row block: the squares row holds zero plus the block's column sums of squares. -/
theorem piece_A_9 (hc : cond3_0 i) :
    out3_A_9 c i arg2 harg2 arg3 harg3 arg4 harg4 arg5 harg5 arg6 harg6 arg7 harg7 arg8 harg8 arg9 harg9 arg10 harg10 arg11 harg11 hc x0 x1 x2 x3 x4 x5 x6 = k3_pay3 (k3_pay6 x0 x2 x1 x3 x4 x5) x6 k3_pay5 := by
  unfold out3_A_9
  rw [View.read_writes_eq_canon _ _ _ (cover3_A_9 c i arg2 harg2 arg3 harg3 arg4 harg4 arg5 harg5 arg6 harg6 arg7 harg7 arg8 harg8 arg9 harg9 arg10 harg10 arg11 harg11 hc x0 x1 x2 x3 x4 x5 x6)]
  unfold kernelRun3_A
  dsimp only
  sl_unfold_words
  rw [View.canon_cons_unit_zero (S := S1x10) hz, View.readCov_unit_zero (S := S1x10) _ hz]
  simp only [View.readAt_eq_ld, harg2.read_unread, harg3.read_unread, harg4.read_unread, harg5.read_unread, harg6.read_unread, harg7.read_unread, harg8.read_unread, harg10.read_unread, harg11.read_unread, View.ld_unit_zero (S := S2048x1024) hz, View.ld_unit_zero (S := S1x1024) hz, View.ld_unit_zero (S := S10x1024) hz, View.ld_unit_zero (S := S1x10) hz]

/-- Later row blocks: the output block holds the affine values. -/
theorem piece_B_7 (hc : ¬cond3_0 i) (xo8 xo9 : Vec F S1x10 .f32) :
    out3_B_7 c i arg2 harg2 arg3 harg3 arg4 harg4 arg5 harg5 arg6 harg6 arg7 harg7 arg8 harg8 arg9 harg9 arg10 harg10 arg11 harg11 hc x0 x1 x2 x3 x4 x5 x6 xo8 xo9 = k3_pay1 (k3_pay6 x0 x2 x1 x3 x4 x5) x6 := by
  unfold out3_B_7
  rw [View.read_writes_eq_canon _ _ _ (cover3_B_7 c i arg2 harg2 arg3 harg3 arg4 harg4 arg5 harg5 arg6 harg6 arg7 harg7 arg8 harg8 arg9 harg9 arg10 harg10 arg11 harg11 hc x0 x1 x2 x3 x4 x5 x6 xo8 xo9)]
  unfold kernelRun3_B
  dsimp only
  sl_unfold_words
  rw [View.canon_unit_zero hz]
  simp only [View.readAt_eq_ld, harg2.read_unread, harg3.read_unread, harg4.read_unread, harg5.read_unread, harg6.read_unread, harg7.read_unread, harg8.read_unread, harg10.read_unread, harg11.read_unread, View.ld_unit_zero (S := S2048x1024) hz, View.ld_unit_zero (S := S1x1024) hz, View.ld_unit_zero (S := S10x1024) hz, View.ld_unit_zero (S := S1x10) hz]

/-- Later row blocks: the sums row holds what it carried plus the block's column sums. -/
theorem piece_B_8 (hc : ¬cond3_0 i) (xo8 xo9 : Vec F S1x10 .f32) :
    out3_B_8 c i arg2 harg2 arg3 harg3 arg4 harg4 arg5 harg5 arg6 harg6 arg7 harg7 arg8 harg8 arg9 harg9 arg10 harg10 arg11 harg11 hc x0 x1 x2 x3 x4 x5 x6 xo8 xo9 = k3_pay2 (k3_pay6 x0 x2 x1 x3 x4 x5) x6 xo8 := by
  unfold out3_B_8
  rw [View.read_writes_eq_canon _ _ _ (cover3_B_8 c i arg2 harg2 arg3 harg3 arg4 harg4 arg5 harg5 arg6 harg6 arg7 harg7 arg8 harg8 arg9 harg9 arg10 harg10 arg11 harg11 hc x0 x1 x2 x3 x4 x5 x6 xo8 xo9)]
  unfold kernelRun3_B
  dsimp only
  sl_unfold_words
  rw [View.canon_unit_zero hz]
  simp only [View.readAt_eq_ld, harg2.read_unread, harg3.read_unread, harg4.read_unread, harg5.read_unread, harg6.read_unread, harg7.read_unread, harg8.read_unread, harg10.read_unread, harg11.read_unread, View.ld_unit_zero (S := S2048x1024) hz, View.ld_unit_zero (S := S1x1024) hz, View.ld_unit_zero (S := S10x1024) hz, View.ld_unit_zero (S := S1x10) hz]

/-- Later row blocks: the squares row holds what it carried plus the block's column sums of squares. -/
theorem piece_B_9 (hc : ¬cond3_0 i) (xo8 xo9 : Vec F S1x10 .f32) :
    out3_B_9 c i arg2 harg2 arg3 harg3 arg4 harg4 arg5 harg5 arg6 harg6 arg7 harg7 arg8 harg8 arg9 harg9 arg10 harg10 arg11 harg11 hc x0 x1 x2 x3 x4 x5 x6 xo8 xo9 = k3_pay3 (k3_pay6 x0 x2 x1 x3 x4 x5) x6 xo9 := by
  unfold out3_B_9
  rw [View.read_writes_eq_canon _ _ _ (cover3_B_9 c i arg2 harg2 arg3 harg3 arg4 harg4 arg5 harg5 arg6 harg6 arg7 harg7 arg8 harg8 arg9 harg9 arg10 harg10 arg11 harg11 hc x0 x1 x2 x3 x4 x5 x6 xo8 xo9)]
  unfold kernelRun3_B
  dsimp only
  sl_unfold_words
  rw [View.canon_unit_zero hz]
  simp only [View.readAt_eq_ld, harg2.read_unread, harg3.read_unread, harg4.read_unread, harg5.read_unread, harg6.read_unread, harg7.read_unread, harg8.read_unread, harg10.read_unread, harg11.read_unread, View.ld_unit_zero (S := S2048x1024) hz, View.ld_unit_zero (S := S1x1024) hz, View.ld_unit_zero (S := S10x1024) hz, View.ld_unit_zero (S := S1x10) hz]

end Pieces

/-! ## The payloads read at an index, over the extended reals -/

def eps : EReal := Ideal.ofBits .f32 0x3727C5AC#32

theorem dot_lhs0 (i : S2048x10.Idx) (k : dot_S2048x1024_S1024x10_S2048x10_1_0_0_1_n_n.contr.Idx) : (dot_S2048x1024_S1024x10_S2048x10_1_0_0_1_n_n.lhsIdx i k 0).val = (i 0).val := by
  unfold DotDims.lhsIdx
  rw [dif_neg (show ¬(0 : Fin S2048x1024.rank) ∈ dot_S2048x1024_S1024x10_S2048x10_1_0_0_1_n_n.lhsBatch by decide), dif_pos (show (0 : Fin S2048x1024.rank) ∈ dot_S2048x1024_S1024x10_S2048x10_1_0_0_1_n_n.lhsNonContracting by decide)]
  rfl
theorem dot_lhs1 (i : S2048x10.Idx) (k : dot_S2048x1024_S1024x10_S2048x10_1_0_0_1_n_n.contr.Idx) : (dot_S2048x1024_S1024x10_S2048x10_1_0_0_1_n_n.lhsIdx i k 1).val = (k ⟨0, by decide⟩).val :=
  dot_S2048x1024_S1024x10_S2048x10_1_0_0_1_n_n.lhsIdx_val_of_single rfl i k
theorem dot_rhs0 (i : S2048x10.Idx) (k : dot_S2048x1024_S1024x10_S2048x10_1_0_0_1_n_n.contr.Idx) : (dot_S2048x1024_S1024x10_S2048x10_1_0_0_1_n_n.rhsIdx i k 0).val = (k ⟨0, by decide⟩).val :=
  dot_S2048x1024_S1024x10_S2048x10_1_0_0_1_n_n.rhsIdx_val_of_single rfl i k
theorem dot_rhs1 (i : S2048x10.Idx) (k : dot_S2048x1024_S1024x10_S2048x10_1_0_0_1_n_n.contr.Idx) : (dot_S2048x1024_S1024x10_S2048x10_1_0_0_1_n_n.rhsIdx i k 1).val = (i 1).val := by
  unfold DotDims.rhsIdx
  rw [dif_neg (show ¬(1 : Fin S1024x10.rank) ∈ dot_S2048x1024_S1024x10_S2048x10_1_0_0_1_n_n.rhsBatch by decide), dif_pos (show (1 : Fin S1024x10.rank) ∈ dot_S2048x1024_S1024x10_S2048x10_1_0_0_1_n_n.rhsNonContracting by decide)]
  rfl

/-- A product of a [2048,1024] block with a [1024,10] block into the zero block, read at (p, q): the sum over the
    contracted coordinate of the products. -/
theorem matmul_pq (lhs : FVec Ideal S2048x1024 .bf16) (rhs : FVec Ideal S1024x10 .bf16) (p : Fin 2048) (q : Fin 10) :
    matmul dot_S2048x1024_S1024x10_S2048x10_1_0_0_1_n_n none lhs rhs (constant S2048x10 .f32 0x00000000#32) (ix2 p q)
      = ∑ k : Fin 1024, lhs (ix2 p k) * rhs (ix2 k q) := by
  refine (Ideal.matmul_constant_zero_apply dot_S2048x1024_S1024x10_S2048x10_1_0_0_1_n_n none lhs rhs (ix2 p q)).trans ?_
  rw [← Equiv.sum_comp (contrEquiv1 dot_S2048x1024_S1024x10_S2048x10_1_0_0_1_n_n 1024 rfl rfl).symm]
  refine Finset.sum_congr rfl fun k _ => ?_
  have hk := contrEquiv1_symm_val dot_S2048x1024_S1024x10_S2048x10_1_0_0_1_n_n 1024 rfl rfl k
  have el : dot_S2048x1024_S1024x10_S2048x10_1_0_0_1_n_n.lhsIdx (ix2 p q) ((contrEquiv1 dot_S2048x1024_S1024x10_S2048x10_1_0_0_1_n_n 1024 rfl rfl).symm k) = ix2 p k := funext fun a => Fin.ext (by
    match a with
    | ⟨0, _⟩ => exact dot_lhs0 _ _
    | ⟨1, _⟩ => exact (dot_lhs1 _ _).trans hk)
  have er : dot_S2048x1024_S1024x10_S2048x10_1_0_0_1_n_n.rhsIdx (ix2 p q) ((contrEquiv1 dot_S2048x1024_S1024x10_S2048x10_1_0_0_1_n_n 1024 rfl rfl).symm k) = ix2 k q := funext fun a => Fin.ext (by
    match a with
    | ⟨0, _⟩ => exact (dot_rhs0 _ _).trans hk
    | ⟨1, _⟩ => exact dot_rhs1 _ _)
  rw [el, er]

/-- The sign idiom over a whole block, rounded to the narrow format (the identity on extended reals), at an element. -/
theorem sign_idiom (v : FVec Ideal S2048x1024 .f32) (i : S2048x1024.Idx) :
    truncf .bf16 (select (cmpf .ogt (absf v) (broadcast S2048x1024 (Scalar.ofBits .f32 0x00000000#32)))
        (select (cmpf .olt v (constant S2048x1024 .f32 0x00000000#32)) (constant S2048x1024 .f32 0xBF800000#32)
          (constant S2048x1024 .f32 0x3F800000#32)) v) bitsLt_bf16_f32 i = Ideal.sign (v i) :=
  Ideal.jnp_sign_eq_sign_f32 (v i)

/-- The body's product, read at (p, q) of the block: the signs of the normalised block times the weights' block. -/
theorem pay7_apply (x0 : Vec Ideal S2048x1024 .bf16) (x2 x1 x3 x4 : Vec Ideal S1x1024 .f32) (x5 : Vec Ideal S10x1024 .bf16)
    (p : Fin 2048) (q : Fin 10) :
    k3_pay6 (F := Ideal) x0 x2 x1 x3 x4 x5 (ix2 p q)
      = ∑ k : Fin 1024, Ideal.sign ((x0 (ix2 p k) - x1 (ix2 (0 : Fin 1) k)) * Ideal.rsqrt (x2 (ix2 (0 : Fin 1) k) + eps) * x3 (ix2 (0 : Fin 1) k) + x4 (ix2 (0 : Fin 1) k)) * x5 (ix2 q k) := by
  unfold k3_pay6
  refine (matmul_pq _ _ p q).trans ?_
  refine Finset.sum_congr rfl fun k _ => ?_
  refine congrArg₂ (· * ·) ((sign_idiom _ (ix2 p k)).trans (congrArg Ideal.sign ?_)) ?_
  · simp only [shapeCast_self, addf_apply, mulf_apply, subf_apply, extf_apply, broadcastTo_1b_ab_apply, broadcast_apply]
    rfl
  · rw [shapeCast_self]
    exact transpose_ix2_apply x5 _ k q

/-- The block's affine values: the product plus the bias row. -/
theorem pay1_apply (v39 : FVec Ideal S2048x10 .f32) (x6 : Vec Ideal S1x10 .f32) (p : Fin 2048) (q : Fin 10) :
    k3_pay1 (F := Ideal) v39 x6 (ix2 p q) = v39 (ix2 p q) + x6 (ix2 (0 : Fin 1) q) := by
  unfold k3_pay1
  simp only [shapeCast_self, addf_apply, broadcastTo_1b_ab_apply]

/-- What the body stores in the output block: the affine values (a change of format is the identity). -/
theorem pay2_apply (v39 : FVec Ideal S2048x10 .f32) (x6 : Vec Ideal S1x10 .f32) (p : Fin 2048) (q : Fin 10) :
    k3_pay1 (F := Ideal) v39 x6 (ix2 p q) = k3_pay1 (F := Ideal) v39 x6 (ix2 p q) := rfl

/-- The index a reduction over the rows sums at: row p, the kept column. -/
theorem red_lift (h : Shape.Reduces S2048x10 [0] S10) (q : Fin 10) (p : Fin 2048) : h.lift (ix1 q) p = ix2 p q :=
  funext fun a => Fin.ext (by match a with | ⟨0, _⟩ => rfl | ⟨1, _⟩ => rfl)

/-- A sum over the rows of a block, kept as a one-row array, read at column q. -/
theorem colred_apply (src : FVec Ideal S2048x10 .f32) (hacc : (0x00000000#32 : BitVec 32) = 0x00000000#32) (q : Fin 10) :
    shapeCast S1x10 (multiReduction .add [0] S10 src 0x00000000#32 reduces_S2048x10_S10 (.inl rfl) hacc) shapeCasts_S10_S1x10 (ix2 (0 : Fin 1) q)
      = ∑ p : Fin 2048, src (ix2 p q) := by
  refine (shapeCast_a_1a_apply _ _ (0 : Fin 1) q).trans ?_
  refine (Ideal.multiReduction_add_single src 0x00000000#32 reduces_S2048x10_S10 (.inl rfl) hacc (ix1 q)).trans ?_
  exact Finset.sum_congr rfl fun p _ => congrArg src (red_lift reduces_S2048x10_S10 q p)

/-- The carried column sums after the body: what was carried plus the block's column sums. -/
theorem pay3_apply (v39 : FVec Ideal S2048x10 .f32) (x6 xo : Vec Ideal S1x10 .f32) (q : Fin 10) :
    k3_pay2 (F := Ideal) v39 x6 xo (ix2 (0 : Fin 1) q) = xo (ix2 (0 : Fin 1) q) + ∑ p : Fin 2048, k3_pay1 (F := Ideal) v39 x6 (ix2 p q) := by
  unfold k3_pay2
  refine (addf_apply _ _ _).trans ?_
  refine congrArg₂ (· + ·) ?_ (colred_apply _ rfl q)
  rw [shapeCast_self]

/-- The carried column sums of squares after the body: what was carried plus the block's. -/
theorem pay4_apply (v39 : FVec Ideal S2048x10 .f32) (x6 xo : Vec Ideal S1x10 .f32) (q : Fin 10) :
    k3_pay3 (F := Ideal) v39 x6 xo (ix2 (0 : Fin 1) q)
      = xo (ix2 (0 : Fin 1) q) + ∑ p : Fin 2048, k3_pay1 (F := Ideal) v39 x6 (ix2 p q) * k3_pay1 (F := Ideal) v39 x6 (ix2 p q) := by
  unfold k3_pay3
  refine (addf_apply _ _ _).trans ?_
  refine congrArg₂ (· + ·) ?_ (colred_apply _ rfl q)
  rw [shapeCast_self]

/-- The two zero rows the first row block's point stores. -/
theorem pay5_apply (i : S1x10.Idx) : k3_pay4 (F := Ideal) i = 0 := by
  unfold k3_pay4
  exact Ideal.ofBits_zero_f32
theorem pay6_apply (i : S1x10.Idx) : k3_pay5 (F := Ideal) i = 0 := by
  unfold k3_pay5
  exact Ideal.ofBits_zero_f32

/-! ## The batch's rows in sixteen blocks -/

/-- The rows of the batch split into 16 blocks of 2048: (s, p) is row 2048 s + p. -/
def rowEquiv : Fin 16 × Fin 2048 ≃ Fin 32768 where
  toFun x := ⟨2048 * x.1.val + x.2.val, by have := x.1.isLt; have := x.2.isLt; omega⟩
  invFun r := (⟨r.val / 2048, by have := r.isLt; omega⟩, ⟨r.val % 2048, by omega⟩)
  left_inv x := by
    have h1 := x.1.isLt
    have h2 := x.2.isLt
    refine Prod.ext (Fin.ext ?_) (Fin.ext ?_)
    · show (2048 * x.1.val + x.2.val) / 2048 = x.1.val
      omega
    · show (2048 * x.1.val + x.2.val) % 2048 = x.2.val
      omega
  right_inv r := Fin.ext (by
    show 2048 * (r.val / 2048) + r.val % 2048 = r.val
    omega)

/-- The sum of g over the rows of block s; zero past the last block. -/
def blockSum (g : Fin 32768 → EReal) (s : ℕ) : EReal :=
  if h : s < 16 then ∑ p : Fin 2048, g ⟨2048 * s + p.val, by have := p.isLt; omega⟩ else 0

theorem blockSum_of_lt (g : Fin 32768 → EReal) (s : ℕ) (h : s < 16) :
    blockSum g s = ∑ p : Fin 2048, g ⟨2048 * s + p.val, by have := p.isLt; omega⟩ := dif_pos h

/-- The sixteen block sums add up to the sum over all rows: a sum over a product of index sets, re-indexed. -/
theorem sum_blocks (g : Fin 32768 → EReal) : ∑ s ∈ Finset.range 16, blockSum g s = ∑ r, g r := by
  rw [Finset.sum_range, ← Equiv.sum_comp rowEquiv g, Fintype.sum_prod_type]
  refine Finset.sum_congr rfl fun s _ => ?_
  rw [blockSum_of_lt g s.val s.isLt]
  rfl

/-! ## The arrays the region finds, and the layer's values -/

section Region

variable (V : (c : Dev nD) → (b : Ref sig .tc) → Buf (Elt Ideal) ((c : Thread nD τ).loc b)) (c : Dev nD)

/-- The previous layer's pre-activations, rows by features. -/
abbrev A0 : S32768x1024.Idx → EReal := V c (Pipeline.arrRef spec3 0)
/-- Their column means. -/
abbrev A1 : S1x1024.Idx → EReal := V c (Pipeline.arrRef spec3 1)
/-- Their column variances. -/
abbrev A2 : S1x1024.Idx → EReal := V c (Pipeline.arrRef spec3 2)
/-- The normalisation's scale. -/
abbrev A3 : S1x1024.Idx → EReal := V c (Pipeline.arrRef spec3 3)
/-- The normalisation's shift. -/
abbrev A4 : S1x1024.Idx → EReal := V c (Pipeline.arrRef spec3 4)
/-- This layer's weights, output features by input features. -/
abbrev A5 : S10x1024.Idx → EReal := V c (Pipeline.arrRef spec3 5)
/-- This layer's bias. -/
abbrev A6 : S1x10.Idx → EReal := V c (Pipeline.arrRef spec3 6)

/-- This layer's pre-activations: the signs of the normalised previous layer, times the weights, plus the bias. -/
def hOut : Fin 32768 → Fin 10 → EReal :=
  Spec.lin (Spec.signs eps (Spec.cur2 (A0 V c)) (Spec.row (A1 V c)) (Spec.row (A2 V c)) (Spec.row (A3 V c)) (Spec.row (A4 V c)))
    (Spec.cur2 (A5 V c)) (Spec.row (A6 V c))

/-! ## The windows' blocks, read off the arrays -/

/-- The printed index maps, decided over the grid: point t = 16 j + i works on row block i and column block j. -/
theorem idx_facts : ∀ t : Fin cfg3.N,
    win3_0.index t (0 : Fin 2) = t.val % 16 ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val / 16 ∧ win3_5.index t (1 : Fin 2) = 0
    ∧ win3_6.index t (0 : Fin 2) = 0 ∧ win3_6.index t (1 : Fin 2) = t.val / 16
    ∧ win3_7.index t (0 : Fin 2) = t.val % 16 ∧ win3_7.index t (1 : Fin 2) = t.val / 16
    ∧ win3_8.index t (0 : Fin 2) = 0 ∧ win3_8.index t (1 : Fin 2) = t.val / 16
    ∧ win3_9.index t (0 : Fin 2) = 0 ∧ win3_9.index t (1 : Fin 2) = t.val / 16 :=
  (by decide +kernel : ∀ t : Fin grid3.N, _)

/-- Row p of the activations' block at point 16 j + i is row 2048 i + p of the array. -/
theorem blk0 (t : Fin cfg3.N) (i j : ℕ) (hi : i < 16) (ht : t.val = 16 * j + i) (p : Fin 2048) (k : Fin 1024) :
    (iblk3 V c 0 t : Vec Ideal S2048x1024 .bf16) (ix2 p k) = (A0 V c) (ix2 ⟨2048 * i + p.val, by have := p.isLt; omega⟩ k) := by
  obtain ⟨e0, e1, -⟩ := idx_facts t
  unfold iblk3
  rw [View.read_apply]
  show V c (Pipeline.arrRef spec3 0) _ = V c (Pipeline.arrRef spec3 0) _
  refine congrArg (V c (Pipeline.arrRef spec3 0)) (funext fun a => Fin.ext ?_)
  match a with
  | ⟨0, _⟩ => show win3_0.index t (0 : Fin 2) * 2048 + 1 * p.val = 2048 * i + p.val; rw [e0]; omega
  | ⟨1, _⟩ => show win3_0.index t (1 : Fin 2) * 1024 + 1 * k.val = k.val; rw [e1]; omega

/-- The whole row array 1 is its one block at every point. -/
theorem blk1 (t : Fin cfg3.N) (k : Fin 1024) :
    (iblk3 V c 1 t : Vec Ideal S1x1024 .f32) (ix2 (0 : Fin 1) k) = (A1 V c) (ix2 (0 : Fin 1) k) := by
  obtain ⟨-, -, e0, e1, -⟩ := idx_facts t
  unfold iblk3
  rw [View.read_apply]
  show V c (Pipeline.arrRef spec3 1) _ = V c (Pipeline.arrRef spec3 1) _
  refine congrArg (V c (Pipeline.arrRef spec3 1)) (funext fun a => Fin.ext ?_)
  match a with
  | ⟨0, _⟩ => show win3_1.index t (0 : Fin 2) * 1 + 1 * 0 = 0; rw [e0]
  | ⟨1, _⟩ => show win3_1.index t (1 : Fin 2) * 1024 + 1 * k.val = k.val; rw [e1]; omega

/-- The whole row array 2 is its one block at every point. -/
theorem blk2 (t : Fin cfg3.N) (k : Fin 1024) :
    (iblk3 V c 2 t : Vec Ideal S1x1024 .f32) (ix2 (0 : Fin 1) k) = (A2 V c) (ix2 (0 : Fin 1) k) := by
  obtain ⟨-, -, -, -, e0, e1, -⟩ := idx_facts t
  unfold iblk3
  rw [View.read_apply]
  show V c (Pipeline.arrRef spec3 2) _ = V c (Pipeline.arrRef spec3 2) _
  refine congrArg (V c (Pipeline.arrRef spec3 2)) (funext fun a => Fin.ext ?_)
  match a with
  | ⟨0, _⟩ => show win3_2.index t (0 : Fin 2) * 1 + 1 * 0 = 0; rw [e0]
  | ⟨1, _⟩ => show win3_2.index t (1 : Fin 2) * 1024 + 1 * k.val = k.val; rw [e1]; omega

/-- The whole row array 3 is its one block at every point. -/
theorem blk3 (t : Fin cfg3.N) (k : Fin 1024) :
    (iblk3 V c 3 t : Vec Ideal S1x1024 .f32) (ix2 (0 : Fin 1) k) = (A3 V c) (ix2 (0 : Fin 1) k) := by
  obtain ⟨-, -, -, -, -, -, e0, e1, -⟩ := idx_facts t
  unfold iblk3
  rw [View.read_apply]
  show V c (Pipeline.arrRef spec3 3) _ = V c (Pipeline.arrRef spec3 3) _
  refine congrArg (V c (Pipeline.arrRef spec3 3)) (funext fun a => Fin.ext ?_)
  match a with
  | ⟨0, _⟩ => show win3_3.index t (0 : Fin 2) * 1 + 1 * 0 = 0; rw [e0]
  | ⟨1, _⟩ => show win3_3.index t (1 : Fin 2) * 1024 + 1 * k.val = k.val; rw [e1]; omega

/-- The whole row array 4 is its one block at every point. -/
theorem blk4 (t : Fin cfg3.N) (k : Fin 1024) :
    (iblk3 V c 4 t : Vec Ideal S1x1024 .f32) (ix2 (0 : Fin 1) k) = (A4 V c) (ix2 (0 : Fin 1) k) := by
  obtain ⟨-, -, -, -, -, -, -, -, e0, e1, -⟩ := idx_facts t
  unfold iblk3
  rw [View.read_apply]
  show V c (Pipeline.arrRef spec3 4) _ = V c (Pipeline.arrRef spec3 4) _
  refine congrArg (V c (Pipeline.arrRef spec3 4)) (funext fun a => Fin.ext ?_)
  match a with
  | ⟨0, _⟩ => show win3_4.index t (0 : Fin 2) * 1 + 1 * 0 = 0; rw [e0]
  | ⟨1, _⟩ => show win3_4.index t (1 : Fin 2) * 1024 + 1 * k.val = k.val; rw [e1]; omega

/-- Row q of the weights' block at point 16 j + i is row 10 j + q of the weights. -/
theorem blk5 (t : Fin cfg3.N) (i j : ℕ) (hi : i < 16) (hj : j < 1) (ht : t.val = 16 * j + i) (q : Fin 10) (k : Fin 1024) :
    (iblk3 V c 5 t : Vec Ideal S10x1024 .bf16) (ix2 q k) = (A5 V c) (ix2 ⟨10 * j + q.val, by have := q.isLt; omega⟩ k) := by
  obtain ⟨-, -, -, -, -, -, -, -, -, -, e0, e1, -⟩ := idx_facts t
  unfold iblk3
  rw [View.read_apply]
  show V c (Pipeline.arrRef spec3 5) _ = V c (Pipeline.arrRef spec3 5) _
  refine congrArg (V c (Pipeline.arrRef spec3 5)) (funext fun a => Fin.ext ?_)
  match a with
  | ⟨0, _⟩ => show win3_5.index t (0 : Fin 2) * 10 + 1 * q.val = 10 * j + q.val; rw [e0]; omega
  | ⟨1, _⟩ => show win3_5.index t (1 : Fin 2) * 1024 + 1 * k.val = k.val; rw [e1]; omega

/-- Column q of the bias block at point 16 j + i is column 10 j + q of the bias. -/
theorem blk6 (t : Fin cfg3.N) (i j : ℕ) (hi : i < 16) (hj : j < 1) (ht : t.val = 16 * j + i) (q : Fin 10) :
    (iblk3 V c 6 t : Vec Ideal S1x10 .f32) (ix2 (0 : Fin 1) q) = (A6 V c) (ix2 (0 : Fin 1) ⟨10 * j + q.val, by have := q.isLt; omega⟩) := by
  obtain ⟨-, -, -, -, -, -, -, -, -, -, -, -, e0, e1, -⟩ := idx_facts t
  unfold iblk3
  rw [View.read_apply]
  show V c (Pipeline.arrRef spec3 6) _ = V c (Pipeline.arrRef spec3 6) _
  refine congrArg (V c (Pipeline.arrRef spec3 6)) (funext fun a => Fin.ext ?_)
  match a with
  | ⟨0, _⟩ => show win3_6.index t (0 : Fin 2) * 1 + 1 * 0 = 0; rw [e0]
  | ⟨1, _⟩ => show win3_6.index t (1 : Fin 2) * 10 + 1 * q.val = 10 * j + q.val; rw [e1]; omega

end Region

/-! ## One point's affine values -/

/-- Blocks that are restrictions of whole arrays — rows 2048 i …, output features 10 j … — give, at (p, q) of the
    block, the layer's value at row 2048 i + p and feature 10 j + q of the arrays. -/
theorem blockVal (x0 : Vec Ideal S2048x1024 .bf16) (x1 x2 x3 x4 : Vec Ideal S1x1024 .f32) (x5 : Vec Ideal S10x1024 .bf16) (x6 : Vec Ideal S1x10 .f32)
    (B0 : S32768x1024.Idx → EReal) (B1 B2 B3 B4 : S1x1024.Idx → EReal) (B5 : S10x1024.Idx → EReal) (B6 : S1x10.Idx → EReal)
    (i j : ℕ) (hi : i < 16) (hj : j < 1)
    (h0 : ∀ (p : Fin 2048) (k : Fin 1024), x0 (ix2 p k) = B0 (ix2 ⟨2048 * i + p.val, by have := p.isLt; omega⟩ k))
    (h1 : ∀ k : Fin 1024, x1 (ix2 (0 : Fin 1) k) = B1 (ix2 (0 : Fin 1) k))
    (h2 : ∀ k : Fin 1024, x2 (ix2 (0 : Fin 1) k) = B2 (ix2 (0 : Fin 1) k))
    (h3 : ∀ k : Fin 1024, x3 (ix2 (0 : Fin 1) k) = B3 (ix2 (0 : Fin 1) k))
    (h4 : ∀ k : Fin 1024, x4 (ix2 (0 : Fin 1) k) = B4 (ix2 (0 : Fin 1) k))
    (h5 : ∀ (q : Fin 10) (k : Fin 1024), x5 (ix2 q k) = B5 (ix2 ⟨10 * j + q.val, by have := q.isLt; omega⟩ k))
    (h6 : ∀ q : Fin 10, x6 (ix2 (0 : Fin 1) q) = B6 (ix2 (0 : Fin 1) ⟨10 * j + q.val, by have := q.isLt; omega⟩))
    (p : Fin 2048) (q : Fin 10) :
    k3_pay1 (F := Ideal) (k3_pay6 (F := Ideal) x0 x2 x1 x3 x4 x5) x6 (ix2 p q)
      = Spec.lin (Spec.signs eps (Spec.cur2 B0) (Spec.row B1) (Spec.row B2) (Spec.row B3) (Spec.row B4)) (Spec.cur2 B5) (Spec.row B6)
          ⟨2048 * i + p.val, by have := p.isLt; omega⟩ ⟨10 * j + q.val, by have := q.isLt; omega⟩ := by
  rw [pay1_apply, pay7_apply, h6]
  refine congrArg (· + B6 (ix2 (0 : Fin 1) ⟨10 * j + q.val, by have := q.isLt; omega⟩)) (Finset.sum_congr rfl fun k _ => ?_)
  rw [h0, h1, h2, h3, h4, h5]
  rfl

/-! ## What the outputs' buffers hold after each point -/

section Points

variable (V : (c : Dev nD) → (b : Ref sig .tc) → Buf (Elt Ideal) ((c : Thread nD τ).loc b)) (c : Dev nD)

/-- At point t = 16 j + i the body's affine values are the layer's at rows 2048 i … and features 10 j …. -/
theorem affAt (t : Fin cfg3.N) (i j : ℕ) (hi : i < 16) (hj : j < 1) (ht : t.val = 16 * j + i) (p : Fin 2048) (q : Fin 10) :
    k3_pay1 (F := Ideal) (k3_pay6 (F := Ideal) (iblk3 V c 0 t) (iblk3 V c 2 t) (iblk3 V c 1 t) (iblk3 V c 3 t) (iblk3 V c 4 t) (iblk3 V c 5 t)) (iblk3 V c 6 t) (ix2 p q) = hOut V c ⟨2048 * i + p.val, by have := p.isLt; omega⟩ ⟨10 * j + q.val, by have := q.isLt; omega⟩ :=
  blockVal (iblk3 V c 0 t) (iblk3 V c 1 t) (iblk3 V c 2 t) (iblk3 V c 3 t) (iblk3 V c 4 t) (iblk3 V c 5 t) (iblk3 V c 6 t)
    (A0 V c) (A1 V c) (A2 V c) (A3 V c) (A4 V c) (A5 V c) (A6 V c) i j hi hj
    (blk0 V c t i j hi ht) (blk1 V c t) (blk2 V c t) (blk3 V c t) (blk4 V c t) (blk5 V c t i j hi hj ht) (blk6 V c t i j hi hj ht) p q

/-- The first point of a column block (i = 0): the block's values, and the column sums started from zero. -/
theorem caseA (t : Fin cfg3.N) (h0 : t.val % 16 = 0) (j : ℕ) (hj : j < 1) (ht : t.val = 16 * j + 0) :
    (∀ (p : Fin 2048) (q : Fin 10), (outsAt3 V c t.val t.isLt).1 (ix2 p q) = hOut V c ⟨2048 * 0 + p.val, by have := p.isLt; omega⟩ ⟨10 * j + q.val, by have := q.isLt; omega⟩)
    ∧ (∀ q : Fin 10, (outsAt3 V c t.val t.isLt).2.1 (ix2 (0 : Fin 1) q) = ∑ s ∈ Finset.range (0 + 1), blockSum (fun r => hOut V c r ⟨10 * j + q.val, by have := q.isLt; omega⟩) s)
    ∧ (∀ q : Fin 10, (outsAt3 V c t.val t.isLt).2.2 (ix2 (0 : Fin 1) q) = ∑ s ∈ Finset.range (0 + 1), blockSum (fun r => hOut V c r ⟨10 * j + q.val, by have := q.isLt; omega⟩ * hOut V c r ⟨10 * j + q.val, by have := q.isLt; omega⟩) s) := by
  rw [outsAt3_A V c t h0]
  dsimp only
  refine ⟨fun p q => ?_, fun q => ?_, fun q => ?_⟩
  · refine (congrFun (piece_A_7 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) (iblk3 V c 0 t) (iblk3 V c 1 t) (iblk3 V c 2 t) (iblk3 V c 3 t) (iblk3 V c 4 t) (iblk3 V c 5 t) (iblk3 V c 6 t) ((hcond3_0 t).mpr h0)) (ix2 p q)).trans ?_
    refine (pay2_apply (k3_pay6 (F := Ideal) (iblk3 V c 0 t) (iblk3 V c 2 t) (iblk3 V c 1 t) (iblk3 V c 3 t) (iblk3 V c 4 t) (iblk3 V c 5 t)) (iblk3 V c 6 t) p q).trans ?_
    exact affAt V c t 0 j (by omega) hj ht p q
  · refine (congrFun (piece_A_8 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) (iblk3 V c 0 t) (iblk3 V c 1 t) (iblk3 V c 2 t) (iblk3 V c 3 t) (iblk3 V c 4 t) (iblk3 V c 5 t) (iblk3 V c 6 t) ((hcond3_0 t).mpr h0)) (ix2 (0 : Fin 1) q)).trans ?_
    refine (pay3_apply (k3_pay6 (F := Ideal) (iblk3 V c 0 t) (iblk3 V c 2 t) (iblk3 V c 1 t) (iblk3 V c 3 t) (iblk3 V c 4 t) (iblk3 V c 5 t)) (iblk3 V c 6 t) _ q).trans ?_
    rw [pay5_apply, zero_add, Finset.sum_range_one, blockSum_of_lt _ 0 (by omega)]
    exact Finset.sum_congr rfl fun p _ => affAt V c t 0 j (by omega) hj ht p q
  · refine (congrFun (piece_A_9 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) (iblk3 V c 0 t) (iblk3 V c 1 t) (iblk3 V c 2 t) (iblk3 V c 3 t) (iblk3 V c 4 t) (iblk3 V c 5 t) (iblk3 V c 6 t) ((hcond3_0 t).mpr h0)) (ix2 (0 : Fin 1) q)).trans ?_
    refine (pay4_apply (k3_pay6 (F := Ideal) (iblk3 V c 0 t) (iblk3 V c 2 t) (iblk3 V c 1 t) (iblk3 V c 3 t) (iblk3 V c 4 t) (iblk3 V c 5 t)) (iblk3 V c 6 t) _ q).trans ?_
    rw [pay6_apply, zero_add, Finset.sum_range_one, blockSum_of_lt _ 0 (by omega)]
    exact Finset.sum_congr rfl fun p _ => by rw [affAt V c t 0 j (by omega) hj ht p q]

/-- A later point of a column block (i + 1): the block's values, and the carried sums plus this block's. -/
theorem caseB (t : Fin cfg3.N) (h0 : ¬t.val % 16 = 0) (i j : ℕ) (hi : i + 1 < 16) (hj : j < 1) (ht : t.val = 16 * j + (i + 1))
    (hs : ∀ q : Fin 10, (outsAt3 V c (t.val - 1) (Nat.lt_of_le_of_lt (Nat.sub_le _ _) t.isLt)).2.1 (ix2 (0 : Fin 1) q) = ∑ s ∈ Finset.range (i + 1), blockSum (fun r => hOut V c r ⟨10 * j + q.val, by have := q.isLt; omega⟩) s)
    (hq : ∀ q : Fin 10, (outsAt3 V c (t.val - 1) (Nat.lt_of_le_of_lt (Nat.sub_le _ _) t.isLt)).2.2 (ix2 (0 : Fin 1) q) = ∑ s ∈ Finset.range (i + 1), blockSum (fun r => hOut V c r ⟨10 * j + q.val, by have := q.isLt; omega⟩ * hOut V c r ⟨10 * j + q.val, by have := q.isLt; omega⟩) s) :
    (∀ (p : Fin 2048) (q : Fin 10), (outsAt3 V c t.val t.isLt).1 (ix2 p q) = hOut V c ⟨2048 * (i + 1) + p.val, by have := p.isLt; omega⟩ ⟨10 * j + q.val, by have := q.isLt; omega⟩)
    ∧ (∀ q : Fin 10, (outsAt3 V c t.val t.isLt).2.1 (ix2 (0 : Fin 1) q) = ∑ s ∈ Finset.range (i + 1 + 1), blockSum (fun r => hOut V c r ⟨10 * j + q.val, by have := q.isLt; omega⟩) s)
    ∧ (∀ q : Fin 10, (outsAt3 V c t.val t.isLt).2.2 (ix2 (0 : Fin 1) q) = ∑ s ∈ Finset.range (i + 1 + 1), blockSum (fun r => hOut V c r ⟨10 * j + q.val, by have := q.isLt; omega⟩ * hOut V c r ⟨10 * j + q.val, by have := q.isLt; omega⟩) s) := by
  rw [outsAt3_B V c t h0]
  dsimp only
  refine ⟨fun p q => ?_, fun q => ?_, fun q => ?_⟩
  · refine (congrFun (piece_B_7 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) (iblk3 V c 0 t) (iblk3 V c 1 t) (iblk3 V c 2 t) (iblk3 V c 3 t) (iblk3 V c 4 t) (iblk3 V c 5 t) (iblk3 V c 6 t) (fun h => h0 ((hcond3_0 t).mp h)) (outsAt3 V c (t.val - 1) (Nat.lt_of_le_of_lt (Nat.sub_le _ _) t.isLt)).2.1 (outsAt3 V c (t.val - 1) (Nat.lt_of_le_of_lt (Nat.sub_le _ _) t.isLt)).2.2) (ix2 p q)).trans ?_
    refine (pay2_apply (k3_pay6 (F := Ideal) (iblk3 V c 0 t) (iblk3 V c 2 t) (iblk3 V c 1 t) (iblk3 V c 3 t) (iblk3 V c 4 t) (iblk3 V c 5 t)) (iblk3 V c 6 t) p q).trans ?_
    exact affAt V c t (i + 1) j hi hj ht p q
  · refine (congrFun (piece_B_8 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) (iblk3 V c 0 t) (iblk3 V c 1 t) (iblk3 V c 2 t) (iblk3 V c 3 t) (iblk3 V c 4 t) (iblk3 V c 5 t) (iblk3 V c 6 t) (fun h => h0 ((hcond3_0 t).mp h)) (outsAt3 V c (t.val - 1) (Nat.lt_of_le_of_lt (Nat.sub_le _ _) t.isLt)).2.1 (outsAt3 V c (t.val - 1) (Nat.lt_of_le_of_lt (Nat.sub_le _ _) t.isLt)).2.2) (ix2 (0 : Fin 1) q)).trans ?_
    refine (pay3_apply (k3_pay6 (F := Ideal) (iblk3 V c 0 t) (iblk3 V c 2 t) (iblk3 V c 1 t) (iblk3 V c 3 t) (iblk3 V c 4 t) (iblk3 V c 5 t)) (iblk3 V c 6 t) _ q).trans ?_
    rw [hs q, Finset.sum_range_succ _ (i + 1), blockSum_of_lt _ (i + 1) hi]
    exact congrArg (_ + ·) (Finset.sum_congr rfl fun p _ => affAt V c t (i + 1) j hi hj ht p q)
  · refine (congrFun (piece_B_9 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) (iblk3 V c 0 t) (iblk3 V c 1 t) (iblk3 V c 2 t) (iblk3 V c 3 t) (iblk3 V c 4 t) (iblk3 V c 5 t) (iblk3 V c 6 t) (fun h => h0 ((hcond3_0 t).mp h)) (outsAt3 V c (t.val - 1) (Nat.lt_of_le_of_lt (Nat.sub_le _ _) t.isLt)).2.1 (outsAt3 V c (t.val - 1) (Nat.lt_of_le_of_lt (Nat.sub_le _ _) t.isLt)).2.2) (ix2 (0 : Fin 1) q)).trans ?_
    refine (pay4_apply (k3_pay6 (F := Ideal) (iblk3 V c 0 t) (iblk3 V c 2 t) (iblk3 V c 1 t) (iblk3 V c 3 t) (iblk3 V c 4 t) (iblk3 V c 5 t)) (iblk3 V c 6 t) _ q).trans ?_
    rw [hq q, Finset.sum_range_succ _ (i + 1), blockSum_of_lt _ (i + 1) hi]
    exact congrArg (_ + ·) (Finset.sum_congr rfl fun p _ => by rw [affAt V c t (i + 1) j hi hj ht p q])

/-- THE INVARIANT, by induction on the point: after point 16 j + i the output block holds the layer's values at rows
    2048 i … and features 10 j …, and the two carried rows hold the column sums (of squares) over the rows below
    2048 (i + 1). -/
theorem inv : ∀ (n : ℕ) (h : n < cfg3.N) (i j : ℕ) (hi : i < 16) (hj : j < 1), n = 16 * j + i →
    (∀ (p : Fin 2048) (q : Fin 10), (outsAt3 V c n h).1 (ix2 p q) = hOut V c ⟨2048 * i + p.val, by have := p.isLt; omega⟩ ⟨10 * j + q.val, by have := q.isLt; omega⟩)
    ∧ (∀ q : Fin 10, (outsAt3 V c n h).2.1 (ix2 (0 : Fin 1) q) = ∑ s ∈ Finset.range (i + 1), blockSum (fun r => hOut V c r ⟨10 * j + q.val, by have := q.isLt; omega⟩) s)
    ∧ (∀ q : Fin 10, (outsAt3 V c n h).2.2 (ix2 (0 : Fin 1) q) = ∑ s ∈ Finset.range (i + 1), blockSum (fun r => hOut V c r ⟨10 * j + q.val, by have := q.isLt; omega⟩ * hOut V c r ⟨10 * j + q.val, by have := q.isLt; omega⟩) s)
  | 0, h, i, j, hi, hj, hn => by
    obtain rfl : i = 0 := by omega
    exact caseA V c ⟨0, h⟩ rfl j hj hn
  | n + 1, h, i, j, hi, hj, hn => by
    by_cases h0 : (n + 1) % 16 = 0
    · obtain rfl : i = 0 := by omega
      exact caseA V c ⟨n + 1, h⟩ h0 j hj hn
    · obtain ⟨i', rfl⟩ : ∃ i', i = i' + 1 := ⟨i - 1, by omega⟩
      have ih := inv n (Nat.lt_of_succ_lt h) i' j (by omega) hj (by omega)
      exact caseB V c ⟨n + 1, h⟩ h0 i' j hi hj hn ih.2.1 ih.2.2

/-! ## From blocks to the arrays -/

/-- The array of this layer's pre-activations. -/
def G7 : S32768x10.Idx → EReal := fun x => hOut V c (x 0) (x 1)
/-- The row of their column sums. -/
def G8 : S1x10.Idx → EReal := fun x => Spec.colsum (hOut V c) (x 1)
/-- The row of their column sums of squares. -/
def G9 : S1x10.Idx → EReal := fun x => Spec.colsumsq (hOut V c) (x 1)

/-- Every point writes back its block of the pre-activations. -/
theorem flushed7 (t : Fin cfg3.N) (hf : (cfg3.win 7).flush t = true) :
    (dat3 V c).flushed 7 t = ((cfg3.win 7).blk t).view.read (Elt Ideal) (G7 V c) := by
  have hN : t.val < 16 := lt_of_lt_of_eq t.isLt (show cfg3.N = 16 from N_3)
  obtain ⟨-, -, -, -, -, -, -, -, -, -, -, -, -, -, e0, e1, -⟩ := idx_facts t
  have hinv := (inv V c t.val t.isLt (t.val % 16) (t.val / 16) (by omega) (by omega) (by omega)).1
  show (cfg3.win 7).cut (grid3.coords t) ((dat3 V c).after 7 t) = _
  rw [after3_7]
  funext y
  have hy0 : (y 0).val < 2048 := (y 0).isLt
  have hy1 : (y 1).val < 10 := (y 1).isLt
  have hy : (cfg3.win 7).xinj (grid3.coords t) y = ix2 (⟨(y 0).val, hy0⟩ : Fin 2048) (⟨(y 1).val, hy1⟩ : Fin 10) :=
    funext fun a => by match a with | ⟨0, _⟩ => rfl | ⟨1, _⟩ => rfl
  show (outsAt3 V c t.val t.isLt).1 ((cfg3.win 7).xinj (grid3.coords t) y) = G7 V c (((cfg3.win 7).blk t).view.emb y)
  rw [hy, hinv]
  unfold G7
  refine congrArg₂ (hOut V c) (Fin.ext ?_) (Fin.ext ?_)
  · show 2048 * (t.val % 16) + (y 0).val = win3_7.index t (0 : Fin 2) * 2048 + 1 * (y 0).val
    rw [e0]; omega
  · show 10 * (t.val / 16) + (y 1).val = win3_7.index t (1 : Fin 2) * 10 + 1 * (y 1).val
    rw [e1]; omega

/-- The last point of a column block writes back the whole batch's column sums of that block's features. -/
theorem flushed8 (t : Fin cfg3.N) (hf : (cfg3.win 8).flush t = true) :
    (dat3 V c).flushed 8 t = ((cfg3.win 8).blk t).view.read (Elt Ideal) (G8 V c) := by
  have hN : t.val < 16 := lt_of_lt_of_eq t.isLt (show cfg3.N = 16 from N_3)
  have h15 : t.val % 16 = 15 := (flush3_8 t).mp hf
  obtain ⟨-, -, -, -, -, -, -, -, -, -, -, -, -, -, -, -, e0, e1, -⟩ := idx_facts t
  have hinv := (inv V c t.val t.isLt 15 (t.val / 16) (by omega) (by omega) (by omega)).2.1
  show (cfg3.win 8).cut (grid3.coords t) ((dat3 V c).after 8 t) = _
  rw [after3_8]
  funext y
  have hy1 : (y 1).val < 10 := (y 1).isLt
  have hy : (cfg3.win 8).xinj (grid3.coords t) y = ix2 (0 : Fin 1) (⟨(y 1).val, hy1⟩ : Fin 10) :=
    funext fun a => by
      match a with
      | ⟨0, _⟩ => exact Fin.ext (by have h : (y 0).val < 1 := (y 0).isLt; show (y 0).val = 0; omega)
      | ⟨1, _⟩ => rfl
  have key : ∀ g : S1x10.Idx → EReal, ((cfg3.win 8).blk t).view.read (Elt Ideal) g y = g (((cfg3.win 8).blk t).view.emb y) :=
    fun _ => rfl
  refine Eq.trans ?_ (key (G8 V c)).symm
  show (outsAt3 V c t.val t.isLt).2.1 ((cfg3.win 8).xinj (grid3.coords t) y) = _
  rw [hy, hinv]
  refine (sum_blocks _).trans ?_
  unfold G8 Spec.colsum
  refine Finset.sum_congr rfl fun r _ => congrArg (hOut V c r) (Fin.ext ?_)
  show 10 * (t.val / 16) + (y 1).val = win3_8.index t (1 : Fin 2) * 10 + 1 * (y 1).val
  rw [e1]; omega

/-- The last point of a column block writes back the whole batch's column sums of squares of that block's features. -/
theorem flushed9 (t : Fin cfg3.N) (hf : (cfg3.win 9).flush t = true) :
    (dat3 V c).flushed 9 t = ((cfg3.win 9).blk t).view.read (Elt Ideal) (G9 V c) := by
  have hN : t.val < 16 := lt_of_lt_of_eq t.isLt (show cfg3.N = 16 from N_3)
  have h15 : t.val % 16 = 15 := (flush3_9 t).mp hf
  obtain ⟨-, -, -, -, -, -, -, -, -, -, -, -, -, -, -, -, -, -, e0, e1⟩ := idx_facts t
  have hinv := (inv V c t.val t.isLt 15 (t.val / 16) (by omega) (by omega) (by omega)).2.2
  show (cfg3.win 9).cut (grid3.coords t) ((dat3 V c).after 9 t) = _
  rw [after3_9]
  funext y
  have hy1 : (y 1).val < 10 := (y 1).isLt
  have hy : (cfg3.win 9).xinj (grid3.coords t) y = ix2 (0 : Fin 1) (⟨(y 1).val, hy1⟩ : Fin 10) :=
    funext fun a => by
      match a with
      | ⟨0, _⟩ => exact Fin.ext (by have h : (y 0).val < 1 := (y 0).isLt; show (y 0).val = 0; omega)
      | ⟨1, _⟩ => rfl
  have key : ∀ g : S1x10.Idx → EReal, ((cfg3.win 9).blk t).view.read (Elt Ideal) g y = g (((cfg3.win 9).blk t).view.emb y) :=
    fun _ => rfl
  refine Eq.trans ?_ (key (G9 V c)).symm
  show (outsAt3 V c t.val t.isLt).2.2 ((cfg3.win 9).xinj (grid3.coords t) y) = _
  rw [hy, hinv]
  refine (sum_blocks _).trans ?_
  unfold G9 Spec.colsumsq
  refine Finset.sum_congr rfl fun r _ => congrArg (fun f => hOut V c r f * hOut V c r f) (Fin.ext ?_)
  show 10 * (t.val / 16) + (y 1).val = win3_9.index t (1 : Fin 2) * 10 + 1 * (y 1).val
  rw [e1]; omega

/-- An index of the array is in point t's block iff each coordinate is in the block's range on its axis. -/
theorem mem_blk7 (t : Fin cfg3.N) (x : S32768x10.Idx) :
    x ∈ ((cfg3.win 7).blk t).view.set ↔ ∀ a : Fin 2, win3_7.index t a * S2048x10.size a ≤ (x a).val ∧ (x a).val < win3_7.index t a * S2048x10.size a + S2048x10.size a := by
  show x ∈ ((View.whole main_v47_0).slice (win3_7.rect t)).set ↔ _
  rw [View.set_slice_whole, Rect.mem_set_unit]
  exact Iff.rfl

/-- An index of the array is in point t's block iff each coordinate is in the block's range on its axis. -/
theorem mem_blk8 (t : Fin cfg3.N) (x : S1x10.Idx) :
    x ∈ ((cfg3.win 8).blk t).view.set ↔ ∀ a : Fin 2, win3_8.index t a * S1x10.size a ≤ (x a).val ∧ (x a).val < win3_8.index t a * S1x10.size a + S1x10.size a := by
  show x ∈ ((View.whole main_v47_1).slice (win3_8.rect t)).set ↔ _
  rw [View.set_slice_whole, Rect.mem_set_unit]
  exact Iff.rfl

/-- An index of the array is in point t's block iff each coordinate is in the block's range on its axis. -/
theorem mem_blk9 (t : Fin cfg3.N) (x : S1x10.Idx) :
    x ∈ ((cfg3.win 9).blk t).view.set ↔ ∀ a : Fin 2, win3_9.index t a * S1x10.size a ≤ (x a).val ∧ (x a).val < win3_9.index t a * S1x10.size a + S1x10.size a := by
  show x ∈ ((View.whole main_v47_2).slice (win3_9.rect t)).set ↔ _
  rw [View.set_slice_whole, Rect.mem_set_unit]
  exact Iff.rfl

/-- Row r and feature f lie in the block of point 16 (f / 10) + r / 2048. -/
theorem cover7 (x : S32768x10.Idx) : ∃ t : Fin cfg3.N, (cfg3.win 7).flush t = true ∧ x ∈ ((cfg3.win 7).blk t).view.set := by
  have h0 : (x 0).val < 32768 := (x 0).isLt
  have h1 : (x 1).val < 10 := (x 1).isLt
  have hN : cfg3.N = 16 := N_3
  refine ⟨⟨16 * ((x 1).val / 10) + (x 0).val / 2048, by rw [hN]; omega⟩, flush3_7 _, ?_⟩
  rw [mem_blk7]
  obtain ⟨-, -, -, -, -, -, -, -, -, -, -, -, -, -, e0, e1, -⟩ := idx_facts ⟨16 * ((x 1).val / 10) + (x 0).val / 2048, by rw [hN]; omega⟩
  intro a
  match a with
  | ⟨0, _⟩ =>
    show win3_7.index _ (0 : Fin 2) * 2048 ≤ (x 0).val ∧ (x 0).val < win3_7.index _ (0 : Fin 2) * 2048 + 2048
    rw [e0]; dsimp only; omega
  | ⟨1, _⟩ =>
    show win3_7.index _ (1 : Fin 2) * 10 ≤ (x 1).val ∧ (x 1).val < win3_7.index _ (1 : Fin 2) * 10 + 10
    rw [e1]; dsimp only; omega

/-- Feature f lies in the block the last point of column block f / 10 writes back. -/
theorem cover8 (x : S1x10.Idx) : ∃ t : Fin cfg3.N, (cfg3.win 8).flush t = true ∧ x ∈ ((cfg3.win 8).blk t).view.set := by
  have h0 : (x 0).val < 1 := (x 0).isLt
  have h1 : (x 1).val < 10 := (x 1).isLt
  have hN : cfg3.N = 16 := N_3
  refine ⟨⟨16 * ((x 1).val / 10) + 15, by rw [hN]; omega⟩, (flush3_8 _).mpr (by dsimp only; omega), ?_⟩
  rw [mem_blk8]
  obtain ⟨-, -, -, -, -, -, -, -, -, -, -, -, -, -, -, -, e0, e1, -⟩ := idx_facts ⟨16 * ((x 1).val / 10) + 15, by rw [hN]; omega⟩
  intro a
  match a with
  | ⟨0, _⟩ =>
    show win3_8.index _ (0 : Fin 2) * 1 ≤ (x 0).val ∧ (x 0).val < win3_8.index _ (0 : Fin 2) * 1 + 1
    rw [e0]; omega
  | ⟨1, _⟩ =>
    show win3_8.index _ (1 : Fin 2) * 10 ≤ (x 1).val ∧ (x 1).val < win3_8.index _ (1 : Fin 2) * 10 + 10
    rw [e1]; dsimp only; omega

/-- Feature f lies in the block the last point of column block f / 10 writes back. -/
theorem cover9 (x : S1x10.Idx) : ∃ t : Fin cfg3.N, (cfg3.win 9).flush t = true ∧ x ∈ ((cfg3.win 9).blk t).view.set := by
  have h0 : (x 0).val < 1 := (x 0).isLt
  have h1 : (x 1).val < 10 := (x 1).isLt
  have hN : cfg3.N = 16 := N_3
  refine ⟨⟨16 * ((x 1).val / 10) + 15, by rw [hN]; omega⟩, (flush3_9 _).mpr (by dsimp only; omega), ?_⟩
  rw [mem_blk9]
  obtain ⟨-, -, -, -, -, -, -, -, -, -, -, -, -, -, -, -, -, -, e0, e1⟩ := idx_facts ⟨16 * ((x 1).val / 10) + 15, by rw [hN]; omega⟩
  intro a
  match a with
  | ⟨0, _⟩ =>
    show win3_9.index _ (0 : Fin 2) * 1 ≤ (x 0).val ∧ (x 0).val < win3_9.index _ (0 : Fin 2) * 1 + 1
    rw [e0]; omega
  | ⟨1, _⟩ =>
    show win3_9.index _ (1 : Fin 2) * 10 ≤ (x 1).val ∧ (x 1).val < win3_9.index _ (1 : Fin 2) * 10 + 10
    rw [e1]; dsimp only; omega

/-! ## The region's three results -/

theorem final7 : (dat3 V c).arrAt 7 cfg3.N = G7 V c :=
  (dat3 V c).arrAt_eq_of_cover 7 (G7 V c) (flushed7 V c) (cover7)
theorem final8 : (dat3 V c).arrAt 8 cfg3.N = G8 V c :=
  (dat3 V c).arrAt_eq_of_cover 8 (G8 V c) (flushed8 V c) (cover8)
theorem final9 : (dat3 V c).arrAt 9 cfg3.N = G9 V c :=
  (dat3 V c).arrAt_eq_of_cover 9 (G9 V c) (flushed9 V c) (cover9)

/-- After the region the activations' array holds this layer's pre-activations, -/
theorem out_h (r : Fin 32768) (j : Fin 10) : (dat3 (F := Ideal) V c).arrAt 7 cfg3.N (ValueIdx.ix2 r j) = hOut V c r j :=
  congrFun (final7 V c) (ValueIdx.ix2 r j)
/-- the first statistics row their column sums over the whole batch, -/
theorem out_s (j : Fin 10) : (dat3 (F := Ideal) V c).arrAt 8 cfg3.N (ValueIdx.ix2 (0 : Fin 1) j) = Spec.colsum (hOut V c) j :=
  congrFun (final8 V c) (ValueIdx.ix2 (0 : Fin 1) j)
/-- and the second their column sums of squares. -/
theorem out_sq (j : Fin 10) : (dat3 (F := Ideal) V c).arrAt 9 cfg3.N (ValueIdx.ix2 (0 : Fin 1) j) = Spec.colsumsq (hOut V c) j :=
  congrFun (final9 V c) (ValueIdx.ix2 (0 : Fin 1) j)

end Points

end Cert.KernelValue.R3

end
-- ==== Proof.Region4.lean ====
/-
  The value of the last region: the final batch normalisation.

  The region runs over 16 blocks of 2048 rows. At each block it finds 2048 rows of the activations `h` (ten columns) and
  four rows of ten entries (per column: mean, variance, scale, shift), and stores, for row `r` and column `j`,
  `(h r j − mean j) · (var j + ε)^(-1/2) · scale j + shift j`. The four rows are the same at every block, the blocks of the
  result are disjoint and cover its 32768 rows, so the result array is that one function of the five arrays the region
  finds, entry by entry. Nothing here needs the entries to be finite: the statement is an equation between the same
  arithmetic on both sides.
-/
import proofs.«141082_j78245714199267_2_alg».proof.Proof.KernelIdealFrame
import proofs.«141082_j78245714199267_2_alg».proof.Proof.Spec
import Idealize.ShloMosaic.Lib.Pipeline.Value
import Idealize.ShloMosaic.Lib.ValueIdx
import Idealize.ShloMosaic.Lib.ValueLayout
import Idealize.ShloMosaic.Lib.Tactic

noncomputable section

open Idealize.ShloMosaic Idealize.ShloMosaic.TcCoe Idealize.SL.Sem
open Idealize.ShloMosaic.Pipeline (Dat)
open Idealize.ShloMosaic.ValueIdx

namespace Cert.KernelValue.R4

open Cert.KernelIdeal Cert.KernelIdeal.Gen Cert.KernelIdeal.GenP

variable (V : (c : Dev nD) → (b : Ref sig .tc) → Buf (Elt Ideal) ((c : Thread nD τ).loc b)) (c : Dev nD)

/-- The stabiliser added to the variance before the reciprocal square root. -/
def eps : EReal := Ideal.ofBits .f32 0x3727C5AC#32

/-- The arrays the region finds, each as a function of its index: the activations and the four
    per-column rows (mean, variance, scale, shift). -/
abbrev A0 : S32768x10.Idx → EReal := V c (Pipeline.arrRef spec4 0)
abbrev A1 : S1x10.Idx → EReal := V c (Pipeline.arrRef spec4 1)
abbrev A2 : S1x10.Idx → EReal := V c (Pipeline.arrRef spec4 2)
abbrev A3 : S1x10.Idx → EReal := V c (Pipeline.arrRef spec4 3)
abbrev A4 : S1x10.Idx → EReal := V c (Pipeline.arrRef spec4 4)

theorem hz : (![0, 0] : Fin 2 → Nat) = fun _ => 0 := funext fun a => by fin_cases a <;> rfl

/-- The body's arithmetic at row `p`, column `q` of a block: the block's entry minus the column's mean, times the
    reciprocal square root of the column's variance plus `eps`, times the column's scale, plus its shift. The four
    rows are broadcast over the block's rows, so each is read at its one row. -/
theorem pay_apply (x0 : Vec Ideal S2048x10 .f32) (x1 x2 x3 x4 : Vec Ideal S1x10 .f32) (p : Fin 2048) (q : Fin 10) :
    k4_pay1 x0 x2 x1 x3 x4 (ix2 p q)
      = (x0 (ix2 p q) - x1 (ix2 (0 : Fin 1) q)) * Ideal.rsqrt (x2 (ix2 (0 : Fin 1) q) + eps) * x3 (ix2 (0 : Fin 1) q)
        + x4 (ix2 (0 : Fin 1) q) := by
  unfold k4_pay1
  simp only [shapeCast_self]
  show (x0 (ix2 p q) - broadcastTo S2048x10 x1 _ (ix2 p q))
        * broadcastTo S2048x10 (rsqrt (F := Ideal) (addf (F := Ideal) x2 (broadcast S1x10 (Scalar.ofBits (F := Ideal) .f32 0x3727C5AC#32)))) _ (ix2 p q)
      * broadcastTo S2048x10 x3 _ (ix2 p q) + broadcastTo S2048x10 x4 _ (ix2 p q) = _
  rw [broadcastTo_1b_ab_apply, broadcastTo_1b_ab_apply, broadcastTo_1b_ab_apply, broadcastTo_1b_ab_apply]
  rfl

/-- The same at any index of the block, the column being the index's second coordinate. -/
theorem pay_at (x0 : Vec Ideal S2048x10 .f32) (x1 x2 x3 x4 : Vec Ideal S1x10 .f32) (y : S2048x10.Idx) :
    k4_pay1 x0 x2 x1 x3 x4 y
      = (x0 y - x1 (ix2 (0 : Fin 1) (y 1))) * Ideal.rsqrt (x2 (ix2 (0 : Fin 1) (y 1)) + eps) * x3 (ix2 (0 : Fin 1) (y 1))
        + x4 (ix2 (0 : Fin 1) (y 1)) := by
  obtain ⟨p, q, rfl⟩ : ∃ (p : Fin 2048) (q : Fin 10), y = ix2 p q := ⟨y 0, y 1, eq_ix2 y⟩
  exact pay_apply x0 x1 x2 x3 x4 p q

/-- The whole result as ONE function of the arrays found: entry `(r, j)` is the activation at `(r, j)` normalised
    with column `j`'s mean, variance, scale and shift. -/
def G : S32768x10.Idx → EReal := fun i =>
  (A0 V c i - A1 V c (ix2 (0 : Fin 1) (i 1))) * Ideal.rsqrt (A2 V c (ix2 (0 : Fin 1) (i 1)) + eps)
    * A3 V c (ix2 (0 : Fin 1) (i 1)) + A4 V c (ix2 (0 : Fin 1) (i 1))

/-- The index maps over the 16 points: the activations' and the result's row block is the point's number, their
    column block 0; the four rows are whole at every point. -/
theorem idx_facts : ∀ t : Fin cfg4.N, win4_0.index t (0 : Fin 2) = t.val ∧ win4_0.index t (1 : Fin 2) = 0
    ∧ win4_5.index t (0 : Fin 2) = t.val ∧ win4_5.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0 :=
  (by decide +kernel : ∀ t : Fin grid4.N, _)

/-- The activations' block at point `t` is the array read where the result's block at `t` sits: both are rows
    `2048 t … 2048 t + 2047`, all ten columns. -/
theorem iblk_h (t : Fin cfg4.N) (y : S2048x10.Idx) :
    (iblk4 V c 0 t : Vec Ideal S2048x10 .f32) y = A0 V c (((cfg4.win 5).blk t).view.emb y) := by
  obtain ⟨e00, e01, e50, e51, -⟩ := idx_facts t
  show V c (Pipeline.arrRef spec4 0) (((cfg4.win 0).blk t).view.emb y) = V c (Pipeline.arrRef spec4 0) (((cfg4.win 5).blk t).view.emb y)
  refine congrArg _ (funext fun a => Fin.ext ?_)
  match a with
  | ⟨0, _⟩ => show win4_0.index t (0 : Fin 2) * 2048 + 1 * (y 0).val = win4_5.index t (0 : Fin 2) * 2048 + 1 * (y 0).val; omega
  | ⟨1, _⟩ => show win4_0.index t (1 : Fin 2) * 10 + 1 * (y 1).val = win4_5.index t (1 : Fin 2) * 10 + 1 * (y 1).val; omega

/-- A per-column row's block is the whole row at every point: read at column `y 1` it is the row's array at the
    column of the result's entry. -/
theorem iblk_mean (t : Fin cfg4.N) (y : S2048x10.Idx) :
    (iblk4 V c 1 t : Vec Ideal S1x10 .f32) (ix2 (0 : Fin 1) (y 1))
      = A1 V c (ix2 (0 : Fin 1) ((((cfg4.win 5).blk t).view.emb y) 1)) := by
  obtain ⟨e00, e01, e50, e51, e10, e11, -⟩ := idx_facts t
  show V c (Pipeline.arrRef spec4 1) (((cfg4.win 1).blk t).view.emb (ix2 (0 : Fin 1) (y 1))) = V c (Pipeline.arrRef spec4 1) _
  refine congrArg _ (funext fun a => Fin.ext ?_)
  match a with
  | ⟨0, _⟩ => show win4_1.index t (0 : Fin 2) * 1 + 1 * 0 = 0; omega
  | ⟨1, _⟩ => show win4_1.index t (1 : Fin 2) * 10 + 1 * (y 1).val = win4_5.index t (1 : Fin 2) * 10 + 1 * (y 1).val; omega

theorem iblk_var (t : Fin cfg4.N) (y : S2048x10.Idx) :
    (iblk4 V c 2 t : Vec Ideal S1x10 .f32) (ix2 (0 : Fin 1) (y 1))
      = A2 V c (ix2 (0 : Fin 1) ((((cfg4.win 5).blk t).view.emb y) 1)) := by
  obtain ⟨e00, e01, e50, e51, e10, e11, e20, e21, -⟩ := idx_facts t
  show V c (Pipeline.arrRef spec4 2) (((cfg4.win 2).blk t).view.emb (ix2 (0 : Fin 1) (y 1))) = V c (Pipeline.arrRef spec4 2) _
  refine congrArg _ (funext fun a => Fin.ext ?_)
  match a with
  | ⟨0, _⟩ => show win4_2.index t (0 : Fin 2) * 1 + 1 * 0 = 0; omega
  | ⟨1, _⟩ => show win4_2.index t (1 : Fin 2) * 10 + 1 * (y 1).val = win4_5.index t (1 : Fin 2) * 10 + 1 * (y 1).val; omega

theorem iblk_scale (t : Fin cfg4.N) (y : S2048x10.Idx) :
    (iblk4 V c 3 t : Vec Ideal S1x10 .f32) (ix2 (0 : Fin 1) (y 1))
      = A3 V c (ix2 (0 : Fin 1) ((((cfg4.win 5).blk t).view.emb y) 1)) := by
  obtain ⟨e00, e01, e50, e51, e10, e11, e20, e21, e30, e31, -⟩ := idx_facts t
  show V c (Pipeline.arrRef spec4 3) (((cfg4.win 3).blk t).view.emb (ix2 (0 : Fin 1) (y 1))) = V c (Pipeline.arrRef spec4 3) _
  refine congrArg _ (funext fun a => Fin.ext ?_)
  match a with
  | ⟨0, _⟩ => show win4_3.index t (0 : Fin 2) * 1 + 1 * 0 = 0; omega
  | ⟨1, _⟩ => show win4_3.index t (1 : Fin 2) * 10 + 1 * (y 1).val = win4_5.index t (1 : Fin 2) * 10 + 1 * (y 1).val; omega

theorem iblk_shift (t : Fin cfg4.N) (y : S2048x10.Idx) :
    (iblk4 V c 4 t : Vec Ideal S1x10 .f32) (ix2 (0 : Fin 1) (y 1))
      = A4 V c (ix2 (0 : Fin 1) ((((cfg4.win 5).blk t).view.emb y) 1)) := by
  obtain ⟨e00, e01, e50, e51, e10, e11, e20, e21, e30, e31, e40, e41⟩ := idx_facts t
  show V c (Pipeline.arrRef spec4 4) (((cfg4.win 4).blk t).view.emb (ix2 (0 : Fin 1) (y 1))) = V c (Pipeline.arrRef spec4 4) _
  refine congrArg _ (funext fun a => Fin.ext ?_)
  match a with
  | ⟨0, _⟩ => show win4_4.index t (0 : Fin 2) * 1 + 1 * 0 = 0; omega
  | ⟨1, _⟩ => show win4_4.index t (1 : Fin 2) * 10 + 1 * (y 1).val = win4_5.index t (1 : Fin 2) * 10 + 1 * (y 1).val; omega

/-- What point `t` writes back is block `t` of `G`: the body's one store covers the staging buffer with its payload,
    and each block the payload reads is the array where `G` reads it. -/
theorem flushed_eq (t : Fin cfg4.N) :
    (dat4 (F := Ideal) V c).flushed 5 t = ((cfg4.win 5).blk t).view.read (Elt Ideal) (G V c) := by
  show (cfg4.win 5).cut (grid4.coords t) ((dat4 (F := Ideal) V c).after 5 t) = _
  rw [after4_5]
  unfold out4_5
  rw [View.canon_unit_zero hz]
  simp only [View.ld_unit_zero (S := S2048x10) hz, View.ld_unit_zero (S := S1x10) hz]
  funext y
  refine (pay_at (iblk4 V c 0 t) (iblk4 V c 1 t) (iblk4 V c 2 t) (iblk4 V c 3 t) (iblk4 V c 4 t) y).trans ?_
  rw [iblk_h V c t y, iblk_mean V c t y, iblk_var V c t y, iblk_scale V c t y, iblk_shift V c t y]
  rfl

/-- An index of the result array is in point `t`'s block iff each coordinate is in the block's range on its axis. -/
theorem mem_blk (t : Fin cfg4.N) (i : S32768x10.Idx) :
    i ∈ ((cfg4.win 5).blk t).view.set ↔ ∀ a : Fin 2, win4_5.index t a * S2048x10.size a ≤ (i a).val ∧ (i a).val < win4_5.index t a * S2048x10.size a + S2048x10.size a := by
  show i ∈ ((View.whole main_v56).slice (win4_5.rect t)).set ↔ _
  rw [View.set_slice_whole, Rect.mem_set_unit]
  exact Iff.rfl

/-- Row `r` lies in the block of point `r / 2048`, which is written back: the 16 blocks cover the array. -/
theorem cover (i : S32768x10.Idx) :
    ∃ t : Fin cfg4.N, (cfg4.win 5).flush t = true ∧ i ∈ ((cfg4.win 5).blk t).view.set := by
  have hi0 : (i 0).val < 32768 := (i 0).isLt
  have hi1 : (i 1).val < 10 := (i 1).isLt
  have hN : cfg4.N = 16 := N_4
  obtain ⟨t, ht⟩ : ∃ t : Fin cfg4.N, t.val = (i 0).val / 2048 := ⟨⟨(i 0).val / 2048, by rw [hN]; omega⟩, rfl⟩
  obtain ⟨e00, e01, e50, e51, -⟩ := idx_facts t
  refine ⟨t, flush4_5 t, ?_⟩
  rw [mem_blk]
  intro a
  match a with
  | ⟨0, _⟩ => show win4_5.index t (0 : Fin 2) * 2048 ≤ (i 0).val ∧ (i 0).val < win4_5.index t (0 : Fin 2) * 2048 + 2048; omega
  | ⟨1, _⟩ => show win4_5.index t (1 : Fin 2) * 10 ≤ (i 1).val ∧ (i 1).val < win4_5.index t (1 : Fin 2) * 10 + 10; omega

/-- The result array after the region is `G` of the arrays the region found. -/
theorem final : (dat4 (F := Ideal) V c).arrAt 5 cfg4.N = G V c :=
  (dat4 (F := Ideal) V c).arrAt_eq_of_cover 5 (G V c) (fun t _ => flushed_eq V c t) (cover)

/-- Entry `(r, j)` of the result: the batch normalisation of the activation at `(r, j)` with column `j`'s mean,
    variance, scale and shift. -/
theorem out (r : Fin 32768) (j : Fin 10) :
    (dat4 (F := Ideal) V c).arrAt 5 cfg4.N (ValueIdx.ix2 r j)
      = Spec.normed eps (Spec.cur2 (A0 V c)) (Spec.row (A1 V c)) (Spec.row (A2 V c)) (Spec.row (A3 V c)) (Spec.row (A4 V c)) r j := by
  rw [final]
  rfl

end Cert.KernelValue.R4

end
-- ==== Proof.Glue.lean ====
/-
  The tiled program's result array, read off the fold through @main's segments.

  The first stretch of host operations binarises the four weight matrices by their signs and gives each bias, scale and
  shift vector a leading unit axis; none of these buffers is written again. Region 0 turns the inputs into layer 1's
  pre-normalisation values and their column sums and sums of squares. Each later stretch divides the two column sums by
  the row count and forms the clamped one-pass variance; each later region normalises with those, takes signs, and
  produces the next layer's values and sums; the last region only normalises. Reading every buffer where the next
  segment finds it, the result is the network in its one-pass form, applied to the arguments as launched.
-/
import proofs.«141082_j78245714199267_2_alg».proof.Proof.KernelIdealFrame
import proofs.«141082_j78245714199267_2_alg».proof.Proof.Net
import proofs.«141082_j78245714199267_2_alg».proof.Proof.HostReads
import proofs.«141082_j78245714199267_2_alg».proof.Proof.Region0
import proofs.«141082_j78245714199267_2_alg».proof.Proof.Region1
import proofs.«141082_j78245714199267_2_alg».proof.Proof.Region2
import proofs.«141082_j78245714199267_2_alg».proof.Proof.Region3
import proofs.«141082_j78245714199267_2_alg».proof.Proof.Region4

set_option maxRecDepth 16384

noncomputable section

namespace Cert.KernelValue

open Cert.KernelIdeal Cert.KernelIdeal.Gen Cert.KernelIdeal.GenP
open Idealize.ShloMosaic Idealize.ShloMosaic.TcCoe Idealize.ShloMosaic.ValueIdx
open Cert.Spec Cert.Net

local notation "cN" => Ideal.ofBits FTy.f32 0x47000000#32
local notation "cE" => Ideal.ofBits FTy.f32 0x3727C5AC#32

variable (m : (ℓ : Loc nD τ sig) → Buf (Elt Ideal) ℓ) (ρ : Dev nD → PrngReg) (c : Dev nD)

/-! ### The arguments as launched, and the four layers' pre-normalisation values -/

/-- Argument 0 of @main as launched, as a function of its coordinates. -/
def aX := cur2 ((m ((c.tc : Thread nD τ).loc main_arg0)) : S32768x784.Idx → EReal)
/-- Argument 1 of @main as launched, as a function of its coordinates. -/
def aW1 := cur2 ((m ((c.tc : Thread nD τ).loc main_arg1)) : S1024x784.Idx → EReal)
/-- Argument 2 of @main as launched, as a function of its coordinates. -/
def aB1 := vec1 ((m ((c.tc : Thread nD τ).loc main_arg2)) : S1024.Idx → EReal)
/-- Argument 3 of @main as launched, as a function of its coordinates. -/
def aG1 := vec1 ((m ((c.tc : Thread nD τ).loc main_arg3)) : S1024.Idx → EReal)
/-- Argument 4 of @main as launched, as a function of its coordinates. -/
def aBe1 := vec1 ((m ((c.tc : Thread nD τ).loc main_arg4)) : S1024.Idx → EReal)
/-- Argument 5 of @main as launched, as a function of its coordinates. -/
def aW2 := cur2 ((m ((c.tc : Thread nD τ).loc main_arg5)) : S1024x1024.Idx → EReal)
/-- Argument 6 of @main as launched, as a function of its coordinates. -/
def aB2 := vec1 ((m ((c.tc : Thread nD τ).loc main_arg6)) : S1024.Idx → EReal)
/-- Argument 7 of @main as launched, as a function of its coordinates. -/
def aG2 := vec1 ((m ((c.tc : Thread nD τ).loc main_arg7)) : S1024.Idx → EReal)
/-- Argument 8 of @main as launched, as a function of its coordinates. -/
def aBe2 := vec1 ((m ((c.tc : Thread nD τ).loc main_arg8)) : S1024.Idx → EReal)
/-- Argument 9 of @main as launched, as a function of its coordinates. -/
def aW3 := cur2 ((m ((c.tc : Thread nD τ).loc main_arg9)) : S1024x1024.Idx → EReal)
/-- Argument 10 of @main as launched, as a function of its coordinates. -/
def aB3 := vec1 ((m ((c.tc : Thread nD τ).loc main_arg10)) : S1024.Idx → EReal)
/-- Argument 11 of @main as launched, as a function of its coordinates. -/
def aG3 := vec1 ((m ((c.tc : Thread nD τ).loc main_arg11)) : S1024.Idx → EReal)
/-- Argument 12 of @main as launched, as a function of its coordinates. -/
def aBe3 := vec1 ((m ((c.tc : Thread nD τ).loc main_arg12)) : S1024.Idx → EReal)
/-- Argument 13 of @main as launched, as a function of its coordinates. -/
def aW4 := cur2 ((m ((c.tc : Thread nD τ).loc main_arg13)) : S10x1024.Idx → EReal)
/-- Argument 14 of @main as launched, as a function of its coordinates. -/
def aB4 := vec1 ((m ((c.tc : Thread nD τ).loc main_arg14)) : S10.Idx → EReal)
/-- Argument 15 of @main as launched, as a function of its coordinates. -/
def aG4 := vec1 ((m ((c.tc : Thread nD τ).loc main_arg15)) : S10.Idx → EReal)
/-- Argument 16 of @main as launched, as a function of its coordinates. -/
def aBe4 := vec1 ((m ((c.tc : Thread nD τ).loc main_arg16)) : S10.Idx → EReal)

/-- Layer 1's pre-normalisation values. -/
def H1 : Fin 32768 → Fin 1024 → EReal := kH1 (aX m c) (aW1 m c) (aB1 m c)
/-- Layer 2's. -/
def H2 : Fin 32768 → Fin 1024 → EReal := kH2 cN cE (aX m c) (aW1 m c) (aB1 m c) (aG1 m c) (aBe1 m c) (aW2 m c) (aB2 m c)
/-- Layer 3's. -/
def H3 : Fin 32768 → Fin 1024 → EReal := kH3 cN cE (aX m c) (aW1 m c) (aB1 m c) (aG1 m c) (aBe1 m c) (aW2 m c) (aB2 m c) (aG2 m c) (aBe2 m c) (aW3 m c) (aB3 m c)
/-- Layer 4's. -/
def H4 : Fin 32768 → Fin 10 → EReal := kH4 cN cE (aX m c) (aW1 m c) (aB1 m c) (aG1 m c) (aBe1 m c) (aW2 m c) (aB2 m c) (aG2 m c) (aBe2 m c) (aW3 m c) (aB3 m c) (aG3 m c) (aBe3 m c) (aW4 m c) (aB4 m c)

/-! ### Region 0: from the arguments to layer 1's values and column sums -/

theorem in0_x : cur2 (R0.A0 (V1 m ρ) c) = aX m c := by
  funext r k
  show W1 m ρ c (Proc.devRef .tc main_arg0) (ix2 r k) = _
  rw [W1_arg0 m ρ c]
  rfl

theorem in0_w : cur2 (R0.A1 (V1 m ρ) c) = wsign (aW1 m c) := by
  funext j k
  show W1 m ρ c (Proc.devRef .tc main_v1) (ix2 j k) = _
  rw [W1_v1 m ρ c j k]
  rfl

theorem in0_b : row (R0.A2 (V1 m ρ) c) = aB1 m c := by
  funext j
  show W1 m ρ c (Proc.devRef .tc main_v8) (ix2 (0 : Fin 1) j) = _
  rw [W1_v8 m ρ c j]
  rfl

/-- What region 0 computes from what it finds is layer 1's pre-normalisation values. -/
theorem hOut0_eq : R0.hOut (V1 m ρ) c = H1 m c := by
  unfold R0.hOut
  rw [in0_x m ρ c, in0_w m ρ c, in0_b m ρ c]
  rfl

theorem at1_h (r : Fin 32768) (j : Fin 1024) : W2 m ρ c (Proc.devRef .tc main_v20_0) (ix2 r j) = H1 m c r j := by
  rw [show W2 m ρ c (Proc.devRef .tc main_v20_0) = (dat0 (V1 m ρ) c).arrAt 3 cfg0.N from W2_arr m ρ c 3,
    R0.out_h, hOut0_eq m ρ c]

theorem at1_s (j : Fin 1024) : W2 m ρ c (Proc.devRef .tc main_v20_1) (ix2 (0 : Fin 1) j) = colsum (H1 m c) j := by
  rw [show W2 m ρ c (Proc.devRef .tc main_v20_1) = (dat0 (V1 m ρ) c).arrAt 4 cfg0.N from W2_arr m ρ c 4,
    R0.out_s, hOut0_eq m ρ c]

theorem at1_sq (j : Fin 1024) : W2 m ρ c (Proc.devRef .tc main_v20_2) (ix2 (0 : Fin 1) j) = colsumsq (H1 m c) j := by
  rw [show W2 m ρ c (Proc.devRef .tc main_v20_2) = (dat0 (V1 m ρ) c).arrAt 5 cfg0.N from W2_arr m ρ c 5,
    R0.out_sq, hOut0_eq m ρ c]

/-! ### Region 1: from layer 1's values and column sums to layer 2's -/

theorem in1_h : cur2 (R1.A0 (V3 m ρ) c) = H1 m c := by
  funext r k
  show W3 m ρ c (Proc.devRef .tc main_v20_0) (ix2 r k) = _
  rw [W3_pass m ρ c]
  exact at1_h m ρ c r k

theorem in1_mean : row (R1.A1 (V3 m ρ) c) = kMean cN (H1 m c) := by
  funext j
  show W3 m ρ c (Proc.devRef .tc main_v22) (ix2 (0 : Fin 1) j) = _
  rw [W3_mean m ρ c j, at1_s m ρ c j]
  rfl

theorem in1_var : row (R1.A2 (V3 m ρ) c) = kVar cN (H1 m c) := by
  funext j
  show W3 m ρ c (Proc.devRef .tc main_v28) (ix2 (0 : Fin 1) j) = _
  rw [W3_var m ρ c j, at1_s m ρ c j, at1_sq m ρ c j]
  rfl

theorem in1_g : row (R1.A3 (V3 m ρ) c) = aG1 m c := by
  funext j
  show W3 m ρ c (Proc.devRef .tc main_v9) (ix2 (0 : Fin 1) j) = _
  rw [W3_keep_v9 m ρ c, W1_v9 m ρ c j]
  rfl

theorem in1_be : row (R1.A4 (V3 m ρ) c) = aBe1 m c := by
  funext j
  show W3 m ρ c (Proc.devRef .tc main_v10) (ix2 (0 : Fin 1) j) = _
  rw [W3_keep_v10 m ρ c, W1_v10 m ρ c j]
  rfl

theorem in1_w : cur2 (R1.A5 (V3 m ρ) c) = wsign (aW2 m c) := by
  funext j k
  show W3 m ρ c (Proc.devRef .tc main_v3) (ix2 j k) = _
  rw [W3_keep_v3 m ρ c, W1_v3 m ρ c j k]
  rfl

theorem in1_b : row (R1.A6 (V3 m ρ) c) = aB2 m c := by
  funext j
  show W3 m ρ c (Proc.devRef .tc main_v11) (ix2 (0 : Fin 1) j) = _
  rw [W3_keep_v11 m ρ c, W1_v11 m ρ c j]
  rfl

/-- What region 1 computes from what it finds is layer 2's pre-normalisation values. -/
theorem hOut1_eq : R1.hOut (V3 m ρ) c = H2 m c := by
  unfold R1.hOut
  rw [in1_h m ρ c, in1_mean m ρ c, in1_var m ρ c, in1_g m ρ c, in1_be m ρ c, in1_w m ρ c, in1_b m ρ c]
  rfl

theorem at2_h (r : Fin 32768) (j : Fin 1024) : W4 m ρ c (Proc.devRef .tc main_v29_0) (ix2 r j) = H2 m c r j := by
  rw [show W4 m ρ c (Proc.devRef .tc main_v29_0) = (dat1 (V3 m ρ) c).arrAt 7 cfg1.N from W4_arr m ρ c 7,
    R1.out_h, hOut1_eq m ρ c]

theorem at2_s (j : Fin 1024) : W4 m ρ c (Proc.devRef .tc main_v29_1) (ix2 (0 : Fin 1) j) = colsum (H2 m c) j := by
  rw [show W4 m ρ c (Proc.devRef .tc main_v29_1) = (dat1 (V3 m ρ) c).arrAt 8 cfg1.N from W4_arr m ρ c 8,
    R1.out_s, hOut1_eq m ρ c]

theorem at2_sq (j : Fin 1024) : W4 m ρ c (Proc.devRef .tc main_v29_2) (ix2 (0 : Fin 1) j) = colsumsq (H2 m c) j := by
  rw [show W4 m ρ c (Proc.devRef .tc main_v29_2) = (dat1 (V3 m ρ) c).arrAt 9 cfg1.N from W4_arr m ρ c 9,
    R1.out_sq, hOut1_eq m ρ c]

/-! ### Region 2: from layer 2's values and column sums to layer 3's -/

theorem in2_h : cur2 (R2.A0 (V5 m ρ) c) = H2 m c := by
  funext r k
  show W5 m ρ c (Proc.devRef .tc main_v29_0) (ix2 r k) = _
  rw [W5_pass m ρ c]
  exact at2_h m ρ c r k

theorem in2_mean : row (R2.A1 (V5 m ρ) c) = kMean cN (H2 m c) := by
  funext j
  show W5 m ρ c (Proc.devRef .tc main_v31) (ix2 (0 : Fin 1) j) = _
  rw [W5_mean m ρ c j, at2_s m ρ c j]
  rfl

theorem in2_var : row (R2.A2 (V5 m ρ) c) = kVar cN (H2 m c) := by
  funext j
  show W5 m ρ c (Proc.devRef .tc main_v37) (ix2 (0 : Fin 1) j) = _
  rw [W5_var m ρ c j, at2_s m ρ c j, at2_sq m ρ c j]
  rfl

theorem in2_g : row (R2.A3 (V5 m ρ) c) = aG2 m c := by
  funext j
  show W5 m ρ c (Proc.devRef .tc main_v12) (ix2 (0 : Fin 1) j) = _
  rw [W5_keep_v12 m ρ c, W1_v12 m ρ c j]
  rfl

theorem in2_be : row (R2.A4 (V5 m ρ) c) = aBe2 m c := by
  funext j
  show W5 m ρ c (Proc.devRef .tc main_v13) (ix2 (0 : Fin 1) j) = _
  rw [W5_keep_v13 m ρ c, W1_v13 m ρ c j]
  rfl

theorem in2_w : cur2 (R2.A5 (V5 m ρ) c) = wsign (aW3 m c) := by
  funext j k
  show W5 m ρ c (Proc.devRef .tc main_v5) (ix2 j k) = _
  rw [W5_keep_v5 m ρ c, W1_v5 m ρ c j k]
  rfl

theorem in2_b : row (R2.A6 (V5 m ρ) c) = aB3 m c := by
  funext j
  show W5 m ρ c (Proc.devRef .tc main_v14) (ix2 (0 : Fin 1) j) = _
  rw [W5_keep_v14 m ρ c, W1_v14 m ρ c j]
  rfl

/-- What region 2 computes from what it finds is layer 3's pre-normalisation values. -/
theorem hOut2_eq : R2.hOut (V5 m ρ) c = H3 m c := by
  unfold R2.hOut
  rw [in2_h m ρ c, in2_mean m ρ c, in2_var m ρ c, in2_g m ρ c, in2_be m ρ c, in2_w m ρ c, in2_b m ρ c]
  rfl

theorem at3_h (r : Fin 32768) (j : Fin 1024) : W6 m ρ c (Proc.devRef .tc main_v38_0) (ix2 r j) = H3 m c r j := by
  rw [show W6 m ρ c (Proc.devRef .tc main_v38_0) = (dat2 (V5 m ρ) c).arrAt 7 cfg2.N from W6_arr m ρ c 7,
    R2.out_h, hOut2_eq m ρ c]

theorem at3_s (j : Fin 1024) : W6 m ρ c (Proc.devRef .tc main_v38_1) (ix2 (0 : Fin 1) j) = colsum (H3 m c) j := by
  rw [show W6 m ρ c (Proc.devRef .tc main_v38_1) = (dat2 (V5 m ρ) c).arrAt 8 cfg2.N from W6_arr m ρ c 8,
    R2.out_s, hOut2_eq m ρ c]

theorem at3_sq (j : Fin 1024) : W6 m ρ c (Proc.devRef .tc main_v38_2) (ix2 (0 : Fin 1) j) = colsumsq (H3 m c) j := by
  rw [show W6 m ρ c (Proc.devRef .tc main_v38_2) = (dat2 (V5 m ρ) c).arrAt 9 cfg2.N from W6_arr m ρ c 9,
    R2.out_sq, hOut2_eq m ρ c]

/-! ### Region 3: from layer 3's values and column sums to layer 4's -/

theorem in3_h : cur2 (R3.A0 (V7 m ρ) c) = H3 m c := by
  funext r k
  show W7 m ρ c (Proc.devRef .tc main_v38_0) (ix2 r k) = _
  rw [W7_pass m ρ c]
  exact at3_h m ρ c r k

theorem in3_mean : row (R3.A1 (V7 m ρ) c) = kMean cN (H3 m c) := by
  funext j
  show W7 m ρ c (Proc.devRef .tc main_v40) (ix2 (0 : Fin 1) j) = _
  rw [W7_mean m ρ c j, at3_s m ρ c j]
  rfl

theorem in3_var : row (R3.A2 (V7 m ρ) c) = kVar cN (H3 m c) := by
  funext j
  show W7 m ρ c (Proc.devRef .tc main_v46) (ix2 (0 : Fin 1) j) = _
  rw [W7_var m ρ c j, at3_s m ρ c j, at3_sq m ρ c j]
  rfl

theorem in3_g : row (R3.A3 (V7 m ρ) c) = aG3 m c := by
  funext j
  show W7 m ρ c (Proc.devRef .tc main_v15) (ix2 (0 : Fin 1) j) = _
  rw [W7_keep_v15 m ρ c, W1_v15 m ρ c j]
  rfl

theorem in3_be : row (R3.A4 (V7 m ρ) c) = aBe3 m c := by
  funext j
  show W7 m ρ c (Proc.devRef .tc main_v16) (ix2 (0 : Fin 1) j) = _
  rw [W7_keep_v16 m ρ c, W1_v16 m ρ c j]
  rfl

theorem in3_w : cur2 (R3.A5 (V7 m ρ) c) = wsign (aW4 m c) := by
  funext j k
  show W7 m ρ c (Proc.devRef .tc main_v7) (ix2 j k) = _
  rw [W7_keep_v7 m ρ c, W1_v7 m ρ c j k]
  rfl

theorem in3_b : row (R3.A6 (V7 m ρ) c) = aB4 m c := by
  funext j
  show W7 m ρ c (Proc.devRef .tc main_v17) (ix2 (0 : Fin 1) j) = _
  rw [W7_keep_v17 m ρ c, W1_v17 m ρ c j]
  rfl

/-- What region 3 computes from what it finds is layer 4's pre-normalisation values. -/
theorem hOut3_eq : R3.hOut (V7 m ρ) c = H4 m c := by
  unfold R3.hOut
  rw [in3_h m ρ c, in3_mean m ρ c, in3_var m ρ c, in3_g m ρ c, in3_be m ρ c, in3_w m ρ c, in3_b m ρ c]
  rfl

theorem at4_h (r : Fin 32768) (j : Fin 10) : W8 m ρ c (Proc.devRef .tc main_v47_0) (ix2 r j) = H4 m c r j := by
  rw [show W8 m ρ c (Proc.devRef .tc main_v47_0) = (dat3 (V7 m ρ) c).arrAt 7 cfg3.N from W8_arr m ρ c 7,
    R3.out_h, hOut3_eq m ρ c]

theorem at4_s (j : Fin 10) : W8 m ρ c (Proc.devRef .tc main_v47_1) (ix2 (0 : Fin 1) j) = colsum (H4 m c) j := by
  rw [show W8 m ρ c (Proc.devRef .tc main_v47_1) = (dat3 (V7 m ρ) c).arrAt 8 cfg3.N from W8_arr m ρ c 8,
    R3.out_s, hOut3_eq m ρ c]

theorem at4_sq (j : Fin 10) : W8 m ρ c (Proc.devRef .tc main_v47_2) (ix2 (0 : Fin 1) j) = colsumsq (H4 m c) j := by
  rw [show W8 m ρ c (Proc.devRef .tc main_v47_2) = (dat3 (V7 m ρ) c).arrAt 9 cfg3.N from W8_arr m ρ c 9,
    R3.out_sq, hOut3_eq m ρ c]

/-! ### Region 4: the final normalisation -/

theorem in4_h : cur2 (R4.A0 (V9 m ρ) c) = H4 m c := by
  funext r k
  show W9 m ρ c (Proc.devRef .tc main_v47_0) (ix2 r k) = _
  rw [W9_pass m ρ c]
  exact at4_h m ρ c r k

theorem in4_mean : row (R4.A1 (V9 m ρ) c) = kMean cN (H4 m c) := by
  funext j
  show W9 m ρ c (Proc.devRef .tc main_v49) (ix2 (0 : Fin 1) j) = _
  rw [W9_mean m ρ c j, at4_s m ρ c j]
  rfl

theorem in4_var : row (R4.A2 (V9 m ρ) c) = kVar cN (H4 m c) := by
  funext j
  show W9 m ρ c (Proc.devRef .tc main_v55) (ix2 (0 : Fin 1) j) = _
  rw [W9_var m ρ c j, at4_s m ρ c j, at4_sq m ρ c j]
  rfl

theorem in4_g : row (R4.A3 (V9 m ρ) c) = aG4 m c := by
  funext j
  show W9 m ρ c (Proc.devRef .tc main_v18) (ix2 (0 : Fin 1) j) = _
  rw [W9_keep_v18 m ρ c, W1_v18 m ρ c j]
  rfl

theorem in4_be : row (R4.A4 (V9 m ρ) c) = aBe4 m c := by
  funext j
  show W9 m ρ c (Proc.devRef .tc main_v19) (ix2 (0 : Fin 1) j) = _
  rw [W9_keep_v19 m ρ c, W1_v19 m ρ c j]
  rfl

/-- The tiled program's result array, at row `r` and class `j`, is the one-pass network of the arguments as launched. -/
theorem kernel_value (r : Fin 32768) (j : Fin 10) :
    W10 m ρ c (Proc.devRef .tc main_v56) (ix2 r j) = kNet cN cE (aX m c) (aW1 m c) (aB1 m c) (aG1 m c) (aBe1 m c) (aW2 m c) (aB2 m c) (aG2 m c) (aBe2 m c) (aW3 m c) (aB3 m c) (aG3 m c) (aBe3 m c) (aW4 m c) (aB4 m c) (aG4 m c) (aBe4 m c) r j := by
  rw [show W10 m ρ c (Proc.devRef .tc main_v56) = (dat4 (V9 m ρ) c).arrAt 5 cfg4.N from W10_arr m ρ c 5, R4.out,
    in4_h m ρ c, in4_mean m ρ c, in4_var m ρ c, in4_g m ρ c, in4_be m ρ c]
  rfl

end Cert.KernelValue

end
-- ==== Proof.RefValue.lean ====
/-
  The plain program, read one operation at a time, is the four-layer network of the specification.

  Each layer of the plain program binarises its weight matrix W as W + (sign W − W), transposes it, contracts the
  incoming activations with it over the input features and adds the bias: h r j = Σ_k a r k · Wbin j k + b j.  Per output
  feature j it then folds the column of h over the 32768 rows from zero and divides by 32768 (the mean), does the same
  with the squared deviations from that mean (the variance), and maps h r j to
  (h r j − mean j) · (var j + ε)^(-1/2) · g j + be j.  Layers 1 to 3 clamp this to [-1, 1] and binarise it as
  c + (sign c − c) to get the next layer's activations; layer 4's normalised values are the result.

  Below, for each layer in turn and for each of these quantities, the program's value at an explicit index (row r and
  column j, or column j alone) is identified with the corresponding piece of the specification.  Only three kinds of step
  occur: an elementwise operation is read at the index; a transpose or a broadcast moves the index, and the moved index is
  computed coordinate by coordinate; a contraction or a column fold is a sum whose summands are rewritten one by one.
-/
import proofs.«141082_j78245714199267_2_alg».proof.Proof.ReferenceRead
import proofs.«141082_j78245714199267_2_alg».proof.Proof.Net

noncomputable section

namespace Cert.RefValue

open Cert.ReferenceIdeal Cert.ReferenceIdeal.ReadP Idealize.ShloMosaic Idealize.ShloMosaic.ValueIdx
open Cert.Spec Cert.Net
open scoped BigOperators

/-- An f32 array of shape s, read as a function from its indices to extended reals. -/
abbrev Arr (s : Shape) : Type := (⟨s, .f32⟩ : BufTy).Contents (Elt Ideal)

/- The five literals of the plain program: the number of rows 32768, the zero a column fold starts from, the
   variance offset, and the two clamp bounds -1 and 1. -/
local notation "cN" => Ideal.ofBits FTy.f32 0x47000000#32
local notation "cZ" => Ideal.ofBits FTy.f32 0x00000000#32
local notation "cE" => Ideal.ofBits FTy.f32 0x3727C5AC#32
local notation "cLo" => Ideal.ofBits FTy.f32 0xBF800000#32
local notation "cHi" => Ideal.ofBits FTy.f32 0x3F800000#32

/-- Two rank-2 indices with equal coordinates are equal. -/
local macro "idx2" : tactic =>
  `(tactic| exact funext fun a => Fin.ext (by match a with | ⟨0, _⟩ => rfl | ⟨1, _⟩ => rfl))
/-- Two rank-1 indices with equal coordinates are equal. -/
local macro "idx1" : tactic =>
  `(tactic| exact funext fun a => Fin.ext (by match a with | ⟨0, _⟩ => rfl))

variable (x0 : Arr S32768x784) (x1 : Arr S1024x784) (x2 x3 x4 : Arr S1024) (x5 : Arr S1024x1024) (x6 x7 x8 : Arr S1024)
  (x9 : Arr S1024x1024) (x10 x11 x12 : Arr S1024) (x13 : Arr S10x1024) (x14 x15 x16 : Arr S10)

/-! ### Layer 1: 784 input features, 1024 output features -/

local notation "H1" => rH1 (cur2 x0) (cur2 x1) (vec1 x2)

/-- The transposed binarised weights of layer 1: entry (k, j) is the binarised weight (j, k). -/
theorem w1 (k : Fin 784) (j : Fin 1024) :
    val_main_v3 (F := Ideal) x1 (ix2 k j) = wbin (cur2 x1) j k := by
  rw [val_main_v3_apply, show idx_main_v3 (ix2 k j) = ix2 j k by idx2,
    val_main_v2_apply, val_main_v1_apply, val_main_v0_apply]
  rfl

/-- The affine map of layer 1: the contraction over the input features plus the bias. -/
theorem h1 (r : Fin 32768) (j : Fin 1024) :
    val_main_v7 (F := Ideal) x0 x1 x2 (ix2 r j) = H1 r j := by
  rw [val_main_v7_apply, val_main_v4_apply, val_main_v6_apply, val_main_v5_apply,
    show idx_main_v5 (idx_main_v6 (ix2 r j)) = ix1 j by idx1]
  refine congrArg₂ (· + ·) (Finset.sum_congr rfl fun k _ => ?_) rfl
  rw [show lidx_main_v4 (ix2 r j) k = ix2 r k by idx2, show ridx_main_v4 (ix2 r j) k = ix2 k j by idx2, w1]
  rfl

/-- The column means of layer 1: the fold of a column from zero over the 32768 rows, divided by 32768. -/
theorem mu1 (j : Fin 1024) :
    val_main_v10 (F := Ideal) x0 x1 x2 (ix1 j) = rMean cN cZ H1 j := by
  rw [val_main_v10_apply, val_main_v8_apply, val_main_v9_apply, val_main_cst_apply, val_main_cst_0_apply]
  refine congrArg₂ Ideal.div (congrArg₂ (· + ·) rfl (Finset.sum_congr rfl fun k _ => ?_)) rfl
  rw [show idx_main_v8 (ix1 j) k = ix2 k j by idx2, h1]

/-- The column variances of layer 1: the mean of the squared deviations from the column mean. -/
theorem var1 (j : Fin 1024) :
    val_main_v17 (F := Ideal) x0 x1 x2 (ix1 j) = rVar cN cZ H1 j := by
  rw [val_main_v17_apply, val_main_v15_apply, val_main_v16_apply, val_main_cst_1_apply, val_main_cst_2_apply]
  refine congrArg₂ Ideal.div (congrArg₂ (· + ·) rfl (Finset.sum_congr rfl fun k _ => ?_)) rfl
  rw [show idx_main_v15 (ix1 j) k = ix2 k j by idx2, val_main_v14_apply, val_main_v13_apply,
    val_main_v12_apply, val_main_v11_apply,
    show idx_main_v11 (idx_main_v12 (ix2 k j)) = ix1 j by idx1, h1, mu1]
  rfl

/-- Batch normalisation of layer 1 with the two-pass statistics. -/
theorem bn1 (r : Fin 32768) (j : Fin 1024) :
    val_main_v32 (F := Ideal) x0 x1 x2 x3 x4 (ix2 r j)
      = normed cE H1 (rMean cN cZ H1) (rVar cN cZ H1) (vec1 x3) (vec1 x4) r j := by
  rw [val_main_v32_apply, val_main_v29_apply, val_main_v26_apply, val_main_v20_apply, val_main_v19_apply,
    val_main_v18_apply, val_main_v25_apply, val_main_v24_apply, val_main_v23_apply, val_main_v22_apply,
    val_main_v21_apply, val_main_cst_3_apply, val_main_v28_apply, val_main_v27_apply, val_main_v31_apply,
    val_main_v30_apply,
    show idx_main_v18 (idx_main_v19 (ix2 r j)) = ix1 j by idx1,
    show idx_main_v24 (idx_main_v25 (ix2 r j)) = ix1 j by idx1,
    show idx_main_v27 (idx_main_v28 (ix2 r j)) = ix1 j by idx1,
    show idx_main_v30 (idx_main_v31 (ix2 r j)) = ix1 j by idx1,
    h1, mu1, var1]
  rfl

/-- The clamp of layer 1's normalised values to [-1, 1]. -/
theorem clip1 (r : Fin 32768) (j : Fin 1024) :
    val_main_v33 (F := Ideal) x0 x1 x2 x3 x4 (ix2 r j)
      = clipz cLo cHi (normed cE H1 (rMean cN cZ H1) (rVar cN cZ H1) (vec1 x3) (vec1 x4) r j) := by
  rw [val_main_v33_apply, val_main_call0_v4_apply, val_main_call0_v3_apply, val_main_cst_5_apply,
    val_main_call0_v2_apply, val_main_call0_v1_apply, val_main_call0_v0_apply, val_main_cst_4_apply, bn1]
  rfl

/-- The activations entering layer 2: the clamped values binarised with the detached correction. -/
theorem act1 (r : Fin 32768) (j : Fin 1024) :
    val_main_v36 (F := Ideal) x0 x1 x2 x3 x4 (ix2 r j) = rAct cN cZ cE cLo cHi H1 (vec1 x3) (vec1 x4) r j := by
  rw [val_main_v36_apply, val_main_v35_apply, val_main_v34_apply, clip1]
  rfl

/-! ### Layer 2: 1024 input features, 1024 output features -/

local notation "H2" => rH2 cN cZ cE cLo cHi (cur2 x0) (cur2 x1) (vec1 x2) (vec1 x3) (vec1 x4) (cur2 x5) (vec1 x6)

/-- The transposed binarised weights of layer 2: entry (k, j) is the binarised weight (j, k). -/
theorem w2 (k : Fin 1024) (j : Fin 1024) :
    val_main_v40 (F := Ideal) x5 (ix2 k j) = wbin (cur2 x5) j k := by
  rw [val_main_v40_apply, show idx_main_v40 (ix2 k j) = ix2 j k by idx2,
    val_main_v39_apply, val_main_v38_apply, val_main_v37_apply]
  rfl

/-- The affine map of layer 2: the contraction of the previous activations over the input features plus the bias. -/
theorem h2 (r : Fin 32768) (j : Fin 1024) :
    val_main_v44 (F := Ideal) x0 x1 x2 x3 x4 x5 x6 (ix2 r j) = H2 r j := by
  rw [val_main_v44_apply, val_main_v41_apply, val_main_v43_apply, val_main_v42_apply,
    show idx_main_v42 (idx_main_v43 (ix2 r j)) = ix1 j by idx1]
  refine congrArg₂ (· + ·) (Finset.sum_congr rfl fun k _ => ?_) rfl
  rw [show lidx_main_v41 (ix2 r j) k = ix2 r k by idx2, show ridx_main_v41 (ix2 r j) k = ix2 k j by idx2,
    w2, act1]

/-- The column means of layer 2. -/
theorem mu2 (j : Fin 1024) :
    val_main_v47 (F := Ideal) x0 x1 x2 x3 x4 x5 x6 (ix1 j) = rMean cN cZ H2 j := by
  rw [val_main_v47_apply, val_main_v45_apply, val_main_v46_apply, val_main_cst_6_apply, val_main_cst_7_apply]
  refine congrArg₂ Ideal.div (congrArg₂ (· + ·) rfl (Finset.sum_congr rfl fun k _ => ?_)) rfl
  rw [show idx_main_v45 (ix1 j) k = ix2 k j by idx2, h2]

/-- The column variances of layer 2. -/
theorem var2 (j : Fin 1024) :
    val_main_v54 (F := Ideal) x0 x1 x2 x3 x4 x5 x6 (ix1 j) = rVar cN cZ H2 j := by
  rw [val_main_v54_apply, val_main_v52_apply, val_main_v53_apply, val_main_cst_8_apply, val_main_cst_9_apply]
  refine congrArg₂ Ideal.div (congrArg₂ (· + ·) rfl (Finset.sum_congr rfl fun k _ => ?_)) rfl
  rw [show idx_main_v52 (ix1 j) k = ix2 k j by idx2, val_main_v51_apply, val_main_v50_apply,
    val_main_v49_apply, val_main_v48_apply,
    show idx_main_v48 (idx_main_v49 (ix2 k j)) = ix1 j by idx1, h2, mu2]
  rfl

/-- Batch normalisation of layer 2 with the two-pass statistics. -/
theorem bn2 (r : Fin 32768) (j : Fin 1024) :
    val_main_v69 (F := Ideal) x0 x1 x2 x3 x4 x5 x6 x7 x8 (ix2 r j)
      = normed cE H2 (rMean cN cZ H2) (rVar cN cZ H2) (vec1 x7) (vec1 x8) r j := by
  rw [val_main_v69_apply, val_main_v66_apply, val_main_v63_apply, val_main_v57_apply, val_main_v56_apply,
    val_main_v55_apply, val_main_v62_apply, val_main_v61_apply, val_main_v60_apply, val_main_v59_apply,
    val_main_v58_apply, val_main_cst_10_apply, val_main_v65_apply, val_main_v64_apply, val_main_v68_apply,
    val_main_v67_apply,
    show idx_main_v55 (idx_main_v56 (ix2 r j)) = ix1 j by idx1,
    show idx_main_v61 (idx_main_v62 (ix2 r j)) = ix1 j by idx1,
    show idx_main_v64 (idx_main_v65 (ix2 r j)) = ix1 j by idx1,
    show idx_main_v67 (idx_main_v68 (ix2 r j)) = ix1 j by idx1,
    h2, mu2, var2]
  rfl

/-- The clamp of layer 2's normalised values to [-1, 1]. -/
theorem clip2 (r : Fin 32768) (j : Fin 1024) :
    val_main_v70 (F := Ideal) x0 x1 x2 x3 x4 x5 x6 x7 x8 (ix2 r j)
      = clipz cLo cHi (normed cE H2 (rMean cN cZ H2) (rVar cN cZ H2) (vec1 x7) (vec1 x8) r j) := by
  rw [val_main_v70_apply, val_main_call1_v4_apply, val_main_call1_v3_apply, val_main_cst_12_apply,
    val_main_call1_v2_apply, val_main_call1_v1_apply, val_main_call1_v0_apply, val_main_cst_11_apply, bn2]
  rfl

/-- The activations entering layer 3: the clamped values binarised with the detached correction. -/
theorem act2 (r : Fin 32768) (j : Fin 1024) :
    val_main_v73 (F := Ideal) x0 x1 x2 x3 x4 x5 x6 x7 x8 (ix2 r j) = rAct cN cZ cE cLo cHi H2 (vec1 x7) (vec1 x8) r j := by
  rw [val_main_v73_apply, val_main_v72_apply, val_main_v71_apply, clip2]
  rfl

/-! ### Layer 3: 1024 input features, 1024 output features -/

local notation "H3" => rH3 cN cZ cE cLo cHi (cur2 x0) (cur2 x1) (vec1 x2) (vec1 x3) (vec1 x4) (cur2 x5) (vec1 x6) (vec1 x7) (vec1 x8) (cur2 x9) (vec1 x10)

/-- The transposed binarised weights of layer 3: entry (k, j) is the binarised weight (j, k). -/
theorem w3 (k : Fin 1024) (j : Fin 1024) :
    val_main_v77 (F := Ideal) x9 (ix2 k j) = wbin (cur2 x9) j k := by
  rw [val_main_v77_apply, show idx_main_v77 (ix2 k j) = ix2 j k by idx2,
    val_main_v76_apply, val_main_v75_apply, val_main_v74_apply]
  rfl

/-- The affine map of layer 3: the contraction of the previous activations over the input features plus the bias. -/
theorem h3 (r : Fin 32768) (j : Fin 1024) :
    val_main_v81 (F := Ideal) x0 x1 x2 x3 x4 x5 x6 x7 x8 x9 x10 (ix2 r j) = H3 r j := by
  rw [val_main_v81_apply, val_main_v78_apply, val_main_v80_apply, val_main_v79_apply,
    show idx_main_v79 (idx_main_v80 (ix2 r j)) = ix1 j by idx1]
  refine congrArg₂ (· + ·) (Finset.sum_congr rfl fun k _ => ?_) rfl
  rw [show lidx_main_v78 (ix2 r j) k = ix2 r k by idx2, show ridx_main_v78 (ix2 r j) k = ix2 k j by idx2,
    w3, act2]

/-- The column means of layer 3. -/
theorem mu3 (j : Fin 1024) :
    val_main_v84 (F := Ideal) x0 x1 x2 x3 x4 x5 x6 x7 x8 x9 x10 (ix1 j) = rMean cN cZ H3 j := by
  rw [val_main_v84_apply, val_main_v82_apply, val_main_v83_apply, val_main_cst_13_apply, val_main_cst_14_apply]
  refine congrArg₂ Ideal.div (congrArg₂ (· + ·) rfl (Finset.sum_congr rfl fun k _ => ?_)) rfl
  rw [show idx_main_v82 (ix1 j) k = ix2 k j by idx2, h3]

/-- The column variances of layer 3. -/
theorem var3 (j : Fin 1024) :
    val_main_v91 (F := Ideal) x0 x1 x2 x3 x4 x5 x6 x7 x8 x9 x10 (ix1 j) = rVar cN cZ H3 j := by
  rw [val_main_v91_apply, val_main_v89_apply, val_main_v90_apply, val_main_cst_15_apply, val_main_cst_16_apply]
  refine congrArg₂ Ideal.div (congrArg₂ (· + ·) rfl (Finset.sum_congr rfl fun k _ => ?_)) rfl
  rw [show idx_main_v89 (ix1 j) k = ix2 k j by idx2, val_main_v88_apply, val_main_v87_apply,
    val_main_v86_apply, val_main_v85_apply,
    show idx_main_v85 (idx_main_v86 (ix2 k j)) = ix1 j by idx1, h3, mu3]
  rfl

/-- Batch normalisation of layer 3 with the two-pass statistics. -/
theorem bn3 (r : Fin 32768) (j : Fin 1024) :
    val_main_v106 (F := Ideal) x0 x1 x2 x3 x4 x5 x6 x7 x8 x9 x10 x11 x12 (ix2 r j)
      = normed cE H3 (rMean cN cZ H3) (rVar cN cZ H3) (vec1 x11) (vec1 x12) r j := by
  rw [val_main_v106_apply, val_main_v103_apply, val_main_v100_apply, val_main_v94_apply, val_main_v93_apply,
    val_main_v92_apply, val_main_v99_apply, val_main_v98_apply, val_main_v97_apply, val_main_v96_apply,
    val_main_v95_apply, val_main_cst_17_apply, val_main_v102_apply, val_main_v101_apply, val_main_v105_apply,
    val_main_v104_apply,
    show idx_main_v92 (idx_main_v93 (ix2 r j)) = ix1 j by idx1,
    show idx_main_v98 (idx_main_v99 (ix2 r j)) = ix1 j by idx1,
    show idx_main_v101 (idx_main_v102 (ix2 r j)) = ix1 j by idx1,
    show idx_main_v104 (idx_main_v105 (ix2 r j)) = ix1 j by idx1,
    h3, mu3, var3]
  rfl

/-- The clamp of layer 3's normalised values to [-1, 1]. -/
theorem clip3 (r : Fin 32768) (j : Fin 1024) :
    val_main_v107 (F := Ideal) x0 x1 x2 x3 x4 x5 x6 x7 x8 x9 x10 x11 x12 (ix2 r j)
      = clipz cLo cHi (normed cE H3 (rMean cN cZ H3) (rVar cN cZ H3) (vec1 x11) (vec1 x12) r j) := by
  rw [val_main_v107_apply, val_main_call2_v4_apply, val_main_call2_v3_apply, val_main_cst_19_apply,
    val_main_call2_v2_apply, val_main_call2_v1_apply, val_main_call2_v0_apply, val_main_cst_18_apply, bn3]
  rfl

/-- The activations entering layer 4: the clamped values binarised with the detached correction. -/
theorem act3 (r : Fin 32768) (j : Fin 1024) :
    val_main_v110 (F := Ideal) x0 x1 x2 x3 x4 x5 x6 x7 x8 x9 x10 x11 x12 (ix2 r j) = rAct cN cZ cE cLo cHi H3 (vec1 x11) (vec1 x12) r j := by
  rw [val_main_v110_apply, val_main_v109_apply, val_main_v108_apply, clip3]
  rfl

/-! ### Layer 4: 1024 input features, 10 output features -/

local notation "H4" => rH4 cN cZ cE cLo cHi (cur2 x0) (cur2 x1) (vec1 x2) (vec1 x3) (vec1 x4) (cur2 x5) (vec1 x6) (vec1 x7) (vec1 x8) (cur2 x9) (vec1 x10) (vec1 x11) (vec1 x12) (cur2 x13) (vec1 x14)

/-- The transposed binarised weights of layer 4: entry (k, j) is the binarised weight (j, k). -/
theorem w4 (k : Fin 1024) (j : Fin 10) :
    val_main_v114 (F := Ideal) x13 (ix2 k j) = wbin (cur2 x13) j k := by
  rw [val_main_v114_apply, show idx_main_v114 (ix2 k j) = ix2 j k by idx2,
    val_main_v113_apply, val_main_v112_apply, val_main_v111_apply]
  rfl

/-- The affine map of layer 4: the contraction of the previous activations over the input features plus the bias. -/
theorem h4 (r : Fin 32768) (j : Fin 10) :
    val_main_v118 (F := Ideal) x0 x1 x2 x3 x4 x5 x6 x7 x8 x9 x10 x11 x12 x13 x14 (ix2 r j) = H4 r j := by
  rw [val_main_v118_apply, val_main_v115_apply, val_main_v117_apply, val_main_v116_apply,
    show idx_main_v116 (idx_main_v117 (ix2 r j)) = ix1 j by idx1]
  refine congrArg₂ (· + ·) (Finset.sum_congr rfl fun k _ => ?_) rfl
  rw [show lidx_main_v115 (ix2 r j) k = ix2 r k by idx2, show ridx_main_v115 (ix2 r j) k = ix2 k j by idx2,
    w4, act3]

/-- The column means of layer 4. -/
theorem mu4 (j : Fin 10) :
    val_main_v121 (F := Ideal) x0 x1 x2 x3 x4 x5 x6 x7 x8 x9 x10 x11 x12 x13 x14 (ix1 j) = rMean cN cZ H4 j := by
  rw [val_main_v121_apply, val_main_v119_apply, val_main_v120_apply, val_main_cst_20_apply, val_main_cst_21_apply]
  refine congrArg₂ Ideal.div (congrArg₂ (· + ·) rfl (Finset.sum_congr rfl fun k _ => ?_)) rfl
  rw [show idx_main_v119 (ix1 j) k = ix2 k j by idx2, h4]

/-- The column variances of layer 4. -/
theorem var4 (j : Fin 10) :
    val_main_v128 (F := Ideal) x0 x1 x2 x3 x4 x5 x6 x7 x8 x9 x10 x11 x12 x13 x14 (ix1 j) = rVar cN cZ H4 j := by
  rw [val_main_v128_apply, val_main_v126_apply, val_main_v127_apply, val_main_cst_22_apply, val_main_cst_23_apply]
  refine congrArg₂ Ideal.div (congrArg₂ (· + ·) rfl (Finset.sum_congr rfl fun k _ => ?_)) rfl
  rw [show idx_main_v126 (ix1 j) k = ix2 k j by idx2, val_main_v125_apply, val_main_v124_apply,
    val_main_v123_apply, val_main_v122_apply,
    show idx_main_v122 (idx_main_v123 (ix2 k j)) = ix1 j by idx1, h4, mu4]
  rfl

/-- Batch normalisation of layer 4 with the two-pass statistics. -/
theorem bn4 (r : Fin 32768) (j : Fin 10) :
    val_main_v143 (F := Ideal) x0 x1 x2 x3 x4 x5 x6 x7 x8 x9 x10 x11 x12 x13 x14 x15 x16 (ix2 r j)
      = normed cE H4 (rMean cN cZ H4) (rVar cN cZ H4) (vec1 x15) (vec1 x16) r j := by
  rw [val_main_v143_apply, val_main_v140_apply, val_main_v137_apply, val_main_v131_apply, val_main_v130_apply,
    val_main_v129_apply, val_main_v136_apply, val_main_v135_apply, val_main_v134_apply, val_main_v133_apply,
    val_main_v132_apply, val_main_cst_24_apply, val_main_v139_apply, val_main_v138_apply, val_main_v142_apply,
    val_main_v141_apply,
    show idx_main_v129 (idx_main_v130 (ix2 r j)) = ix1 j by idx1,
    show idx_main_v135 (idx_main_v136 (ix2 r j)) = ix1 j by idx1,
    show idx_main_v138 (idx_main_v139 (ix2 r j)) = ix1 j by idx1,
    show idx_main_v141 (idx_main_v142 (ix2 r j)) = ix1 j by idx1,
    h4, mu4, var4]
  rfl

/-! ### The whole plain program -/

/-- The plain program's result at row r and class j is the four-layer network of the specification, built from the
    two-pass statistics, the clamp and the detached binarisation, over the seventeen argument arrays. -/
theorem ref_value (r : Fin 32768) (j : Fin 10) :
    val_main_v143 (F := Ideal) x0 x1 x2 x3 x4 x5 x6 x7 x8 x9 x10 x11 x12 x13 x14 x15 x16 (ix2 r j)
      = refNet cN cZ cE cLo cHi (cur2 x0) (cur2 x1) (vec1 x2) (vec1 x3) (vec1 x4) (cur2 x5) (vec1 x6) (vec1 x7) (vec1 x8)
          (cur2 x9) (vec1 x10) (vec1 x11) (vec1 x12) (cur2 x13) (vec1 x14) (vec1 x15) (vec1 x16) r j :=
  bn4 x0 x1 x2 x3 x4 x5 x6 x7 x8 x9 x10 x11 x12 x13 x14 x15 x16 r j

end Cert.RefValue

end
-- ==== Proof.LibBatchNorm.lean ====
/-
  The batch-normalisation variance, two ways, on extended reals that are reals.

  For finitely many reals `g i` with mean `μ = (Σ g i) / N` (N the number of terms), the mean of the squared
  deviations is the mean of the squares minus the squared mean,
      (Σ (g i − μ)²) / N = (Σ (g i)²) / N − μ²,
  and it is not negative, so clamping the right-hand side below at 0 changes nothing. Stated over the extended reals
  with the reals embedded, division by `N` spelt as multiplication by the real `1 / N`; sums of embedded reals are
  embedded sums.
-/
import Idealize.ShloMosaic.PureOps.Ideal

open scoped BigOperators

namespace Cert.BatchNorm

/-- A finite sum of embedded reals is the embedded sum. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The real identity: the mean squared deviation is the mean square minus the squared mean. -/
theorem real_var {ι : Type} [Fintype ι] (g : ι → ℝ) (N : ℝ) (hN : N = Fintype.card ι) (hpos : 0 < N) :
    (∑ i, (g i - (∑ k, g k) * (1 / N)) * (g i - (∑ k, g k) * (1 / N))) * (1 / N)
      = (∑ i, g i * g i) * (1 / N) - ((∑ k, g k) * (1 / N)) * ((∑ k, g k) * (1 / N)) := by
  have hne : N ≠ 0 := ne_of_gt hpos
  set S := ∑ k, g k with hS
  have h1 : ∑ i, (g i - S * (1 / N)) * (g i - S * (1 / N))
      = (∑ i, g i * g i) - 2 * (S * (1 / N)) * S + N * ((S * (1 / N)) * (S * (1 / N))) := by
    have : ∀ i, (g i - S * (1 / N)) * (g i - S * (1 / N)) = g i * g i - 2 * (S * (1 / N)) * g i + (S * (1 / N)) * (S * (1 / N)) := fun i => by ring
    simp only [this, Finset.sum_add_distrib, Finset.sum_sub_distrib, ← Finset.mul_sum, Finset.sum_const, Finset.card_univ, nsmul_eq_mul, ← hN, ← hS]
    ring
  rw [h1]; field_simp; ring

/-- The mean squared deviation of reals is not negative. -/
theorem real_var_nonneg {ι : Type} [Fintype ι] (g : ι → ℝ) (μ N : ℝ) (hpos : 0 < N) :
    0 ≤ (∑ i, (g i - μ) * (g i - μ)) * (1 / N) :=
  mul_nonneg (Finset.sum_nonneg fun i _ => mul_self_nonneg _) (by positivity)

/-- On extended reals: with `μ` the mean, the clamped "mean square minus squared mean" is the mean squared deviation. -/
theorem var_eq {ι : Type} [Fintype ι] (g : ι → ℝ) (N : ℝ) (hN : N = Fintype.card ι) (hpos : 0 < N) :
    max ((∑ i, (g i : EReal) * (g i : EReal)) * ((1 / N : ℝ) : EReal)
          - ((∑ k, (g k : EReal)) * ((1 / N : ℝ) : EReal)) * ((∑ k, (g k : EReal)) * ((1 / N : ℝ) : EReal))) 0
      = (∑ i, ((g i : EReal) - (∑ k, (g k : EReal)) * ((1 / N : ℝ) : EReal)) * ((g i : EReal) - (∑ k, (g k : EReal)) * ((1 / N : ℝ) : EReal)))
          * ((1 / N : ℝ) : EReal) := by
  have e1 : ∀ i, ((g i : EReal) - (∑ k, (g k : EReal)) * ((1 / N : ℝ) : EReal)) * ((g i : EReal) - (∑ k, (g k : EReal)) * ((1 / N : ℝ) : EReal))
      = (((g i - (∑ k, g k) * (1 / N)) * (g i - (∑ k, g k) * (1 / N)) : ℝ) : EReal) := fun i => by
    rw [← coe_sum, ← EReal.coe_mul, ← EReal.coe_sub, ← EReal.coe_mul]
  have e2 : ∀ i, (g i : EReal) * (g i : EReal) = ((g i * g i : ℝ) : EReal) := fun i => (EReal.coe_mul _ _).symm
  simp only [e1, e2]
  rw [← coe_sum, ← coe_sum, ← coe_sum, ← EReal.coe_mul, ← EReal.coe_mul, ← EReal.coe_mul, ← EReal.coe_mul, ← EReal.coe_sub,
    ← real_var g N hN hpos]
  exact max_eq_left (by exact_mod_cast real_var_nonneg g _ N hpos)

end Cert.BatchNorm
-- ==== Proof.Layers.lean ====
/-
  The tiled network and the plain network compute one function on real inputs.

  Three facts carry it. (1) On a real `z`, `z + (sign z − z) = sign z`; clamping to `[-1, 1]` yields a real and keeps the
  sign, so "clamp, then binarise with the correction" is `sign` on every extended real. (2) An affine layer of real
  activations, real weights and real biases is real, and signs are always real. (3) For a real column the clamped
  "mean of squares minus squared mean" is the mean of squared deviations (the batch-normalisation variance lemma), and
  dividing by the real row count is multiplying by its reciprocal. Hence, layer by layer, equal real pre-normalisation
  values give equal statistics and equal next signs.
-/
import proofs.«141082_j78245714199267_2_alg».proof.Proof.Net
import proofs.«141082_j78245714199267_2_alg».proof.Proof.LibBatchNorm

noncomputable section

namespace Cert.Layers

open Cert.Spec Cert.Net Idealize.ShloMosaic
open scoped BigOperators

/-- Every value of `f` is a real number. -/
def IsReal {α : Type} (f : α → EReal) : Prop := ∀ a, ∃ x : ℝ, f a = (x : EReal)

/-- Every value of the two-argument `f` is a real number. -/
def IsReal2 {α β : Type} (f : α → β → EReal) : Prop := ∀ a b, ∃ x : ℝ, f a b = (x : EReal)

/-- An extended real between two reals is a real. -/
theorem real_of_between {z : EReal} {a b : ℝ} (ha : (a : EReal) ≤ z) (hb : z ≤ (b : EReal)) : ∃ x : ℝ, z = (x : EReal) := by
  induction z using EReal.rec with
  | bot => exact absurd ha (not_le.mpr (EReal.bot_lt_coe a))
  | top => exact absurd hb (not_le.mpr (EReal.coe_lt_top b))
  | coe r => exact ⟨r, rfl⟩

/-- The sign of an extended real is one of the reals `-1`, `0`, `1`. -/
theorem sign_real (z : EReal) : ∃ x : ℝ, Ideal.sign z = (x : EReal) := by
  induction z using EReal.rec with
  | bot => exact ⟨-1, by rw [Ideal.sign_bot, EReal.coe_neg, EReal.coe_one]⟩
  | top => exact ⟨1, by rw [Ideal.sign_top, EReal.coe_one]⟩
  | coe r => exact ⟨_, Ideal.sign_coe r⟩

/-- On a real, `z + (sign z − z)` is `sign z`. -/
theorem binz_coe (x : ℝ) : binz (x : EReal) = Ideal.sign (x : EReal) := by
  obtain ⟨s, hs⟩ := sign_real (x : EReal)
  unfold binz
  rw [hs, ← EReal.coe_sub, ← EReal.coe_add]
  congr 1; ring

/-- Clamping to `[-1, 1]` gives a real. -/
theorem clip_real (z : EReal) : ∃ x : ℝ, clipz (-1) 1 z = (x : EReal) := by
  have hm1 : ((-1 : ℝ) : EReal) = -1 := by rw [EReal.coe_neg, EReal.coe_one]
  have h1 : ((1 : ℝ) : EReal) = 1 := EReal.coe_one
  refine real_of_between (a := -1) (b := 1) ?_ ?_
  · unfold clipz
    rw [hm1]
    have hle : (-1 : EReal) ≤ 1 := by rw [← hm1, ← h1]; exact EReal.coe_le_coe_iff.mpr (by norm_num)
    exact le_min hle (le_max_left _ _)
  · unfold clipz
    rw [h1]
    exact min_le_left _ _

/-- Clamping to `[-1, 1]` keeps the sign. -/
theorem sign_clip (z : EReal) : Ideal.sign (clipz (-1) 1 z) = Ideal.sign z := by
  rcases lt_trichotomy z 0 with h | h | h
  · have hc : clipz (-1) 1 z < 0 := by
      unfold clipz
      exact lt_of_le_of_lt (min_le_right _ _) (max_lt (by norm_num) h)
    rw [Ideal.sign_of_neg hc, Ideal.sign_of_neg h]
  · subst h
    have h1 : max (-1 : EReal) 0 = 0 := max_eq_right (by norm_num)
    have h2 : min (1 : EReal) 0 = 0 := min_eq_right (by norm_num)
    unfold clipz
    rw [h1, h2]
  · have hc : 0 < clipz (-1) 1 z := by
      unfold clipz
      exact lt_min (by norm_num) (lt_max_of_lt_right h)
    rw [Ideal.sign_of_pos hc, Ideal.sign_of_pos h]

/-- Clamp, then binarise with the detached correction: the sign. -/
theorem binz_clip (z : EReal) : binz (clipz (-1) 1 z) = Ideal.sign z := by
  obtain ⟨x, hx⟩ := clip_real z
  rw [hx, binz_coe, ← hx, sign_clip]

variable {ι κ ν : Type} [Fintype ι] [Fintype κ] [Fintype ν]

/-- Binarising real weights either way gives the same matrix. -/
theorem wbin_eq_wsign (w : ν → κ → EReal) (hw : IsReal2 w) : wbin w = wsign w := by
  funext j k
  obtain ⟨x, hx⟩ := hw j k
  unfold wbin wsign
  rw [hx, binz_coe]

theorem wsign_real (w : ν → κ → EReal) : IsReal2 (wsign w) := fun j k => sign_real _

/-- An affine layer of real activations, weights and biases has real values. -/
theorem lin_real (a : ι → κ → EReal) (w : ν → κ → EReal) (b : ν → EReal) (ha : IsReal2 a) (hw : IsReal2 w) (hb : IsReal b) :
    IsReal2 (lin a w b) := by
  intro r j
  choose fa hfa using ha
  choose fw hfw using hw
  obtain ⟨xb, hxb⟩ := hb j
  refine ⟨(∑ k, fa r k * fw j k) + xb, ?_⟩
  unfold lin
  simp only [hfa, hfw, hxb, ← EReal.coe_mul]
  rw [← Cert.BatchNorm.coe_sum, ← EReal.coe_add]

/-- The signs of anything are real. -/
theorem signs_real (eps : EReal) (h : ι → ν → EReal) (mean var g be : ν → EReal) : IsReal2 (signs eps h mean var g be) :=
  fun r j => sign_real _

section Stats
variable (N : ℝ) (hN : N = Fintype.card ι) (hpos : 0 < N)
include hN hpos

/-- The two spellings of the column mean agree. -/
theorem mean_eq (h : ι → ν → EReal) : kMean (N : EReal) h = rMean (N : EReal) 0 h := by
  funext j
  unfold kMean rMean meanOf meanR colsum
  rw [zero_add]

/-- For real `h` the one-pass variance (clamped) is the two-pass variance. -/
theorem var_eq (h : ι → ν → EReal) (hh : IsReal2 h) : kVar (N : EReal) h = rVar (N : EReal) 0 h := by
  have hne : N ≠ 0 := ne_of_gt hpos
  funext j
  choose g hg using hh
  unfold kVar rVar varOf varR
  rw [← mean_eq N hN hpos h]
  unfold kMean meanOf colsum colsumsq
  simp only [Ideal.div_coe hne, hg, zero_add]
  exact Cert.BatchNorm.var_eq (fun r => g r j) N hN hpos

/-- The next activations agree when `h` is real. -/
theorem act_eq (eps : EReal) (h : ι → ν → EReal) (hh : IsReal2 h) (g be : ν → EReal) :
    kAct (N : EReal) eps h g be = rAct (N : EReal) 0 eps (-1) 1 h g be := by
  funext r j
  unfold kAct rAct signs signsR
  rw [binz_clip, mean_eq N hN hpos h, var_eq N hN hpos h hh]

end Stats

end Cert.Layers

namespace Cert.Layers

open Cert.Spec Cert.Net Idealize.ShloMosaic

section Whole
variable {ι κ0 κ1 κ2 κ3 κ4 : Type} [Fintype ι] [Fintype κ0] [Fintype κ1] [Fintype κ2] [Fintype κ3] [Fintype κ4]

theorem kAct_real {ν : Type} (n eps : EReal) (h : ι → ν → EReal) (g be : ν → EReal) : IsReal2 (kAct n eps h g be) :=
  fun _ _ => sign_real _

/-- With real inputs, weights and biases, and the row count a positive real, the tiled network and the plain network
    are one function: layer by layer the pre-normalisation values agree and are real, so the statistics agree, so the
    next signs agree. The scales `g` and shifts `be` may be any extended reals. -/
theorem net_eq (N : ℝ) (hN : N = Fintype.card ι) (hpos : 0 < N) (eps : EReal)
    (x : ι → κ0 → EReal)
    (w1 : κ1 → κ0 → EReal) (b1 g1 be1 : κ1 → EReal) (w2 : κ2 → κ1 → EReal) (b2 g2 be2 : κ2 → EReal)
    (w3 : κ3 → κ2 → EReal) (b3 g3 be3 : κ3 → EReal) (w4 : κ4 → κ3 → EReal) (b4 g4 be4 : κ4 → EReal)
    (hx : IsReal2 x) (hw1 : IsReal2 w1) (hb1 : IsReal b1) (hw2 : IsReal2 w2) (hb2 : IsReal b2)
    (hw3 : IsReal2 w3) (hb3 : IsReal b3) (hw4 : IsReal2 w4) (hb4 : IsReal b4) :
    kNet (N : EReal) eps x w1 b1 g1 be1 w2 b2 g2 be2 w3 b3 g3 be3 w4 b4
      = refNet (N : EReal) 0 eps (-1) 1 x w1 b1 g1 be1 w2 b2 g2 be2 w3 b3 g3 be3 w4 b4 := by
  have e1 : kH1 x w1 b1 = rH1 x w1 b1 := by unfold kH1 rH1; rw [wbin_eq_wsign w1 hw1]
  have r1 : IsReal2 (kH1 x w1 b1) := lin_real _ _ _ hx (wsign_real w1) hb1
  have a1 : kAct (N : EReal) eps (kH1 x w1 b1) g1 be1 = rAct (N : EReal) 0 eps (-1) 1 (rH1 x w1 b1) g1 be1 := by
    rw [act_eq N hN hpos eps _ r1, e1]
  have e2 : kH2 (N : EReal) eps x w1 b1 g1 be1 w2 b2 = rH2 (N : EReal) 0 eps (-1) 1 x w1 b1 g1 be1 w2 b2 := by
    unfold kH2 rH2; rw [a1, wbin_eq_wsign w2 hw2]
  have r2 : IsReal2 (kH2 (N : EReal) eps x w1 b1 g1 be1 w2 b2) :=
    lin_real _ _ _ (kAct_real _ _ _ _ _) (wsign_real w2) hb2
  have a2 : kAct (N : EReal) eps (kH2 (N : EReal) eps x w1 b1 g1 be1 w2 b2) g2 be2
      = rAct (N : EReal) 0 eps (-1) 1 (rH2 (N : EReal) 0 eps (-1) 1 x w1 b1 g1 be1 w2 b2) g2 be2 := by
    rw [act_eq N hN hpos eps _ r2, e2]
  have e3 : kH3 (N : EReal) eps x w1 b1 g1 be1 w2 b2 g2 be2 w3 b3
      = rH3 (N : EReal) 0 eps (-1) 1 x w1 b1 g1 be1 w2 b2 g2 be2 w3 b3 := by
    unfold kH3 rH3; rw [a2, wbin_eq_wsign w3 hw3]
  have r3 : IsReal2 (kH3 (N : EReal) eps x w1 b1 g1 be1 w2 b2 g2 be2 w3 b3) :=
    lin_real _ _ _ (kAct_real _ _ _ _ _) (wsign_real w3) hb3
  have a3 : kAct (N : EReal) eps (kH3 (N : EReal) eps x w1 b1 g1 be1 w2 b2 g2 be2 w3 b3) g3 be3
      = rAct (N : EReal) 0 eps (-1) 1 (rH3 (N : EReal) 0 eps (-1) 1 x w1 b1 g1 be1 w2 b2 g2 be2 w3 b3) g3 be3 := by
    rw [act_eq N hN hpos eps _ r3, e3]
  have e4 : kH4 (N : EReal) eps x w1 b1 g1 be1 w2 b2 g2 be2 w3 b3 g3 be3 w4 b4
      = rH4 (N : EReal) 0 eps (-1) 1 x w1 b1 g1 be1 w2 b2 g2 be2 w3 b3 g3 be3 w4 b4 := by
    unfold kH4 rH4; rw [a3, wbin_eq_wsign w4 hw4]
  have r4 : IsReal2 (kH4 (N : EReal) eps x w1 b1 g1 be1 w2 b2 g2 be2 w3 b3 g3 be3 w4 b4) :=
    lin_real _ _ _ (kAct_real _ _ _ _ _) (wsign_real w4) hb4
  unfold kNet refNet
  rw [← e4, mean_eq N hN hpos, var_eq N hN hpos _ r4]

end Whole

end Cert.Layers

end
-- ==== Proof.Finite.lean ====
import proofs.«141082_j78245714199267_2_alg».proof.Defs
import Idealize.ShloMosaic.Lib.ReduceAll
import Idealize.ShloMosaic.Lib.ValueIdx
import Idealize.ShloMosaic.Lib.Pipeline.Value

noncomputable section

namespace Cert.Finite

open Idealize.ShloMosaic Idealize.SL.Sem Cert.Pre_finite_inputs

/-- The rank-0 shape has exactly one index. -/
instance : Subsingleton S_.Idx := ⟨fun a b => funext fun d => d.elim0⟩

/-- An extended real whose absolute value is strictly below +∞ is a real number: the two infinities have
    absolute value +∞. -/
theorem real_of_abs_lt_top (x : EReal)
    (h : FloatOps.cmpf (F := Ideal) (φ := .f32) .olt (FloatOps.hostAbsf x)
      (FloatOps.ofBits (F := Ideal) .f32 0x7F800000#32) = 1#1) : ∃ r : ℝ, x = (r : EReal) := by
  have htop : Ideal.ofBits .f32 0x7F800000#32 = ⊤ := by simp [Ideal.ofBits, Ideal.ieee]
  change Ideal.cmp .olt (max x (-x)) (Ideal.ofBits .f32 0x7F800000#32) = 1#1 at h
  rw [htop] at h
  unfold Ideal.cmp at h
  induction x using EReal.rec with
  | bot => simp at h
  | coe r => exact ⟨r, rfl⟩
  | top => simp at h

/-- If the conjunction over all entries of |x i| < +∞ is true, every entry of x is a real number. -/
theorem all_real {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi (cmpf .olt (Host.absf x) (broadcastInDim s ![] hb (constant (F := Ideal) S_ .f32 0x7F800000#32)))
      (constantI S_ 1 1#1) hr hu ValueIdx.ix0 = 1#1) (i : s.Idx) : ∃ r : ℝ, x i = (r : EReal) := by
  have hi := Host.reduce_andi_all _ _ hr hu ValueIdx.ix0 e i
  refine real_of_abs_lt_top (x i) ?_
  have hc : broadcastInDim s ![] hb (constant (F := Ideal) S_ .f32 0x7F800000#32) i
      = FloatOps.ofBits (F := Ideal) .f32 0x7F800000#32 :=
    broadcastInDim_apply _ hb _ i ValueIdx.ix0 (fun a => a.elim0)
  rw [← hc]
  exact hi

/-- A conjunction of two truth values read at an index. -/
theorem andi_ix {s : Shape} (x y : IVec s 1) (i : s.Idx) : andi x y i = 1#1 ↔ x i = 1#1 ∧ y i = 1#1 :=
  IntOp.andi_eq_one

/-- The finiteness predicate of the seventeen arrays is true only if every entry of every array is a real number. -/
theorem all_real_of_fn [Facts] (a0 : FVec Ideal S32768x784 .f32) (a1 : FVec Ideal S1024x784 .f32) (a2 : FVec Ideal S1024 .f32) (a3 : FVec Ideal S1024 .f32) (a4 : FVec Ideal S1024 .f32) (a5 : FVec Ideal S1024x1024 .f32) (a6 : FVec Ideal S1024 .f32) (a7 : FVec Ideal S1024 .f32) (a8 : FVec Ideal S1024 .f32) (a9 : FVec Ideal S1024x1024 .f32) (a10 : FVec Ideal S1024 .f32) (a11 : FVec Ideal S1024 .f32) (a12 : FVec Ideal S1024 .f32) (a13 : FVec Ideal S10x1024 .f32) (a14 : FVec Ideal S10 .f32) (a15 : FVec Ideal S10 .f32) (a16 : FVec Ideal S10 .f32)
    (h : fn (F := Ideal) a0 a1 a2 a3 a4 a5 a6 a7 a8 a9 a10 a11 a12 a13 a14 a15 a16 ValueIdx.ix0 = 1#1) :
    (∀ i, ∃ r : ℝ, a0 i = (r : EReal)) ∧
      (∀ i, ∃ r : ℝ, a1 i = (r : EReal)) ∧
      (∀ i, ∃ r : ℝ, a2 i = (r : EReal)) ∧
      (∀ i, ∃ r : ℝ, a3 i = (r : EReal)) ∧
      (∀ i, ∃ r : ℝ, a4 i = (r : EReal)) ∧
      (∀ i, ∃ r : ℝ, a5 i = (r : EReal)) ∧
      (∀ i, ∃ r : ℝ, a6 i = (r : EReal)) ∧
      (∀ i, ∃ r : ℝ, a7 i = (r : EReal)) ∧
      (∀ i, ∃ r : ℝ, a8 i = (r : EReal)) ∧
      (∀ i, ∃ r : ℝ, a9 i = (r : EReal)) ∧
      (∀ i, ∃ r : ℝ, a10 i = (r : EReal)) ∧
      (∀ i, ∃ r : ℝ, a11 i = (r : EReal)) ∧
      (∀ i, ∃ r : ℝ, a12 i = (r : EReal)) ∧
      (∀ i, ∃ r : ℝ, a13 i = (r : EReal)) ∧
      (∀ i, ∃ r : ℝ, a14 i = (r : EReal)) ∧
      (∀ i, ∃ r : ℝ, a15 i = (r : EReal)) ∧
      (∀ i, ∃ r : ℝ, a16 i = (r : EReal)) := by
  unfold fn fn_part1 fn_part2 fn_part3 fn_part4 at h
  simp only [andi_ix] at h
  obtain ⟨⟨⟨⟨⟨⟨⟨⟨⟨⟨⟨⟨⟨⟨⟨⟨h0, h1⟩, h2⟩, h3⟩, h4⟩, h5⟩, h6⟩, h7⟩, h8⟩, h9⟩, h10⟩, h11⟩, h12⟩, h13⟩, h14⟩, h15⟩, h16⟩ := h
  exact ⟨all_real _ _ _ _ h0, all_real _ _ _ _ h1, all_real _ _ _ _ h2, all_real _ _ _ _ h3, all_real _ _ _ _ h4,
    all_real _ _ _ _ h5, all_real _ _ _ _ h6, all_real _ _ _ _ h7, all_real _ _ _ _ h8, all_real _ _ _ _ h9,
    all_real _ _ _ _ h10, all_real _ _ _ _ h11, all_real _ _ _ _ h12, all_real _ _ _ _ h13, all_real _ _ _ _ h14,
    all_real _ _ _ _ h15, all_real _ _ _ _ h16⟩

/-- Under the finiteness precondition every entry of every argument array of the tiled program is a real number. -/
theorem real_of_pre [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ x : ℝ, m ((c.tc : Thread Cert.KernelIdeal.nD Cert.KernelIdeal.τ).loc Cert.KernelIdeal.main_arg0) i = (x : EReal)) ∧
    (∀ i, ∃ x : ℝ, m ((c.tc : Thread Cert.KernelIdeal.nD Cert.KernelIdeal.τ).loc Cert.KernelIdeal.main_arg1) i = (x : EReal)) ∧
    (∀ i, ∃ x : ℝ, m ((c.tc : Thread Cert.KernelIdeal.nD Cert.KernelIdeal.τ).loc Cert.KernelIdeal.main_arg2) i = (x : EReal)) ∧
    (∀ i, ∃ x : ℝ, m ((c.tc : Thread Cert.KernelIdeal.nD Cert.KernelIdeal.τ).loc Cert.KernelIdeal.main_arg3) i = (x : EReal)) ∧
    (∀ i, ∃ x : ℝ, m ((c.tc : Thread Cert.KernelIdeal.nD Cert.KernelIdeal.τ).loc Cert.KernelIdeal.main_arg4) i = (x : EReal)) ∧
    (∀ i, ∃ x : ℝ, m ((c.tc : Thread Cert.KernelIdeal.nD Cert.KernelIdeal.τ).loc Cert.KernelIdeal.main_arg5) i = (x : EReal)) ∧
    (∀ i, ∃ x : ℝ, m ((c.tc : Thread Cert.KernelIdeal.nD Cert.KernelIdeal.τ).loc Cert.KernelIdeal.main_arg6) i = (x : EReal)) ∧
    (∀ i, ∃ x : ℝ, m ((c.tc : Thread Cert.KernelIdeal.nD Cert.KernelIdeal.τ).loc Cert.KernelIdeal.main_arg7) i = (x : EReal)) ∧
    (∀ i, ∃ x : ℝ, m ((c.tc : Thread Cert.KernelIdeal.nD Cert.KernelIdeal.τ).loc Cert.KernelIdeal.main_arg8) i = (x : EReal)) ∧
    (∀ i, ∃ x : ℝ, m ((c.tc : Thread Cert.KernelIdeal.nD Cert.KernelIdeal.τ).loc Cert.KernelIdeal.main_arg9) i = (x : EReal)) ∧
    (∀ i, ∃ x : ℝ, m ((c.tc : Thread Cert.KernelIdeal.nD Cert.KernelIdeal.τ).loc Cert.KernelIdeal.main_arg10) i = (x : EReal)) ∧
    (∀ i, ∃ x : ℝ, m ((c.tc : Thread Cert.KernelIdeal.nD Cert.KernelIdeal.τ).loc Cert.KernelIdeal.main_arg11) i = (x : EReal)) ∧
    (∀ i, ∃ x : ℝ, m ((c.tc : Thread Cert.KernelIdeal.nD Cert.KernelIdeal.τ).loc Cert.KernelIdeal.main_arg12) i = (x : EReal)) ∧
    (∀ i, ∃ x : ℝ, m ((c.tc : Thread Cert.KernelIdeal.nD Cert.KernelIdeal.τ).loc Cert.KernelIdeal.main_arg13) i = (x : EReal)) ∧
    (∀ i, ∃ x : ℝ, m ((c.tc : Thread Cert.KernelIdeal.nD Cert.KernelIdeal.τ).loc Cert.KernelIdeal.main_arg14) i = (x : EReal)) ∧
    (∀ i, ∃ x : ℝ, m ((c.tc : Thread Cert.KernelIdeal.nD Cert.KernelIdeal.τ).loc Cert.KernelIdeal.main_arg15) i = (x : EReal)) ∧
    (∀ i, ∃ x : ℝ, m ((c.tc : Thread Cert.KernelIdeal.nD Cert.KernelIdeal.τ).loc Cert.KernelIdeal.main_arg16) i = (x : EReal)) :=
  all_real_of_fn _ _ _ _ _ _ _ _ _ _ _ _ _ _ _ _ _ (congrFun (h c) ValueIdx.ix0)

end Cert.Finite

end
-- ==== Proof.Bridge.lean ====
/-
  The two programs compute one function on finite inputs.

  The tiled program's result array is, index by index, the network with one-pass statistics and direct signs; the
  plain program's is the network with two-pass statistics, a clamp and a detached binarisation; on real inputs the two
  networks agree. The precondition makes every input entry real; the row count 32768.0 denotes the real 32768, which is
  the number of rows; the clamp's bounds denote -1 and 1 and the fold's start denotes 0.
-/
import proofs.«141082_j78245714199267_2_alg».proof.Proof.KernelRun
import proofs.«141082_j78245714199267_2_alg».proof.Proof.Glue
import proofs.«141082_j78245714199267_2_alg».proof.Proof.RefValue
import proofs.«141082_j78245714199267_2_alg».proof.Proof.ReferenceRun
import proofs.«141082_j78245714199267_2_alg».proof.Proof.Layers
import proofs.«141082_j78245714199267_2_alg».proof.Proof.Finite
import proofs.«141082_j78245714199267_2_alg».proof.Proof.Consts

set_option maxRecDepth 16384

noncomputable section

namespace Cert.Bridge

open Cert.KernelIdeal Cert.KernelIdeal.Gen Cert.KernelIdeal.GenP
open Idealize.ShloMosaic Idealize.ShloMosaic.TcCoe Idealize.ShloMosaic.ValueIdx Idealize.SL.Sem
open Cert.Spec Cert.Net Cert.Layers

/-- A real-valued rank-2 array is real-valued as a function of row and column. -/
theorem real_cur2 {a b : ℕ} (X : (⟨2, ![a, b]⟩ : Shape).Idx → EReal) (h : ∀ i, ∃ x : ℝ, X i = (x : EReal)) : IsReal2 (cur2 X) :=
  fun r k => h (ix2 r k)

/-- A real-valued rank-1 array is real-valued as a function of its coordinate. -/
theorem real_vec1 {b : ℕ} (X : (⟨1, ![b]⟩ : Shape).Idx → EReal) (h : ∀ i, ∃ x : ℝ, X i = (x : EReal)) : IsReal (vec1 X) :=
  fun j => h (ix1 j)

variable (m : (ℓ : Loc nD τ sig) → Buf (Elt Ideal) ℓ) (ρ : Dev nD → PrngReg) (c : Dev nD)

/-- Under the precondition the tiled program's result array is the plain program's result term of the same arguments. -/
theorem result_eq [Cert.Pre_finite_inputs.Facts] (hpre : Cert.Pre_KernelIdeal m) :
    W10 m ρ c (Proc.devRef .tc main_v56)
      = Cert.ReferenceIdeal.ReadP.val_main_v143 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) := by
  obtain ⟨h0, h1, h2, h3, h4, h5, h6, h7, h8, h9, h10, h11, h12, h13, h14, h15, h16⟩ := Cert.Finite.real_of_pre m hpre c
  funext i
  obtain ⟨r, j, rfl⟩ : ∃ (r : Fin 32768) (j : Fin 10), i = ix2 r j := ⟨i 0, i 1, eq_ix2 i⟩
  rw [Cert.KernelValue.kernel_value m ρ c r j, Cert.RefValue.ref_value,
    Cert.Consts.ofBits_rows, Cert.Consts.ofBits_zero, Cert.Consts.ofBits_neg_one, Cert.Consts.ofBits_one]
  exact congrFun (congrFun (congrFun (congrFun (net_eq (32768 : ℝ) (by simp) (by norm_num) _ _ _ _ _ _ _ _ _ _ _ _ _ _ _ _
    (Cert.KernelValue.aG4 m c) (Cert.KernelValue.aBe4 m c)
    (real_cur2 _ h0) (real_cur2 _ h1) (real_vec1 _ h2) (real_cur2 _ h5) (real_vec1 _ h6)
    (real_cur2 _ h9) (real_vec1 _ h10) (real_cur2 _ h13) (real_vec1 _ h14)) _) _) r) j

end Cert.Bridge

end
-- ==== Proof.lean ====
/-
  The certificate's five claims.

  The three frames are the programs' runs with the results forgotten: for the two kernel programs the run through the
  ten segments of @main, for the plain program the run of its list of host operations. The idealisation's three recorded
  rewrites are the sign-bit rule at the shape of the normalised block. The algebraic claim takes as common result, on
  each device, the tiled program's result array: its own run ends there, and the plain program's run, from a memory that
  agrees on the arguments, ends at the plain network of the same arguments, which under the precondition is that array.
-/
import proofs.«141082_j78245714199267_2_alg».proof.Defs
import proofs.«141082_j78245714199267_2_alg».proof.Proof.Gen.Kernel
import proofs.«141082_j78245714199267_2_alg».proof.Proof.Gen.KernelIdeal
import proofs.«141082_j78245714199267_2_alg».proof.Proof.Gen.ReferenceIdeal
import proofs.«141082_j78245714199267_2_alg».proof.Proof.Gen.Pre_finite_inputs
import proofs.«141082_j78245714199267_2_alg».proof.Proof.KernelFrame
import proofs.«141082_j78245714199267_2_alg».proof.Proof.KernelIdealFrame
import proofs.«141082_j78245714199267_2_alg».proof.Proof.ReferenceRun
import proofs.«141082_j78245714199267_2_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

/-- The word-level kernel program runs and leaves its arguments as launched. -/
theorem frame_k : Cert.frame_Kernel (hKernel := Cert.Kernel.Gen.facts) (hPre_finite_inputs := Cert.Pre_finite_inputs.Gen.facts) :=
  fun m ρ _ => Cert.Kernel.GenP.frame m ρ

/-- The idealised kernel program runs and leaves its arguments as launched. -/
theorem frame_ki : Cert.frame_KernelIdeal (hKernelIdeal := Cert.KernelIdeal.Gen.facts) (hPre_finite_inputs := Cert.Pre_finite_inputs.Gen.facts) :=
  fun m ρ _ => Cert.KernelIdeal.GenP.frame m ρ

/-- The plain program runs and leaves its arguments as launched: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.ValueP.run (F := Ideal) m ρ)

/-- The three recorded rewrites: a float's sign read through its word is "below zero" on the extended reals. -/
theorem preserves : Cert.preserves_Kernel_KernelIdeal :=
  ⟨IdealRules.sign_bit.statement Cert.KernelIdeal.S2048x1024 .f32, IdealRules.sign_bit.statement Cert.KernelIdeal.S2048x1024 .f32,
    IdealRules.sign_bit.statement Cert.KernelIdeal.S2048x1024 .f32⟩

/-- From memories agreeing on the arguments both idealised programs run and end with the same result array. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.GenP.W10 m ρ c (Proc.devRef .tc Cert.KernelIdeal.main_v56),
    Cert.KernelValue.run_result (F := Ideal) m ρ, ?_⟩
  refine (θ_run Cert.ReferenceIdeal.defs _ _).mono (fun _ h c => ⟨(h c).1.trans ?_, (h c).2⟩)
    (Cert.ReferenceIdeal.ValueP.run (F := Ideal) m' ρ')
  obtain ⟨a0, a1, a2, a3, a4, a5, a6, a7, a8, a9, a10, a11, a12, a13, a14, a15, a16⟩ := hagree c
  rw [a0, a1, a2, a3, a4, a5, a6, a7, a8, a9, a10, a11, a12, a13, a14, a15, a16]
  exact (Cert.Bridge.result_eq m ρ c hpre).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
